-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S65x128x128 : Shape := ⟨3, ![65, 128, 128]⟩
abbrev S65x128 : Shape := ⟨2, ![65, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S65x128x128 : S_.BroadcastsInDim S65x128x128 (![] : Fin 0 → Fin S65x128x128.rank)
  reducesTo_S65x128x128_S_d0_1_2 : S65x128x128.ReducesTo [0, 1, 2] S_
  bcast_S_S65x128 : S_.BroadcastsInDim S65x128 (![] : Fin 0 → Fin S65x128.rank)
  reducesTo_S65x128_S_d0_1 : S65x128.ReducesTo [0, 1] S_

variable [Facts]

def fn {F : FTy → Type} [FloatOps F] (main_arg0 : FVec F S4096x128 .f32) (main_arg1 : FVec F S65x128x128 .f32) (main_arg2 : FVec F S65x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S65x128x128 .f32 := Host.absf main_arg1
  let main_cst_0 : FVec F S_ .f32 := constant S_ .f32 0x7F800000#32
  let main_v5 : FVec F S65x128x128 .f32 := broadcastInDim S65x128x128 ![] bcast_S_S65x128x128 main_cst_0
  let main_v6 : IVec S65x128x128 1 := cmpf .olt main_v4 main_v5
  let main_c_1 : IVec S_ 1 := constantI S_ 1 1#1
  let main_v7 : IVec S_ 1 := (fun x v => Host.reduce IntOp.andi x v reducesTo_S65x128x128_S_d0_1_2 h_S_) main_v6 main_c_1
  let main_v8 : IVec S_ 1 := andi main_v3 main_v7
  let main_v9 : FVec F S65x128 .f32 := Host.absf main_arg2
  let main_cst_2 : FVec F S_ .f32 := constant S_ .f32 0x7F800000#32
  let main_v10 : FVec F S65x128 .f32 := broadcastInDim S65x128 ![] bcast_S_S65x128 main_cst_2
  let main_v11 : IVec S65x128 1 := cmpf .olt main_v9 main_v10
  let main_c_3 : IVec S_ 1 := constantI S_ 1 1#1
  let main_v12 : IVec S_ 1 := (fun x v => Host.reduce IntOp.andi x v reducesTo_S65x128_S_d0_1 h_S_) main_v11 main_c_3
  let main_v13 : IVec S_ 1 := andi main_v8 main_v12
  main_v13
-- ==== Kernel.lean ====
abbrev S4096x128 : Shape := ⟨2, ![4096, 128]⟩
abbrev S65x128x128 : Shape := ⟨3, ![65, 128, 128]⟩
abbrev S65x128 : Shape := ⟨2, ![65, 128]⟩
abbrev S512x128 : Shape := ⟨2, ![512, 128]⟩
abbrev S65x512x128 : Shape := ⟨3, ![65, 512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x512x128 : Shape := ⟨3, ![1, 512, 128]⟩

abbrev nBuf : Space → Nat
  | .hbm => 6
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S65x128x128, .f32⟩
  | .hbm, ⟨2, _⟩ => ⟨S65x128, .f32⟩
  | .hbm, ⟨3, _⟩ => ⟨S65x128x128, .f32⟩
  | .hbm, ⟨4, _⟩ => ⟨S65x128x128, .bf16⟩
  | .hbm, ⟨5, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S65x128x128, .bf16⟩
  | .local _ .vmem, ⟨3, _⟩ => ⟨S65x128, .f32⟩
  | .local _ .vmem, ⟨4, _⟩ => ⟨S512x128, .f32⟩
  | .local _ .vmem, ⟨5, _⟩ => ⟨S512x128, .f32⟩
  | .local _ .vmem, ⟨6, _⟩ => ⟨S65x512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S65x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S65x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S65x128x128_S65x128x128_0_2_1 : S65x128x128.Transposes [0, 2, 1] S65x128x128
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S65x128x128_S1x128x128_0_0_0 : ∀ a, (![0, 0, 0] : Fin 3 → Nat) a + S1x128x128.size a ≤ S65x128x128.size a
  h_S1x128x128 : 0 < S1x128x128.numel
  shapeCasts_S1x128x128_S128x128 : S1x128x128.ShapeCasts S128x128
  inb_S65x128_S1x128_0_0 : ∀ a, (![0, 0] : Fin 2 → Nat) a + S1x128.size a ≤ S65x128.size a
  h_S1x128 : 0 < S1x128.numel
  shapeCasts_S1x128_S128 : S1x128.ShapeCasts S128
  shapeCasts_S128_S1x128 : S128.ShapeCasts S1x128
  broadcasts_S1x128_S512x128 : S1x128.Broadcasts S512x128
  inb_S65x512x128_S1x512x128_0_0_0 : ∀ a, (![0, 0, 0] : Fin 3 → Nat) a + S1x512x128.size a ≤ S65x512x128.size a
  h_S1x512x128 : 0 < S1x512x128.numel
  shapeCasts_S1x512x128_S512x128 : S1x512x128.ShapeCasts S512x128
  shapeCasts_S512x128_S1x512x128 : S512x128.ShapeCasts S1x512x128
  inb_S65x128x128_S1x128x128_1_0_0 : ∀ a, (![1, 0, 0] : Fin 3 → Nat) a + S1x128x128.size a ≤ S65x128x128.size a
  inb_S65x128_S1x128_1_0 : ∀ a, (![1, 0] : Fin 2 → Nat) a + S1x128.size a ≤ S65x128.size a
  inb_S65x512x128_S1x512x128_1_0_0 : ∀ a, (![1, 0, 0] : Fin 3 → Nat) a + S1x512x128.size a ≤ S65x512x128.size a
  inb_S65x128x128_S1x128x128_2_0_0 : ∀ a, (![2, 0, 0] : Fin 3 → Nat) a + S1x128x128.size a ≤ S65x128x128.size a
  inb_S65x128_S1x128_2_0 : ∀ a, (![2, 0] : Fin 2 → Nat) a + S1x128.size a ≤ S65x128.size a
  inb_S65x512x128_S1x512x128_2_0_0 : ∀ a, (![2, 0, 0] : Fin 3 → Nat) a + S1x512x128.size a ≤ S65x512x128.size a
  inb_S65x128x128_S1x128x128_3_0_0 : ∀ a, (![3, 0, 0] : Fin 3 → Nat) a + S1x128x128.size a ≤ S65x128x128.size a
  inb_S65x128_S1x128_3_0 : ∀ a, (![3, 0] : Fin 2 → Nat) a + S1x128.size a ≤ S65x128.size a
  inb_S65x512x128_S1x512x128_3_0_0 : ∀ a, (![3, 0, 0] : Fin 3 → Nat) a + S1x512x128.size a ≤ S65x512x128.size a
  inb_S65x128x128_S1x128x128_4_0_0 : ∀ a, (![4, 0, 0] : Fin 3 → Nat) a + S1x128x128.size a ≤ S65x128x128.size a
  inb_S65x128_S1x128_4_0 : ∀ a, (![4, 0] : Fin 2 → Nat) a + S1x128.size a ≤ S65x128.size a
  inb_S65x512x128_S1x512x128_4_0_0 : ∀ a, (![4, 0, 0] : Fin 3 → Nat) a + S1x512x128.size a ≤ S65x512x128.size a
  inb_S65x128x128_S1x128x128_5_0_0 : ∀ a, (![5, 0, 0] : Fin 3 → Nat) a + S1x128x128.size a ≤ S65x128x128.size a
  inb_S65x128_S1x128_5_0 : ∀ a, (![5, 0] : Fin 2 → Nat) a + S1x128.size a ≤ S65x128.size a
  inb_S65x512x128_S1x512x128_5_0_0 : ∀ a, (![5, 0, 0] : Fin 3 → Nat) a + S1x512x128.size a ≤ S65x512x128.size a
  inb_S65x128x128_S1x128x128_6_0_0 : ∀ a, (![6, 0, 0] : Fin 3 → Nat) a + S1x128x128.size a ≤ S65x128x128.size a
  inb_S65x128_S1x128_6_0 : ∀ a, (![6, 0] : Fin 2 → Nat) a + S1x128.size a ≤ S65x128.size a
  inb_S65x512x128_S1x512x128_6_0_0 : ∀ a, (![6, 0, 0] : Fin 3 → Nat) a + S1x512x128.size a ≤ S65x512x128.size a
  inb_S65x128x128_S1x128x128_7_0_0 : ∀ a, (![7, 0, 0] : Fin 3 → Nat) a + S1x128x128.size a ≤ S65x128x128.size a
  inb_S65x128_S1x128_7_0 : ∀ a, (![7, 0] : Fin 2 → Nat) a + S1x128.size a ≤ S65x128.size a
  inb_S65x512x128_S1x512x128_7_0_0 : ∀ a, (![7, 0, 0] : Fin 3 → Nat) a + S1x512x128.size a ≤ S65x512x128.size a
  inb_S65x128x128_S1x128x128_8_0_0 : ∀ a, (![8, 0, 0] : Fin 3 → Nat) a + S1x128x128.size a ≤ S65x128x128.size a
  inb_S65x128_S1x128_8_0 : ∀ a, (![8, 0] : Fin 2 → Nat) a + S1x128.size a ≤ S65x128.size a
  inb_S65x512x128_S1x512x128_8_0_0 : ∀ a, (![8, 0, 0] : Fin 3 → Nat) a + S1x512x128.size a ≤ S65x512x128.size a
  inb_S65x128x128_S1x128x128_9_0_0 : ∀ a, (![9, 0, 0] : Fin 3 → Nat) a + S1x128x128.size a ≤ S65x128x128.size a
  inb_S65x128_S1x128_9_0 : ∀ a, (![9, 0] : Fin 2 → Nat) a + S1x128.size a ≤ S65x128.size a
  inb_S65x512x128_S1x512x128_9_0_0 : ∀ a, (![9, 0, 0] : Fin 3 → Nat) a + S1x512x128.size a ≤ S65x512x128.size a
  inb_S65x128x128_S1x128x128_10_0_0 : ∀ a, (![10, 0, 0] : Fin 3 → Nat) a + S1x128x128.size a ≤ S65x128x128.size a
  inb_S65x128_S1x128_10_0 : ∀ a, (![10, 0] : Fin 2 → Nat) a + S1x128.size a ≤ S65x128.size a
  inb_S65x512x128_S1x512x128_10_0_0 : ∀ a, (![10, 0, 0] : Fin 3 → Nat) a + S1x512x128.size a ≤ S65x512x128.size a
  inb_S65x128x128_S1x128x128_11_0_0 : ∀ a, (![11, 0, 0] : Fin 3 → Nat) a + S1x128x128.size a ≤ S65x128x128.size a
  inb_S65x128_S1x128_11_0 : ∀ a, (![11, 0] : Fin 2 → Nat) a + S1x128.size a ≤ S65x128.size a
  inb_S65x512x128_S1x512x128_11_0_0 : ∀ a, (![11, 0, 0] : Fin 3 → Nat) a + S1x512x128.size a ≤ S65x512x128.size a
  inb_S65x128x128_S1x128x128_12_0_0 : ∀ a, (![12, 0, 0] : Fin 3 → Nat) a + S1x128x128.size a ≤ S65x128x128.size a
  inb_S65x128_S1x128_12_0 : ∀ a, (![12, 0] : Fin 2 → Nat) a + S1x128.size a ≤ S65x128.size a
  inb_S65x512x128_S1x512x128_12_0_0 : ∀ a, (![12, 0, 0] : Fin 3 → Nat) a + S1x512x128.size a ≤ S65x512x128.size a
  inb_S65x128x128_S1x128x128_13_0_0 : ∀ a, (![13, 0, 0] : Fin 3 → Nat) a + S1x128x128.size a ≤ S65x128x128.size a
  inb_S65x128_S1x128_13_0 : ∀ a, (![13, 0] : Fin 2 → Nat) a + S1x128.size a ≤ S65x128.size a
  inb_S65x512x128_S1x512x128_13_0_0 : ∀ a, (![13, 0, 0] : Fin 3 → Nat) a + S1x512x128.size a ≤ S65x512x128.size a
  inb_S65x128x128_S1x128x128_14_0_0 : ∀ a, (![14, 0, 0] : Fin 3 → Nat) a + S1x128x128.size a ≤ S65x128x128.size a
  inb_S65x128_S1x128_14_0 : ∀ a, (![14, 0] : Fin 2 → Nat) a + S1x128.size a ≤ S65x128.size a
  inb_S65x512x128_S1x512x128_14_0_0 : ∀ a, (![14, 0, 0] : Fin 3 → Nat) a + S1x512x128.size a ≤ S65x512x128.size a
  inb_S65x128x128_S1x128x128_15_0_0 : ∀ a, (![15, 0, 0] : Fin 3 → Nat) a + S1x128x128.size a ≤ S65x128x128.size a
  inb_S65x128_S1x128_15_0 : ∀ a, (![15, 0] : Fin 2 → Nat) a + S1x128.size a ≤ S65x128.size a
  inb_S65x512x128_S1x512x128_15_0_0 : ∀ a, (![15, 0, 0] : Fin 3 → Nat) a + S1x512x128.size a ≤ S65x512x128.size a
  inb_S65x128x128_S1x128x128_16_0_0 : ∀ a, (![16, 0, 0] : Fin 3 → Nat) a + S1x128x128.size a ≤ S65x128x128.size a
  inb_S65x128_S1x128_16_0 : ∀ a, (![16, 0] : Fin 2 → Nat) a + S1x128.size a ≤ S65x128.size a
  inb_S65x512x128_S1x512x128_16_0_0 : ∀ a, (![16, 0, 0] : Fin 3 → Nat) a + S1x512x128.size a ≤ S65x512x128.size a
  inb_S65x128x128_S1x128x128_17_0_0 : ∀ a, (![17, 0, 0] : Fin 3 → Nat) a + S1x128x128.size a ≤ S65x128x128.size a
  inb_S65x128_S1x128_17_0 : ∀ a, (![17, 0] : Fin 2 → Nat) a + S1x128.size a ≤ S65x128.size a
  inb_S65x512x128_S1x512x128_17_0_0 : ∀ a, (![17, 0, 0] : Fin 3 → Nat) a + S1x512x128.size a ≤ S65x512x128.size a
  inb_S65x128x128_S1x128x128_18_0_0 : ∀ a, (![18, 0, 0] : Fin 3 → Nat) a + S1x128x128.size a ≤ S65x128x128.size a
  inb_S65x128_S1x128_18_0 : ∀ a, (![18, 0] : Fin 2 → Nat) a + S1x128.size a ≤ S65x128.size a
  inb_S65x512x128_S1x512x128_18_0_0 : ∀ a, (![18, 0, 0] : Fin 3 → Nat) a + S1x512x128.size a ≤ S65x512x128.size a
  inb_S65x128x128_S1x128x128_19_0_0 : ∀ a, (![19, 0, 0] : Fin 3 → Nat) a + S1x128x128.size a ≤ S65x128x128.size a
  inb_S65x128_S1x128_19_0 : ∀ a, (![19, 0] : Fin 2 → Nat) a + S1x128.size a ≤ S65x128.size a
  inb_S65x512x128_S1x512x128_19_0_0 : ∀ a, (![19, 0, 0] : Fin 3 → Nat) a + S1x512x128.size a ≤ S65x512x128.size a
  inb_S65x128x128_S1x128x128_20_0_0 : ∀ a, (![20, 0, 0] : Fin 3 → Nat) a + S1x128x128.size a ≤ S65x128x128.size a
  inb_S65x128_S1x128_20_0 : ∀ a, (![20, 0] : Fin 2 → Nat) a + S1x128.size a ≤ S65x128.size a
  inb_S65x512x128_S1x512x128_20_0_0 : ∀ a, (![20, 0, 0] : Fin 3 → Nat) a + S1x512x128.size a ≤ S65x512x128.size a
  inb_S65x128x128_S1x128x128_21_0_0 : ∀ a, (![21, 0, 0] : Fin 3 → Nat) a + S1x128x128.size a ≤ S65x128x128.size a
  inb_S65x128_S1x128_21_0 : ∀ a, (![21, 0] : Fin 2 → Nat) a + S1x128.size a ≤ S65x128.size a
  inb_S65x512x128_S1x512x128_21_0_0 : ∀ a, (![21, 0, 0] : Fin 3 → Nat) a + S1x512x128.size a ≤ S65x512x128.size a
  inb_S65x128x128_S1x128x128_22_0_0 : ∀ a, (![22, 0, 0] : Fin 3 → Nat) a + S1x128x128.size a ≤ S65x128x128.size a
  inb_S65x128_S1x128_22_0 : ∀ a, (![22, 0] : Fin 2 → Nat) a + S1x128.size a ≤ S65x128.size a
  inb_S65x512x128_S1x512x128_22_0_0 : ∀ a, (![22, 0, 0] : Fin 3 → Nat) a + S1x512x128.size a ≤ S65x512x128.size a
  inb_S65x128x128_S1x128x128_23_0_0 : ∀ a, (![23, 0, 0] : Fin 3 → Nat) a + S1x128x128.size a ≤ S65x128x128.size a
  inb_S65x128_S1x128_23_0 : ∀ a, (![23, 0] : Fin 2 → Nat) a + S1x128.size a ≤ S65x128.size a
  inb_S65x512x128_S1x512x128_23_0_0 : ∀ a, (![23, 0, 0] : Fin 3 → Nat) a + S1x512x128.size a ≤ S65x512x128.size a
  inb_S65x128x128_S1x128x128_24_0_0 : ∀ a, (![24, 0, 0] : Fin 3 → Nat) a + S1x128x128.size a ≤ S65x128x128.size a
  inb_S65x128_S1x128_24_0 : ∀ a, (![24, 0] : Fin 2 → Nat) a + S1x128.size a ≤ S65x128.size a
  inb_S65x512x128_S1x512x128_24_0_0 : ∀ a, (![24, 0, 0] : Fin 3 → Nat) a + S1x512x128.size a ≤ S65x512x128.size a
  inb_S65x128x128_S1x128x128_25_0_0 : ∀ a, (![25, 0, 0] : Fin 3 → Nat) a + S1x128x128.size a ≤ S65x128x128.size a
  inb_S65x128_S1x128_25_0 : ∀ a, (![25, 0] : Fin 2 → Nat) a + S1x128.size a ≤ S65x128.size a
  inb_S65x512x128_S1x512x128_25_0_0 : ∀ a, (![25, 0, 0] : Fin 3 → Nat) a + S1x512x128.size a ≤ S65x512x128.size a
  inb_S65x128x128_S1x128x128_26_0_0 : ∀ a, (![26, 0, 0] : Fin 3 → Nat) a + S1x128x128.size a ≤ S65x128x128.size a
  inb_S65x128_S1x128_26_0 : ∀ a, (![26, 0] : Fin 2 → Nat) a + S1x128.size a ≤ S65x128.size a
  inb_S65x512x128_S1x512x128_26_0_0 : ∀ a, (![26, 0, 0] : Fin 3 → Nat) a + S1x512x128.size a ≤ S65x512x128.size a
  inb_S65x128x128_S1x128x128_27_0_0 : ∀ a, (![27, 0, 0] : Fin 3 → Nat) a + S1x128x128.size a ≤ S65x128x128.size a
  inb_S65x128_S1x128_27_0 : ∀ a, (![27, 0] : Fin 2 → Nat) a + S1x128.size a ≤ S65x128.size a
  inb_S65x512x128_S1x512x128_27_0_0 : ∀ a, (![27, 0, 0] : Fin 3 → Nat) a + S1x512x128.size a ≤ S65x512x128.size a
  inb_S65x128x128_S1x128x128_28_0_0 : ∀ a, (![28, 0, 0] : Fin 3 → Nat) a + S1x128x128.size a ≤ S65x128x128.size a
  inb_S65x128_S1x128_28_0 : ∀ a, (![28, 0] : Fin 2 → Nat) a + S1x128.size a ≤ S65x128.size a
  inb_S65x512x128_S1x512x128_28_0_0 : ∀ a, (![28, 0, 0] : Fin 3 → Nat) a + S1x512x128.size a ≤ S65x512x128.size a
  inb_S65x128x128_S1x128x128_29_0_0 : ∀ a, (![29, 0, 0] : Fin 3 → Nat) a + S1x128x128.size a ≤ S65x128x128.size a
  inb_S65x128_S1x128_29_0 : ∀ a, (![29, 0] : Fin 2 → Nat) a + S1x128.size a ≤ S65x128.size a
  inb_S65x512x128_S1x512x128_29_0_0 : ∀ a, (![29, 0, 0] : Fin 3 → Nat) a + S1x512x128.size a ≤ S65x512x128.size a
  inb_S65x128x128_S1x128x128_30_0_0 : ∀ a, (![30, 0, 0] : Fin 3 → Nat) a + S1x128x128.size a ≤ S65x128x128.size a
  inb_S65x128_S1x128_30_0 : ∀ a, (![30, 0] : Fin 2 → Nat) a + S1x128.size a ≤ S65x128.size a
  inb_S65x512x128_S1x512x128_30_0_0 : ∀ a, (![30, 0, 0] : Fin 3 → Nat) a + S1x512x128.size a ≤ S65x512x128.size a
  inb_S65x128x128_S1x128x128_31_0_0 : ∀ a, (![31, 0, 0] : Fin 3 → Nat) a + S1x128x128.size a ≤ S65x128x128.size a
  inb_S65x128_S1x128_31_0 : ∀ a, (![31, 0] : Fin 2 → Nat) a + S1x128.size a ≤ S65x128.size a
  inb_S65x512x128_S1x512x128_31_0_0 : ∀ a, (![31, 0, 0] : Fin 3 → Nat) a + S1x512x128.size a ≤ S65x512x128.size a
  inb_S65x128x128_S1x128x128_32_0_0 : ∀ a, (![32, 0, 0] : Fin 3 → Nat) a + S1x128x128.size a ≤ S65x128x128.size a
  inb_S65x128_S1x128_32_0 : ∀ a, (![32, 0] : Fin 2 → Nat) a + S1x128.size a ≤ S65x128.size a
  inb_S65x512x128_S1x512x128_32_0_0 : ∀ a, (![32, 0, 0] : Fin 3 → Nat) a + S1x512x128.size a ≤ S65x512x128.size a
  inb_S65x128x128_S1x128x128_33_0_0 : ∀ a, (![33, 0, 0] : Fin 3 → Nat) a + S1x128x128.size a ≤ S65x128x128.size a
  inb_S65x128_S1x128_33_0 : ∀ a, (![33, 0] : Fin 2 → Nat) a + S1x128.size a ≤ S65x128.size a
  inb_S65x512x128_S1x512x128_33_0_0 : ∀ a, (![33, 0, 0] : Fin 3 → Nat) a + S1x512x128.size a ≤ S65x512x128.size a
  inb_S65x128x128_S1x128x128_34_0_0 : ∀ a, (![34, 0, 0] : Fin 3 → Nat) a + S1x128x128.size a ≤ S65x128x128.size a
  inb_S65x128_S1x128_34_0 : ∀ a, (![34, 0] : Fin 2 → Nat) a + S1x128.size a ≤ S65x128.size a
  inb_S65x512x128_S1x512x128_34_0_0 : ∀ a, (![34, 0, 0] : Fin 3 → Nat) a + S1x512x128.size a ≤ S65x512x128.size a
  inb_S65x128x128_S1x128x128_35_0_0 : ∀ a, (![35, 0, 0] : Fin 3 → Nat) a + S1x128x128.size a ≤ S65x128x128.size a
  inb_S65x128_S1x128_35_0 : ∀ a, (![35, 0] : Fin 2 → Nat) a + S1x128.size a ≤ S65x128.size a
  inb_S65x512x128_S1x512x128_35_0_0 : ∀ a, (![35, 0, 0] : Fin 3 → Nat) a + S1x512x128.size a ≤ S65x512x128.size a
  inb_S65x128x128_S1x128x128_36_0_0 : ∀ a, (![36, 0, 0] : Fin 3 → Nat) a + S1x128x128.size a ≤ S65x128x128.size a
  inb_S65x128_S1x128_36_0 : ∀ a, (![36, 0] : Fin 2 → Nat) a + S1x128.size a ≤ S65x128.size a
  inb_S65x512x128_S1x512x128_36_0_0 : ∀ a, (![36, 0, 0] : Fin 3 → Nat) a + S1x512x128.size a ≤ S65x512x128.size a
  inb_S65x128x128_S1x128x128_37_0_0 : ∀ a, (![37, 0, 0] : Fin 3 → Nat) a + S1x128x128.size a ≤ S65x128x128.size a
  inb_S65x128_S1x128_37_0 : ∀ a, (![37, 0] : Fin 2 → Nat) a + S1x128.size a ≤ S65x128.size a
  inb_S65x512x128_S1x512x128_37_0_0 : ∀ a, (![37, 0, 0] : Fin 3 → Nat) a + S1x512x128.size a ≤ S65x512x128.size a
  inb_S65x128x128_S1x128x128_38_0_0 : ∀ a, (![38, 0, 0] : Fin 3 → Nat) a + S1x128x128.size a ≤ S65x128x128.size a
  inb_S65x128_S1x128_38_0 : ∀ a, (![38, 0] : Fin 2 → Nat) a + S1x128.size a ≤ S65x128.size a
  inb_S65x512x128_S1x512x128_38_0_0 : ∀ a, (![38, 0, 0] : Fin 3 → Nat) a + S1x512x128.size a ≤ S65x512x128.size a
  inb_S65x128x128_S1x128x128_39_0_0 : ∀ a, (![39, 0, 0] : Fin 3 → Nat) a + S1x128x128.size a ≤ S65x128x128.size a
  inb_S65x128_S1x128_39_0 : ∀ a, (![39, 0] : Fin 2 → Nat) a + S1x128.size a ≤ S65x128.size a
  inb_S65x512x128_S1x512x128_39_0_0 : ∀ a, (![39, 0, 0] : Fin 3 → Nat) a + S1x512x128.size a ≤ S65x512x128.size a
  inb_S65x128x128_S1x128x128_40_0_0 : ∀ a, (![40, 0, 0] : Fin 3 → Nat) a + S1x128x128.size a ≤ S65x128x128.size a
  inb_S65x128_S1x128_40_0 : ∀ a, (![40, 0] : Fin 2 → Nat) a + S1x128.size a ≤ S65x128.size a
  inb_S65x512x128_S1x512x128_40_0_0 : ∀ a, (![40, 0, 0] : Fin 3 → Nat) a + S1x512x128.size a ≤ S65x512x128.size a
  inb_S65x128x128_S1x128x128_41_0_0 : ∀ a, (![41, 0, 0] : Fin 3 → Nat) a + S1x128x128.size a ≤ S65x128x128.size a
  inb_S65x128_S1x128_41_0 : ∀ a, (![41, 0] : Fin 2 → Nat) a + S1x128.size a ≤ S65x128.size a
  inb_S65x512x128_S1x512x128_41_0_0 : ∀ a, (![41, 0, 0] : Fin 3 → Nat) a + S1x512x128.size a ≤ S65x512x128.size a
  inb_S65x128x128_S1x128x128_42_0_0 : ∀ a, (![42, 0, 0] : Fin 3 → Nat) a + S1x128x128.size a ≤ S65x128x128.size a
  inb_S65x128_S1x128_42_0 : ∀ a, (![42, 0] : Fin 2 → Nat) a + S1x128.size a ≤ S65x128.size a
  inb_S65x512x128_S1x512x128_42_0_0 : ∀ a, (![42, 0, 0] : Fin 3 → Nat) a + S1x512x128.size a ≤ S65x512x128.size a
  inb_S65x128x128_S1x128x128_43_0_0 : ∀ a, (![43, 0, 0] : Fin 3 → Nat) a + S1x128x128.size a ≤ S65x128x128.size a
  inb_S65x128_S1x128_43_0 : ∀ a, (![43, 0] : Fin 2 → Nat) a + S1x128.size a ≤ S65x128.size a
  inb_S65x512x128_S1x512x128_43_0_0 : ∀ a, (![43, 0, 0] : Fin 3 → Nat) a + S1x512x128.size a ≤ S65x512x128.size a
  inb_S65x128x128_S1x128x128_44_0_0 : ∀ a, (![44, 0, 0] : Fin 3 → Nat) a + S1x128x128.size a ≤ S65x128x128.size a
  inb_S65x128_S1x128_44_0 : ∀ a, (![44, 0] : Fin 2 → Nat) a + S1x128.size a ≤ S65x128.size a
  inb_S65x512x128_S1x512x128_44_0_0 : ∀ a, (![44, 0, 0] : Fin 3 → Nat) a + S1x512x128.size a ≤ S65x512x128.size a
  inb_S65x128x128_S1x128x128_45_0_0 : ∀ a, (![45, 0, 0] : Fin 3 → Nat) a + S1x128x128.size a ≤ S65x128x128.size a
  inb_S65x128_S1x128_45_0 : ∀ a, (![45, 0] : Fin 2 → Nat) a + S1x128.size a ≤ S65x128.size a
  inb_S65x512x128_S1x512x128_45_0_0 : ∀ a, (![45, 0, 0] : Fin 3 → Nat) a + S1x512x128.size a ≤ S65x512x128.size a
  inb_S65x128x128_S1x128x128_46_0_0 : ∀ a, (![46, 0, 0] : Fin 3 → Nat) a + S1x128x128.size a ≤ S65x128x128.size a
  inb_S65x128_S1x128_46_0 : ∀ a, (![46, 0] : Fin 2 → Nat) a + S1x128.size a ≤ S65x128.size a
  inb_S65x512x128_S1x512x128_46_0_0 : ∀ a, (![46, 0, 0] : Fin 3 → Nat) a + S1x512x128.size a ≤ S65x512x128.size a
  inb_S65x128x128_S1x128x128_47_0_0 : ∀ a, (![47, 0, 0] : Fin 3 → Nat) a + S1x128x128.size a ≤ S65x128x128.size a
  inb_S65x128_S1x128_47_0 : ∀ a, (![47, 0] : Fin 2 → Nat) a + S1x128.size a ≤ S65x128.size a
  inb_S65x512x128_S1x512x128_47_0_0 : ∀ a, (![47, 0, 0] : Fin 3 → Nat) a + S1x512x128.size a ≤ S65x512x128.size a
  inb_S65x128x128_S1x128x128_48_0_0 : ∀ a, (![48, 0, 0] : Fin 3 → Nat) a + S1x128x128.size a ≤ S65x128x128.size a
  inb_S65x128_S1x128_48_0 : ∀ a, (![48, 0] : Fin 2 → Nat) a + S1x128.size a ≤ S65x128.size a
  inb_S65x512x128_S1x512x128_48_0_0 : ∀ a, (![48, 0, 0] : Fin 3 → Nat) a + S1x512x128.size a ≤ S65x512x128.size a
  inb_S65x128x128_S1x128x128_49_0_0 : ∀ a, (![49, 0, 0] : Fin 3 → Nat) a + S1x128x128.size a ≤ S65x128x128.size a
  inb_S65x128_S1x128_49_0 : ∀ a, (![49, 0] : Fin 2 → Nat) a + S1x128.size a ≤ S65x128.size a
  inb_S65x512x128_S1x512x128_49_0_0 : ∀ a, (![49, 0, 0] : Fin 3 → Nat) a + S1x512x128.size a ≤ S65x512x128.size a
  inb_S65x128x128_S1x128x128_50_0_0 : ∀ a, (![50, 0, 0] : Fin 3 → Nat) a + S1x128x128.size a ≤ S65x128x128.size a
  inb_S65x128_S1x128_50_0 : ∀ a, (![50, 0] : Fin 2 → Nat) a + S1x128.size a ≤ S65x128.size a
  inb_S65x512x128_S1x512x128_50_0_0 : ∀ a, (![50, 0, 0] : Fin 3 → Nat) a + S1x512x128.size a ≤ S65x512x128.size a
  inb_S65x128x128_S1x128x128_51_0_0 : ∀ a, (![51, 0, 0] : Fin 3 → Nat) a + S1x128x128.size a ≤ S65x128x128.size a
  inb_S65x128_S1x128_51_0 : ∀ a, (![51, 0] : Fin 2 → Nat) a + S1x128.size a ≤ S65x128.size a
  inb_S65x512x128_S1x512x128_51_0_0 : ∀ a, (![51, 0, 0] : Fin 3 → Nat) a + S1x512x128.size a ≤ S65x512x128.size a
  inb_S65x128x128_S1x128x128_52_0_0 : ∀ a, (![52, 0, 0] : Fin 3 → Nat) a + S1x128x128.size a ≤ S65x128x128.size a
  inb_S65x128_S1x128_52_0 : ∀ a, (![52, 0] : Fin 2 → Nat) a + S1x128.size a ≤ S65x128.size a
  inb_S65x512x128_S1x512x128_52_0_0 : ∀ a, (![52, 0, 0] : Fin 3 → Nat) a + S1x512x128.size a ≤ S65x512x128.size a
  inb_S65x128x128_S1x128x128_53_0_0 : ∀ a, (![53, 0, 0] : Fin 3 → Nat) a + S1x128x128.size a ≤ S65x128x128.size a
  inb_S65x128_S1x128_53_0 : ∀ a, (![53, 0] : Fin 2 → Nat) a + S1x128.size a ≤ S65x128.size a
  inb_S65x512x128_S1x512x128_53_0_0 : ∀ a, (![53, 0, 0] : Fin 3 → Nat) a + S1x512x128.size a ≤ S65x512x128.size a
  inb_S65x128x128_S1x128x128_54_0_0 : ∀ a, (![54, 0, 0] : Fin 3 → Nat) a + S1x128x128.size a ≤ S65x128x128.size a
  inb_S65x128_S1x128_54_0 : ∀ a, (![54, 0] : Fin 2 → Nat) a + S1x128.size a ≤ S65x128.size a
  inb_S65x512x128_S1x512x128_54_0_0 : ∀ a, (![54, 0, 0] : Fin 3 → Nat) a + S1x512x128.size a ≤ S65x512x128.size a
  inb_S65x128x128_S1x128x128_55_0_0 : ∀ a, (![55, 0, 0] : Fin 3 → Nat) a + S1x128x128.size a ≤ S65x128x128.size a
  inb_S65x128_S1x128_55_0 : ∀ a, (![55, 0] : Fin 2 → Nat) a + S1x128.size a ≤ S65x128.size a
  inb_S65x512x128_S1x512x128_55_0_0 : ∀ a, (![55, 0, 0] : Fin 3 → Nat) a + S1x512x128.size a ≤ S65x512x128.size a
  inb_S65x128x128_S1x128x128_56_0_0 : ∀ a, (![56, 0, 0] : Fin 3 → Nat) a + S1x128x128.size a ≤ S65x128x128.size a
  inb_S65x128_S1x128_56_0 : ∀ a, (![56, 0] : Fin 2 → Nat) a + S1x128.size a ≤ S65x128.size a
  inb_S65x512x128_S1x512x128_56_0_0 : ∀ a, (![56, 0, 0] : Fin 3 → Nat) a + S1x512x128.size a ≤ S65x512x128.size a
  inb_S65x128x128_S1x128x128_57_0_0 : ∀ a, (![57, 0, 0] : Fin 3 → Nat) a + S1x128x128.size a ≤ S65x128x128.size a
  inb_S65x128_S1x128_57_0 : ∀ a, (![57, 0] : Fin 2 → Nat) a + S1x128.size a ≤ S65x128.size a
  inb_S65x512x128_S1x512x128_57_0_0 : ∀ a, (![57, 0, 0] : Fin 3 → Nat) a + S1x512x128.size a ≤ S65x512x128.size a
  inb_S65x128x128_S1x128x128_58_0_0 : ∀ a, (![58, 0, 0] : Fin 3 → Nat) a + S1x128x128.size a ≤ S65x128x128.size a
  inb_S65x128_S1x128_58_0 : ∀ a, (![58, 0] : Fin 2 → Nat) a + S1x128.size a ≤ S65x128.size a
  inb_S65x512x128_S1x512x128_58_0_0 : ∀ a, (![58, 0, 0] : Fin 3 → Nat) a + S1x512x128.size a ≤ S65x512x128.size a
  inb_S65x128x128_S1x128x128_59_0_0 : ∀ a, (![59, 0, 0] : Fin 3 → Nat) a + S1x128x128.size a ≤ S65x128x128.size a
  inb_S65x128_S1x128_59_0 : ∀ a, (![59, 0] : Fin 2 → Nat) a + S1x128.size a ≤ S65x128.size a
  inb_S65x512x128_S1x512x128_59_0_0 : ∀ a, (![59, 0, 0] : Fin 3 → Nat) a + S1x512x128.size a ≤ S65x512x128.size a
  inb_S65x128x128_S1x128x128_60_0_0 : ∀ a, (![60, 0, 0] : Fin 3 → Nat) a + S1x128x128.size a ≤ S65x128x128.size a
  inb_S65x128_S1x128_60_0 : ∀ a, (![60, 0] : Fin 2 → Nat) a + S1x128.size a ≤ S65x128.size a
  inb_S65x512x128_S1x512x128_60_0_0 : ∀ a, (![60, 0, 0] : Fin 3 → Nat) a + S1x512x128.size a ≤ S65x512x128.size a
  inb_S65x128x128_S1x128x128_61_0_0 : ∀ a, (![61, 0, 0] : Fin 3 → Nat) a + S1x128x128.size a ≤ S65x128x128.size a
  inb_S65x128_S1x128_61_0 : ∀ a, (![61, 0] : Fin 2 → Nat) a + S1x128.size a ≤ S65x128.size a
  inb_S65x512x128_S1x512x128_61_0_0 : ∀ a, (![61, 0, 0] : Fin 3 → Nat) a + S1x512x128.size a ≤ S65x512x128.size a
  inb_S65x128x128_S1x128x128_62_0_0 : ∀ a, (![62, 0, 0] : Fin 3 → Nat) a + S1x128x128.size a ≤ S65x128x128.size a
  inb_S65x128_S1x128_62_0 : ∀ a, (![62, 0] : Fin 2 → Nat) a + S1x128.size a ≤ S65x128.size a
  inb_S65x512x128_S1x512x128_62_0_0 : ∀ a, (![62, 0, 0] : Fin 3 → Nat) a + S1x512x128.size a ≤ S65x512x128.size a
  inb_S65x128x128_S1x128x128_63_0_0 : ∀ a, (![63, 0, 0] : Fin 3 → Nat) a + S1x128x128.size a ≤ S65x128x128.size a
  inb_S65x128_S1x128_63_0 : ∀ a, (![63, 0] : Fin 2 → Nat) a + S1x128.size a ≤ S65x128.size a
  inb_S65x512x128_S1x512x128_63_0_0 : ∀ a, (![63, 0, 0] : Fin 3 → Nat) a + S1x512x128.size a ≤ S65x512x128.size a
  inb_S65x128x128_S1x128x128_64_0_0 : ∀ a, (![64, 0, 0] : Fin 3 → Nat) a + S1x128x128.size a ≤ S65x128x128.size a
  inb_S65x128_S1x128_64_0 : ∀ a, (![64, 0] : Fin 2 → Nat) a + S1x128.size a ≤ S65x128.size a
  inb_S65x512x128_S1x512x128_64_0_0 : ∀ a, (![64, 0, 0] : Fin 3 → Nat) a + S1x512x128.size a ≤ S65x512x128.size a
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S65x128x128.size a ≤ S65x128x128.size a
  hwx0_1 : ∀ i : grid0.Coords, EltTy.bits .bf16 = 32 ∨ (Rect.block (s := S65x128x128) S65x128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S65x128.size a ≤ S65x128.size a
  hwx0_2 : ∀ i : grid0.Coords, EltTy.bits .f32 = 32 ∨ (Rect.block (s := S65x128) S65x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S65x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S65x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S65x128x128 : Shape := ⟨3, ![65, 128, 128]⟩
abbrev S65x128 : Shape := ⟨2, ![65, 128]⟩
abbrev S8x4 : Shape := ⟨2, ![8, 4]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1x4096x128 : Shape := ⟨3, ![1, 4096, 128]⟩
abbrev S8x4x1 : Shape := ⟨3, ![8, 4, 1]⟩
abbrev S8x4x4096x128 : Shape := ⟨4, ![8, 4, 4096, 128]⟩
abbrev S8x4096x128 : Shape := ⟨3, ![8, 4096, 128]⟩
abbrev S8x128x128 : Shape := ⟨3, ![8, 128, 128]⟩
abbrev S8x128 : Shape := ⟨2, ![8, 128]⟩
abbrev S8x1x128 : Shape := ⟨3, ![8, 1, 128]⟩
abbrev S9x4096x128 : Shape := ⟨3, ![9, 4096, 128]⟩
abbrev S17x4096x128 : Shape := ⟨3, ![17, 4096, 128]⟩
abbrev S25x4096x128 : Shape := ⟨3, ![25, 4096, 128]⟩
abbrev S33x4096x128 : Shape := ⟨3, ![33, 4096, 128]⟩
abbrev S41x4096x128 : Shape := ⟨3, ![41, 4096, 128]⟩
abbrev S49x4096x128 : Shape := ⟨3, ![49, 4096, 128]⟩
abbrev S57x4096x128 : Shape := ⟨3, ![57, 4096, 128]⟩
abbrev S65x4096x128 : Shape := ⟨3, ![65, 4096, 128]⟩

abbrev nBuf : Space → Nat
  | .hbm => 182
  | .vmem => 0
  | .smem => 0
  | _ => 0

abbrev hbmTy0_0 (i : Nat) : BufTy := match i % 128 with
  | 0 => ⟨S4096x128, .f32⟩
  | 1 => ⟨S65x128x128, .f32⟩
  | 2 => ⟨S65x128, .f32⟩
  | 3 => ⟨S8x4, .i32⟩
  | 4 => ⟨S8x4, .i1⟩
  | 5 => ⟨S8x4, .i32⟩
  | 6 => ⟨S8x4, .i1⟩
  | 7 => ⟨S8x4, .i32⟩
  | 8 => ⟨S8x4, .i1⟩
  | 9 => ⟨S8x4, .i32⟩
  | 10 => ⟨S8x4, .i1⟩
  | 11 => ⟨S8x4, .i32⟩
  | 12 => ⟨S8x4, .i1⟩
  | 13 => ⟨S8x4, .i32⟩
  | 14 => ⟨S8x4, .i1⟩
  | 15 => ⟨S8x4, .i32⟩
  | 16 => ⟨S8x4, .i1⟩
  | 17 => ⟨S8x4, .i32⟩
  | 18 => ⟨S8x4, .i1⟩
  | 19 => ⟨S1x128x128, .f32⟩
  | 20 => ⟨S128x128, .f32⟩
  | 21 => ⟨S128x128, .f32⟩
  | 22 => ⟨S4096x128, .f32⟩
  | 23 => ⟨S1x128, .f32⟩
  | 24 => ⟨S128, .f32⟩
  | 25 => ⟨S1x128, .f32⟩
  | 26 => ⟨S4096x128, .f32⟩
  | 27 => ⟨S4096x128, .f32⟩
  | 28 => ⟨S_, .f32⟩
  | 29 => ⟨S4096x128, .f32⟩
  | 30 => ⟨S4096x128, .f32⟩
  | 31 => ⟨S1x4096x128, .f32⟩
  | 32 => ⟨S_, .i32⟩
  | 33 => ⟨S8x4, .i32⟩
  | 34 => ⟨S8x4, .i32⟩
  | 35 => ⟨S8x4, .i32⟩
  | 36 => ⟨S8x4x1, .i32⟩
  | 37 => ⟨S8x4x4096x128, .f32⟩
  | 38 => ⟨S_, .f32⟩
  | 39 => ⟨S8x4096x128, .f32⟩
  | 40 => ⟨S8x128x128, .f32⟩
  | 41 => ⟨S8x128, .f32⟩
  | 42 => ⟨S8x4096x128, .f32⟩
  | 43 => ⟨S8x1x128, .f32⟩
  | 44 => ⟨S8x4096x128, .f32⟩
  | 45 => ⟨S8x4096x128, .f32⟩
  | 46 => ⟨S_, .f32⟩
  | 47 => ⟨S8x4096x128, .f32⟩
  | 48 => ⟨S8x4096x128, .f32⟩
  | 49 => ⟨S9x4096x128, .f32⟩
  | 50 => ⟨S_, .i32⟩
  | 51 => ⟨S8x4, .i32⟩
  | 52 => ⟨S8x4, .i32⟩
  | 53 => ⟨S8x4, .i32⟩
  | 54 => ⟨S8x4x1, .i32⟩
  | 55 => ⟨S8x4x4096x128, .f32⟩
  | 56 => ⟨S_, .f32⟩
  | 57 => ⟨S8x4096x128, .f32⟩
  | 58 => ⟨S8x128x128, .f32⟩
  | 59 => ⟨S8x128, .f32⟩
  | 60 => ⟨S8x4096x128, .f32⟩
  | 61 => ⟨S8x1x128, .f32⟩
  | 62 => ⟨S8x4096x128, .f32⟩
  | 63 => ⟨S8x4096x128, .f32⟩
  | 64 => ⟨S_, .f32⟩
  | 65 => ⟨S8x4096x128, .f32⟩
  | 66 => ⟨S8x4096x128, .f32⟩
  | 67 => ⟨S17x4096x128, .f32⟩
  | 68 => ⟨S_, .i32⟩
  | 69 => ⟨S8x4, .i32⟩
  | 70 => ⟨S8x4, .i32⟩
  | 71 => ⟨S8x4, .i32⟩
  | 72 => ⟨S8x4x1, .i32⟩
  | 73 => ⟨S8x4x4096x128, .f32⟩
  | 74 => ⟨S_, .f32⟩
  | 75 => ⟨S8x4096x128, .f32⟩
  | 76 => ⟨S8x128x128, .f32⟩
  | 77 => ⟨S8x128, .f32⟩
  | 78 => ⟨S8x4096x128, .f32⟩
  | 79 => ⟨S8x1x128, .f32⟩
  | 80 => ⟨S8x4096x128, .f32⟩
  | 81 => ⟨S8x4096x128, .f32⟩
  | 82 => ⟨S_, .f32⟩
  | 83 => ⟨S8x4096x128, .f32⟩
  | 84 => ⟨S8x4096x128, .f32⟩
  | 85 => ⟨S25x4096x128, .f32⟩
  | 86 => ⟨S_, .i32⟩
  | 87 => ⟨S8x4, .i32⟩
  | 88 => ⟨S8x4, .i32⟩
  | 89 => ⟨S8x4, .i32⟩
  | 90 => ⟨S8x4x1, .i32⟩
  | 91 => ⟨S8x4x4096x128, .f32⟩
  | 92 => ⟨S_, .f32⟩
  | 93 => ⟨S8x4096x128, .f32⟩
  | 94 => ⟨S8x128x128, .f32⟩
  | 95 => ⟨S8x128, .f32⟩
  | 96 => ⟨S8x4096x128, .f32⟩
  | 97 => ⟨S8x1x128, .f32⟩
  | 98 => ⟨S8x4096x128, .f32⟩
  | 99 => ⟨S8x4096x128, .f32⟩
  | 100 => ⟨S_, .f32⟩
  | 101 => ⟨S8x4096x128, .f32⟩
  | 102 => ⟨S8x4096x128, .f32⟩
  | 103 => ⟨S33x4096x128, .f32⟩
  | 104 => ⟨S_, .i32⟩
  | 105 => ⟨S8x4, .i32⟩
  | 106 => ⟨S8x4, .i32⟩
  | 107 => ⟨S8x4, .i32⟩
  | 108 => ⟨S8x4x1, .i32⟩
  | 109 => ⟨S8x4x4096x128, .f32⟩
  | 110 => ⟨S_, .f32⟩
  | 111 => ⟨S8x4096x128, .f32⟩
  | 112 => ⟨S8x128x128, .f32⟩
  | 113 => ⟨S8x128, .f32⟩
  | 114 => ⟨S8x4096x128, .f32⟩
  | 115 => ⟨S8x1x128, .f32⟩
  | 116 => ⟨S8x4096x128, .f32⟩
  | 117 => ⟨S8x4096x128, .f32⟩
  | 118 => ⟨S_, .f32⟩
  | 119 => ⟨S8x4096x128, .f32⟩
  | 120 => ⟨S8x4096x128, .f32⟩
  | 121 => ⟨S41x4096x128, .f32⟩
  | 122 => ⟨S_, .i32⟩
  | 123 => ⟨S8x4, .i32⟩
  | 124 => ⟨S8x4, .i32⟩
  | 125 => ⟨S8x4, .i32⟩
  | 126 => ⟨S8x4x1, .i32⟩
  | 127 => ⟨S8x4x4096x128, .f32⟩
  | _ => ⟨S4096x128, .f32⟩

abbrev hbmTy0_1 (i : Nat) : BufTy := match i % 128 with
  | 0 => ⟨S_, .f32⟩
  | 1 => ⟨S8x4096x128, .f32⟩
  | 2 => ⟨S8x128x128, .f32⟩
  | 3 => ⟨S8x128, .f32⟩
  | 4 => ⟨S8x4096x128, .f32⟩
  | 5 => ⟨S8x1x128, .f32⟩
  | 6 => ⟨S8x4096x128, .f32⟩
  | 7 => ⟨S8x4096x128, .f32⟩
  | 8 => ⟨S_, .f32⟩
  | 9 => ⟨S8x4096x128, .f32⟩
  | 10 => ⟨S8x4096x128, .f32⟩
  | 11 => ⟨S49x4096x128, .f32⟩
  | 12 => ⟨S_, .i32⟩
  | 13 => ⟨S8x4, .i32⟩
  | 14 => ⟨S8x4, .i32⟩
  | 15 => ⟨S8x4, .i32⟩
  | 16 => ⟨S8x4x1, .i32⟩
  | 17 => ⟨S8x4x4096x128, .f32⟩
  | 18 => ⟨S_, .f32⟩
  | 19 => ⟨S8x4096x128, .f32⟩
  | 20 => ⟨S8x128x128, .f32⟩
  | 21 => ⟨S8x128, .f32⟩
  | 22 => ⟨S8x4096x128, .f32⟩
  | 23 => ⟨S8x1x128, .f32⟩
  | 24 => ⟨S8x4096x128, .f32⟩
  | 25 => ⟨S8x4096x128, .f32⟩
  | 26 => ⟨S_, .f32⟩
  | 27 => ⟨S8x4096x128, .f32⟩
  | 28 => ⟨S8x4096x128, .f32⟩
  | 29 => ⟨S57x4096x128, .f32⟩
  | 30 => ⟨S_, .i32⟩
  | 31 => ⟨S8x4, .i32⟩
  | 32 => ⟨S8x4, .i32⟩
  | 33 => ⟨S8x4, .i32⟩
  | 34 => ⟨S8x4x1, .i32⟩
  | 35 => ⟨S8x4x4096x128, .f32⟩
  | 36 => ⟨S_, .f32⟩
  | 37 => ⟨S8x4096x128, .f32⟩
  | 38 => ⟨S8x128x128, .f32⟩
  | 39 => ⟨S8x128, .f32⟩
  | 40 => ⟨S8x4096x128, .f32⟩
  | 41 => ⟨S8x1x128, .f32⟩
  | 42 => ⟨S8x4096x128, .f32⟩
  | 43 => ⟨S8x4096x128, .f32⟩
  | 44 => ⟨S_, .f32⟩
  | 45 => ⟨S8x4096x128, .f32⟩
  | 46 => ⟨S8x4096x128, .f32⟩
  | 47 => ⟨S65x4096x128, .f32⟩
  | 48 => ⟨S8x4096x128, .f32⟩
  | 49 => ⟨S_, .f32⟩
  | 50 => ⟨S4096x128, .f32⟩
  | 51 => ⟨S_, .f32⟩
  | 52 => ⟨S4096x128, .f32⟩
  | 53 => ⟨S4096x128, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_c_10 : Ref sig .tc := ⟨.hbm, 14, rfl⟩
abbrev main_c_11 : Ref sig .tc := ⟨.hbm, 15, rfl⟩
abbrev main_c_12 : Ref sig .tc := ⟨.hbm, 16, rfl⟩
abbrev main_c_13 : Ref sig .tc := ⟨.hbm, 17, rfl⟩
abbrev main_c_14 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call0_cst : Ref sig .tc := ⟨.hbm, 28, rfl⟩
abbrev main_call0_v0 : Ref sig .tc := ⟨.hbm, 29, rfl⟩
abbrev main_v9 : Ref sig .tc := ⟨.hbm, 30, rfl⟩
abbrev main_v10 : Ref sig .tc := ⟨.hbm, 31, rfl⟩
abbrev main_c_15 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call1_cst : Ref sig .tc := ⟨.hbm, 46, rfl⟩
abbrev main_call1_v0 : Ref sig .tc := ⟨.hbm, 47, rfl⟩
abbrev main_v23 : Ref sig .tc := ⟨.hbm, 48, rfl⟩
abbrev main_v24 : Ref sig .tc := ⟨.hbm, 49, rfl⟩
abbrev main_c_16 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_17 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call2_cst : Ref sig .tc := ⟨.hbm, 64, rfl⟩
abbrev main_call2_v0 : Ref sig .tc := ⟨.hbm, 65, rfl⟩
abbrev main_v37 : Ref sig .tc := ⟨.hbm, 66, rfl⟩
abbrev main_v38 : Ref sig .tc := ⟨.hbm, 67, rfl⟩
abbrev main_c_18 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_19 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call3_cst : Ref sig .tc := ⟨.hbm, 82, rfl⟩
abbrev main_call3_v0 : Ref sig .tc := ⟨.hbm, 83, rfl⟩
abbrev main_v51 : Ref sig .tc := ⟨.hbm, 84, rfl⟩
abbrev main_v52 : Ref sig .tc := ⟨.hbm, 85, rfl⟩
abbrev main_c_20 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_21 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_call4_cst : Ref sig .tc := ⟨.hbm, 100, rfl⟩
abbrev main_call4_v0 : Ref sig .tc := ⟨.hbm, 101, rfl⟩
abbrev main_v65 : Ref sig .tc := ⟨.hbm, 102, rfl⟩
abbrev main_v66 : Ref sig .tc := ⟨.hbm, 103, rfl⟩
abbrev main_c_22 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_23 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call5_cst : Ref sig .tc := ⟨.hbm, 118, rfl⟩
abbrev main_call5_v0 : Ref sig .tc := ⟨.hbm, 119, rfl⟩
abbrev main_v79 : Ref sig .tc := ⟨.hbm, 120, rfl⟩
abbrev main_v80 : Ref sig .tc := ⟨.hbm, 121, rfl⟩
abbrev main_c_24 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_25 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_call6_cst : Ref sig .tc := ⟨.hbm, 136, rfl⟩
abbrev main_call6_v0 : Ref sig .tc := ⟨.hbm, 137, rfl⟩
abbrev main_v93 : Ref sig .tc := ⟨.hbm, 138, rfl⟩
abbrev main_v94 : Ref sig .tc := ⟨.hbm, 139, rfl⟩
abbrev main_c_26 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_27 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_call7_cst : Ref sig .tc := ⟨.hbm, 154, rfl⟩
abbrev main_call7_v0 : Ref sig .tc := ⟨.hbm, 155, rfl⟩
abbrev main_v107 : Ref sig .tc := ⟨.hbm, 156, rfl⟩
abbrev main_v108 : Ref sig .tc := ⟨.hbm, 157, rfl⟩
abbrev main_c_28 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_29 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_call8_cst : Ref sig .tc := ⟨.hbm, 172, rfl⟩
abbrev main_call8_v0 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_30 : Ref sig .tc := ⟨.hbm, 177, rfl⟩
abbrev main_v124 : Ref sig .tc := ⟨.hbm, 178, rfl⟩
abbrev main_cst_31 : Ref sig .tc := ⟨.hbm, 179, rfl⟩
abbrev main_v125 : Ref sig .tc := ⟨.hbm, 180, rfl⟩
abbrev main_v126 : Ref sig .tc := ⟨.hbm, 181, rfl⟩

abbrev nD : Nat := 1
abbrev τ : Topo := Topo.v7x

variable {F : FTy → Type} [FloatOps F]

class Facts₀ : Prop where
  slices_S65x128x128_S1x128x128_0_0_0 : S65x128x128.Slices ![0, 0, 0] S1x128x128
  shapeCasts_S1x128x128_S128x128 : S1x128x128.ShapeCasts S128x128
  transposes_S128x128_S128x128_1_0 : S128x128.Transposes [1, 0] S128x128
  slices_S65x128_S1x128_0_0 : S65x128.Slices ![0, 0] S1x128
  shapeCasts_S1x128_S128 : S1x128.ShapeCasts S128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S4096x128_S1x4096x128_1_2 : S4096x128.BroadcastsInDim S1x4096x128 (![1, 2] : Fin 2 → Fin S1x4096x128.rank)
  bcast_S_S8x4 : S_.BroadcastsInDim S8x4 (![] : Fin 0 → Fin S8x4.rank)
  bcast_S8x4_S8x4x1_0_1 : S8x4.BroadcastsInDim S8x4x1 (![0, 1] : Fin 2 → Fin S8x4x1.rank)
  reducesTo_S8x4x4096x128_S8x4096x128_d1 : S8x4x4096x128.ReducesTo [1] S8x4096x128
  h_S_ : 0 < S_.numel
  slices_S65x128x128_S8x128x128_1_0_0 : S65x128x128.Slices ![1, 0, 0] S8x128x128
  slices_S65x128_S8x128_1_0 : S65x128.Slices ![1, 0] S8x128
  bcast_S8x128_S8x1x128_0_2 : S8x128.BroadcastsInDim S8x1x128 (![0, 2] : Fin 2 → Fin S8x1x128.rank)
  bcast_S8x1x128_S8x4096x128_0_1_2 : S8x1x128.BroadcastsInDim S8x4096x128 (![0, 1, 2] : Fin 3 → Fin S8x4096x128.rank)
  bcast_S_S8x4096x128 : S_.BroadcastsInDim S8x4096x128 (![] : Fin 0 → Fin S8x4096x128.rank)
  concatenates_S1x4096x128_S8x4096x128_S9x4096x128_d0 : Shape.Concatenates [S1x4096x128, S8x4096x128] S9x4096x128 0
  slices_S65x128x128_S8x128x128_9_0_0 : S65x128x128.Slices ![9, 0, 0] S8x128x128
  slices_S65x128_S8x128_9_0 : S65x128.Slices ![9, 0] S8x128
  concatenates_S9x4096x128_S8x4096x128_S17x4096x128_d0 : Shape.Concatenates [S9x4096x128, S8x4096x128] S17x4096x128 0
  slices_S65x128x128_S8x128x128_17_0_0 : S65x128x128.Slices ![17, 0, 0] S8x128x128
  slices_S65x128_S8x128_17_0 : S65x128.Slices ![17, 0] S8x128
  concatenates_S17x4096x128_S8x4096x128_S25x4096x128_d0 : Shape.Concatenates [S17x4096x128, S8x4096x128] S25x4096x128 0
  slices_S65x128x128_S8x128x128_25_0_0 : S65x128x128.Slices ![25, 0, 0] S8x128x128
  slices_S65x128_S8x128_25_0 : S65x128.Slices ![25, 0] S8x128
  concatenates_S25x4096x128_S8x4096x128_S33x4096x128_d0 : Shape.Concatenates [S25x4096x128, S8x4096x128] S33x4096x128 0
  slices_S65x128x128_S8x128x128_33_0_0 : S65x128x128.Slices ![33, 0, 0] S8x128x128
  slices_S65x128_S8x128_33_0 : S65x128.Slices ![33, 0] S8x128
  concatenates_S33x4096x128_S8x4096x128_S41x4096x128_d0 : Shape.Concatenates [S33x4096x128, S8x4096x128] S41x4096x128 0
  slices_S65x128x128_S8x128x128_41_0_0 : S65x128x128.Slices ![41, 0, 0] S8x128x128
  slices_S65x128_S8x128_41_0 : S65x128.Slices ![41, 0] S8x128
  concatenates_S41x4096x128_S8x4096x128_S49x4096x128_d0 : Shape.Concatenates [S41x4096x128, S8x4096x128] S49x4096x128 0
  slices_S65x128x128_S8x128x128_49_0_0 : S65x128x128.Slices ![49, 0, 0] S8x128x128
  slices_S65x128_S8x128_49_0 : S65x128.Slices ![49, 0] S8x128
  concatenates_S49x4096x128_S8x4096x128_S57x4096x128_d0 : Shape.Concatenates [S49x4096x128, S8x4096x128] S57x4096x128 0
  slices_S65x128x128_S8x128x128_57_0_0 : S65x128x128.Slices ![57, 0, 0] S8x128x128
  slices_S65x128_S8x128_57_0 : S65x128.Slices ![57, 0] S8x128
  concatenates_S57x4096x128_S8x4096x128_S65x4096x128_d0 : Shape.Concatenates [S57x4096x128, S8x4096x128] S65x4096x128 0
  slices_S65x4096x128_S8x4096x128_57_0_0 : S65x4096x128.Slices ![57, 0, 0] S8x4096x128
  reducesTo_S8x4096x128_S4096x128_d0 : S8x4096x128.ReducesTo [0] S4096x128
  dot_S4096x128_S128x128_S4096x128_1_0_0_1_n_n_wf : DotDims.WF S4096x128 S128x128 S4096x128 [1] [0] [0] [1] [] []
  gather_S1x4096x128_S8x4x1_S8x4x4096x128_23_0_n_n_0_2_14096128_wf : GatherDims.WF S1x4096x128 S8x4x1 S8x4x4096x128 [2, 3] [0] [] [0] [] 2 ![1, 4096, 128]
  dot_S8x4096x128_S8x128x128_S8x4096x128_2_2_1_1_0_0_wf : DotDims.WF S8x4096x128 S8x128x128 S8x4096x128 [2] [2] [1] [1] [0] [0]
  gather_S9x4096x128_S8x4x1_S8x4x4096x128_23_0_n_n_0_2_14096128_wf : GatherDims.WF S9x4096x128 S8x4x1 S8x4x4096x128 [2, 3] [0] [] [0] [] 2 ![1, 4096, 128]
  gather_S17x4096x128_S8x4x1_S8x4x4096x128_23_0_n_n_0_2_14096128_wf : GatherDims.WF S17x4096x128 S8x4x1 S8x4x4096x128 [2, 3] [0] [] [0] [] 2 ![1, 4096, 128]
  gather_S25x4096x128_S8x4x1_S8x4x4096x128_23_0_n_n_0_2_14096128_wf : GatherDims.WF S25x4096x128 S8x4x1 S8x4x4096x128 [2, 3] [0] [] [0] [] 2 ![1, 4096, 128]
  gather_S33x4096x128_S8x4x1_S8x4x4096x128_23_0_n_n_0_2_14096128_wf : GatherDims.WF S33x4096x128 S8x4x1 S8x4x4096x128 [2, 3] [0] [] [0] [] 2 ![1, 4096, 128]
  gather_S41x4096x128_S8x4x1_S8x4x4096x128_23_0_n_n_0_2_14096128_wf : GatherDims.WF S41x4096x128 S8x4x1 S8x4x4096x128 [2, 3] [0] [] [0] [] 2 ![1, 4096, 128]
  gather_S49x4096x128_S8x4x1_S8x4x4096x128_23_0_n_n_0_2_14096128_wf : GatherDims.WF S49x4096x128 S8x4x1 S8x4x4096x128 [2, 3] [0] [] [0] [] 2 ![1, 4096, 128]
  gather_S57x4096x128_S8x4x1_S8x4x4096x128_23_0_n_n_0_2_14096128_wf : GatherDims.WF S57x4096x128 S8x4x1 S8x4x4096x128 [2, 3] [0] [] [0] [] 2 ![1, 4096, 128]

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S1x4096x128_S8x4x1_S8x4x4096x128_23_0_n_n_0_2_14096128 : GatherDims S1x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S1x4096x128_S8x4x1_S8x4x4096x128_23_0_n_n_0_2_14096128_wf
def dot_S8x4096x128_S8x128x128_S8x4096x128_2_2_1_1_0_0 : DotDims S8x4096x128 S8x128x128 S8x4096x128 where
  lhsContracting := [2]
  rhsContracting := [2]
  lhsNonContracting := [1]
  rhsNonContracting := [1]
  lhsBatch := [0]
  rhsBatch := [0]
  wf := dot_S8x4096x128_S8x128x128_S8x4096x128_2_2_1_1_0_0_wf
def gather_S9x4096x128_S8x4x1_S8x4x4096x128_23_0_n_n_0_2_14096128 : GatherDims S9x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S9x4096x128_S8x4x1_S8x4x4096x128_23_0_n_n_0_2_14096128_wf
def gather_S17x4096x128_S8x4x1_S8x4x4096x128_23_0_n_n_0_2_14096128 : GatherDims S17x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S17x4096x128_S8x4x1_S8x4x4096x128_23_0_n_n_0_2_14096128_wf
def gather_S25x4096x128_S8x4x1_S8x4x4096x128_23_0_n_n_0_2_14096128 : GatherDims S25x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S25x4096x128_S8x4x1_S8x4x4096x128_23_0_n_n_0_2_14096128_wf
def gather_S33x4096x128_S8x4x1_S8x4x4096x128_23_0_n_n_0_2_14096128 : GatherDims S33x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S33x4096x128_S8x4x1_S8x4x4096x128_23_0_n_n_0_2_14096128_wf
def gather_S41x4096x128_S8x4x1_S8x4x4096x128_23_0_n_n_0_2_14096128 : GatherDims S41x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S41x4096x128_S8x4x1_S8x4x4096x128_23_0_n_n_0_2_14096128_wf
def gather_S49x4096x128_S8x4x1_S8x4x4096x128_23_0_n_n_0_2_14096128 : GatherDims S49x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S49x4096x128_S8x4x1_S8x4x4096x128_23_0_n_n_0_2_14096128_wf
def gather_S57x4096x128_S8x4x1_S8x4x4096x128_23_0_n_n_0_2_14096128 : GatherDims S57x4096x128 S8x4x1 S8x4x4096x128 where
  offsetDims := [2, 3]
  collapsedSliceDims := [0]
  operandBatchingDims := []
  startIndicesBatchingDims := []
  startIndexMap := [0]
  indexVectorDim := 2
  sliceSizes := ![1, 4096, 128]
  wf := gather_S57x4096x128_S8x4x1_S8x4x4096x128_23_0_n_n_0_2_14096128_wf

class Facts : Prop extends Facts₀ where

variable [Facts]
-- ==== Proof.Spec.lean ====
import Idealize.ShloMosaic.PureOps.Ideal
import Idealize.ShloMosaic.Lib.ValueIdx

/-!
# The function both programs compute

A feed-forward graph of 65 nodes over feature vectors of width 128. Node 0 reads the input row
`x`; node `n ≥ 1` reads the sum of the activations of its four parents (all of them earlier nodes:
`parent n j < n`). Every node applies its own affine map `v ↦ W n · v + B n` and then `max · 0`.
The result for a row is the mean of the last eight nodes' activations. Every row of the batch is
treated independently, so the whole specification is a function of ONE input row.
-/

noncomputable section

open scoped BigOperators

namespace Cert.Spec

open Idealize.ShloMosaic Idealize.ShloMosaic.ValueIdx

/-- The argument arrays' shapes: the batch `X`, the weights `W`, the biases `B`. -/
abbrev SX : Shape := ⟨2, ![4096, 128]⟩
abbrev SW : Shape := ⟨3, ![65, 128, 128]⟩
abbrev SB : Shape := ⟨2, ![65, 128]⟩

/-- The parents of nodes 1 … 64, one row of four per node (row `n - 1` is node `n`'s). -/
def parentRows : List (List ℕ) :=
  [[0, 0, 0, 0],
   [0, 0, 0, 0],
   [0, 0, 0, 0],
   [0, 0, 0, 0],
   [0, 0, 0, 0],
   [0, 0, 0, 0],
   [0, 0, 0, 0],
   [0, 0, 0, 0],
   [7, 5, 4, 2],
   [2, 0, 0, 0],
   [1, 7, 5, 8],
   [4, 5, 8, 6],
   [5, 4, 5, 8],
   [2, 7, 6, 0],
   [3, 7, 4, 0],
   [6, 6, 7, 1],
   [1, 14, 0, 9],
   [1, 5, 8, 7],
   [6, 0, 0, 2],
   [0, 11, 8, 11],
   [4, 10, 12, 6],
   [7, 16, 13, 16],
   [6, 11, 16, 11],
   [14, 11, 11, 6],
   [21, 3, 14, 18],
   [21, 13, 9, 7],
   [10, 12, 17, 22],
   [1, 23, 13, 8],
   [16, 14, 6, 8],
   [17, 14, 12, 8],
   [19, 9, 8, 22],
   [6, 5, 17, 15],
   [1, 2, 12, 27],
   [13, 25, 10, 7],
   [26, 28, 2, 1],
   [22, 11, 18, 4],
   [28, 14, 29, 26],
   [23, 7, 25, 1],
   [18, 13, 32, 6],
   [31, 2, 20, 19],
   [36, 12, 36, 27],
   [36, 8, 31, 38],
   [1, 14, 26, 4],
   [20, 25, 31, 38],
   [16, 18, 19, 39],
   [8, 20, 2, 17],
   [38, 25, 14, 40],
   [24, 38, 0, 18],
   [40, 37, 19, 24],
   [20, 25, 11, 38],
   [3, 20, 13, 35],
   [36, 34, 45, 45],
   [9, 5, 6, 35],
   [47, 45, 32, 47],
   [42, 0, 5, 42],
   [4, 48, 40, 46],
   [20, 8, 29, 55],
   [20, 50, 21, 46],
   [13, 27, 18, 13],
   [50, 45, 7, 52],
   [55, 15, 24, 30],
   [37, 25, 8, 53],
   [39, 2, 46, 41],
   [10, 35, 28, 1]]

/-- Parent `j` of node `n` (node 0 has none; the value there is not used). -/
def parent (n : ℕ) (j : Fin 4) : ℕ := ((parentRows.getD (n - 1) []).getD j.val 0)

/-- Every parent of a node `1 ≤ n ≤ 64` is an earlier node. -/
theorem parent_lt : ∀ n : Fin 65, 0 < n.val → ∀ j : Fin 4, parent n.val j < n.val := by decide

/-- One node's map: `e ↦ max (∑ d, v d * w e d + b e) 0`. -/
def lin (w : Fin 128 → Fin 128 → EReal) (b : Fin 128 → EReal) (v : Fin 128 → EReal) : Fin 128 → EReal :=
  fun e => max ((∑ d : Fin 128, v d * w e d) + b e) 0

/-- What node `n` is fed, given the table `T` of the earlier nodes' activations: the input row for
    node 0, the sum of the four parents' activations otherwise. -/
def feed (x : Fin 128 → EReal) (T : ℕ → Fin 128 → EReal) (n : ℕ) : Fin 128 → EReal :=
  if n = 0 then x else fun d => ∑ j : Fin 4, T (parent n j) d

/-- The activation table after the first `k` nodes have been computed (later rows are 0). -/
def fill (W : ℕ → Fin 128 → Fin 128 → EReal) (B : ℕ → Fin 128 → EReal) (x : Fin 128 → EReal) :
    ℕ → ℕ → Fin 128 → EReal
  | 0 => fun _ _ => 0
  | k + 1 => fun n => if n = k then lin (W k) (B k) (feed x (fill W B x k) k) else fill W B x k n

/-- Node `n`'s activation for the input row `x`. -/
def act (W : ℕ → Fin 128 → Fin 128 → EReal) (B : ℕ → Fin 128 → EReal) (x : Fin 128 → EReal) (n : ℕ) :
    Fin 128 → EReal :=
  fill W B x (n + 1) n

variable (W : ℕ → Fin 128 → Fin 128 → EReal) (B : ℕ → Fin 128 → EReal) (x : Fin 128 → EReal)

/-- Once a node is computed, later steps leave its row alone. -/
theorem fill_of_lt : ∀ (k n : ℕ), n < k → fill W B x k n = act W B x n
  | 0, n, h => absurd h (Nat.not_lt_zero n)
  | k + 1, n, h => by
    by_cases hn : n = k
    · subst hn; rfl
    · have : n < k := by omega
      rw [show fill W B x (k + 1) n = fill W B x k n from by simp only [fill, if_neg hn]]
      exact fill_of_lt k n this

/-- Node 0 applies its map to the input row. -/
theorem act_zero : act W B x 0 = lin (W 0) (B 0) x := by
  simp only [act, fill, feed, if_true]

/-- A node `1 ≤ n ≤ 64` applies its map to the sum of its four parents' activations. -/
theorem act_node (n : ℕ) (h0 : 0 < n) (h : n < 65) :
    act W B x n = lin (W n) (B n) (fun d => ∑ j : Fin 4, act W B x (parent n j) d) := by
  have hne : n ≠ 0 := by omega
  show fill W B x (n + 1) n = _
  rw [show fill W B x (n + 1) n = lin (W n) (B n) (feed x (fill W B x n) n) from by
    simp only [fill, if_true]]
  congr 1
  rw [show feed x (fill W B x n) n = fun d => ∑ j : Fin 4, fill W B x n (parent n j) d from by
    simp only [feed, if_neg hne]]
  funext d
  exact Finset.sum_congr rfl fun j _ => by
    rw [fill_of_lt W B x n (parent n j) (parent_lt ⟨n, h⟩ h0 j)]

/-- The same with the four parents written out: the form a program that adds them one by one meets. -/
theorem act_node4 (n : ℕ) (h0 : 0 < n) (h : n < 65) (p0 p1 p2 p3 : ℕ)
    (e0 : parent n 0 = p0) (e1 : parent n 1 = p1) (e2 : parent n 2 = p2) (e3 : parent n 3 = p3) :
    act W B x n = lin (W n) (B n)
      (fun d => act W B x p0 d + act W B x p1 d + act W B x p2 d + act W B x p3 d) := by
  rw [act_node W B x n h0 h]
  congr 1
  funext d
  rw [Fin.sum_univ_four, e0, e1, e2, e3]

/-- The result for one input row: the mean of the last eight nodes' activations. -/
def outRow : Fin 128 → EReal :=
  fun e => (∑ k : Fin 8, act W B x (57 + k.val) e) * (((1 / 8 : ℝ) : ℝ) : EReal)

/-- The weights and biases of an argument array, node by node. -/
def Wof (Wa : SW.Idx → EReal) : ℕ → Fin 128 → Fin 128 → EReal :=
  fun n e d => if h : n < 65 then Wa (ix3 (⟨n, h⟩ : Fin 65) e d) else 0
def Bof (Ba : SB.Idx → EReal) : ℕ → Fin 128 → EReal :=
  fun n e => if h : n < 65 then Ba (ix2 (⟨n, h⟩ : Fin 65) e) else 0

/-- The weights as a program that keeps them transposed holds them: `Wt n d e = W n e d`. -/
def WtOf (Wt : SW.Idx → EReal) : ℕ → Fin 128 → Fin 128 → EReal :=
  fun n e d => if h : n < 65 then Wt (ix3 (⟨n, h⟩ : Fin 65) d e) else 0

/-- The whole result array as a function of the three argument arrays. -/
def out (Xa : SX.Idx → EReal) (Wa : SW.Idx → EReal) (Ba : SB.Idx → EReal) : SX.Idx → EReal :=
  fun i => outRow (Wof Wa) (Bof Ba) (fun d => Xa (ix2 (n0 := 4096) (n1 := 128) (i 0) d)) (i 1)

theorem out_apply (Xa : SX.Idx → EReal) (Wa : SW.Idx → EReal) (Ba : SB.Idx → EReal) (r : Fin 4096) (e : Fin 128) :
    out Xa Wa Ba (ix2 r e) = outRow (Wof Wa) (Bof Ba) (fun d => Xa (ix2 r d)) e := rfl

end Cert.Spec

end
-- ==== Proof.LibDotIdx.lean ====
/-
  The operand indices of a contraction on an axis that is NOT contracted: the left operand reads the result
  index at that axis's position among the result's axes (after the batch axes), the right operand at its
  position after the left operand's free axes. (On a contracted axis both read the contraction index: the
  library's `lhsIdx_val_of_single` / `rhsIdx_val_of_single`.)
-/
import Idealize.ShloMosaic.PureOps.Ideal

noncomputable section

namespace Cert.LibDotIdx

open Idealize.ShloMosaic

/-- A free axis `a` of the left operand reads the result index at position `p`, where `p` counts the batch axes and
    then `a`'s place among the left free axes. -/
theorem lhsIdx_val_of_free {sl sr so : Shape} (D : DotDims sl sr so) (a : Fin sl.rank)
    (hb : a ∉ D.lhsBatch) (hn : a ∈ D.lhsNonContracting) (j : so.Idx) (k : D.contr.Idx)
    (p : Fin so.rank) (hp : p.val = D.lhsBatch.length + D.lhsNonContracting.idxOf a) :
    (D.lhsIdx j k a).val = (j p).val := by
  unfold DotDims.lhsIdx
  rw [dif_neg hb, dif_pos hn]
  simp only [Fin.val_cast]
  exact congrArg (fun q => (j q).val) (Fin.ext hp.symm)

/-- A free axis `a` of the right operand reads the result index at position `p`, after the batch axes and the left
    operand's free axes. -/
theorem rhsIdx_val_of_free {sl sr so : Shape} (D : DotDims sl sr so) (a : Fin sr.rank)
    (hb : a ∉ D.rhsBatch) (hn : a ∈ D.rhsNonContracting) (j : so.Idx) (k : D.contr.Idx)
    (p : Fin so.rank)
    (hp : p.val = D.lhsBatch.length + D.lhsNonContracting.length + D.rhsNonContracting.idxOf a) :
    (D.rhsIdx j k a).val = (j p).val := by
  unfold DotDims.rhsIdx
  rw [dif_neg hb, dif_pos hn]
  simp only [Fin.val_cast]
  exact congrArg (fun q => (j q).val) (Fin.ext hp.symm)

end Cert.LibDotIdx

end
-- ==== Proof.KerNode.lean ====
import proofs.«179685_j33062658245245_2_alg».proof.Proof.Gen.KernelIdeal.Skeleton
import proofs.«179685_j33062658245245_2_alg».proof.Proof.Spec
import proofs.«179685_j33062658245245_2_alg».proof.Proof.LibDotIdx
import Idealize.ShloMosaic.Lib.ValueIdx
import Idealize.ShloMosaic.Lib.ValueLayout
import Idealize.ShloMosaic.Lib.Pipeline.Value
import Idealize.ShloMosaic.PureOps.Ideal.Laws

/-!
# One node of the graph, as the kernel body computes it on a block of 512 rows

At the ideal values the body's matrix product into a zero accumulator is the plain sum over the
contracted axis, the changes of format are the identity, and the shape casts only add or drop a
leading unit axis. So the body's per-node arithmetic — add four stored activations, multiply by
the node's (transposed) weights, add its bias, take `max · 0` — is the specification's `lin`
applied row by row.
-/

noncomputable section

open scoped BigOperators

namespace Cert.KerSide

open Cert.KernelIdeal Cert.KernelIdeal.Gen Idealize.ShloMosaic Idealize.ShloMosaic.ValueIdx
open Cert.KernelIdeal.Facts₀ Cert.KernelIdeal.Facts

/-- The body's one matrix product: 512 rows by 128 features, times 128 by 128. -/
abbrev Dmm : DotDims S512x128 S128x128 S512x128 := dot_S512x128_S128x128_S512x128_1_0_0_1_n_n

/-- The product into the zero accumulator, read at row `y` and column `e`: the sum over the contracted axis. -/
theorem matmul_ix (l : FVec Ideal S512x128 .bf16) (r : FVec Ideal S128x128 .bf16) (y : Fin 512) (e : Fin 128) :
    matmul Dmm none l r (constant S512x128 .f32 0x00000000#32) (ix2 y e)
      = ∑ d : Fin 128, l (ix2 y d) * r (ix2 d e) := by
  refine (Ideal.matmul_constant_zero_apply Dmm none l r (ix2 y e)).trans ?_
  rw [← Equiv.sum_comp (contrEquiv1 Dmm 128 rfl rfl).symm]
  refine Finset.sum_congr rfl fun d _ => ?_
  have hl : Dmm.lhsIdx (ix2 y e) ((contrEquiv1 Dmm 128 rfl rfl).symm d) = ix2 y d := by
    funext a
    refine Fin.ext ?_
    match a with
    | ⟨0, _⟩ =>
      exact Cert.LibDotIdx.lhsIdx_val_of_free Dmm 0 (List.not_mem_nil) (List.mem_singleton.mpr rfl) _ _ 0 rfl
    | ⟨1, _⟩ =>
      exact (DotDims.lhsIdx_val_of_single Dmm (cl := 1) rfl _ _).trans (contrEquiv1_symm_val Dmm 128 rfl rfl d)
  have hr : Dmm.rhsIdx (ix2 y e) ((contrEquiv1 Dmm 128 rfl rfl).symm d) = ix2 d e := by
    funext a
    refine Fin.ext ?_
    match a with
    | ⟨0, _⟩ =>
      exact (DotDims.rhsIdx_val_of_single Dmm (cr := 0) rfl _ _).trans (contrEquiv1_symm_val Dmm 128 rfl rfl d)
    | ⟨1, _⟩ =>
      exact Cert.LibDotIdx.rhsIdx_val_of_free Dmm 1 (List.not_mem_nil) (List.mem_singleton.mpr rfl) _ _ 1 rfl
  rw [hl, hr]

/-- A node with four parents on a block: the stored slab at row `y`, feature `e` is the node's map applied
    to the sum of the four parent slabs' row `y`. -/
theorem node_ix (a b c d : Vec Ideal S1x512x128 .f32) (wl : Vec Ideal S1x128x128 .bf16) (bl : Vec Ideal S1x128 .f32)
    (u : Fin 1) (y : Fin 512) (e : Fin 128) :
    k0_pay8 a b c d wl bl (ix3 u y e)
      = Cert.Spec.lin (fun e' d' => wl (ix3 (0 : Fin 1) d' e')) (fun e' => bl (ix2 (0 : Fin 1) e'))
          (fun d' => a (ix3 (0 : Fin 1) y d') + b (ix3 (0 : Fin 1) y d') + c (ix3 (0 : Fin 1) y d')
            + d (ix3 (0 : Fin 1) y d')) e := by
  unfold k0_pay8
  refine (shapeCast_ab_1ab_apply _ _ u y e).trans ?_
  rw [maximumf_apply, addf_apply, matmul_ix, broadcastTo_1b_ab_apply, shapeCast_a_1a_apply, shapeCast_1a_a_apply,
    broadcast_apply]
  show max (_ + _) (Ideal.ofBits .f32 0x00000000#32) = _
  rw [Ideal.ofBits_zero_f32]
  unfold Cert.Spec.lin
  refine congrArg (fun s => max (s + bl (ix2 (0 : Fin 1) e)) 0) ?_
  refine Finset.sum_congr rfl fun d' _ => ?_
  rw [truncf_apply, addf_apply, addf_apply, addf_apply, shapeCast_1ab_ab_apply, shapeCast_1ab_ab_apply,
    shapeCast_1ab_ab_apply, shapeCast_1ab_ab_apply, shapeCast_1ab_ab_apply]

/-- The input node on a block: the stored slab at row `y`, feature `e` is the node's map applied to the
    block's row `y`. -/
theorem node0_ix (x : Vec Ideal S512x128 .f32) (wl : Vec Ideal S1x128x128 .bf16) (bl : Vec Ideal S1x128 .f32)
    (u : Fin 1) (y : Fin 512) (e : Fin 128) :
    k0_pay2 x wl bl (ix3 u y e)
      = Cert.Spec.lin (fun e' d' => wl (ix3 (0 : Fin 1) d' e')) (fun e' => bl (ix2 (0 : Fin 1) e'))
          (fun d' => x (ix2 y d')) e := by
  unfold k0_pay2
  refine (shapeCast_ab_1ab_apply _ _ u y e).trans ?_
  rw [maximumf_apply, addf_apply, matmul_ix, broadcastTo_1b_ab_apply, shapeCast_a_1a_apply, shapeCast_1a_a_apply,
    broadcast_apply]
  show max (_ + _) (Ideal.ofBits .f32 0x00000000#32) = _
  rw [Ideal.ofBits_zero_f32]
  unfold Cert.Spec.lin
  refine congrArg (fun s => max (s + bl (ix2 (0 : Fin 1) e)) 0) ?_
  refine Finset.sum_congr rfl fun d' _ => ?_
  rw [truncf_apply, shapeCast_1ab_ab_apply]

end Cert.KerSide

end
-- ==== Proof.KerStack.lean ====
import proofs.«179685_j33062658245245_2_alg».proof.Proof.KerNode
import Idealize.ShloMosaic.Lib.Pipeline.FrameBody

/-!
# The scratch stack, slab by slab

The body keeps every node's activation for its 512 rows in a scratch stack of 65 slabs and fills
it in node order, one whole slab per store; a later node loads whole slabs of earlier nodes.
`Filled k L`: after the stores `L` the first `k` slabs hold the specification's activations.
A store of slab `k` extends it (`filled_cons`); a load of a slab below `k` reads that activation
(`load_slab`).
-/

noncomputable section

open scoped BigOperators

namespace Cert.KerSide

open Cert.KernelIdeal Cert.KernelIdeal.Gen Idealize.ShloMosaic Idealize.ShloMosaic.ValueIdx
open Cert.KernelIdeal.Facts₀ Cert.KernelIdeal.Facts

variable (x0 : Vec Ideal S512x128 .f32) (x1 : Vec Ideal S65x128x128 .bf16) (x2 : Vec Ideal S65x128 .f32)

/-- Node `n`'s activation on the block's rows, as a slab `[1, 512, 128]`. -/
def slab (n : ℕ) : Vec Ideal S1x512x128 .f32 :=
  fun j => Cert.Spec.act (Cert.Spec.WtOf x1) (Cert.Spec.Bof x2) (fun d => x0 (ix2 (n0 := 512) (n1 := 128) (j 1) d)) n (j 2)

theorem slab_apply (n : ℕ) (u : Fin 1) (y : Fin 512) (e : Fin 128) :
    slab x0 x1 x2 n (ix3 u y e)
      = Cert.Spec.act (Cert.Spec.WtOf x1) (Cert.Spec.Bof x2) (fun d => x0 (ix2 y d)) n e := rfl

/-- The stack of all slabs. -/
def stack : S65x512x128.Idx → EReal :=
  fun j => slab x0 x1 x2 (j 0).val (ix3 (0 : Fin 1) (j 1) (j 2))

/-- After the stores `L`, slabs `0 … k-1` hold the activations. -/
def Filled (k : ℕ) (L : List (View.Piece (Elt Ideal) S65x512x128 .f32)) : Prop :=
  ∀ j : S65x512x128.Idx, (j 0).val < k → View.canon L j = stack x0 x1 x2 j

theorem filled_nil : Filled x0 x1 x2 0 [] := fun _ h => absurd h (Nat.not_lt_zero _)

/-- Storing node `k`'s activation into slab `k` fills one more slab. -/
theorem filled_cons (k : ℕ) (inb : ∀ a, (![k, 0, 0] : Fin 3 → ℕ) a + S1x512x128.size a ≤ S65x512x128.size a)
    (w : (Rect.unit (s := S65x512x128) ![k, 0, 0] S1x512x128.size inb).shape.Idx → EReal)
    (L : List (View.Piece (Elt Ideal) S65x512x128 .f32)) (hL : Filled x0 x1 x2 k L)
    (hw : ∀ (u : Fin 1) (y : Fin 512) (e : Fin 128), w (ix3 u y e) = slab x0 x1 x2 k (ix3 u y e)) :
    Filled x0 x1 x2 (k + 1) (⟨Rect.unit (s := S65x512x128) ![k, 0, 0] S1x512x128.size inb, w⟩ :: L) := by
  intro j hj
  by_cases hk : (j 0).val = k
  · have hmem : j ∈ (Rect.unit (s := S65x512x128) ![k, 0, 0] S1x512x128.size inb).set := by
      rw [Rect.mem_set_unit]
      intro a
      match a with
      | ⟨0, _⟩ => exact ⟨by show k ≤ (j 0).val; omega, by show (j 0).val < k + 1; omega⟩
      | ⟨1, _⟩ =>
        have h1 : (j 1).val < 512 := (j 1).isLt
        exact ⟨Nat.zero_le _, by show (j 1).val < 0 + 512; omega⟩
      | ⟨2, _⟩ =>
        have h2 : (j 2).val < 128 := (j 2).isLt
        exact ⟨Nat.zero_le _, by show (j 2).val < 0 + 128; omega⟩
    obtain ⟨x, rfl⟩ := (Rect.unit (s := S65x512x128) ![k, 0, 0] S1x512x128.size inb).exists_idx_of_mem hmem
    rw [show (Rect.unit (s := S65x512x128) ![k, 0, 0] S1x512x128.size inb).idx x
        = (Rect.unit (s := S65x512x128) ![k, 0, 0] S1x512x128.size inb).emb x from rfl, View.canon_cons_emb]
    obtain ⟨u, y, e, rfl⟩ : ∃ (u : Fin 1) (y : Fin 512) (e : Fin 128), x = ix3 u y e := ⟨x 0, x 1, x 2, eq_ix3 x⟩
    rw [hw u y e]
    have e0 : (((Rect.unit (s := S65x512x128) ![k, 0, 0] S1x512x128.size inb).emb (ix3 u y e)) 0).val = k := by
      show k + 1 * u.val = k
      omega
    have e1 : ((Rect.unit (s := S65x512x128) ![k, 0, 0] S1x512x128.size inb).emb (ix3 u y e)) 1 = y :=
      Fin.ext (by show 0 + 1 * y.val = y.val; omega)
    have e2 : ((Rect.unit (s := S65x512x128) ![k, 0, 0] S1x512x128.size inb).emb (ix3 u y e)) 2 = e :=
      Fin.ext (by show 0 + 1 * e.val = e.val; omega)
    show slab x0 x1 x2 k (ix3 u y e)
      = slab x0 x1 x2 (((Rect.unit (s := S65x512x128) ![k, 0, 0] S1x512x128.size inb).emb (ix3 u y e)) 0).val
          (ix3 (0 : Fin 1) (((Rect.unit (s := S65x512x128) ![k, 0, 0] S1x512x128.size inb).emb (ix3 u y e)) 1)
            (((Rect.unit (s := S65x512x128) ![k, 0, 0] S1x512x128.size inb).emb (ix3 u y e)) 2))
    rw [e0, e1, e2]
    rfl
  · have hnot : j ∉ (Rect.unit (s := S65x512x128) ![k, 0, 0] S1x512x128.size inb).set := by
      rw [Rect.mem_set_unit]
      intro h
      have h0 := h (0 : Fin 3)
      have h1 : k ≤ (j 0).val := h0.1
      have h2 : (j 0).val < k + 1 := h0.2
      exact hk (by omega)
    exact (View.canon_cons_of_not_mem
      (⟨Rect.unit (s := S65x512x128) ![k, 0, 0] S1x512x128.size inb, w⟩ : View.Piece (Elt Ideal) S65x512x128 .f32) L hnot).trans
      (hL j (by omega))

/-- A whole-slab load below the filled height reads that node's activation. -/
theorem load_slab {sg : RefSig} {κ : Kind} {sp : Space} (v : View sg κ sp S65x512x128 .f32) (k p : ℕ) (hp : p < k)
    (L : List (View.Piece (Elt Ideal) S65x512x128 .f32)) (hL : Filled x0 x1 x2 k L)
    (inb : ∀ a, (![p, 0, 0] : Fin 3 → ℕ) a + S1x512x128.size a ≤ S65x512x128.size a) :
    v.readCov L (Rect.unit (s := S65x512x128) ![p, 0, 0] S1x512x128.size inb).toLoadRect = slab x0 x1 x2 p := by
  rw [View.readCov_eq_canon']
  funext x
  obtain ⟨u, y, e, rfl⟩ : ∃ (u : Fin 1) (y : Fin 512) (e : Fin 128), x = ix3 u y e := ⟨x 0, x 1, x 2, eq_ix3 x⟩
  have e0 : (((Rect.unit (s := S65x512x128) ![p, 0, 0] S1x512x128.size inb).emb (ix3 u y e)) 0).val = p := by
    show p + 1 * u.val = p
    omega
  have e1 : ((Rect.unit (s := S65x512x128) ![p, 0, 0] S1x512x128.size inb).emb (ix3 u y e)) 1 = y :=
    Fin.ext (by show 0 + 1 * y.val = y.val; omega)
  have e2 : ((Rect.unit (s := S65x512x128) ![p, 0, 0] S1x512x128.size inb).emb (ix3 u y e)) 2 = e :=
    Fin.ext (by show 0 + 1 * e.val = e.val; omega)
  refine (hL ((Rect.unit (s := S65x512x128) ![p, 0, 0] S1x512x128.size inb).emb (ix3 u y e)) (by rw [e0]; exact hp)).trans ?_
  show slab x0 x1 x2 (((Rect.unit (s := S65x512x128) ![p, 0, 0] S1x512x128.size inb).emb (ix3 u y e)) 0).val
        (ix3 (0 : Fin 1) (((Rect.unit (s := S65x512x128) ![p, 0, 0] S1x512x128.size inb).emb (ix3 u y e)) 1)
          (((Rect.unit (s := S65x512x128) ![p, 0, 0] S1x512x128.size inb).emb (ix3 u y e)) 2))
      = slab x0 x1 x2 p (ix3 u y e)
  rw [e0, e1, e2]
  rfl

end Cert.KerSide

end
-- ==== Proof.KerStep.lean ====
import proofs.«179685_j33062658245245_2_alg».proof.Proof.KerStack
import Idealize.ShloMosaic.Lib.Pipeline.Frame

/-!
# One store of the body extends the filled stack by one node

A node's store is the body's per-node arithmetic (`k0_pay8`, or for the input node `k0_pay2`) of
whole-slab loads: four parent slabs from the stack, the node's weight slab and its bias row from
the resident arrays. With the stack filled below the node, the loads read the parents'
activations, and the stored slab is the node's activation by the specification's recursion.
-/

noncomputable section

open scoped BigOperators

namespace Cert.KerSide

open Cert.KernelIdeal Cert.KernelIdeal.Gen Idealize.ShloMosaic Idealize.ShloMosaic.ValueIdx
open Cert.KernelIdeal.Facts₀ Cert.KernelIdeal.Facts

variable (x0 : Vec Ideal S512x128 .f32) (x1 : Vec Ideal S65x128x128 .bf16) (x2 : Vec Ideal S65x128 .f32)

/-- The weight slab of node `k`, loaded whole from the resident weights, read at `(d, e)`. -/
theorem wload (arg2 : Memref sig .tc .vmem S65x128x128 .bf16) (harg2 : arg2.IsWhole) (k : ℕ) (hk : k < 65)
    (inb : ∀ a, (![k, 0, 0] : Fin 3 → ℕ) a + S1x128x128.size a ≤ S65x128x128.size a) (d' e' : Fin 128) :
    View.readAt (Elt Ideal) arg2.view (Rect.unit (s := S65x128x128) ![k, 0, 0] S1x128x128.size inb).toLoadRect
        (harg2.unread x1) (ix3 (0 : Fin 1) d' e')
      = x1 (ix3 (⟨k, hk⟩ : Fin 65) d' e') := by
  show (arg2.view.read (Elt Ideal) (harg2.unread x1))
      ((Rect.unit (s := S65x128x128) ![k, 0, 0] S1x128x128.size inb).emb (ix3 (0 : Fin 1) d' e')) = _
  rw [harg2.read_unread]
  refine congrArg x1 (funext fun a => Fin.ext ?_)
  match a with
  | ⟨0, _⟩ => show k + 1 * 0 = k; omega
  | ⟨1, _⟩ => show 0 + 1 * d'.val = d'.val; omega
  | ⟨2, _⟩ => show 0 + 1 * e'.val = e'.val; omega

/-- The bias row of node `k`, loaded whole from the resident biases, read at `e`. -/
theorem bload (arg3 : Memref sig .tc .vmem S65x128 .f32) (harg3 : arg3.IsWhole) (k : ℕ) (hk : k < 65)
    (inb : ∀ a, (![k, 0] : Fin 2 → ℕ) a + S1x128.size a ≤ S65x128.size a) (e' : Fin 128) :
    View.readAt (Elt Ideal) arg3.view (Rect.unit (s := S65x128) ![k, 0] S1x128.size inb).toLoadRect
        (harg3.unread x2) (ix2 (0 : Fin 1) e')
      = x2 (ix2 (⟨k, hk⟩ : Fin 65) e') := by
  show (arg3.view.read (Elt Ideal) (harg3.unread x2))
      ((Rect.unit (s := S65x128) ![k, 0] S1x128.size inb).emb (ix2 (0 : Fin 1) e')) = _
  rw [harg3.read_unread]
  refine congrArg x2 (funext fun a => Fin.ext ?_)
  match a with
  | ⟨0, _⟩ => show k + 1 * 0 = k; omega
  | ⟨1, _⟩ => show 0 + 1 * e'.val = e'.val; omega

/-- The input block loaded whole is the block. -/
theorem xload (arg1 : Memref sig .tc .vmem S512x128 .f32) (harg1 : arg1.IsWhole)
    (inb : ∀ a, (![0, 0] : Fin 2 → ℕ) a + S512x128.size a ≤ S512x128.size a) (y : Fin 512) (d' : Fin 128) :
    View.readAt (Elt Ideal) arg1.view (Rect.unit (s := S512x128) ![0, 0] S512x128.size inb).toLoadRect
        (harg1.unread x0) (ix2 y d')
      = x0 (ix2 y d') := by
  show (arg1.view.read (Elt Ideal) (harg1.unread x0))
      ((Rect.unit (s := S512x128) ![0, 0] S512x128.size inb).emb (ix2 y d')) = _
  rw [harg1.read_unread]
  refine congrArg x0 (funext fun a => Fin.ext ?_)
  match a with
  | ⟨0, _⟩ => show 0 + 1 * y.val = y.val; omega
  | ⟨1, _⟩ => show 0 + 1 * d'.val = d'.val; omega

/-- The input node's store fills slab 0. -/
theorem node0_step (arg1 : Memref sig .tc .vmem S512x128 .f32) (harg1 : arg1.IsWhole)
    (arg2 : Memref sig .tc .vmem S65x128x128 .bf16) (harg2 : arg2.IsWhole)
    (arg3 : Memref sig .tc .vmem S65x128 .f32) (harg3 : arg3.IsWhole)
    (inb : ∀ a, (![0, 0, 0] : Fin 3 → ℕ) a + S1x512x128.size a ≤ S65x512x128.size a)
    (inbx : ∀ a, (![0, 0] : Fin 2 → ℕ) a + S512x128.size a ≤ S512x128.size a)
    (inbw : ∀ a, (![0, 0, 0] : Fin 3 → ℕ) a + S1x128x128.size a ≤ S65x128x128.size a)
    (inbb : ∀ a, (![0, 0] : Fin 2 → ℕ) a + S1x128.size a ≤ S65x128.size a) :
    Filled x0 x1 x2 1
      [⟨Rect.unit (s := S65x512x128) ![0, 0, 0] S1x512x128.size inb,
        k0_pay2
          (View.readAt (Elt Ideal) arg1.view (Rect.unit (s := S512x128) ![0, 0] S512x128.size inbx).toLoadRect (harg1.unread x0))
          (View.readAt (Elt Ideal) arg2.view (Rect.unit (s := S65x128x128) ![0, 0, 0] S1x128x128.size inbw).toLoadRect (harg2.unread x1))
          (View.readAt (Elt Ideal) arg3.view (Rect.unit (s := S65x128) ![0, 0] S1x128.size inbb).toLoadRect (harg3.unread x2))⟩] := by
  refine filled_cons x0 x1 x2 0 inb _ [] (filled_nil x0 x1 x2) fun u y e => ?_
  rw [slab_apply, Cert.Spec.act_zero]
  refine (node0_ix _ _ _ u y e).trans ?_
  have hW : (fun e' d' : Fin 128 => View.readAt (Elt Ideal) arg2.view
        (Rect.unit (s := S65x128x128) ![0, 0, 0] S1x128x128.size inbw).toLoadRect (harg2.unread x1) (ix3 (0 : Fin 1) d' e'))
      = Cert.Spec.WtOf x1 0 := by
    funext e' d'
    rw [wload x1 arg2 harg2 0 (by decide) inbw d' e']
    simp only [Cert.Spec.WtOf, show (0 : ℕ) < 65 from by decide, dite_true]
  have hB : (fun e' : Fin 128 => View.readAt (Elt Ideal) arg3.view
        (Rect.unit (s := S65x128) ![0, 0] S1x128.size inbb).toLoadRect (harg3.unread x2) (ix2 (0 : Fin 1) e'))
      = Cert.Spec.Bof x2 0 := by
    funext e'
    rw [bload x2 arg3 harg3 0 (by decide) inbb e']
    simp only [Cert.Spec.Bof, show (0 : ℕ) < 65 from by decide, dite_true]
  have hX : (fun d' : Fin 128 => View.readAt (Elt Ideal) arg1.view
        (Rect.unit (s := S512x128) ![0, 0] S512x128.size inbx).toLoadRect (harg1.unread x0) (ix2 y d'))
      = fun d' => x0 (ix2 y d') := by
    funext d'
    exact xload x0 arg1 harg1 inbx y d'
  rw [hW, hB, hX]

/-- A node with four parents: with the stack filled below it, its store fills its slab. -/
theorem node_step (k p0 p1 p2 p3 : ℕ) (hk0 : 0 < k) (hk : k < 65)
    (e0 : Cert.Spec.parent k 0 = p0) (e1 : Cert.Spec.parent k 1 = p1) (e2 : Cert.Spec.parent k 2 = p2)
    (e3 : Cert.Spec.parent k 3 = p3)
    {sg : RefSig} {κ : Kind} {sp : Space} (v : View sg κ sp S65x512x128 .f32)
    (arg2 : Memref sig .tc .vmem S65x128x128 .bf16) (harg2 : arg2.IsWhole)
    (arg3 : Memref sig .tc .vmem S65x128 .f32) (harg3 : arg3.IsWhole)
    (L : List (View.Piece (Elt Ideal) S65x512x128 .f32)) (hL : Filled x0 x1 x2 k L)
    (inb : ∀ a, (![k, 0, 0] : Fin 3 → ℕ) a + S1x512x128.size a ≤ S65x512x128.size a)
    (inb0 : ∀ a, (![p0, 0, 0] : Fin 3 → ℕ) a + S1x512x128.size a ≤ S65x512x128.size a)
    (inb1 : ∀ a, (![p1, 0, 0] : Fin 3 → ℕ) a + S1x512x128.size a ≤ S65x512x128.size a)
    (inb2 : ∀ a, (![p2, 0, 0] : Fin 3 → ℕ) a + S1x512x128.size a ≤ S65x512x128.size a)
    (inb3 : ∀ a, (![p3, 0, 0] : Fin 3 → ℕ) a + S1x512x128.size a ≤ S65x512x128.size a)
    (inbw : ∀ a, (![k, 0, 0] : Fin 3 → ℕ) a + S1x128x128.size a ≤ S65x128x128.size a)
    (inbb : ∀ a, (![k, 0] : Fin 2 → ℕ) a + S1x128.size a ≤ S65x128.size a) :
    Filled x0 x1 x2 (k + 1)
      (⟨Rect.unit (s := S65x512x128) ![k, 0, 0] S1x512x128.size inb,
        k0_pay8
          (v.readCov L (Rect.unit (s := S65x512x128) ![p0, 0, 0] S1x512x128.size inb0).toLoadRect)
          (v.readCov L (Rect.unit (s := S65x512x128) ![p1, 0, 0] S1x512x128.size inb1).toLoadRect)
          (v.readCov L (Rect.unit (s := S65x512x128) ![p2, 0, 0] S1x512x128.size inb2).toLoadRect)
          (v.readCov L (Rect.unit (s := S65x512x128) ![p3, 0, 0] S1x512x128.size inb3).toLoadRect)
          (View.readAt (Elt Ideal) arg2.view (Rect.unit (s := S65x128x128) ![k, 0, 0] S1x128x128.size inbw).toLoadRect (harg2.unread x1))
          (View.readAt (Elt Ideal) arg3.view (Rect.unit (s := S65x128) ![k, 0] S1x128.size inbb).toLoadRect (harg3.unread x2))⟩ :: L) := by
  have hp0 : p0 < k := e0 ▸ Cert.Spec.parent_lt ⟨k, hk⟩ hk0 0
  have hp1 : p1 < k := e1 ▸ Cert.Spec.parent_lt ⟨k, hk⟩ hk0 1
  have hp2 : p2 < k := e2 ▸ Cert.Spec.parent_lt ⟨k, hk⟩ hk0 2
  have hp3 : p3 < k := e3 ▸ Cert.Spec.parent_lt ⟨k, hk⟩ hk0 3
  refine filled_cons x0 x1 x2 k inb _ L hL fun u y e => ?_
  rw [load_slab x0 x1 x2 v k p0 hp0 L hL inb0, load_slab x0 x1 x2 v k p1 hp1 L hL inb1,
    load_slab x0 x1 x2 v k p2 hp2 L hL inb2, load_slab x0 x1 x2 v k p3 hp3 L hL inb3]
  refine (node_ix _ _ _ _ _ _ u y e).trans ?_
  rw [slab_apply, Cert.Spec.act_node4 _ _ _ k hk0 hk p0 p1 p2 p3 e0 e1 e2 e3]
  have hW : (fun e' d' : Fin 128 => View.readAt (Elt Ideal) arg2.view
        (Rect.unit (s := S65x128x128) ![k, 0, 0] S1x128x128.size inbw).toLoadRect (harg2.unread x1) (ix3 (0 : Fin 1) d' e'))
      = Cert.Spec.WtOf x1 k := by
    funext e' d'
    rw [wload x1 arg2 harg2 k hk inbw d' e']
    simp only [Cert.Spec.WtOf, hk, dite_true]
  have hB : (fun e' : Fin 128 => View.readAt (Elt Ideal) arg3.view
        (Rect.unit (s := S65x128) ![k, 0] S1x128.size inbb).toLoadRect (harg3.unread x2) (ix2 (0 : Fin 1) e'))
      = Cert.Spec.Bof x2 k := by
    funext e'
    rw [bload x2 arg3 harg3 k hk inbb e']
    simp only [Cert.Spec.Bof, hk, dite_true]
  rw [hW, hB]
  rfl

end Cert.KerSide

end
-- ==== Proof.KerChain1.lean ====
import proofs.«179685_j33062658245245_2_alg».proof.Proof.KerStep
import proofs.«179685_j33062658245245_2_alg».proof.Proof.Gen.KernelIdeal.Frame

/-!
# The body's stores, node by node (nodes 1 … 16)

Each store of the body after the first is the per-node arithmetic of four whole-slab loads of the node's parents
and of the node's weight slab and bias row: with the stack filled below the node, the store fills the node's slab.
-/

noncomputable section

namespace Cert.KerSide

open Cert.KernelIdeal Cert.KernelIdeal.Gen Idealize.ShloMosaic Idealize.ShloMosaic.ValueIdx

variable (c : Dev nD)
  (arg1 : Memref sig .tc .vmem S512x128 .f32) (harg1 : arg1.IsWhole)
  (arg2 : Memref sig .tc .vmem S65x128x128 .bf16) (harg2 : arg2.IsWhole)
  (arg3 : Memref sig .tc .vmem S65x128 .f32) (harg3 : arg3.IsWhole)
  (arg5 : Memref sig .tc .vmem S65x512x128 .f32)
  (x0 : Vec Ideal S512x128 .f32) (x1 : Vec Ideal S65x128x128 .bf16) (x2 : Vec Ideal S65x128 .f32)

/-- Node 1 (parents 0, 0, 0, 0). -/
theorem step_1 (h : Filled x0 x1 x2 1 (kernelRun0_A.sl.HS0_1 (F := Ideal) c arg1 harg1 arg2 harg2 arg3 harg3 x0 x1 x2)) :
    Filled x0 x1 x2 2 (kernelRun0_A.sl.HS0_2 (F := Ideal) c arg1 harg1 arg2 harg2 arg3 harg3 arg5 x0 x1 x2) :=
  node_step x0 x1 x2 1 0 0 0 0 (by decide) (by decide) rfl rfl rfl rfl arg5.view arg2 harg2 arg3 harg3 _ h _ _ _ _ _ _ _

/-- Node 2 (parents 0, 0, 0, 0). -/
theorem step_2 (h : Filled x0 x1 x2 2 (kernelRun0_A.sl.HS0_2 (F := Ideal) c arg1 harg1 arg2 harg2 arg3 harg3 arg5 x0 x1 x2)) :
    Filled x0 x1 x2 3 (kernelRun0_A.sl.HS0_3 (F := Ideal) c arg1 harg1 arg2 harg2 arg3 harg3 arg5 x0 x1 x2) :=
  node_step x0 x1 x2 2 0 0 0 0 (by decide) (by decide) rfl rfl rfl rfl arg5.view arg2 harg2 arg3 harg3 _ h _ _ _ _ _ _ _

/-- Node 3 (parents 0, 0, 0, 0). -/
theorem step_3 (h : Filled x0 x1 x2 3 (kernelRun0_A.sl.HS0_3 (F := Ideal) c arg1 harg1 arg2 harg2 arg3 harg3 arg5 x0 x1 x2)) :
    Filled x0 x1 x2 4 (kernelRun0_A.sl.HS0_4 (F := Ideal) c arg1 harg1 arg2 harg2 arg3 harg3 arg5 x0 x1 x2) :=
  node_step x0 x1 x2 3 0 0 0 0 (by decide) (by decide) rfl rfl rfl rfl arg5.view arg2 harg2 arg3 harg3 _ h _ _ _ _ _ _ _

/-- Node 4 (parents 0, 0, 0, 0). -/
theorem step_4 (h : Filled x0 x1 x2 4 (kernelRun0_A.sl.HS0_4 (F := Ideal) c arg1 harg1 arg2 harg2 arg3 harg3 arg5 x0 x1 x2)) :
    Filled x0 x1 x2 5 (kernelRun0_A.sl.HS0_5 (F := Ideal) c arg1 harg1 arg2 harg2 arg3 harg3 arg5 x0 x1 x2) :=
  node_step x0 x1 x2 4 0 0 0 0 (by decide) (by decide) rfl rfl rfl rfl arg5.view arg2 harg2 arg3 harg3 _ h _ _ _ _ _ _ _

/-- Node 5 (parents 0, 0, 0, 0). -/
theorem step_5 (h : Filled x0 x1 x2 5 (kernelRun0_A.sl.HS0_5 (F := Ideal) c arg1 harg1 arg2 harg2 arg3 harg3 arg5 x0 x1 x2)) :
    Filled x0 x1 x2 6 (kernelRun0_A.sl.HS0_6 (F := Ideal) c arg1 harg1 arg2 harg2 arg3 harg3 arg5 x0 x1 x2) :=
  node_step x0 x1 x2 5 0 0 0 0 (by decide) (by decide) rfl rfl rfl rfl arg5.view arg2 harg2 arg3 harg3 _ h _ _ _ _ _ _ _

/-- Node 6 (parents 0, 0, 0, 0). -/
theorem step_6 (h : Filled x0 x1 x2 6 (kernelRun0_A.sl.HS0_6 (F := Ideal) c arg1 harg1 arg2 harg2 arg3 harg3 arg5 x0 x1 x2)) :
    Filled x0 x1 x2 7 (kernelRun0_A.sl.HS0_7 (F := Ideal) c arg1 harg1 arg2 harg2 arg3 harg3 arg5 x0 x1 x2) :=
  node_step x0 x1 x2 6 0 0 0 0 (by decide) (by decide) rfl rfl rfl rfl arg5.view arg2 harg2 arg3 harg3 _ h _ _ _ _ _ _ _

/-- Node 7 (parents 0, 0, 0, 0). -/
theorem step_7 (h : Filled x0 x1 x2 7 (kernelRun0_A.sl.HS0_7 (F := Ideal) c arg1 harg1 arg2 harg2 arg3 harg3 arg5 x0 x1 x2)) :
    Filled x0 x1 x2 8 (kernelRun0_A.sl.HS0_8 (F := Ideal) c arg1 harg1 arg2 harg2 arg3 harg3 arg5 x0 x1 x2) :=
  node_step x0 x1 x2 7 0 0 0 0 (by decide) (by decide) rfl rfl rfl rfl arg5.view arg2 harg2 arg3 harg3 _ h _ _ _ _ _ _ _

/-- Node 8 (parents 0, 0, 0, 0). -/
theorem step_8 (h : Filled x0 x1 x2 8 (kernelRun0_A.sl.HS0_8 (F := Ideal) c arg1 harg1 arg2 harg2 arg3 harg3 arg5 x0 x1 x2)) :
    Filled x0 x1 x2 9 (kernelRun0_A.sl.HS0_9 (F := Ideal) c arg1 harg1 arg2 harg2 arg3 harg3 arg5 x0 x1 x2) :=
  node_step x0 x1 x2 8 0 0 0 0 (by decide) (by decide) rfl rfl rfl rfl arg5.view arg2 harg2 arg3 harg3 _ h _ _ _ _ _ _ _

/-- Node 9 (parents 7, 5, 4, 2). -/
theorem step_9 (h : Filled x0 x1 x2 9 (kernelRun0_A.sl.HS0_9 (F := Ideal) c arg1 harg1 arg2 harg2 arg3 harg3 arg5 x0 x1 x2)) :
    Filled x0 x1 x2 10 (kernelRun0_A.sl.HS0_10 (F := Ideal) c arg1 harg1 arg2 harg2 arg3 harg3 arg5 x0 x1 x2) :=
  node_step x0 x1 x2 9 7 5 4 2 (by decide) (by decide) rfl rfl rfl rfl arg5.view arg2 harg2 arg3 harg3 _ h _ _ _ _ _ _ _

/-- Node 10 (parents 2, 0, 0, 0). -/
theorem step_10 (h : Filled x0 x1 x2 10 (kernelRun0_A.sl.HS0_10 (F := Ideal) c arg1 harg1 arg2 harg2 arg3 harg3 arg5 x0 x1 x2)) :
    Filled x0 x1 x2 11 (kernelRun0_A.sl.HS0_11 (F := Ideal) c arg1 harg1 arg2 harg2 arg3 harg3 arg5 x0 x1 x2) :=
  node_step x0 x1 x2 10 2 0 0 0 (by decide) (by decide) rfl rfl rfl rfl arg5.view arg2 harg2 arg3 harg3 _ h _ _ _ _ _ _ _

/-- Node 11 (parents 1, 7, 5, 8). -/
theorem step_11 (h : Filled x0 x1 x2 11 (kernelRun0_A.sl.HS0_11 (F := Ideal) c arg1 harg1 arg2 harg2 arg3 harg3 arg5 x0 x1 x2)) :
    Filled x0 x1 x2 12 (kernelRun0_A.sl.HS0_12 (F := Ideal) c arg1 harg1 arg2 harg2 arg3 harg3 arg5 x0 x1 x2) :=
  node_step x0 x1 x2 11 1 7 5 8 (by decide) (by decide) rfl rfl rfl rfl arg5.view arg2 harg2 arg3 harg3 _ h _ _ _ _ _ _ _

/-- Node 12 (parents 4, 5, 8, 6). -/
theorem step_12 (h : Filled x0 x1 x2 12 (kernelRun0_A.sl.HS0_12 (F := Ideal) c arg1 harg1 arg2 harg2 arg3 harg3 arg5 x0 x1 x2)) :
    Filled x0 x1 x2 13 (kernelRun0_A.sl.HS0_13 (F := Ideal) c arg1 harg1 arg2 harg2 arg3 harg3 arg5 x0 x1 x2) :=
  node_step x0 x1 x2 12 4 5 8 6 (by decide) (by decide) rfl rfl rfl rfl arg5.view arg2 harg2 arg3 harg3 _ h _ _ _ _ _ _ _

/-- Node 13 (parents 5, 4, 5, 8). -/
theorem step_13 (h : Filled x0 x1 x2 13 (kernelRun0_A.sl.HS0_13 (F := Ideal) c arg1 harg1 arg2 harg2 arg3 harg3 arg5 x0 x1 x2)) :
    Filled x0 x1 x2 14 (kernelRun0_A.sl.HS0_14 (F := Ideal) c arg1 harg1 arg2 harg2 arg3 harg3 arg5 x0 x1 x2) :=
  node_step x0 x1 x2 13 5 4 5 8 (by decide) (by decide) rfl rfl rfl rfl arg5.view arg2 harg2 arg3 harg3 _ h _ _ _ _ _ _ _

/-- Node 14 (parents 2, 7, 6, 0). -/
theorem step_14 (h : Filled x0 x1 x2 14 (kernelRun0_A.sl.HS0_14 (F := Ideal) c arg1 harg1 arg2 harg2 arg3 harg3 arg5 x0 x1 x2)) :
    Filled x0 x1 x2 15 (kernelRun0_A.sl.HS0_15 (F := Ideal) c arg1 harg1 arg2 harg2 arg3 harg3 arg5 x0 x1 x2) :=
  node_step x0 x1 x2 14 2 7 6 0 (by decide) (by decide) rfl rfl rfl rfl arg5.view arg2 harg2 arg3 harg3 _ h _ _ _ _ _ _ _

/-- Node 15 (parents 3, 7, 4, 0). -/
theorem step_15 (h : Filled x0 x1 x2 15 (kernelRun0_A.sl.HS0_15 (F := Ideal) c arg1 harg1 arg2 harg2 arg3 harg3 arg5 x0 x1 x2)) :
    Filled x0 x1 x2 16 (kernelRun0_A.sl.HS0_16 (F := Ideal) c arg1 harg1 arg2 harg2 arg3 harg3 arg5 x0 x1 x2) :=
  node_step x0 x1 x2 15 3 7 4 0 (by decide) (by decide) rfl rfl rfl rfl arg5.view arg2 harg2 arg3 harg3 _ h _ _ _ _ _ _ _

/-- Node 16 (parents 6, 6, 7, 1). -/
theorem step_16 (h : Filled x0 x1 x2 16 (kernelRun0_A.sl.HS0_16 (F := Ideal) c arg1 harg1 arg2 harg2 arg3 harg3 arg5 x0 x1 x2)) :
    Filled x0 x1 x2 17 (kernelRun0_A.sl.HS0_17 (F := Ideal) c arg1 harg1 arg2 harg2 arg3 harg3 arg5 x0 x1 x2) :=
  node_step x0 x1 x2 16 6 6 7 1 (by decide) (by decide) rfl rfl rfl rfl arg5.view arg2 harg2 arg3 harg3 _ h _ _ _ _ _ _ _

end Cert.KerSide

end
-- ==== Proof.KerChain2.lean ====
import proofs.«179685_j33062658245245_2_alg».proof.Proof.KerStep
import proofs.«179685_j33062658245245_2_alg».proof.Proof.Gen.KernelIdeal.Frame

/-!
# The body's stores, node by node (nodes 17 … 32)

Each store of the body after the first is the per-node arithmetic of four whole-slab loads of the node's parents
and of the node's weight slab and bias row: with the stack filled below the node, the store fills the node's slab.
-/

noncomputable section

namespace Cert.KerSide

open Cert.KernelIdeal Cert.KernelIdeal.Gen Idealize.ShloMosaic Idealize.ShloMosaic.ValueIdx

variable (c : Dev nD)
  (arg1 : Memref sig .tc .vmem S512x128 .f32) (harg1 : arg1.IsWhole)
  (arg2 : Memref sig .tc .vmem S65x128x128 .bf16) (harg2 : arg2.IsWhole)
  (arg3 : Memref sig .tc .vmem S65x128 .f32) (harg3 : arg3.IsWhole)
  (arg5 : Memref sig .tc .vmem S65x512x128 .f32)
  (x0 : Vec Ideal S512x128 .f32) (x1 : Vec Ideal S65x128x128 .bf16) (x2 : Vec Ideal S65x128 .f32)

/-- Node 17 (parents 1, 14, 0, 9). -/
theorem step_17 (h : Filled x0 x1 x2 17 (kernelRun0_A.sl.HS0_17 (F := Ideal) c arg1 harg1 arg2 harg2 arg3 harg3 arg5 x0 x1 x2)) :
    Filled x0 x1 x2 18 (kernelRun0_A.sl.HS0_18 (F := Ideal) c arg1 harg1 arg2 harg2 arg3 harg3 arg5 x0 x1 x2) :=
  node_step x0 x1 x2 17 1 14 0 9 (by decide) (by decide) rfl rfl rfl rfl arg5.view arg2 harg2 arg3 harg3 _ h _ _ _ _ _ _ _

/-- Node 18 (parents 1, 5, 8, 7). -/
theorem step_18 (h : Filled x0 x1 x2 18 (kernelRun0_A.sl.HS0_18 (F := Ideal) c arg1 harg1 arg2 harg2 arg3 harg3 arg5 x0 x1 x2)) :
    Filled x0 x1 x2 19 (kernelRun0_A.sl.HS0_19 (F := Ideal) c arg1 harg1 arg2 harg2 arg3 harg3 arg5 x0 x1 x2) :=
  node_step x0 x1 x2 18 1 5 8 7 (by decide) (by decide) rfl rfl rfl rfl arg5.view arg2 harg2 arg3 harg3 _ h _ _ _ _ _ _ _

/-- Node 19 (parents 6, 0, 0, 2). -/
theorem step_19 (h : Filled x0 x1 x2 19 (kernelRun0_A.sl.HS0_19 (F := Ideal) c arg1 harg1 arg2 harg2 arg3 harg3 arg5 x0 x1 x2)) :
    Filled x0 x1 x2 20 (kernelRun0_A.sl.HS0_20 (F := Ideal) c arg1 harg1 arg2 harg2 arg3 harg3 arg5 x0 x1 x2) :=
  node_step x0 x1 x2 19 6 0 0 2 (by decide) (by decide) rfl rfl rfl rfl arg5.view arg2 harg2 arg3 harg3 _ h _ _ _ _ _ _ _

/-- Node 20 (parents 0, 11, 8, 11). -/
theorem step_20 (h : Filled x0 x1 x2 20 (kernelRun0_A.sl.HS0_20 (F := Ideal) c arg1 harg1 arg2 harg2 arg3 harg3 arg5 x0 x1 x2)) :
    Filled x0 x1 x2 21 (kernelRun0_A.sl.HS0_21 (F := Ideal) c arg1 harg1 arg2 harg2 arg3 harg3 arg5 x0 x1 x2) :=
  node_step x0 x1 x2 20 0 11 8 11 (by decide) (by decide) rfl rfl rfl rfl arg5.view arg2 harg2 arg3 harg3 _ h _ _ _ _ _ _ _

/-- Node 21 (parents 4, 10, 12, 6). -/
theorem step_21 (h : Filled x0 x1 x2 21 (kernelRun0_A.sl.HS0_21 (F := Ideal) c arg1 harg1 arg2 harg2 arg3 harg3 arg5 x0 x1 x2)) :
    Filled x0 x1 x2 22 (kernelRun0_A.sl.HS0_22 (F := Ideal) c arg1 harg1 arg2 harg2 arg3 harg3 arg5 x0 x1 x2) :=
  node_step x0 x1 x2 21 4 10 12 6 (by decide) (by decide) rfl rfl rfl rfl arg5.view arg2 harg2 arg3 harg3 _ h _ _ _ _ _ _ _

/-- Node 22 (parents 7, 16, 13, 16). -/
theorem step_22 (h : Filled x0 x1 x2 22 (kernelRun0_A.sl.HS0_22 (F := Ideal) c arg1 harg1 arg2 harg2 arg3 harg3 arg5 x0 x1 x2)) :
    Filled x0 x1 x2 23 (kernelRun0_A.sl.HS0_23 (F := Ideal) c arg1 harg1 arg2 harg2 arg3 harg3 arg5 x0 x1 x2) :=
  node_step x0 x1 x2 22 7 16 13 16 (by decide) (by decide) rfl rfl rfl rfl arg5.view arg2 harg2 arg3 harg3 _ h _ _ _ _ _ _ _

/-- Node 23 (parents 6, 11, 16, 11). -/
theorem step_23 (h : Filled x0 x1 x2 23 (kernelRun0_A.sl.HS0_23 (F := Ideal) c arg1 harg1 arg2 harg2 arg3 harg3 arg5 x0 x1 x2)) :
    Filled x0 x1 x2 24 (kernelRun0_A.sl.HS0_24 (F := Ideal) c arg1 harg1 arg2 harg2 arg3 harg3 arg5 x0 x1 x2) :=
  node_step x0 x1 x2 23 6 11 16 11 (by decide) (by decide) rfl rfl rfl rfl arg5.view arg2 harg2 arg3 harg3 _ h _ _ _ _ _ _ _

/-- Node 24 (parents 14, 11, 11, 6). -/
theorem step_24 (h : Filled x0 x1 x2 24 (kernelRun0_A.sl.HS0_24 (F := Ideal) c arg1 harg1 arg2 harg2 arg3 harg3 arg5 x0 x1 x2)) :
    Filled x0 x1 x2 25 (kernelRun0_A.sl.HS0_25 (F := Ideal) c arg1 harg1 arg2 harg2 arg3 harg3 arg5 x0 x1 x2) :=
  node_step x0 x1 x2 24 14 11 11 6 (by decide) (by decide) rfl rfl rfl rfl arg5.view arg2 harg2 arg3 harg3 _ h _ _ _ _ _ _ _

/-- Node 25 (parents 21, 3, 14, 18). -/
theorem step_25 (h : Filled x0 x1 x2 25 (kernelRun0_A.sl.HS0_25 (F := Ideal) c arg1 harg1 arg2 harg2 arg3 harg3 arg5 x0 x1 x2)) :
    Filled x0 x1 x2 26 (kernelRun0_A.sl.HS0_26 (F := Ideal) c arg1 harg1 arg2 harg2 arg3 harg3 arg5 x0 x1 x2) :=
  node_step x0 x1 x2 25 21 3 14 18 (by decide) (by decide) rfl rfl rfl rfl arg5.view arg2 harg2 arg3 harg3 _ h _ _ _ _ _ _ _

/-- Node 26 (parents 21, 13, 9, 7). -/
theorem step_26 (h : Filled x0 x1 x2 26 (kernelRun0_A.sl.HS0_26 (F := Ideal) c arg1 harg1 arg2 harg2 arg3 harg3 arg5 x0 x1 x2)) :
    Filled x0 x1 x2 27 (kernelRun0_A.sl.HS0_27 (F := Ideal) c arg1 harg1 arg2 harg2 arg3 harg3 arg5 x0 x1 x2) :=
  node_step x0 x1 x2 26 21 13 9 7 (by decide) (by decide) rfl rfl rfl rfl arg5.view arg2 harg2 arg3 harg3 _ h _ _ _ _ _ _ _

/-- Node 27 (parents 10, 12, 17, 22). -/
theorem step_27 (h : Filled x0 x1 x2 27 (kernelRun0_A.sl.HS0_27 (F := Ideal) c arg1 harg1 arg2 harg2 arg3 harg3 arg5 x0 x1 x2)) :
    Filled x0 x1 x2 28 (kernelRun0_A.sl.HS0_28 (F := Ideal) c arg1 harg1 arg2 harg2 arg3 harg3 arg5 x0 x1 x2) :=
  node_step x0 x1 x2 27 10 12 17 22 (by decide) (by decide) rfl rfl rfl rfl arg5.view arg2 harg2 arg3 harg3 _ h _ _ _ _ _ _ _

/-- Node 28 (parents 1, 23, 13, 8). -/
theorem step_28 (h : Filled x0 x1 x2 28 (kernelRun0_A.sl.HS0_28 (F := Ideal) c arg1 harg1 arg2 harg2 arg3 harg3 arg5 x0 x1 x2)) :
    Filled x0 x1 x2 29 (kernelRun0_A.sl.HS0_29 (F := Ideal) c arg1 harg1 arg2 harg2 arg3 harg3 arg5 x0 x1 x2) :=
  node_step x0 x1 x2 28 1 23 13 8 (by decide) (by decide) rfl rfl rfl rfl arg5.view arg2 harg2 arg3 harg3 _ h _ _ _ _ _ _ _

/-- Node 29 (parents 16, 14, 6, 8). -/
theorem step_29 (h : Filled x0 x1 x2 29 (kernelRun0_A.sl.HS0_29 (F := Ideal) c arg1 harg1 arg2 harg2 arg3 harg3 arg5 x0 x1 x2)) :
    Filled x0 x1 x2 30 (kernelRun0_A.sl.HS0_30 (F := Ideal) c arg1 harg1 arg2 harg2 arg3 harg3 arg5 x0 x1 x2) :=
  node_step x0 x1 x2 29 16 14 6 8 (by decide) (by decide) rfl rfl rfl rfl arg5.view arg2 harg2 arg3 harg3 _ h _ _ _ _ _ _ _

/-- Node 30 (parents 17, 14, 12, 8). -/
theorem step_30 (h : Filled x0 x1 x2 30 (kernelRun0_A.sl.HS0_30 (F := Ideal) c arg1 harg1 arg2 harg2 arg3 harg3 arg5 x0 x1 x2)) :
    Filled x0 x1 x2 31 (kernelRun0_A.sl.HS0_31 (F := Ideal) c arg1 harg1 arg2 harg2 arg3 harg3 arg5 x0 x1 x2) :=
  node_step x0 x1 x2 30 17 14 12 8 (by decide) (by decide) rfl rfl rfl rfl arg5.view arg2 harg2 arg3 harg3 _ h _ _ _ _ _ _ _

/-- Node 31 (parents 19, 9, 8, 22). -/
theorem step_31 (h : Filled x0 x1 x2 31 (kernelRun0_A.sl.HS0_31 (F := Ideal) c arg1 harg1 arg2 harg2 arg3 harg3 arg5 x0 x1 x2)) :
    Filled x0 x1 x2 32 (kernelRun0_A.sl.HS0_32 (F := Ideal) c arg1 harg1 arg2 harg2 arg3 harg3 arg5 x0 x1 x2) :=
  node_step x0 x1 x2 31 19 9 8 22 (by decide) (by decide) rfl rfl rfl rfl arg5.view arg2 harg2 arg3 harg3 _ h _ _ _ _ _ _ _

/-- Node 32 (parents 6, 5, 17, 15). -/
theorem step_32 (h : Filled x0 x1 x2 32 (kernelRun0_A.sl.HS0_32 (F := Ideal) c arg1 harg1 arg2 harg2 arg3 harg3 arg5 x0 x1 x2)) :
    Filled x0 x1 x2 33 (kernelRun0_A.sl.HS0_33 (F := Ideal) c arg1 harg1 arg2 harg2 arg3 harg3 arg5 x0 x1 x2) :=
  node_step x0 x1 x2 32 6 5 17 15 (by decide) (by decide) rfl rfl rfl rfl arg5.view arg2 harg2 arg3 harg3 _ h _ _ _ _ _ _ _

end Cert.KerSide

end
-- ==== Proof.KerChain3.lean ====
import proofs.«179685_j33062658245245_2_alg».proof.Proof.KerStep
import proofs.«179685_j33062658245245_2_alg».proof.Proof.Gen.KernelIdeal.Frame

/-!
# The body's stores, node by node (nodes 33 … 48)

Each store of the body after the first is the per-node arithmetic of four whole-slab loads of the node's parents
and of the node's weight slab and bias row: with the stack filled below the node, the store fills the node's slab.
-/

noncomputable section

namespace Cert.KerSide

open Cert.KernelIdeal Cert.KernelIdeal.Gen Idealize.ShloMosaic Idealize.ShloMosaic.ValueIdx

variable (c : Dev nD)
  (arg1 : Memref sig .tc .vmem S512x128 .f32) (harg1 : arg1.IsWhole)
  (arg2 : Memref sig .tc .vmem S65x128x128 .bf16) (harg2 : arg2.IsWhole)
  (arg3 : Memref sig .tc .vmem S65x128 .f32) (harg3 : arg3.IsWhole)
  (arg5 : Memref sig .tc .vmem S65x512x128 .f32)
  (x0 : Vec Ideal S512x128 .f32) (x1 : Vec Ideal S65x128x128 .bf16) (x2 : Vec Ideal S65x128 .f32)

/-- Node 33 (parents 1, 2, 12, 27). -/
theorem step_33 (h : Filled x0 x1 x2 33 (kernelRun0_A.sl.HS0_33 (F := Ideal) c arg1 harg1 arg2 harg2 arg3 harg3 arg5 x0 x1 x2)) :
    Filled x0 x1 x2 34 (kernelRun0_A.sl.HS0_34 (F := Ideal) c arg1 harg1 arg2 harg2 arg3 harg3 arg5 x0 x1 x2) :=
  node_step x0 x1 x2 33 1 2 12 27 (by decide) (by decide) rfl rfl rfl rfl arg5.view arg2 harg2 arg3 harg3 _ h _ _ _ _ _ _ _

/-- Node 34 (parents 13, 25, 10, 7). -/
theorem step_34 (h : Filled x0 x1 x2 34 (kernelRun0_A.sl.HS0_34 (F := Ideal) c arg1 harg1 arg2 harg2 arg3 harg3 arg5 x0 x1 x2)) :
    Filled x0 x1 x2 35 (kernelRun0_A.sl.HS0_35 (F := Ideal) c arg1 harg1 arg2 harg2 arg3 harg3 arg5 x0 x1 x2) :=
  node_step x0 x1 x2 34 13 25 10 7 (by decide) (by decide) rfl rfl rfl rfl arg5.view arg2 harg2 arg3 harg3 _ h _ _ _ _ _ _ _

/-- Node 35 (parents 26, 28, 2, 1). -/
theorem step_35 (h : Filled x0 x1 x2 35 (kernelRun0_A.sl.HS0_35 (F := Ideal) c arg1 harg1 arg2 harg2 arg3 harg3 arg5 x0 x1 x2)) :
    Filled x0 x1 x2 36 (kernelRun0_A.sl.HS0_36 (F := Ideal) c arg1 harg1 arg2 harg2 arg3 harg3 arg5 x0 x1 x2) :=
  node_step x0 x1 x2 35 26 28 2 1 (by decide) (by decide) rfl rfl rfl rfl arg5.view arg2 harg2 arg3 harg3 _ h _ _ _ _ _ _ _

/-- Node 36 (parents 22, 11, 18, 4). -/
theorem step_36 (h : Filled x0 x1 x2 36 (kernelRun0_A.sl.HS0_36 (F := Ideal) c arg1 harg1 arg2 harg2 arg3 harg3 arg5 x0 x1 x2)) :
    Filled x0 x1 x2 37 (kernelRun0_A.sl.HS0_37 (F := Ideal) c arg1 harg1 arg2 harg2 arg3 harg3 arg5 x0 x1 x2) :=
  node_step x0 x1 x2 36 22 11 18 4 (by decide) (by decide) rfl rfl rfl rfl arg5.view arg2 harg2 arg3 harg3 _ h _ _ _ _ _ _ _

/-- Node 37 (parents 28, 14, 29, 26). -/
theorem step_37 (h : Filled x0 x1 x2 37 (kernelRun0_A.sl.HS0_37 (F := Ideal) c arg1 harg1 arg2 harg2 arg3 harg3 arg5 x0 x1 x2)) :
    Filled x0 x1 x2 38 (kernelRun0_A.sl.HS0_38 (F := Ideal) c arg1 harg1 arg2 harg2 arg3 harg3 arg5 x0 x1 x2) :=
  node_step x0 x1 x2 37 28 14 29 26 (by decide) (by decide) rfl rfl rfl rfl arg5.view arg2 harg2 arg3 harg3 _ h _ _ _ _ _ _ _

/-- Node 38 (parents 23, 7, 25, 1). -/
theorem step_38 (h : Filled x0 x1 x2 38 (kernelRun0_A.sl.HS0_38 (F := Ideal) c arg1 harg1 arg2 harg2 arg3 harg3 arg5 x0 x1 x2)) :
    Filled x0 x1 x2 39 (kernelRun0_A.sl.HS0_39 (F := Ideal) c arg1 harg1 arg2 harg2 arg3 harg3 arg5 x0 x1 x2) :=
  node_step x0 x1 x2 38 23 7 25 1 (by decide) (by decide) rfl rfl rfl rfl arg5.view arg2 harg2 arg3 harg3 _ h _ _ _ _ _ _ _

/-- Node 39 (parents 18, 13, 32, 6). -/
theorem step_39 (h : Filled x0 x1 x2 39 (kernelRun0_A.sl.HS0_39 (F := Ideal) c arg1 harg1 arg2 harg2 arg3 harg3 arg5 x0 x1 x2)) :
    Filled x0 x1 x2 40 (kernelRun0_A.sl.HS0_40 (F := Ideal) c arg1 harg1 arg2 harg2 arg3 harg3 arg5 x0 x1 x2) :=
  node_step x0 x1 x2 39 18 13 32 6 (by decide) (by decide) rfl rfl rfl rfl arg5.view arg2 harg2 arg3 harg3 _ h _ _ _ _ _ _ _

/-- Node 40 (parents 31, 2, 20, 19). -/
theorem step_40 (h : Filled x0 x1 x2 40 (kernelRun0_A.sl.HS0_40 (F := Ideal) c arg1 harg1 arg2 harg2 arg3 harg3 arg5 x0 x1 x2)) :
    Filled x0 x1 x2 41 (kernelRun0_A.sl.HS0_41 (F := Ideal) c arg1 harg1 arg2 harg2 arg3 harg3 arg5 x0 x1 x2) :=
  node_step x0 x1 x2 40 31 2 20 19 (by decide) (by decide) rfl rfl rfl rfl arg5.view arg2 harg2 arg3 harg3 _ h _ _ _ _ _ _ _

/-- Node 41 (parents 36, 12, 36, 27). -/
theorem step_41 (h : Filled x0 x1 x2 41 (kernelRun0_A.sl.HS0_41 (F := Ideal) c arg1 harg1 arg2 harg2 arg3 harg3 arg5 x0 x1 x2)) :
    Filled x0 x1 x2 42 (kernelRun0_A.sl.HS0_42 (F := Ideal) c arg1 harg1 arg2 harg2 arg3 harg3 arg5 x0 x1 x2) :=
  node_step x0 x1 x2 41 36 12 36 27 (by decide) (by decide) rfl rfl rfl rfl arg5.view arg2 harg2 arg3 harg3 _ h _ _ _ _ _ _ _

/-- Node 42 (parents 36, 8, 31, 38). -/
theorem step_42 (h : Filled x0 x1 x2 42 (kernelRun0_A.sl.HS0_42 (F := Ideal) c arg1 harg1 arg2 harg2 arg3 harg3 arg5 x0 x1 x2)) :
    Filled x0 x1 x2 43 (kernelRun0_A.sl.HS0_43 (F := Ideal) c arg1 harg1 arg2 harg2 arg3 harg3 arg5 x0 x1 x2) :=
  node_step x0 x1 x2 42 36 8 31 38 (by decide) (by decide) rfl rfl rfl rfl arg5.view arg2 harg2 arg3 harg3 _ h _ _ _ _ _ _ _

/-- Node 43 (parents 1, 14, 26, 4). -/
theorem step_43 (h : Filled x0 x1 x2 43 (kernelRun0_A.sl.HS0_43 (F := Ideal) c arg1 harg1 arg2 harg2 arg3 harg3 arg5 x0 x1 x2)) :
    Filled x0 x1 x2 44 (kernelRun0_A.sl.HS0_44 (F := Ideal) c arg1 harg1 arg2 harg2 arg3 harg3 arg5 x0 x1 x2) :=
  node_step x0 x1 x2 43 1 14 26 4 (by decide) (by decide) rfl rfl rfl rfl arg5.view arg2 harg2 arg3 harg3 _ h _ _ _ _ _ _ _

/-- Node 44 (parents 20, 25, 31, 38). -/
theorem step_44 (h : Filled x0 x1 x2 44 (kernelRun0_A.sl.HS0_44 (F := Ideal) c arg1 harg1 arg2 harg2 arg3 harg3 arg5 x0 x1 x2)) :
    Filled x0 x1 x2 45 (kernelRun0_A.sl.HS0_45 (F := Ideal) c arg1 harg1 arg2 harg2 arg3 harg3 arg5 x0 x1 x2) :=
  node_step x0 x1 x2 44 20 25 31 38 (by decide) (by decide) rfl rfl rfl rfl arg5.view arg2 harg2 arg3 harg3 _ h _ _ _ _ _ _ _

/-- Node 45 (parents 16, 18, 19, 39). -/
theorem step_45 (h : Filled x0 x1 x2 45 (kernelRun0_A.sl.HS0_45 (F := Ideal) c arg1 harg1 arg2 harg2 arg3 harg3 arg5 x0 x1 x2)) :
    Filled x0 x1 x2 46 (kernelRun0_A.sl.HS0_46 (F := Ideal) c arg1 harg1 arg2 harg2 arg3 harg3 arg5 x0 x1 x2) :=
  node_step x0 x1 x2 45 16 18 19 39 (by decide) (by decide) rfl rfl rfl rfl arg5.view arg2 harg2 arg3 harg3 _ h _ _ _ _ _ _ _

/-- Node 46 (parents 8, 20, 2, 17). -/
theorem step_46 (h : Filled x0 x1 x2 46 (kernelRun0_A.sl.HS0_46 (F := Ideal) c arg1 harg1 arg2 harg2 arg3 harg3 arg5 x0 x1 x2)) :
    Filled x0 x1 x2 47 (kernelRun0_A.sl.HS0_47 (F := Ideal) c arg1 harg1 arg2 harg2 arg3 harg3 arg5 x0 x1 x2) :=
  node_step x0 x1 x2 46 8 20 2 17 (by decide) (by decide) rfl rfl rfl rfl arg5.view arg2 harg2 arg3 harg3 _ h _ _ _ _ _ _ _

/-- Node 47 (parents 38, 25, 14, 40). -/
theorem step_47 (h : Filled x0 x1 x2 47 (kernelRun0_A.sl.HS0_47 (F := Ideal) c arg1 harg1 arg2 harg2 arg3 harg3 arg5 x0 x1 x2)) :
    Filled x0 x1 x2 48 (kernelRun0_A.sl.HS0_48 (F := Ideal) c arg1 harg1 arg2 harg2 arg3 harg3 arg5 x0 x1 x2) :=
  node_step x0 x1 x2 47 38 25 14 40 (by decide) (by decide) rfl rfl rfl rfl arg5.view arg2 harg2 arg3 harg3 _ h _ _ _ _ _ _ _

/-- Node 48 (parents 24, 38, 0, 18). -/
theorem step_48 (h : Filled x0 x1 x2 48 (kernelRun0_A.sl.HS0_48 (F := Ideal) c arg1 harg1 arg2 harg2 arg3 harg3 arg5 x0 x1 x2)) :
    Filled x0 x1 x2 49 (kernelRun0_A.sl.HS0_49 (F := Ideal) c arg1 harg1 arg2 harg2 arg3 harg3 arg5 x0 x1 x2) :=
  node_step x0 x1 x2 48 24 38 0 18 (by decide) (by decide) rfl rfl rfl rfl arg5.view arg2 harg2 arg3 harg3 _ h _ _ _ _ _ _ _

end Cert.KerSide

end
-- ==== Proof.KerChain4.lean ====
import proofs.«179685_j33062658245245_2_alg».proof.Proof.KerStep
import proofs.«179685_j33062658245245_2_alg».proof.Proof.Gen.KernelIdeal.Frame

/-!
# The body's stores, node by node (nodes 49 … 64)

Each store of the body after the first is the per-node arithmetic of four whole-slab loads of the node's parents
and of the node's weight slab and bias row: with the stack filled below the node, the store fills the node's slab.
-/

noncomputable section

namespace Cert.KerSide

open Cert.KernelIdeal Cert.KernelIdeal.Gen Idealize.ShloMosaic Idealize.ShloMosaic.ValueIdx

variable (c : Dev nD)
  (arg1 : Memref sig .tc .vmem S512x128 .f32) (harg1 : arg1.IsWhole)
  (arg2 : Memref sig .tc .vmem S65x128x128 .bf16) (harg2 : arg2.IsWhole)
  (arg3 : Memref sig .tc .vmem S65x128 .f32) (harg3 : arg3.IsWhole)
  (arg5 : Memref sig .tc .vmem S65x512x128 .f32)
  (x0 : Vec Ideal S512x128 .f32) (x1 : Vec Ideal S65x128x128 .bf16) (x2 : Vec Ideal S65x128 .f32)

/-- Node 49 (parents 40, 37, 19, 24). -/
theorem step_49 (h : Filled x0 x1 x2 49 (kernelRun0_A.sl.HS0_49 (F := Ideal) c arg1 harg1 arg2 harg2 arg3 harg3 arg5 x0 x1 x2)) :
    Filled x0 x1 x2 50 (kernelRun0_A.sl.HS0_50 (F := Ideal) c arg1 harg1 arg2 harg2 arg3 harg3 arg5 x0 x1 x2) :=
  node_step x0 x1 x2 49 40 37 19 24 (by decide) (by decide) rfl rfl rfl rfl arg5.view arg2 harg2 arg3 harg3 _ h _ _ _ _ _ _ _

/-- Node 50 (parents 20, 25, 11, 38). -/
theorem step_50 (h : Filled x0 x1 x2 50 (kernelRun0_A.sl.HS0_50 (F := Ideal) c arg1 harg1 arg2 harg2 arg3 harg3 arg5 x0 x1 x2)) :
    Filled x0 x1 x2 51 (kernelRun0_A.sl.HS0_51 (F := Ideal) c arg1 harg1 arg2 harg2 arg3 harg3 arg5 x0 x1 x2) :=
  node_step x0 x1 x2 50 20 25 11 38 (by decide) (by decide) rfl rfl rfl rfl arg5.view arg2 harg2 arg3 harg3 _ h _ _ _ _ _ _ _

/-- Node 51 (parents 3, 20, 13, 35). -/
theorem step_51 (h : Filled x0 x1 x2 51 (kernelRun0_A.sl.HS0_51 (F := Ideal) c arg1 harg1 arg2 harg2 arg3 harg3 arg5 x0 x1 x2)) :
    Filled x0 x1 x2 52 (kernelRun0_A.sl.HS0_52 (F := Ideal) c arg1 harg1 arg2 harg2 arg3 harg3 arg5 x0 x1 x2) :=
  node_step x0 x1 x2 51 3 20 13 35 (by decide) (by decide) rfl rfl rfl rfl arg5.view arg2 harg2 arg3 harg3 _ h _ _ _ _ _ _ _

/-- Node 52 (parents 36, 34, 45, 45). -/
theorem step_52 (h : Filled x0 x1 x2 52 (kernelRun0_A.sl.HS0_52 (F := Ideal) c arg1 harg1 arg2 harg2 arg3 harg3 arg5 x0 x1 x2)) :
    Filled x0 x1 x2 53 (kernelRun0_A.sl.HS0_53 (F := Ideal) c arg1 harg1 arg2 harg2 arg3 harg3 arg5 x0 x1 x2) :=
  node_step x0 x1 x2 52 36 34 45 45 (by decide) (by decide) rfl rfl rfl rfl arg5.view arg2 harg2 arg3 harg3 _ h _ _ _ _ _ _ _

/-- Node 53 (parents 9, 5, 6, 35). -/
theorem step_53 (h : Filled x0 x1 x2 53 (kernelRun0_A.sl.HS0_53 (F := Ideal) c arg1 harg1 arg2 harg2 arg3 harg3 arg5 x0 x1 x2)) :
    Filled x0 x1 x2 54 (kernelRun0_A.sl.HS0_54 (F := Ideal) c arg1 harg1 arg2 harg2 arg3 harg3 arg5 x0 x1 x2) :=
  node_step x0 x1 x2 53 9 5 6 35 (by decide) (by decide) rfl rfl rfl rfl arg5.view arg2 harg2 arg3 harg3 _ h _ _ _ _ _ _ _

/-- Node 54 (parents 47, 45, 32, 47). -/
theorem step_54 (h : Filled x0 x1 x2 54 (kernelRun0_A.sl.HS0_54 (F := Ideal) c arg1 harg1 arg2 harg2 arg3 harg3 arg5 x0 x1 x2)) :
    Filled x0 x1 x2 55 (kernelRun0_A.sl.HS0_55 (F := Ideal) c arg1 harg1 arg2 harg2 arg3 harg3 arg5 x0 x1 x2) :=
  node_step x0 x1 x2 54 47 45 32 47 (by decide) (by decide) rfl rfl rfl rfl arg5.view arg2 harg2 arg3 harg3 _ h _ _ _ _ _ _ _

/-- Node 55 (parents 42, 0, 5, 42). -/
theorem step_55 (h : Filled x0 x1 x2 55 (kernelRun0_A.sl.HS0_55 (F := Ideal) c arg1 harg1 arg2 harg2 arg3 harg3 arg5 x0 x1 x2)) :
    Filled x0 x1 x2 56 (kernelRun0_A.sl.HS0_56 (F := Ideal) c arg1 harg1 arg2 harg2 arg3 harg3 arg5 x0 x1 x2) :=
  node_step x0 x1 x2 55 42 0 5 42 (by decide) (by decide) rfl rfl rfl rfl arg5.view arg2 harg2 arg3 harg3 _ h _ _ _ _ _ _ _

/-- Node 56 (parents 4, 48, 40, 46). -/
theorem step_56 (h : Filled x0 x1 x2 56 (kernelRun0_A.sl.HS0_56 (F := Ideal) c arg1 harg1 arg2 harg2 arg3 harg3 arg5 x0 x1 x2)) :
    Filled x0 x1 x2 57 (kernelRun0_A.sl.HS0_57 (F := Ideal) c arg1 harg1 arg2 harg2 arg3 harg3 arg5 x0 x1 x2) :=
  node_step x0 x1 x2 56 4 48 40 46 (by decide) (by decide) rfl rfl rfl rfl arg5.view arg2 harg2 arg3 harg3 _ h _ _ _ _ _ _ _

/-- Node 57 (parents 20, 8, 29, 55). -/
theorem step_57 (h : Filled x0 x1 x2 57 (kernelRun0_A.sl.HS0_57 (F := Ideal) c arg1 harg1 arg2 harg2 arg3 harg3 arg5 x0 x1 x2)) :
    Filled x0 x1 x2 58 (kernelRun0_A.sl.HS0_58 (F := Ideal) c arg1 harg1 arg2 harg2 arg3 harg3 arg5 x0 x1 x2) :=
  node_step x0 x1 x2 57 20 8 29 55 (by decide) (by decide) rfl rfl rfl rfl arg5.view arg2 harg2 arg3 harg3 _ h _ _ _ _ _ _ _

/-- Node 58 (parents 20, 50, 21, 46). -/
theorem step_58 (h : Filled x0 x1 x2 58 (kernelRun0_A.sl.HS0_58 (F := Ideal) c arg1 harg1 arg2 harg2 arg3 harg3 arg5 x0 x1 x2)) :
    Filled x0 x1 x2 59 (kernelRun0_A.sl.HS0_59 (F := Ideal) c arg1 harg1 arg2 harg2 arg3 harg3 arg5 x0 x1 x2) :=
  node_step x0 x1 x2 58 20 50 21 46 (by decide) (by decide) rfl rfl rfl rfl arg5.view arg2 harg2 arg3 harg3 _ h _ _ _ _ _ _ _

/-- Node 59 (parents 13, 27, 18, 13). -/
theorem step_59 (h : Filled x0 x1 x2 59 (kernelRun0_A.sl.HS0_59 (F := Ideal) c arg1 harg1 arg2 harg2 arg3 harg3 arg5 x0 x1 x2)) :
    Filled x0 x1 x2 60 (kernelRun0_A.sl.HS0_60 (F := Ideal) c arg1 harg1 arg2 harg2 arg3 harg3 arg5 x0 x1 x2) :=
  node_step x0 x1 x2 59 13 27 18 13 (by decide) (by decide) rfl rfl rfl rfl arg5.view arg2 harg2 arg3 harg3 _ h _ _ _ _ _ _ _

/-- Node 60 (parents 50, 45, 7, 52). -/
theorem step_60 (h : Filled x0 x1 x2 60 (kernelRun0_A.sl.HS0_60 (F := Ideal) c arg1 harg1 arg2 harg2 arg3 harg3 arg5 x0 x1 x2)) :
    Filled x0 x1 x2 61 (kernelRun0_A.sl.HS0_61 (F := Ideal) c arg1 harg1 arg2 harg2 arg3 harg3 arg5 x0 x1 x2) :=
  node_step x0 x1 x2 60 50 45 7 52 (by decide) (by decide) rfl rfl rfl rfl arg5.view arg2 harg2 arg3 harg3 _ h _ _ _ _ _ _ _

/-- Node 61 (parents 55, 15, 24, 30). -/
theorem step_61 (h : Filled x0 x1 x2 61 (kernelRun0_A.sl.HS0_61 (F := Ideal) c arg1 harg1 arg2 harg2 arg3 harg3 arg5 x0 x1 x2)) :
    Filled x0 x1 x2 62 (kernelRun0_A.sl.HS0_62 (F := Ideal) c arg1 harg1 arg2 harg2 arg3 harg3 arg5 x0 x1 x2) :=
  node_step x0 x1 x2 61 55 15 24 30 (by decide) (by decide) rfl rfl rfl rfl arg5.view arg2 harg2 arg3 harg3 _ h _ _ _ _ _ _ _

/-- Node 62 (parents 37, 25, 8, 53). -/
theorem step_62 (h : Filled x0 x1 x2 62 (kernelRun0_A.sl.HS0_62 (F := Ideal) c arg1 harg1 arg2 harg2 arg3 harg3 arg5 x0 x1 x2)) :
    Filled x0 x1 x2 63 (kernelRun0_A.sl.HS0_63 (F := Ideal) c arg1 harg1 arg2 harg2 arg3 harg3 arg5 x0 x1 x2) :=
  node_step x0 x1 x2 62 37 25 8 53 (by decide) (by decide) rfl rfl rfl rfl arg5.view arg2 harg2 arg3 harg3 _ h _ _ _ _ _ _ _

/-- Node 63 (parents 39, 2, 46, 41). -/
theorem step_63 (h : Filled x0 x1 x2 63 (kernelRun0_A.sl.HS0_63 (F := Ideal) c arg1 harg1 arg2 harg2 arg3 harg3 arg5 x0 x1 x2)) :
    Filled x0 x1 x2 64 (kernelRun0_A.sl.HS0_64 (F := Ideal) c arg1 harg1 arg2 harg2 arg3 harg3 arg5 x0 x1 x2) :=
  node_step x0 x1 x2 63 39 2 46 41 (by decide) (by decide) rfl rfl rfl rfl arg5.view arg2 harg2 arg3 harg3 _ h _ _ _ _ _ _ _

/-- Node 64 (parents 10, 35, 28, 1). -/
theorem step_64 (h : Filled x0 x1 x2 64 (kernelRun0_A.sl.HS0_64 (F := Ideal) c arg1 harg1 arg2 harg2 arg3 harg3 arg5 x0 x1 x2)) :
    Filled x0 x1 x2 65 (kernelRun0_A.sl.HS0_65 (F := Ideal) c arg1 harg1 arg2 harg2 arg3 harg3 arg5 x0 x1 x2) :=
  node_step x0 x1 x2 64 10 35 28 1 (by decide) (by decide) rfl rfl rfl rfl arg5.view arg2 harg2 arg3 harg3 _ h _ _ _ _ _ _ _

end Cert.KerSide

end
-- ==== Proof.KerChain.lean ====
import proofs.«179685_j33062658245245_2_alg».proof.Proof.KerChain1
import proofs.«179685_j33062658245245_2_alg».proof.Proof.KerChain2
import proofs.«179685_j33062658245245_2_alg».proof.Proof.KerChain3
import proofs.«179685_j33062658245245_2_alg».proof.Proof.KerChain4

/-!
# The scratch stack after all 65 stores

The input node's store fills slab 0; each later store fills the next slab; so after the last store every slab
holds its node's activation.
-/

noncomputable section

namespace Cert.KerSide

open Cert.KernelIdeal Cert.KernelIdeal.Gen Idealize.ShloMosaic Idealize.ShloMosaic.ValueIdx

variable (c : Dev nD)
  (arg1 : Memref sig .tc .vmem S512x128 .f32) (harg1 : arg1.IsWhole)
  (arg2 : Memref sig .tc .vmem S65x128x128 .bf16) (harg2 : arg2.IsWhole)
  (arg3 : Memref sig .tc .vmem S65x128 .f32) (harg3 : arg3.IsWhole)
  (arg5 : Memref sig .tc .vmem S65x512x128 .f32)
  (x0 : Vec Ideal S512x128 .f32) (x1 : Vec Ideal S65x128x128 .bf16) (x2 : Vec Ideal S65x128 .f32)

/-- After the input node's store, slab 0 is filled. -/
theorem filled_1 : Filled x0 x1 x2 1 (kernelRun0_A.sl.HS0_1 (F := Ideal) c arg1 harg1 arg2 harg2 arg3 harg3 x0 x1 x2) :=
  node0_step x0 x1 x2 arg1 harg1 arg2 harg2 arg3 harg3 _ _ _ _

theorem filled_2 : Filled x0 x1 x2 2 (kernelRun0_A.sl.HS0_2 (F := Ideal) c arg1 harg1 arg2 harg2 arg3 harg3 arg5 x0 x1 x2) :=
  step_1 c arg1 harg1 arg2 harg2 arg3 harg3 arg5 x0 x1 x2 (filled_1 c arg1 harg1 arg2 harg2 arg3 harg3 x0 x1 x2)

theorem filled_3 : Filled x0 x1 x2 3 (kernelRun0_A.sl.HS0_3 (F := Ideal) c arg1 harg1 arg2 harg2 arg3 harg3 arg5 x0 x1 x2) :=
  step_2 c arg1 harg1 arg2 harg2 arg3 harg3 arg5 x0 x1 x2 (filled_2 c arg1 harg1 arg2 harg2 arg3 harg3 arg5 x0 x1 x2)

theorem filled_4 : Filled x0 x1 x2 4 (kernelRun0_A.sl.HS0_4 (F := Ideal) c arg1 harg1 arg2 harg2 arg3 harg3 arg5 x0 x1 x2) :=
  step_3 c arg1 harg1 arg2 harg2 arg3 harg3 arg5 x0 x1 x2 (filled_3 c arg1 harg1 arg2 harg2 arg3 harg3 arg5 x0 x1 x2)

theorem filled_5 : Filled x0 x1 x2 5 (kernelRun0_A.sl.HS0_5 (F := Ideal) c arg1 harg1 arg2 harg2 arg3 harg3 arg5 x0 x1 x2) :=
  step_4 c arg1 harg1 arg2 harg2 arg3 harg3 arg5 x0 x1 x2 (filled_4 c arg1 harg1 arg2 harg2 arg3 harg3 arg5 x0 x1 x2)

theorem filled_6 : Filled x0 x1 x2 6 (kernelRun0_A.sl.HS0_6 (F := Ideal) c arg1 harg1 arg2 harg2 arg3 harg3 arg5 x0 x1 x2) :=
  step_5 c arg1 harg1 arg2 harg2 arg3 harg3 arg5 x0 x1 x2 (filled_5 c arg1 harg1 arg2 harg2 arg3 harg3 arg5 x0 x1 x2)

theorem filled_7 : Filled x0 x1 x2 7 (kernelRun0_A.sl.HS0_7 (F := Ideal) c arg1 harg1 arg2 harg2 arg3 harg3 arg5 x0 x1 x2) :=
  step_6 c arg1 harg1 arg2 harg2 arg3 harg3 arg5 x0 x1 x2 (filled_6 c arg1 harg1 arg2 harg2 arg3 harg3 arg5 x0 x1 x2)

theorem filled_8 : Filled x0 x1 x2 8 (kernelRun0_A.sl.HS0_8 (F := Ideal) c arg1 harg1 arg2 harg2 arg3 harg3 arg5 x0 x1 x2) :=
  step_7 c arg1 harg1 arg2 harg2 arg3 harg3 arg5 x0 x1 x2 (filled_7 c arg1 harg1 arg2 harg2 arg3 harg3 arg5 x0 x1 x2)

theorem filled_9 : Filled x0 x1 x2 9 (kernelRun0_A.sl.HS0_9 (F := Ideal) c arg1 harg1 arg2 harg2 arg3 harg3 arg5 x0 x1 x2) :=
  step_8 c arg1 harg1 arg2 harg2 arg3 harg3 arg5 x0 x1 x2 (filled_8 c arg1 harg1 arg2 harg2 arg3 harg3 arg5 x0 x1 x2)

theorem filled_10 : Filled x0 x1 x2 10 (kernelRun0_A.sl.HS0_10 (F := Ideal) c arg1 harg1 arg2 harg2 arg3 harg3 arg5 x0 x1 x2) :=
  step_9 c arg1 harg1 arg2 harg2 arg3 harg3 arg5 x0 x1 x2 (filled_9 c arg1 harg1 arg2 harg2 arg3 harg3 arg5 x0 x1 x2)

theorem filled_11 : Filled x0 x1 x2 11 (kernelRun0_A.sl.HS0_11 (F := Ideal) c arg1 harg1 arg2 harg2 arg3 harg3 arg5 x0 x1 x2) :=
  step_10 c arg1 harg1 arg2 harg2 arg3 harg3 arg5 x0 x1 x2 (filled_10 c arg1 harg1 arg2 harg2 arg3 harg3 arg5 x0 x1 x2)

theorem filled_12 : Filled x0 x1 x2 12 (kernelRun0_A.sl.HS0_12 (F := Ideal) c arg1 harg1 arg2 harg2 arg3 harg3 arg5 x0 x1 x2) :=
  step_11 c arg1 harg1 arg2 harg2 arg3 harg3 arg5 x0 x1 x2 (filled_11 c arg1 harg1 arg2 harg2 arg3 harg3 arg5 x0 x1 x2)

theorem filled_13 : Filled x0 x1 x2 13 (kernelRun0_A.sl.HS0_13 (F := Ideal) c arg1 harg1 arg2 harg2 arg3 harg3 arg5 x0 x1 x2) :=
  step_12 c arg1 harg1 arg2 harg2 arg3 harg3 arg5 x0 x1 x2 (filled_12 c arg1 harg1 arg2 harg2 arg3 harg3 arg5 x0 x1 x2)

theorem filled_14 : Filled x0 x1 x2 14 (kernelRun0_A.sl.HS0_14 (F := Ideal) c arg1 harg1 arg2 harg2 arg3 harg3 arg5 x0 x1 x2) :=
  step_13 c arg1 harg1 arg2 harg2 arg3 harg3 arg5 x0 x1 x2 (filled_13 c arg1 harg1 arg2 harg2 arg3 harg3 arg5 x0 x1 x2)

theorem filled_15 : Filled x0 x1 x2 15 (kernelRun0_A.sl.HS0_15 (F := Ideal) c arg1 harg1 arg2 harg2 arg3 harg3 arg5 x0 x1 x2) :=
  step_14 c arg1 harg1 arg2 harg2 arg3 harg3 arg5 x0 x1 x2 (filled_14 c arg1 harg1 arg2 harg2 arg3 harg3 arg5 x0 x1 x2)

theorem filled_16 : Filled x0 x1 x2 16 (kernelRun0_A.sl.HS0_16 (F := Ideal) c arg1 harg1 arg2 harg2 arg3 harg3 arg5 x0 x1 x2) :=
  step_15 c arg1 harg1 arg2 harg2 arg3 harg3 arg5 x0 x1 x2 (filled_15 c arg1 harg1 arg2 harg2 arg3 harg3 arg5 x0 x1 x2)

theorem filled_17 : Filled x0 x1 x2 17 (kernelRun0_A.sl.HS0_17 (F := Ideal) c arg1 harg1 arg2 harg2 arg3 harg3 arg5 x0 x1 x2) :=
  step_16 c arg1 harg1 arg2 harg2 arg3 harg3 arg5 x0 x1 x2 (filled_16 c arg1 harg1 arg2 harg2 arg3 harg3 arg5 x0 x1 x2)

theorem filled_18 : Filled x0 x1 x2 18 (kernelRun0_A.sl.HS0_18 (F := Ideal) c arg1 harg1 arg2 harg2 arg3 harg3 arg5 x0 x1 x2) :=
  step_17 c arg1 harg1 arg2 harg2 arg3 harg3 arg5 x0 x1 x2 (filled_17 c arg1 harg1 arg2 harg2 arg3 harg3 arg5 x0 x1 x2)

theorem filled_19 : Filled x0 x1 x2 19 (kernelRun0_A.sl.HS0_19 (F := Ideal) c arg1 harg1 arg2 harg2 arg3 harg3 arg5 x0 x1 x2) :=
  step_18 c arg1 harg1 arg2 harg2 arg3 harg3 arg5 x0 x1 x2 (filled_18 c arg1 harg1 arg2 harg2 arg3 harg3 arg5 x0 x1 x2)

theorem filled_20 : Filled x0 x1 x2 20 (kernelRun0_A.sl.HS0_20 (F := Ideal) c arg1 harg1 arg2 harg2 arg3 harg3 arg5 x0 x1 x2) :=
  step_19 c arg1 harg1 arg2 harg2 arg3 harg3 arg5 x0 x1 x2 (filled_19 c arg1 harg1 arg2 harg2 arg3 harg3 arg5 x0 x1 x2)

theorem filled_21 : Filled x0 x1 x2 21 (kernelRun0_A.sl.HS0_21 (F := Ideal) c arg1 harg1 arg2 harg2 arg3 harg3 arg5 x0 x1 x2) :=
  step_20 c arg1 harg1 arg2 harg2 arg3 harg3 arg5 x0 x1 x2 (filled_20 c arg1 harg1 arg2 harg2 arg3 harg3 arg5 x0 x1 x2)

theorem filled_22 : Filled x0 x1 x2 22 (kernelRun0_A.sl.HS0_22 (F := Ideal) c arg1 harg1 arg2 harg2 arg3 harg3 arg5 x0 x1 x2) :=
  step_21 c arg1 harg1 arg2 harg2 arg3 harg3 arg5 x0 x1 x2 (filled_21 c arg1 harg1 arg2 harg2 arg3 harg3 arg5 x0 x1 x2)

theorem filled_23 : Filled x0 x1 x2 23 (kernelRun0_A.sl.HS0_23 (F := Ideal) c arg1 harg1 arg2 harg2 arg3 harg3 arg5 x0 x1 x2) :=
  step_22 c arg1 harg1 arg2 harg2 arg3 harg3 arg5 x0 x1 x2 (filled_22 c arg1 harg1 arg2 harg2 arg3 harg3 arg5 x0 x1 x2)

theorem filled_24 : Filled x0 x1 x2 24 (kernelRun0_A.sl.HS0_24 (F := Ideal) c arg1 harg1 arg2 harg2 arg3 harg3 arg5 x0 x1 x2) :=
  step_23 c arg1 harg1 arg2 harg2 arg3 harg3 arg5 x0 x1 x2 (filled_23 c arg1 harg1 arg2 harg2 arg3 harg3 arg5 x0 x1 x2)

theorem filled_25 : Filled x0 x1 x2 25 (kernelRun0_A.sl.HS0_25 (F := Ideal) c arg1 harg1 arg2 harg2 arg3 harg3 arg5 x0 x1 x2) :=
  step_24 c arg1 harg1 arg2 harg2 arg3 harg3 arg5 x0 x1 x2 (filled_24 c arg1 harg1 arg2 harg2 arg3 harg3 arg5 x0 x1 x2)

theorem filled_26 : Filled x0 x1 x2 26 (kernelRun0_A.sl.HS0_26 (F := Ideal) c arg1 harg1 arg2 harg2 arg3 harg3 arg5 x0 x1 x2) :=
  step_25 c arg1 harg1 arg2 harg2 arg3 harg3 arg5 x0 x1 x2 (filled_25 c arg1 harg1 arg2 harg2 arg3 harg3 arg5 x0 x1 x2)

theorem filled_27 : Filled x0 x1 x2 27 (kernelRun0_A.sl.HS0_27 (F := Ideal) c arg1 harg1 arg2 harg2 arg3 harg3 arg5 x0 x1 x2) :=
  step_26 c arg1 harg1 arg2 harg2 arg3 harg3 arg5 x0 x1 x2 (filled_26 c arg1 harg1 arg2 harg2 arg3 harg3 arg5 x0 x1 x2)

theorem filled_28 : Filled x0 x1 x2 28 (kernelRun0_A.sl.HS0_28 (F := Ideal) c arg1 harg1 arg2 harg2 arg3 harg3 arg5 x0 x1 x2) :=
  step_27 c arg1 harg1 arg2 harg2 arg3 harg3 arg5 x0 x1 x2 (filled_27 c arg1 harg1 arg2 harg2 arg3 harg3 arg5 x0 x1 x2)

theorem filled_29 : Filled x0 x1 x2 29 (kernelRun0_A.sl.HS0_29 (F := Ideal) c arg1 harg1 arg2 harg2 arg3 harg3 arg5 x0 x1 x2) :=
  step_28 c arg1 harg1 arg2 harg2 arg3 harg3 arg5 x0 x1 x2 (filled_28 c arg1 harg1 arg2 harg2 arg3 harg3 arg5 x0 x1 x2)

theorem filled_30 : Filled x0 x1 x2 30 (kernelRun0_A.sl.HS0_30 (F := Ideal) c arg1 harg1 arg2 harg2 arg3 harg3 arg5 x0 x1 x2) :=
  step_29 c arg1 harg1 arg2 harg2 arg3 harg3 arg5 x0 x1 x2 (filled_29 c arg1 harg1 arg2 harg2 arg3 harg3 arg5 x0 x1 x2)

theorem filled_31 : Filled x0 x1 x2 31 (kernelRun0_A.sl.HS0_31 (F := Ideal) c arg1 harg1 arg2 harg2 arg3 harg3 arg5 x0 x1 x2) :=
  step_30 c arg1 harg1 arg2 harg2 arg3 harg3 arg5 x0 x1 x2 (filled_30 c arg1 harg1 arg2 harg2 arg3 harg3 arg5 x0 x1 x2)

theorem filled_32 : Filled x0 x1 x2 32 (kernelRun0_A.sl.HS0_32 (F := Ideal) c arg1 harg1 arg2 harg2 arg3 harg3 arg5 x0 x1 x2) :=
  step_31 c arg1 harg1 arg2 harg2 arg3 harg3 arg5 x0 x1 x2 (filled_31 c arg1 harg1 arg2 harg2 arg3 harg3 arg5 x0 x1 x2)

theorem filled_33 : Filled x0 x1 x2 33 (kernelRun0_A.sl.HS0_33 (F := Ideal) c arg1 harg1 arg2 harg2 arg3 harg3 arg5 x0 x1 x2) :=
  step_32 c arg1 harg1 arg2 harg2 arg3 harg3 arg5 x0 x1 x2 (filled_32 c arg1 harg1 arg2 harg2 arg3 harg3 arg5 x0 x1 x2)

theorem filled_34 : Filled x0 x1 x2 34 (kernelRun0_A.sl.HS0_34 (F := Ideal) c arg1 harg1 arg2 harg2 arg3 harg3 arg5 x0 x1 x2) :=
  step_33 c arg1 harg1 arg2 harg2 arg3 harg3 arg5 x0 x1 x2 (filled_33 c arg1 harg1 arg2 harg2 arg3 harg3 arg5 x0 x1 x2)

theorem filled_35 : Filled x0 x1 x2 35 (kernelRun0_A.sl.HS0_35 (F := Ideal) c arg1 harg1 arg2 harg2 arg3 harg3 arg5 x0 x1 x2) :=
  step_34 c arg1 harg1 arg2 harg2 arg3 harg3 arg5 x0 x1 x2 (filled_34 c arg1 harg1 arg2 harg2 arg3 harg3 arg5 x0 x1 x2)

theorem filled_36 : Filled x0 x1 x2 36 (kernelRun0_A.sl.HS0_36 (F := Ideal) c arg1 harg1 arg2 harg2 arg3 harg3 arg5 x0 x1 x2) :=
  step_35 c arg1 harg1 arg2 harg2 arg3 harg3 arg5 x0 x1 x2 (filled_35 c arg1 harg1 arg2 harg2 arg3 harg3 arg5 x0 x1 x2)

theorem filled_37 : Filled x0 x1 x2 37 (kernelRun0_A.sl.HS0_37 (F := Ideal) c arg1 harg1 arg2 harg2 arg3 harg3 arg5 x0 x1 x2) :=
  step_36 c arg1 harg1 arg2 harg2 arg3 harg3 arg5 x0 x1 x2 (filled_36 c arg1 harg1 arg2 harg2 arg3 harg3 arg5 x0 x1 x2)

theorem filled_38 : Filled x0 x1 x2 38 (kernelRun0_A.sl.HS0_38 (F := Ideal) c arg1 harg1 arg2 harg2 arg3 harg3 arg5 x0 x1 x2) :=
  step_37 c arg1 harg1 arg2 harg2 arg3 harg3 arg5 x0 x1 x2 (filled_37 c arg1 harg1 arg2 harg2 arg3 harg3 arg5 x0 x1 x2)

theorem filled_39 : Filled x0 x1 x2 39 (kernelRun0_A.sl.HS0_39 (F := Ideal) c arg1 harg1 arg2 harg2 arg3 harg3 arg5 x0 x1 x2) :=
  step_38 c arg1 harg1 arg2 harg2 arg3 harg3 arg5 x0 x1 x2 (filled_38 c arg1 harg1 arg2 harg2 arg3 harg3 arg5 x0 x1 x2)

theorem filled_40 : Filled x0 x1 x2 40 (kernelRun0_A.sl.HS0_40 (F := Ideal) c arg1 harg1 arg2 harg2 arg3 harg3 arg5 x0 x1 x2) :=
  step_39 c arg1 harg1 arg2 harg2 arg3 harg3 arg5 x0 x1 x2 (filled_39 c arg1 harg1 arg2 harg2 arg3 harg3 arg5 x0 x1 x2)

theorem filled_41 : Filled x0 x1 x2 41 (kernelRun0_A.sl.HS0_41 (F := Ideal) c arg1 harg1 arg2 harg2 arg3 harg3 arg5 x0 x1 x2) :=
  step_40 c arg1 harg1 arg2 harg2 arg3 harg3 arg5 x0 x1 x2 (filled_40 c arg1 harg1 arg2 harg2 arg3 harg3 arg5 x0 x1 x2)

theorem filled_42 : Filled x0 x1 x2 42 (kernelRun0_A.sl.HS0_42 (F := Ideal) c arg1 harg1 arg2 harg2 arg3 harg3 arg5 x0 x1 x2) :=
  step_41 c arg1 harg1 arg2 harg2 arg3 harg3 arg5 x0 x1 x2 (filled_41 c arg1 harg1 arg2 harg2 arg3 harg3 arg5 x0 x1 x2)

theorem filled_43 : Filled x0 x1 x2 43 (kernelRun0_A.sl.HS0_43 (F := Ideal) c arg1 harg1 arg2 harg2 arg3 harg3 arg5 x0 x1 x2) :=
  step_42 c arg1 harg1 arg2 harg2 arg3 harg3 arg5 x0 x1 x2 (filled_42 c arg1 harg1 arg2 harg2 arg3 harg3 arg5 x0 x1 x2)

theorem filled_44 : Filled x0 x1 x2 44 (kernelRun0_A.sl.HS0_44 (F := Ideal) c arg1 harg1 arg2 harg2 arg3 harg3 arg5 x0 x1 x2) :=
  step_43 c arg1 harg1 arg2 harg2 arg3 harg3 arg5 x0 x1 x2 (filled_43 c arg1 harg1 arg2 harg2 arg3 harg3 arg5 x0 x1 x2)

theorem filled_45 : Filled x0 x1 x2 45 (kernelRun0_A.sl.HS0_45 (F := Ideal) c arg1 harg1 arg2 harg2 arg3 harg3 arg5 x0 x1 x2) :=
  step_44 c arg1 harg1 arg2 harg2 arg3 harg3 arg5 x0 x1 x2 (filled_44 c arg1 harg1 arg2 harg2 arg3 harg3 arg5 x0 x1 x2)

theorem filled_46 : Filled x0 x1 x2 46 (kernelRun0_A.sl.HS0_46 (F := Ideal) c arg1 harg1 arg2 harg2 arg3 harg3 arg5 x0 x1 x2) :=
  step_45 c arg1 harg1 arg2 harg2 arg3 harg3 arg5 x0 x1 x2 (filled_45 c arg1 harg1 arg2 harg2 arg3 harg3 arg5 x0 x1 x2)

theorem filled_47 : Filled x0 x1 x2 47 (kernelRun0_A.sl.HS0_47 (F := Ideal) c arg1 harg1 arg2 harg2 arg3 harg3 arg5 x0 x1 x2) :=
  step_46 c arg1 harg1 arg2 harg2 arg3 harg3 arg5 x0 x1 x2 (filled_46 c arg1 harg1 arg2 harg2 arg3 harg3 arg5 x0 x1 x2)

theorem filled_48 : Filled x0 x1 x2 48 (kernelRun0_A.sl.HS0_48 (F := Ideal) c arg1 harg1 arg2 harg2 arg3 harg3 arg5 x0 x1 x2) :=
  step_47 c arg1 harg1 arg2 harg2 arg3 harg3 arg5 x0 x1 x2 (filled_47 c arg1 harg1 arg2 harg2 arg3 harg3 arg5 x0 x1 x2)

theorem filled_49 : Filled x0 x1 x2 49 (kernelRun0_A.sl.HS0_49 (F := Ideal) c arg1 harg1 arg2 harg2 arg3 harg3 arg5 x0 x1 x2) :=
  step_48 c arg1 harg1 arg2 harg2 arg3 harg3 arg5 x0 x1 x2 (filled_48 c arg1 harg1 arg2 harg2 arg3 harg3 arg5 x0 x1 x2)

theorem filled_50 : Filled x0 x1 x2 50 (kernelRun0_A.sl.HS0_50 (F := Ideal) c arg1 harg1 arg2 harg2 arg3 harg3 arg5 x0 x1 x2) :=
  step_49 c arg1 harg1 arg2 harg2 arg3 harg3 arg5 x0 x1 x2 (filled_49 c arg1 harg1 arg2 harg2 arg3 harg3 arg5 x0 x1 x2)

theorem filled_51 : Filled x0 x1 x2 51 (kernelRun0_A.sl.HS0_51 (F := Ideal) c arg1 harg1 arg2 harg2 arg3 harg3 arg5 x0 x1 x2) :=
  step_50 c arg1 harg1 arg2 harg2 arg3 harg3 arg5 x0 x1 x2 (filled_50 c arg1 harg1 arg2 harg2 arg3 harg3 arg5 x0 x1 x2)

theorem filled_52 : Filled x0 x1 x2 52 (kernelRun0_A.sl.HS0_52 (F := Ideal) c arg1 harg1 arg2 harg2 arg3 harg3 arg5 x0 x1 x2) :=
  step_51 c arg1 harg1 arg2 harg2 arg3 harg3 arg5 x0 x1 x2 (filled_51 c arg1 harg1 arg2 harg2 arg3 harg3 arg5 x0 x1 x2)

theorem filled_53 : Filled x0 x1 x2 53 (kernelRun0_A.sl.HS0_53 (F := Ideal) c arg1 harg1 arg2 harg2 arg3 harg3 arg5 x0 x1 x2) :=
  step_52 c arg1 harg1 arg2 harg2 arg3 harg3 arg5 x0 x1 x2 (filled_52 c arg1 harg1 arg2 harg2 arg3 harg3 arg5 x0 x1 x2)

theorem filled_54 : Filled x0 x1 x2 54 (kernelRun0_A.sl.HS0_54 (F := Ideal) c arg1 harg1 arg2 harg2 arg3 harg3 arg5 x0 x1 x2) :=
  step_53 c arg1 harg1 arg2 harg2 arg3 harg3 arg5 x0 x1 x2 (filled_53 c arg1 harg1 arg2 harg2 arg3 harg3 arg5 x0 x1 x2)

theorem filled_55 : Filled x0 x1 x2 55 (kernelRun0_A.sl.HS0_55 (F := Ideal) c arg1 harg1 arg2 harg2 arg3 harg3 arg5 x0 x1 x2) :=
  step_54 c arg1 harg1 arg2 harg2 arg3 harg3 arg5 x0 x1 x2 (filled_54 c arg1 harg1 arg2 harg2 arg3 harg3 arg5 x0 x1 x2)

theorem filled_56 : Filled x0 x1 x2 56 (kernelRun0_A.sl.HS0_56 (F := Ideal) c arg1 harg1 arg2 harg2 arg3 harg3 arg5 x0 x1 x2) :=
  step_55 c arg1 harg1 arg2 harg2 arg3 harg3 arg5 x0 x1 x2 (filled_55 c arg1 harg1 arg2 harg2 arg3 harg3 arg5 x0 x1 x2)

theorem filled_57 : Filled x0 x1 x2 57 (kernelRun0_A.sl.HS0_57 (F := Ideal) c arg1 harg1 arg2 harg2 arg3 harg3 arg5 x0 x1 x2) :=
  step_56 c arg1 harg1 arg2 harg2 arg3 harg3 arg5 x0 x1 x2 (filled_56 c arg1 harg1 arg2 harg2 arg3 harg3 arg5 x0 x1 x2)

theorem filled_58 : Filled x0 x1 x2 58 (kernelRun0_A.sl.HS0_58 (F := Ideal) c arg1 harg1 arg2 harg2 arg3 harg3 arg5 x0 x1 x2) :=
  step_57 c arg1 harg1 arg2 harg2 arg3 harg3 arg5 x0 x1 x2 (filled_57 c arg1 harg1 arg2 harg2 arg3 harg3 arg5 x0 x1 x2)

theorem filled_59 : Filled x0 x1 x2 59 (kernelRun0_A.sl.HS0_59 (F := Ideal) c arg1 harg1 arg2 harg2 arg3 harg3 arg5 x0 x1 x2) :=
  step_58 c arg1 harg1 arg2 harg2 arg3 harg3 arg5 x0 x1 x2 (filled_58 c arg1 harg1 arg2 harg2 arg3 harg3 arg5 x0 x1 x2)

theorem filled_60 : Filled x0 x1 x2 60 (kernelRun0_A.sl.HS0_60 (F := Ideal) c arg1 harg1 arg2 harg2 arg3 harg3 arg5 x0 x1 x2) :=
  step_59 c arg1 harg1 arg2 harg2 arg3 harg3 arg5 x0 x1 x2 (filled_59 c arg1 harg1 arg2 harg2 arg3 harg3 arg5 x0 x1 x2)

theorem filled_61 : Filled x0 x1 x2 61 (kernelRun0_A.sl.HS0_61 (F := Ideal) c arg1 harg1 arg2 harg2 arg3 harg3 arg5 x0 x1 x2) :=
  step_60 c arg1 harg1 arg2 harg2 arg3 harg3 arg5 x0 x1 x2 (filled_60 c arg1 harg1 arg2 harg2 arg3 harg3 arg5 x0 x1 x2)

theorem filled_62 : Filled x0 x1 x2 62 (kernelRun0_A.sl.HS0_62 (F := Ideal) c arg1 harg1 arg2 harg2 arg3 harg3 arg5 x0 x1 x2) :=
  step_61 c arg1 harg1 arg2 harg2 arg3 harg3 arg5 x0 x1 x2 (filled_61 c arg1 harg1 arg2 harg2 arg3 harg3 arg5 x0 x1 x2)

theorem filled_63 : Filled x0 x1 x2 63 (kernelRun0_A.sl.HS0_63 (F := Ideal) c arg1 harg1 arg2 harg2 arg3 harg3 arg5 x0 x1 x2) :=
  step_62 c arg1 harg1 arg2 harg2 arg3 harg3 arg5 x0 x1 x2 (filled_62 c arg1 harg1 arg2 harg2 arg3 harg3 arg5 x0 x1 x2)

theorem filled_64 : Filled x0 x1 x2 64 (kernelRun0_A.sl.HS0_64 (F := Ideal) c arg1 harg1 arg2 harg2 arg3 harg3 arg5 x0 x1 x2) :=
  step_63 c arg1 harg1 arg2 harg2 arg3 harg3 arg5 x0 x1 x2 (filled_63 c arg1 harg1 arg2 harg2 arg3 harg3 arg5 x0 x1 x2)

theorem filled_65 : Filled x0 x1 x2 65 (kernelRun0_A.sl.HS0_65 (F := Ideal) c arg1 harg1 arg2 harg2 arg3 harg3 arg5 x0 x1 x2) :=
  step_64 c arg1 harg1 arg2 harg2 arg3 harg3 arg5 x0 x1 x2 (filled_64 c arg1 harg1 arg2 harg2 arg3 harg3 arg5 x0 x1 x2)

end Cert.KerSide

end
-- ==== Proof.KerMean.lean ====
import proofs.«179685_j33062658245245_2_alg».proof.Proof.Gen.KernelIdeal.Frame
import Idealize.ShloMosaic.Lib.Pipeline.Value
import Idealize.ShloMosaic.Lib.ValueIdx
import Idealize.ShloMosaic.Lib.ValueLayout

/-!
# The body's last store: the mean of the last eight slabs of the stack

After the 65 slabs of activations are in the scratch stack, the body reads slabs 57 … 64 back
whole, adds them one after the other, multiplies by one eighth and stores the product into the
output block. This module names that function of eight slabs, reads it at an index, and opens the
output block's contents as that function of the eight slabs read off the stack.
-/

noncomputable section

namespace Cert.KerSide

open Cert.KernelIdeal Cert.KernelIdeal.Gen Idealize.ShloMosaic Idealize.ShloMosaic.ValueIdx

/-- Eight slabs `[1, 512, 128]`, each seen as `[512, 128]`, added one after the other from the
    first, the sum multiplied by the constant whose word is `0x3E000000` (one eighth). -/
def mean8Fn {F : FTy → Type} [FloatOps F] (s0 s1 s2 s3 s4 s5 s6 s7 : Vec F S1x512x128 .f32) :
    FVec F S512x128 .f32 :=
  mulf
    (addf (addf (addf (addf (addf (addf (addf (shapeCast S512x128 s0 shapeCasts_S1x512x128_S512x128)
      (shapeCast S512x128 s1 shapeCasts_S1x512x128_S512x128))
      (shapeCast S512x128 s2 shapeCasts_S1x512x128_S512x128))
      (shapeCast S512x128 s3 shapeCasts_S1x512x128_S512x128))
      (shapeCast S512x128 s4 shapeCasts_S1x512x128_S512x128))
      (shapeCast S512x128 s5 shapeCasts_S1x512x128_S512x128))
      (shapeCast S512x128 s6 shapeCasts_S1x512x128_S512x128))
      (shapeCast S512x128 s7 shapeCasts_S1x512x128_S512x128))
    (broadcast S512x128 (Scalar.ofBits .f32 0x3E000000#32 : F .f32))

/-- At row `y` and feature `e`: the eight slabs' entries at `(0, y, e)` added from the first, times
    one eighth. -/
theorem mean8Fn_ix (s0 s1 s2 s3 s4 s5 s6 s7 : Vec Ideal S1x512x128 .f32) (y : Fin 512) (e : Fin 128) :
    mean8Fn s0 s1 s2 s3 s4 s5 s6 s7 (ix2 y e)
      = (s0 (ix3 (0 : Fin 1) y e) + s1 (ix3 (0 : Fin 1) y e) + s2 (ix3 (0 : Fin 1) y e)
          + s3 (ix3 (0 : Fin 1) y e) + s4 (ix3 (0 : Fin 1) y e) + s5 (ix3 (0 : Fin 1) y e)
          + s6 (ix3 (0 : Fin 1) y e) + s7 (ix3 (0 : Fin 1) y e)) * Ideal.ofBits .f32 0x3E000000#32 := by
  unfold mean8Fn
  rw [mulf_apply, addf_apply, addf_apply, addf_apply, addf_apply, addf_apply, addf_apply, addf_apply,
    broadcast_apply]
  rw [shapeCast_1ab_ab_apply s0, shapeCast_1ab_ab_apply s1, shapeCast_1ab_ab_apply s2,
    shapeCast_1ab_ab_apply s3, shapeCast_1ab_ab_apply s4, shapeCast_1ab_ab_apply s5,
    shapeCast_1ab_ab_apply s6, shapeCast_1ab_ab_apply s7]
  rfl

theorem zeroOffsets : (![0, 0] : Fin 2 → Nat) = fun _ => 0 := funext fun a => by fin_cases a <;> rfl

/-- What a grid point leaves in the output block is the mean of slabs 57 … 64 as they are read
    off the scratch stack after its 65 slab stores. -/
theorem out_open (c : Dev nD) (i : grid0.Coords)
    (arg1 : Memref sig .tc .vmem S512x128 .f32) (harg1 : arg1.IsWhole)
    (arg2 : Memref sig .tc .vmem S65x128x128 .bf16) (harg2 : arg2.IsWhole)
    (arg3 : Memref sig .tc .vmem S65x128 .f32) (harg3 : arg3.IsWhole)
    (arg4 : Memref sig .tc .vmem S512x128 .f32) (harg4 : arg4.IsWhole)
    (arg5 : Memref sig .tc .vmem S65x512x128 .f32) (harg5 : arg5.IsWhole)
    (x0 : Vec Ideal S512x128 .f32) (x1 : Vec Ideal S65x128x128 .bf16) (x2 : Vec Ideal S65x128 .f32) :
    out0_A_3 (F := Ideal) c i arg1 harg1 arg2 harg2 arg3 harg3 arg4 harg4 arg5 harg5 x0 x1 x2
      = mean8Fn (F := Ideal)
      (arg5.view.readCov (kernelRun0_A.sl.HS0_65 c arg1 harg1 arg2 harg2 arg3 harg3 arg5 x0 x1 x2)
        (Rect.unit (s := S65x512x128) ![57, 0, 0] S1x512x128.size inb_S65x512x128_S1x512x128_57_0_0).toLoadRect)
      (arg5.view.readCov (kernelRun0_A.sl.HS0_65 c arg1 harg1 arg2 harg2 arg3 harg3 arg5 x0 x1 x2)
        (Rect.unit (s := S65x512x128) ![58, 0, 0] S1x512x128.size inb_S65x512x128_S1x512x128_58_0_0).toLoadRect)
      (arg5.view.readCov (kernelRun0_A.sl.HS0_65 c arg1 harg1 arg2 harg2 arg3 harg3 arg5 x0 x1 x2)
        (Rect.unit (s := S65x512x128) ![59, 0, 0] S1x512x128.size inb_S65x512x128_S1x512x128_59_0_0).toLoadRect)
      (arg5.view.readCov (kernelRun0_A.sl.HS0_65 c arg1 harg1 arg2 harg2 arg3 harg3 arg5 x0 x1 x2)
        (Rect.unit (s := S65x512x128) ![60, 0, 0] S1x512x128.size inb_S65x512x128_S1x512x128_60_0_0).toLoadRect)
      (arg5.view.readCov (kernelRun0_A.sl.HS0_65 c arg1 harg1 arg2 harg2 arg3 harg3 arg5 x0 x1 x2)
        (Rect.unit (s := S65x512x128) ![61, 0, 0] S1x512x128.size inb_S65x512x128_S1x512x128_61_0_0).toLoadRect)
      (arg5.view.readCov (kernelRun0_A.sl.HS0_65 c arg1 harg1 arg2 harg2 arg3 harg3 arg5 x0 x1 x2)
        (Rect.unit (s := S65x512x128) ![62, 0, 0] S1x512x128.size inb_S65x512x128_S1x512x128_62_0_0).toLoadRect)
      (arg5.view.readCov (kernelRun0_A.sl.HS0_65 c arg1 harg1 arg2 harg2 arg3 harg3 arg5 x0 x1 x2)
        (Rect.unit (s := S65x512x128) ![63, 0, 0] S1x512x128.size inb_S65x512x128_S1x512x128_63_0_0).toLoadRect)
      (arg5.view.readCov (kernelRun0_A.sl.HS0_65 c arg1 harg1 arg2 harg2 arg3 harg3 arg5 x0 x1 x2)
        (Rect.unit (s := S65x512x128) ![64, 0, 0] S1x512x128.size inb_S65x512x128_S1x512x128_64_0_0).toLoadRect) := by
  unfold out0_A_3
  rw [View.read_writes_junk_eq_canon]
  unfold kernelRun0_A
  dsimp only
  rw [View.canon_unit_zero zeroOffsets]
  rfl

end Cert.KerSide

end
-- ==== Proof.RefValueConsts.lean ====
import Idealize.ShloMosaic.PureOps.Ideal

/-!
# The float constants of the two programs that are not zero

The word `0x41000000` denotes the real number eight, the divisor of the final mean; the word
`0x3E000000` denotes one eighth, the factor that replaces the division.
-/

noncomputable section

namespace Cert.RefSide

open Idealize.ShloMosaic

/-- The pattern `0x41000000` is the real eight. -/
theorem ofBits_eight : Ideal.ofBits .f32 0x41000000#32 = ((8 : ℝ) : EReal) := by
  simp [Ideal.ofBits, Ideal.ieee, -EReal.coe_mul]; norm_num

/-- The pattern `0x3E000000` is the real one eighth. -/
theorem ofBits_eighth : Ideal.ofBits .f32 0x3E000000#32 = (((1 / 8 : ℝ) : ℝ) : EReal) := by
  simp [Ideal.ofBits, Ideal.ieee, -EReal.coe_mul]; norm_num

end Cert.RefSide

end
-- ==== Proof.KerBlock.lean ====
import proofs.«179685_j33062658245245_2_alg».proof.Proof.Gen.KernelIdeal.Frame
import proofs.«179685_j33062658245245_2_alg».proof.Proof.Spec
import proofs.«179685_j33062658245245_2_alg».proof.Proof.KerChain
import proofs.«179685_j33062658245245_2_alg».proof.Proof.KerMean
import proofs.«179685_j33062658245245_2_alg».proof.Proof.RefValueConsts

/-!
# One grid point of the kernel computes the specification on its 512 rows

The body at a grid point reads a block of 512 input rows, all weights (kept transposed) and all
biases, fills a scratch stack with the 65 nodes' activations for those rows, and stores the mean of
the last eight: it loads slabs 57 … 64 of the filled stack, adds them and multiplies by 1/8.
Row by row that is the specification's `outRow`.
-/

noncomputable section

namespace Cert.KerSide

open Cert.KernelIdeal Cert.KernelIdeal.Gen Idealize.ShloMosaic Idealize.ShloMosaic.ValueIdx

/-- What a grid point leaves in the output block, at row `y` and feature `e`. -/
theorem block_eq (c : Dev nD) (i : grid0.Coords)
    (arg1 : Memref sig .tc .vmem S512x128 .f32) (harg1 : arg1.IsWhole)
    (arg2 : Memref sig .tc .vmem S65x128x128 .bf16) (harg2 : arg2.IsWhole)
    (arg3 : Memref sig .tc .vmem S65x128 .f32) (harg3 : arg3.IsWhole)
    (arg4 : Memref sig .tc .vmem S512x128 .f32) (harg4 : arg4.IsWhole)
    (arg5 : Memref sig .tc .vmem S65x512x128 .f32) (harg5 : arg5.IsWhole)
    (x0 : Vec Ideal S512x128 .f32) (x1 : Vec Ideal S65x128x128 .bf16) (x2 : Vec Ideal S65x128 .f32)
    (y : Fin 512) (e : Fin 128) :
    out0_A_3 (F := Ideal) c i arg1 harg1 arg2 harg2 arg3 harg3 arg4 harg4 arg5 harg5 x0 x1 x2 (ix2 y e)
      = Cert.Spec.outRow (Cert.Spec.WtOf x1) (Cert.Spec.Bof x2) (fun d => x0 (ix2 y d)) e := by
  have hF := filled_65 c arg1 harg1 arg2 harg2 arg3 harg3 arg5 x0 x1 x2
  rw [out_open c i arg1 harg1 arg2 harg2 arg3 harg3 arg4 harg4 arg5 harg5 x0 x1 x2,
    load_slab x0 x1 x2 arg5.view 65 57 (by decide) _ hF, load_slab x0 x1 x2 arg5.view 65 58 (by decide) _ hF,
    load_slab x0 x1 x2 arg5.view 65 59 (by decide) _ hF, load_slab x0 x1 x2 arg5.view 65 60 (by decide) _ hF,
    load_slab x0 x1 x2 arg5.view 65 61 (by decide) _ hF, load_slab x0 x1 x2 arg5.view 65 62 (by decide) _ hF,
    load_slab x0 x1 x2 arg5.view 65 63 (by decide) _ hF, load_slab x0 x1 x2 arg5.view 65 64 (by decide) _ hF,
    mean8Fn_ix, Cert.RefSide.ofBits_eighth]
  simp only [slab_apply]
  unfold Cert.Spec.outRow
  rw [Fin.sum_univ_eight]
  rfl

end Cert.KerSide

end
-- ==== Proof.KerArray.lean ====
import proofs.«179685_j33062658245245_2_alg».proof.Proof.KerBlock
import proofs.«179685_j33062658245245_2_alg».proof.Proof.Gen.KernelIdeal.Value
import Idealize.ShloMosaic.Lib.Pipeline.Value
import Idealize.ShloMosaic.Lib.Tactic

/-!
# From the blocks to the whole result array

The grid has eight points. Point `t` reads rows `512 t … 512 t + 511` of the batch, every weight
(held transposed: entry `(n, d, e)` of the staged weights is entry `(n, e, d)` of the argument) and
every bias, and writes rows `512 t … 512 t + 511` of the result. Each written row is the
specification's `outRow` of the corresponding input row, and the eight row blocks tile the
4096 rows, so the result array is the specification's `out` of the three arguments.
-/

noncomputable section

namespace Cert.KerSide

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Where each point's blocks sit -/

/-- The block indices at point `t`: the batch and the result move with the point along the rows,
    the weights and the biases are always read whole. -/
theorem blockIndex : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `y` of point `t`'s block is row `512 t + y` of the array. -/
def row (t : Fin cfg0.N) (y : Fin 512) : Fin 4096 :=
  ⟨512 * t.val + y.val, by have h8 : cfg0.N = 8 := N_0; have := t.isLt; have := y.isLt; omega⟩

/-! ## The blocks read off the arrays -/

/-- Element `(y, e)` of point `t`'s result block sits at `(512 t + y, e)` of the result array. -/
theorem emb_out (t : Fin cfg0.N) (y : Fin 512) (e : Fin 128) :
    ((cfg0.win 3).blk t).view.emb (ix2 y e) = (ix2 (row t y) e : S4096x128.Idx) := by
  obtain ⟨-, -, -, -, -, -, -, e0, e1⟩ := blockIndex t
  funext a
  apply Fin.ext
  match a with
  | ⟨0, _⟩ => show win0_3.index t (0 : Fin 2) * 512 + 1 * y.val = 512 * t.val + y.val; rw [e0]; omega
  | ⟨1, _⟩ => show win0_3.index t (1 : Fin 2) * 128 + 1 * e.val = e.val; rw [e1]; omega

/-- Element `(y, d)` of point `t`'s batch block is element `(512 t + y, d)` of the batch argument. -/
theorem batchBlock_apply (c : Dev nD) (t : Fin cfg0.N) (y : Fin 512) (d : Fin 128) :
    (iblk m c 0 t : Vec Ideal S512x128 .f32) (ix2 y d)
      = (m ((c : Thread nD τ).loc main_arg0) : S4096x128.Idx → EReal) (ix2 (row t y) d) := by
  obtain ⟨e0, e1, -⟩ := blockIndex t
  unfold iblk
  rw [View.read_apply]
  show V m c main_arg0 _ = _
  rw [V_main_arg0]
  refine congrArg (m ((c : Thread nD τ).loc main_arg0) : S4096x128.Idx → EReal) (funext fun a => Fin.ext ?_)
  match a with
  | ⟨0, _⟩ => show win0_0.index t (0 : Fin 2) * 512 + 1 * y.val = 512 * t.val + y.val; rw [e0]; omega
  | ⟨1, _⟩ => show win0_0.index t (1 : Fin 2) * 128 + 1 * d.val = d.val; rw [e1]; omega

/-- The weights' block is the whole staged weight array at every point. -/
theorem weightBlock_eq (c : Dev nD) (t : Fin cfg0.N) :
    (iblk m c 1 t : Vec Ideal S65x128x128 .bf16) = (V m c main_v1 : S65x128x128.Idx → EReal) := by
  obtain ⟨-, -, e0, e1, e2, -⟩ := blockIndex t
  funext j
  unfold iblk
  rw [View.read_apply]
  show V m c main_v1 _ = _
  refine congrArg (V m c main_v1 : S65x128x128.Idx → EReal) (funext fun a => Fin.ext ?_)
  match a with
  | ⟨0, _⟩ => show win0_1.index t (0 : Fin 3) * 65 + 1 * (j 0).val = (j 0).val; rw [e0]; omega
  | ⟨1, _⟩ => show win0_1.index t (1 : Fin 3) * 128 + 1 * (j 1).val = (j 1).val; rw [e1]; omega
  | ⟨2, _⟩ => show win0_1.index t (2 : Fin 3) * 128 + 1 * (j 2).val = (j 2).val; rw [e2]; omega

/-- The biases' block is the whole bias argument at every point. -/
theorem biasBlock_eq (c : Dev nD) (t : Fin cfg0.N) :
    (iblk m c 2 t : Vec Ideal S65x128 .f32) = (m ((c : Thread nD τ).loc main_arg2) : S65x128.Idx → EReal) := by
  obtain ⟨-, -, -, -, -, e0, e1, -⟩ := blockIndex t
  funext j
  unfold iblk
  rw [View.read_apply]
  show V m c main_arg2 _ = _
  rw [V_main_arg2]
  refine congrArg (m ((c : Thread nD τ).loc main_arg2) : S65x128.Idx → EReal) (funext fun a => Fin.ext ?_)
  match a with
  | ⟨0, _⟩ => show win0_2.index t (0 : Fin 2) * 65 + 1 * (j 0).val = (j 0).val; rw [e0]; omega
  | ⟨1, _⟩ => show win0_2.index t (1 : Fin 2) * 128 + 1 * (j 1).val = (j 1).val; rw [e1]; omega

/-- The staged weights are the weight argument with its last two axes exchanged (the change of
    format is the identity on extended reals). -/
theorem stagedWeights_eq (c : Dev nD) :
    (V m c main_v1 : S65x128x128.Idx → EReal)
      = truncf (F := Ideal) .bf16 (transpose S65x128x128 [0, 2, 1]
          (m ((c : Thread nD τ).loc main_arg1) : S65x128x128.Idx → EReal)
          transposes_S65x128x128_S65x128x128_0_2_1) bitsLt_bf16_f32 := by
  unfold V; after_results

/-- Read node by node, the staged (transposed) weights are the weight argument's. -/
theorem stagedWeights_spec (c : Dev nD) :
    Cert.Spec.WtOf (V m c main_v1 : S65x128x128.Idx → EReal)
      = Cert.Spec.Wof (m ((c : Thread nD τ).loc main_arg1) : S65x128x128.Idx → EReal) := by
  funext n e d
  unfold Cert.Spec.WtOf Cert.Spec.Wof
  by_cases h : n < 65
  · rw [dif_pos h, dif_pos h, stagedWeights_eq, truncf_apply]
    refine transpose_apply [0, 2, 1] _ transposes_S65x128x128_S65x128x128_0_2_1
      (ix3 (⟨n, h⟩ : Fin 65) d e) (ix3 (⟨n, h⟩ : Fin 65) e d) fun b => ?_
    match b with
    | ⟨0, _⟩ => rfl
    | ⟨1, _⟩ => rfl
    | ⟨2, _⟩ => rfl
  · rw [dif_neg h, dif_neg h]

/-! ## What a point writes back, and the whole array -/

/-- What point `t` writes back is its block of the specification's result. -/
theorem flushed_eq (c : Dev nD) (t : Fin cfg0.N) :
    (dats m 0 c).flushed 3 t = ((cfg0.win 3).blk t).view.read (Elt Ideal)
      (Cert.Spec.out (m ((c : Thread nD τ).loc main_arg0)) (m ((c : Thread nD τ).loc main_arg1))
        (m ((c : Thread nD τ).loc main_arg2))) := by
  rw [Value.flushed3_A]
  funext j
  obtain ⟨y, e, rfl⟩ : ∃ (y : Fin 512) (e : Fin 128), j = ix2 y e := ⟨j 0, j 1, eq_ix2 j⟩
  rw [View.read_apply, emb_out]
  show out0_A_3 (F := Ideal) c (grid0.coords t) (ms0_0 t) (hs0_0 t) (ms0_1 t) (hs0_1 t) (ms0_2 t) (hs0_2 t)
      (ms0_3 t) (hs0_3 t) scM0_0 (Memref.isWhole_whole _) (iblk m c 0 t) (iblk m c 1 t) (iblk m c 2 t) (ix2 y e)
    = Cert.Spec.out _ _ _ (ix2 (row t y) e)
  refine (block_eq c (grid0.coords t) (ms0_0 t) (hs0_0 t) (ms0_1 t) (hs0_1 t) (ms0_2 t) (hs0_2 t)
      (ms0_3 t) (hs0_3 t) scM0_0 (Memref.isWhole_whole _) (iblk m c 0 t) (iblk m c 1 t) (iblk m c 2 t) y e).trans ?_
  rw [Cert.Spec.out_apply, weightBlock_eq, stagedWeights_spec, biasBlock_eq]
  exact congrArg (fun x => Cert.Spec.outRow _ _ x e) (funext fun d => batchBlock_apply m c t y d)

/-- An index of the result array is in point `t`'s block iff each coordinate is in the block's range. -/
theorem mem_outBlock (t : Fin cfg0.N) (i : S4096x128.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v2).slice (win0_3.rect t)).set ↔ _
  rw [View.set_slice_whole, Rect.mem_set_unit]
  exact Iff.rfl

/-- Every row of the result is written by some point: row `r` by point `r / 512`. -/
theorem covered (i : S4096x128.Idx) :
    ∃ t : Fin cfg0.N, (cfg0.win 3).flush t = true ∧ i ∈ ((cfg0.win 3).blk t).view.set := by
  have h8 : cfg0.N = 8 := N_0
  have hi0 : (i 0).val < 4096 := (i 0).isLt
  have hi1 : (i 1).val < 128 := (i 1).isLt
  let t : Fin cfg0.N := ⟨(i 0).val / 512, by omega⟩
  obtain ⟨-, -, -, -, -, -, -, e0, e1⟩ := blockIndex t
  have ht : t.val = (i 0).val / 512 := rfl
  refine ⟨t, flush0_3 t, ?_⟩
  rw [mem_outBlock]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 128 ≤ (i 1).val ∧ (i 1).val < win0_3.index t (1 : Fin 2) * 128 + 128
    rw [e1]; omega

/-- After the last point the result array is the specification's result of the three arguments. -/
theorem final (c : Dev nD) :
    (dats m 0 c).arrAt 3 cfg0.N = Cert.Spec.out (m ((c : Thread nD τ).loc main_arg0))
      (m ((c : Thread nD τ).loc main_arg1)) (m ((c : Thread nD τ).loc main_arg2)) :=
  (dats m 0 c).arrAt_eq_of_cover 3 _ (fun t _ => flushed_eq m c t) covered

/-! ## The run -/

/-- Every run of the kernel's program ends with the result array at the specification's result of
    the argument arrays, and the arguments unchanged. -/
theorem run :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c.tc : Thread nD τ).loc main_v2)
            = Cert.Spec.out (m ((c.tc : Thread nD τ).loc main_arg0)) (m ((c.tc : Thread nD τ).loc main_arg1))
                (m ((c.tc : Thread nD τ).loc main_arg2))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2) :=
  (θ_run defs _ _).mono (fun r h c => ⟨(h c).1.trans (final m c), (h c).2⟩)
    (Cert.KernelIdeal.Value.run_blocks m ρ)

end Cert.KerSide

end
-- ==== Proof.RefOps.lean ====
import proofs.«179685_j33062658245245_2_alg».proof.ReferenceIdeal
import Idealize.ShloMosaic.Lib.StableHlo.Run

/-!
# The reference program's host operations as a list

@main's host operations in the printed order (a called function's three operations at its call, over the call's
buffers), whole (ops) and cut after each stack of activations (seg0 … seg9: the input node, the eight layers,
the mean).
-/

noncomputable section

namespace Cert.RefOps

open Cert.ReferenceIdeal Idealize.ShloMosaic Idealize.ShloMosaic.StableHlo

variable {F : FTy → Type} [FloatOps F]
variable [Facts]
open Facts₀ Facts

/-- Operations of part 0 (29 of them). -/
abbrev seg0 : List (HloOp τ sig (Elt F)) :=
  [ nullary main_c (constantI S8x4 32 0#32),
    nullary main_c_0 (constantI S8x4 1 0#1),
    nullary main_c_1 (fun i => lit0 (S8x4.rowMajor i)),
    nullary main_c_2 (constantI S8x4 1 0#1),
    nullary main_c_3 (fun i => lit1 (S8x4.rowMajor i)),
    nullary main_c_4 (constantI S8x4 1 0#1),
    nullary main_c_5 (fun i => lit2 (S8x4.rowMajor i)),
    nullary main_c_6 (constantI S8x4 1 0#1),
    nullary main_c_7 (fun i => lit3 (S8x4.rowMajor i)),
    nullary main_c_8 (constantI S8x4 1 0#1),
    nullary main_c_9 (fun i => lit4 (S8x4.rowMajor i)),
    nullary main_c_10 (constantI S8x4 1 0#1),
    nullary main_c_11 (fun i => lit5 (S8x4.rowMajor i)),
    nullary main_c_12 (constantI S8x4 1 0#1),
    nullary main_c_13 (fun i => lit6 (S8x4.rowMajor i)),
    nullary main_c_14 (constantI S8x4 1 0#1),
    unary main_arg1 main_v0 ((extractStridedSlice S1x128x128 ![0, 0, 0] · slices_S65x128x128_S1x128x128_0_0_0) : (⟨S65x128x128, .f32⟩ : BufTy).Contents (Elt F) → (⟨S1x128x128, .f32⟩ : BufTy).Contents (Elt F)),
    reshape main_v0 main_v1 rfl shapeCasts_S1x128x128_S128x128,
    unary main_v1 main_v2 ((transpose S128x128 [1, 0] · transposes_S128x128_S128x128_1_0) : (⟨S128x128, .f32⟩ : BufTy).Contents (Elt F) → (⟨S128x128, .f32⟩ : BufTy).Contents (Elt F)),
    binary main_arg0 main_v2 main_v3 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg2 main_v4 ((extractStridedSlice S1x128 ![0, 0] · slices_S65x128_S1x128_0_0) : (⟨S65x128, .f32⟩ : BufTy).Contents (Elt F) → (⟨S1x128, .f32⟩ : BufTy).Contents (Elt F)),
    reshape main_v4 main_v5 rfl shapeCasts_S1x128_S128,
    unary main_v5 main_v6 (broadcastInDim S1x128 ![1] bcast_S128_S1x128_1 : (⟨S128, .f32⟩ : BufTy).Contents (Elt F) → (⟨S1x128, .f32⟩ : BufTy).Contents (Elt F)),
    unary main_v6 main_v7 (broadcastInDim S4096x128 ![0, 1] bcast_S1x128_S4096x128_0_1 : (⟨S1x128, .f32⟩ : BufTy).Contents (Elt F) → (⟨S4096x128, .f32⟩ : BufTy).Contents (Elt F)),
    binary main_v3 main_v7 main_v8 (addf : (⟨S4096x128, .f32⟩ : BufTy).Contents (Elt F) → (⟨S4096x128, .f32⟩ : BufTy).Contents (Elt F) → (⟨S4096x128, .f32⟩ : BufTy).Contents (Elt F)),
    TRef.nullary main_call0.cst (constant S_ .f32 0x00000000#32),
    TRef.unary main_call0.cst main_call0.v0 (broadcastInDim S4096x128 ![] bcast_S_S4096x128),
    TRef.binary (.of main_v8) main_call0.v0 main_call0.v1 maximumf,
    unary main_v9 main_v10 (broadcastInDim S1x4096x128 ![1, 2] bcast_S4096x128_S1x4096x128_1_2 : (⟨S4096x128, .f32⟩ : BufTy).Contents (Elt F) → (⟨S1x4096x128, .f32⟩ : BufTy).Contents (Elt F)) ]

/-- Operations of part 1 (18 of them). -/
abbrev seg1 : List (HloOp τ sig (Elt F)) :=
  [ nullary main_c_15 (constantI S_ 32 1#32),
    unary main_c_15 main_v11 (broadcastInDim S8x4 ![] bcast_S_S8x4 : (⟨S_, .i32⟩ : BufTy).Contents (Elt F) → (⟨S8x4, .i32⟩ : BufTy).Contents (Elt F)),
    binary main_c main_v11 main_v12 (addi : (⟨S8x4, .i32⟩ : BufTy).Contents (Elt F) → (⟨S8x4, .i32⟩ : BufTy).Contents (Elt F) → (⟨S8x4, .i32⟩ : BufTy).Contents (Elt F)),
    ternary main_c_0 main_v12 main_c main_v13 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v13 main_v14 (broadcastInDim S8x4x1 ![0, 1] bcast_S8x4_S8x4x1_0_1 : (⟨S8x4, .i32⟩ : BufTy).Contents (Elt F) → (⟨S8x4x1, .i32⟩ : BufTy).Contents (Elt F)),
    binary main_v10 main_v14 main_v15 ((fun x i => Host.gather gather_S1x4096x128_S8x4x1_S8x4x4096x128_23_0_n_n_0_2_14096128 x i) : (⟨S1x4096x128, .f32⟩ : BufTy).Contents (Elt F) → (⟨S8x4x1, .i32⟩ : BufTy).Contents (Elt F) → (⟨S8x4x4096x128, .f32⟩ : BufTy).Contents (Elt F)),
    nullary main_cst (constant S_ .f32 0x00000000#32),
    binary main_v15 main_cst main_v16 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v17 ((extractStridedSlice S8x128x128 ![1, 0, 0] · slices_S65x128x128_S8x128x128_1_0_0) : (⟨S65x128x128, .f32⟩ : BufTy).Contents (Elt F) → (⟨S8x128x128, .f32⟩ : BufTy).Contents (Elt F)),
    unary main_arg2 main_v18 ((extractStridedSlice S8x128 ![1, 0] · slices_S65x128_S8x128_1_0) : (⟨S65x128, .f32⟩ : BufTy).Contents (Elt F) → (⟨S8x128, .f32⟩ : BufTy).Contents (Elt F)),
    binary main_v16 main_v17 main_v19 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v18 main_v20 (broadcastInDim S8x1x128 ![0, 2] bcast_S8x128_S8x1x128_0_2 : (⟨S8x128, .f32⟩ : BufTy).Contents (Elt F) → (⟨S8x1x128, .f32⟩ : BufTy).Contents (Elt F)),
    unary main_v20 main_v21 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v19 main_v21 main_v22 (addf : (⟨S8x4096x128, .f32⟩ : BufTy).Contents (Elt F) → (⟨S8x4096x128, .f32⟩ : BufTy).Contents (Elt F) → (⟨S8x4096x128, .f32⟩ : BufTy).Contents (Elt F)),
    TRef.nullary main_call1.cst (constant S_ .f32 0x00000000#32),
    TRef.unary main_call1.cst main_call1.v0 (broadcastInDim S8x4096x128 ![] bcast_S_S8x4096x128),
    TRef.binary (.of main_v22) main_call1.v0 main_call1.v1 maximumf,
    binary main_v10 main_v23 main_v24 ((fun a b => concatenate S9x4096x128 0 [⟨S1x4096x128, a⟩, ⟨S8x4096x128, b⟩] concatenates_S1x4096x128_S8x4096x128_S9x4096x128_d0) : (⟨S1x4096x128, .f32⟩ : BufTy).Contents (Elt F) → (⟨S8x4096x128, .f32⟩ : BufTy).Contents (Elt F) → (⟨S9x4096x128, .f32⟩ : BufTy).Contents (Elt F)) ]

/-- Operations of part 2 (18 of them). -/
abbrev seg2 : List (HloOp τ sig (Elt F)) :=
  [ nullary main_c_16 (constantI S_ 32 9#32),
    unary main_c_16 main_v25 (broadcastInDim S8x4 ![] bcast_S_S8x4 : (⟨S_, .i32⟩ : BufTy).Contents (Elt F) → (⟨S8x4, .i32⟩ : BufTy).Contents (Elt F)),
    binary main_c_1 main_v25 main_v26 (addi : (⟨S8x4, .i32⟩ : BufTy).Contents (Elt F) → (⟨S8x4, .i32⟩ : BufTy).Contents (Elt F) → (⟨S8x4, .i32⟩ : BufTy).Contents (Elt F)),
    ternary main_c_2 main_v26 main_c_1 main_v27 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v27 main_v28 (broadcastInDim S8x4x1 ![0, 1] bcast_S8x4_S8x4x1_0_1 : (⟨S8x4, .i32⟩ : BufTy).Contents (Elt F) → (⟨S8x4x1, .i32⟩ : BufTy).Contents (Elt F)),
    binary main_v24 main_v28 main_v29 ((fun x i => Host.gather gather_S9x4096x128_S8x4x1_S8x4x4096x128_23_0_n_n_0_2_14096128 x i) : (⟨S9x4096x128, .f32⟩ : BufTy).Contents (Elt F) → (⟨S8x4x1, .i32⟩ : BufTy).Contents (Elt F) → (⟨S8x4x4096x128, .f32⟩ : BufTy).Contents (Elt F)),
    nullary main_cst_17 (constant S_ .f32 0x00000000#32),
    binary main_v29 main_cst_17 main_v30 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v31 ((extractStridedSlice S8x128x128 ![9, 0, 0] · slices_S65x128x128_S8x128x128_9_0_0) : (⟨S65x128x128, .f32⟩ : BufTy).Contents (Elt F) → (⟨S8x128x128, .f32⟩ : BufTy).Contents (Elt F)),
    unary main_arg2 main_v32 ((extractStridedSlice S8x128 ![9, 0] · slices_S65x128_S8x128_9_0) : (⟨S65x128, .f32⟩ : BufTy).Contents (Elt F) → (⟨S8x128, .f32⟩ : BufTy).Contents (Elt F)),
    binary main_v30 main_v31 main_v33 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v32 main_v34 (broadcastInDim S8x1x128 ![0, 2] bcast_S8x128_S8x1x128_0_2 : (⟨S8x128, .f32⟩ : BufTy).Contents (Elt F) → (⟨S8x1x128, .f32⟩ : BufTy).Contents (Elt F)),
    unary main_v34 main_v35 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v33 main_v35 main_v36 (addf : (⟨S8x4096x128, .f32⟩ : BufTy).Contents (Elt F) → (⟨S8x4096x128, .f32⟩ : BufTy).Contents (Elt F) → (⟨S8x4096x128, .f32⟩ : BufTy).Contents (Elt F)),
    TRef.nullary main_call2.cst (constant S_ .f32 0x00000000#32),
    TRef.unary main_call2.cst main_call2.v0 (broadcastInDim S8x4096x128 ![] bcast_S_S8x4096x128),
    TRef.binary (.of main_v36) main_call2.v0 main_call2.v1 maximumf,
    binary main_v24 main_v37 main_v38 ((fun a b => concatenate S17x4096x128 0 [⟨S9x4096x128, a⟩, ⟨S8x4096x128, b⟩] concatenates_S9x4096x128_S8x4096x128_S17x4096x128_d0) : (⟨S9x4096x128, .f32⟩ : BufTy).Contents (Elt F) → (⟨S8x4096x128, .f32⟩ : BufTy).Contents (Elt F) → (⟨S17x4096x128, .f32⟩ : BufTy).Contents (Elt F)) ]

/-- Operations of part 3 (18 of them). -/
abbrev seg3 : List (HloOp τ sig (Elt F)) :=
  [ nullary main_c_18 (constantI S_ 32 17#32),
    unary main_c_18 main_v39 (broadcastInDim S8x4 ![] bcast_S_S8x4 : (⟨S_, .i32⟩ : BufTy).Contents (Elt F) → (⟨S8x4, .i32⟩ : BufTy).Contents (Elt F)),
    binary main_c_3 main_v39 main_v40 (addi : (⟨S8x4, .i32⟩ : BufTy).Contents (Elt F) → (⟨S8x4, .i32⟩ : BufTy).Contents (Elt F) → (⟨S8x4, .i32⟩ : BufTy).Contents (Elt F)),
    ternary main_c_4 main_v40 main_c_3 main_v41 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v41 main_v42 (broadcastInDim S8x4x1 ![0, 1] bcast_S8x4_S8x4x1_0_1 : (⟨S8x4, .i32⟩ : BufTy).Contents (Elt F) → (⟨S8x4x1, .i32⟩ : BufTy).Contents (Elt F)),
    binary main_v38 main_v42 main_v43 ((fun x i => Host.gather gather_S17x4096x128_S8x4x1_S8x4x4096x128_23_0_n_n_0_2_14096128 x i) : (⟨S17x4096x128, .f32⟩ : BufTy).Contents (Elt F) → (⟨S8x4x1, .i32⟩ : BufTy).Contents (Elt F) → (⟨S8x4x4096x128, .f32⟩ : BufTy).Contents (Elt F)),
    nullary main_cst_19 (constant S_ .f32 0x00000000#32),
    binary main_v43 main_cst_19 main_v44 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v45 ((extractStridedSlice S8x128x128 ![17, 0, 0] · slices_S65x128x128_S8x128x128_17_0_0) : (⟨S65x128x128, .f32⟩ : BufTy).Contents (Elt F) → (⟨S8x128x128, .f32⟩ : BufTy).Contents (Elt F)),
    unary main_arg2 main_v46 ((extractStridedSlice S8x128 ![17, 0] · slices_S65x128_S8x128_17_0) : (⟨S65x128, .f32⟩ : BufTy).Contents (Elt F) → (⟨S8x128, .f32⟩ : BufTy).Contents (Elt F)),
    binary main_v44 main_v45 main_v47 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v46 main_v48 (broadcastInDim S8x1x128 ![0, 2] bcast_S8x128_S8x1x128_0_2 : (⟨S8x128, .f32⟩ : BufTy).Contents (Elt F) → (⟨S8x1x128, .f32⟩ : BufTy).Contents (Elt F)),
    unary main_v48 main_v49 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v47 main_v49 main_v50 (addf : (⟨S8x4096x128, .f32⟩ : BufTy).Contents (Elt F) → (⟨S8x4096x128, .f32⟩ : BufTy).Contents (Elt F) → (⟨S8x4096x128, .f32⟩ : BufTy).Contents (Elt F)),
    TRef.nullary main_call3.cst (constant S_ .f32 0x00000000#32),
    TRef.unary main_call3.cst main_call3.v0 (broadcastInDim S8x4096x128 ![] bcast_S_S8x4096x128),
    TRef.binary (.of main_v50) main_call3.v0 main_call3.v1 maximumf,
    binary main_v38 main_v51 main_v52 ((fun a b => concatenate S25x4096x128 0 [⟨S17x4096x128, a⟩, ⟨S8x4096x128, b⟩] concatenates_S17x4096x128_S8x4096x128_S25x4096x128_d0) : (⟨S17x4096x128, .f32⟩ : BufTy).Contents (Elt F) → (⟨S8x4096x128, .f32⟩ : BufTy).Contents (Elt F) → (⟨S25x4096x128, .f32⟩ : BufTy).Contents (Elt F)) ]

/-- Operations of part 4 (18 of them). -/
abbrev seg4 : List (HloOp τ sig (Elt F)) :=
  [ nullary main_c_20 (constantI S_ 32 25#32),
    unary main_c_20 main_v53 (broadcastInDim S8x4 ![] bcast_S_S8x4 : (⟨S_, .i32⟩ : BufTy).Contents (Elt F) → (⟨S8x4, .i32⟩ : BufTy).Contents (Elt F)),
    binary main_c_5 main_v53 main_v54 (addi : (⟨S8x4, .i32⟩ : BufTy).Contents (Elt F) → (⟨S8x4, .i32⟩ : BufTy).Contents (Elt F) → (⟨S8x4, .i32⟩ : BufTy).Contents (Elt F)),
    ternary main_c_6 main_v54 main_c_5 main_v55 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v55 main_v56 (broadcastInDim S8x4x1 ![0, 1] bcast_S8x4_S8x4x1_0_1 : (⟨S8x4, .i32⟩ : BufTy).Contents (Elt F) → (⟨S8x4x1, .i32⟩ : BufTy).Contents (Elt F)),
    binary main_v52 main_v56 main_v57 ((fun x i => Host.gather gather_S25x4096x128_S8x4x1_S8x4x4096x128_23_0_n_n_0_2_14096128 x i) : (⟨S25x4096x128, .f32⟩ : BufTy).Contents (Elt F) → (⟨S8x4x1, .i32⟩ : BufTy).Contents (Elt F) → (⟨S8x4x4096x128, .f32⟩ : BufTy).Contents (Elt F)),
    nullary main_cst_21 (constant S_ .f32 0x00000000#32),
    binary main_v57 main_cst_21 main_v58 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v59 ((extractStridedSlice S8x128x128 ![25, 0, 0] · slices_S65x128x128_S8x128x128_25_0_0) : (⟨S65x128x128, .f32⟩ : BufTy).Contents (Elt F) → (⟨S8x128x128, .f32⟩ : BufTy).Contents (Elt F)),
    unary main_arg2 main_v60 ((extractStridedSlice S8x128 ![25, 0] · slices_S65x128_S8x128_25_0) : (⟨S65x128, .f32⟩ : BufTy).Contents (Elt F) → (⟨S8x128, .f32⟩ : BufTy).Contents (Elt F)),
    binary main_v58 main_v59 main_v61 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v60 main_v62 (broadcastInDim S8x1x128 ![0, 2] bcast_S8x128_S8x1x128_0_2 : (⟨S8x128, .f32⟩ : BufTy).Contents (Elt F) → (⟨S8x1x128, .f32⟩ : BufTy).Contents (Elt F)),
    unary main_v62 main_v63 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v61 main_v63 main_v64 (addf : (⟨S8x4096x128, .f32⟩ : BufTy).Contents (Elt F) → (⟨S8x4096x128, .f32⟩ : BufTy).Contents (Elt F) → (⟨S8x4096x128, .f32⟩ : BufTy).Contents (Elt F)),
    TRef.nullary main_call4.cst (constant S_ .f32 0x00000000#32),
    TRef.unary main_call4.cst main_call4.v0 (broadcastInDim S8x4096x128 ![] bcast_S_S8x4096x128),
    TRef.binary (.of main_v64) main_call4.v0 main_call4.v1 maximumf,
    binary main_v52 main_v65 main_v66 ((fun a b => concatenate S33x4096x128 0 [⟨S25x4096x128, a⟩, ⟨S8x4096x128, b⟩] concatenates_S25x4096x128_S8x4096x128_S33x4096x128_d0) : (⟨S25x4096x128, .f32⟩ : BufTy).Contents (Elt F) → (⟨S8x4096x128, .f32⟩ : BufTy).Contents (Elt F) → (⟨S33x4096x128, .f32⟩ : BufTy).Contents (Elt F)) ]

/-- Operations of part 5 (18 of them). -/
abbrev seg5 : List (HloOp τ sig (Elt F)) :=
  [ nullary main_c_22 (constantI S_ 32 33#32),
    unary main_c_22 main_v67 (broadcastInDim S8x4 ![] bcast_S_S8x4 : (⟨S_, .i32⟩ : BufTy).Contents (Elt F) → (⟨S8x4, .i32⟩ : BufTy).Contents (Elt F)),
    binary main_c_7 main_v67 main_v68 (addi : (⟨S8x4, .i32⟩ : BufTy).Contents (Elt F) → (⟨S8x4, .i32⟩ : BufTy).Contents (Elt F) → (⟨S8x4, .i32⟩ : BufTy).Contents (Elt F)),
    ternary main_c_8 main_v68 main_c_7 main_v69 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v69 main_v70 (broadcastInDim S8x4x1 ![0, 1] bcast_S8x4_S8x4x1_0_1 : (⟨S8x4, .i32⟩ : BufTy).Contents (Elt F) → (⟨S8x4x1, .i32⟩ : BufTy).Contents (Elt F)),
    binary main_v66 main_v70 main_v71 ((fun x i => Host.gather gather_S33x4096x128_S8x4x1_S8x4x4096x128_23_0_n_n_0_2_14096128 x i) : (⟨S33x4096x128, .f32⟩ : BufTy).Contents (Elt F) → (⟨S8x4x1, .i32⟩ : BufTy).Contents (Elt F) → (⟨S8x4x4096x128, .f32⟩ : BufTy).Contents (Elt F)),
    nullary main_cst_23 (constant S_ .f32 0x00000000#32),
    binary main_v71 main_cst_23 main_v72 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v73 ((extractStridedSlice S8x128x128 ![33, 0, 0] · slices_S65x128x128_S8x128x128_33_0_0) : (⟨S65x128x128, .f32⟩ : BufTy).Contents (Elt F) → (⟨S8x128x128, .f32⟩ : BufTy).Contents (Elt F)),
    unary main_arg2 main_v74 ((extractStridedSlice S8x128 ![33, 0] · slices_S65x128_S8x128_33_0) : (⟨S65x128, .f32⟩ : BufTy).Contents (Elt F) → (⟨S8x128, .f32⟩ : BufTy).Contents (Elt F)),
    binary main_v72 main_v73 main_v75 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v74 main_v76 (broadcastInDim S8x1x128 ![0, 2] bcast_S8x128_S8x1x128_0_2 : (⟨S8x128, .f32⟩ : BufTy).Contents (Elt F) → (⟨S8x1x128, .f32⟩ : BufTy).Contents (Elt F)),
    unary main_v76 main_v77 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v75 main_v77 main_v78 (addf : (⟨S8x4096x128, .f32⟩ : BufTy).Contents (Elt F) → (⟨S8x4096x128, .f32⟩ : BufTy).Contents (Elt F) → (⟨S8x4096x128, .f32⟩ : BufTy).Contents (Elt F)),
    TRef.nullary main_call5.cst (constant S_ .f32 0x00000000#32),
    TRef.unary main_call5.cst main_call5.v0 (broadcastInDim S8x4096x128 ![] bcast_S_S8x4096x128),
    TRef.binary (.of main_v78) main_call5.v0 main_call5.v1 maximumf,
    binary main_v66 main_v79 main_v80 ((fun a b => concatenate S41x4096x128 0 [⟨S33x4096x128, a⟩, ⟨S8x4096x128, b⟩] concatenates_S33x4096x128_S8x4096x128_S41x4096x128_d0) : (⟨S33x4096x128, .f32⟩ : BufTy).Contents (Elt F) → (⟨S8x4096x128, .f32⟩ : BufTy).Contents (Elt F) → (⟨S41x4096x128, .f32⟩ : BufTy).Contents (Elt F)) ]

/-- Operations of part 6 (18 of them). -/
abbrev seg6 : List (HloOp τ sig (Elt F)) :=
  [ nullary main_c_24 (constantI S_ 32 41#32),
    unary main_c_24 main_v81 (broadcastInDim S8x4 ![] bcast_S_S8x4 : (⟨S_, .i32⟩ : BufTy).Contents (Elt F) → (⟨S8x4, .i32⟩ : BufTy).Contents (Elt F)),
    binary main_c_9 main_v81 main_v82 (addi : (⟨S8x4, .i32⟩ : BufTy).Contents (Elt F) → (⟨S8x4, .i32⟩ : BufTy).Contents (Elt F) → (⟨S8x4, .i32⟩ : BufTy).Contents (Elt F)),
    ternary main_c_10 main_v82 main_c_9 main_v83 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v83 main_v84 (broadcastInDim S8x4x1 ![0, 1] bcast_S8x4_S8x4x1_0_1 : (⟨S8x4, .i32⟩ : BufTy).Contents (Elt F) → (⟨S8x4x1, .i32⟩ : BufTy).Contents (Elt F)),
    binary main_v80 main_v84 main_v85 ((fun x i => Host.gather gather_S41x4096x128_S8x4x1_S8x4x4096x128_23_0_n_n_0_2_14096128 x i) : (⟨S41x4096x128, .f32⟩ : BufTy).Contents (Elt F) → (⟨S8x4x1, .i32⟩ : BufTy).Contents (Elt F) → (⟨S8x4x4096x128, .f32⟩ : BufTy).Contents (Elt F)),
    nullary main_cst_25 (constant S_ .f32 0x00000000#32),
    binary main_v85 main_cst_25 main_v86 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v87 ((extractStridedSlice S8x128x128 ![41, 0, 0] · slices_S65x128x128_S8x128x128_41_0_0) : (⟨S65x128x128, .f32⟩ : BufTy).Contents (Elt F) → (⟨S8x128x128, .f32⟩ : BufTy).Contents (Elt F)),
    unary main_arg2 main_v88 ((extractStridedSlice S8x128 ![41, 0] · slices_S65x128_S8x128_41_0) : (⟨S65x128, .f32⟩ : BufTy).Contents (Elt F) → (⟨S8x128, .f32⟩ : BufTy).Contents (Elt F)),
    binary main_v86 main_v87 main_v89 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v88 main_v90 (broadcastInDim S8x1x128 ![0, 2] bcast_S8x128_S8x1x128_0_2 : (⟨S8x128, .f32⟩ : BufTy).Contents (Elt F) → (⟨S8x1x128, .f32⟩ : BufTy).Contents (Elt F)),
    unary main_v90 main_v91 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v89 main_v91 main_v92 (addf : (⟨S8x4096x128, .f32⟩ : BufTy).Contents (Elt F) → (⟨S8x4096x128, .f32⟩ : BufTy).Contents (Elt F) → (⟨S8x4096x128, .f32⟩ : BufTy).Contents (Elt F)),
    TRef.nullary main_call6.cst (constant S_ .f32 0x00000000#32),
    TRef.unary main_call6.cst main_call6.v0 (broadcastInDim S8x4096x128 ![] bcast_S_S8x4096x128),
    TRef.binary (.of main_v92) main_call6.v0 main_call6.v1 maximumf,
    binary main_v80 main_v93 main_v94 ((fun a b => concatenate S49x4096x128 0 [⟨S41x4096x128, a⟩, ⟨S8x4096x128, b⟩] concatenates_S41x4096x128_S8x4096x128_S49x4096x128_d0) : (⟨S41x4096x128, .f32⟩ : BufTy).Contents (Elt F) → (⟨S8x4096x128, .f32⟩ : BufTy).Contents (Elt F) → (⟨S49x4096x128, .f32⟩ : BufTy).Contents (Elt F)) ]

/-- Operations of part 7 (18 of them). -/
abbrev seg7 : List (HloOp τ sig (Elt F)) :=
  [ nullary main_c_26 (constantI S_ 32 49#32),
    unary main_c_26 main_v95 (broadcastInDim S8x4 ![] bcast_S_S8x4 : (⟨S_, .i32⟩ : BufTy).Contents (Elt F) → (⟨S8x4, .i32⟩ : BufTy).Contents (Elt F)),
    binary main_c_11 main_v95 main_v96 (addi : (⟨S8x4, .i32⟩ : BufTy).Contents (Elt F) → (⟨S8x4, .i32⟩ : BufTy).Contents (Elt F) → (⟨S8x4, .i32⟩ : BufTy).Contents (Elt F)),
    ternary main_c_12 main_v96 main_c_11 main_v97 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v97 main_v98 (broadcastInDim S8x4x1 ![0, 1] bcast_S8x4_S8x4x1_0_1 : (⟨S8x4, .i32⟩ : BufTy).Contents (Elt F) → (⟨S8x4x1, .i32⟩ : BufTy).Contents (Elt F)),
    binary main_v94 main_v98 main_v99 ((fun x i => Host.gather gather_S49x4096x128_S8x4x1_S8x4x4096x128_23_0_n_n_0_2_14096128 x i) : (⟨S49x4096x128, .f32⟩ : BufTy).Contents (Elt F) → (⟨S8x4x1, .i32⟩ : BufTy).Contents (Elt F) → (⟨S8x4x4096x128, .f32⟩ : BufTy).Contents (Elt F)),
    nullary main_cst_27 (constant S_ .f32 0x00000000#32),
    binary main_v99 main_cst_27 main_v100 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v101 ((extractStridedSlice S8x128x128 ![49, 0, 0] · slices_S65x128x128_S8x128x128_49_0_0) : (⟨S65x128x128, .f32⟩ : BufTy).Contents (Elt F) → (⟨S8x128x128, .f32⟩ : BufTy).Contents (Elt F)),
    unary main_arg2 main_v102 ((extractStridedSlice S8x128 ![49, 0] · slices_S65x128_S8x128_49_0) : (⟨S65x128, .f32⟩ : BufTy).Contents (Elt F) → (⟨S8x128, .f32⟩ : BufTy).Contents (Elt F)),
    binary main_v100 main_v101 main_v103 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v102 main_v104 (broadcastInDim S8x1x128 ![0, 2] bcast_S8x128_S8x1x128_0_2 : (⟨S8x128, .f32⟩ : BufTy).Contents (Elt F) → (⟨S8x1x128, .f32⟩ : BufTy).Contents (Elt F)),
    unary main_v104 main_v105 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v103 main_v105 main_v106 (addf : (⟨S8x4096x128, .f32⟩ : BufTy).Contents (Elt F) → (⟨S8x4096x128, .f32⟩ : BufTy).Contents (Elt F) → (⟨S8x4096x128, .f32⟩ : BufTy).Contents (Elt F)),
    TRef.nullary main_call7.cst (constant S_ .f32 0x00000000#32),
    TRef.unary main_call7.cst main_call7.v0 (broadcastInDim S8x4096x128 ![] bcast_S_S8x4096x128),
    TRef.binary (.of main_v106) main_call7.v0 main_call7.v1 maximumf,
    binary main_v94 main_v107 main_v108 ((fun a b => concatenate S57x4096x128 0 [⟨S49x4096x128, a⟩, ⟨S8x4096x128, b⟩] concatenates_S49x4096x128_S8x4096x128_S57x4096x128_d0) : (⟨S49x4096x128, .f32⟩ : BufTy).Contents (Elt F) → (⟨S8x4096x128, .f32⟩ : BufTy).Contents (Elt F) → (⟨S57x4096x128, .f32⟩ : BufTy).Contents (Elt F)) ]

/-- Operations of part 8 (18 of them). -/
abbrev seg8 : List (HloOp τ sig (Elt F)) :=
  [ nullary main_c_28 (constantI S_ 32 57#32),
    unary main_c_28 main_v109 (broadcastInDim S8x4 ![] bcast_S_S8x4 : (⟨S_, .i32⟩ : BufTy).Contents (Elt F) → (⟨S8x4, .i32⟩ : BufTy).Contents (Elt F)),
    binary main_c_13 main_v109 main_v110 (addi : (⟨S8x4, .i32⟩ : BufTy).Contents (Elt F) → (⟨S8x4, .i32⟩ : BufTy).Contents (Elt F) → (⟨S8x4, .i32⟩ : BufTy).Contents (Elt F)),
    ternary main_c_14 main_v110 main_c_13 main_v111 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v111 main_v112 (broadcastInDim S8x4x1 ![0, 1] bcast_S8x4_S8x4x1_0_1 : (⟨S8x4, .i32⟩ : BufTy).Contents (Elt F) → (⟨S8x4x1, .i32⟩ : BufTy).Contents (Elt F)),
    binary main_v108 main_v112 main_v113 ((fun x i => Host.gather gather_S57x4096x128_S8x4x1_S8x4x4096x128_23_0_n_n_0_2_14096128 x i) : (⟨S57x4096x128, .f32⟩ : BufTy).Contents (Elt F) → (⟨S8x4x1, .i32⟩ : BufTy).Contents (Elt F) → (⟨S8x4x4096x128, .f32⟩ : BufTy).Contents (Elt F)),
    nullary main_cst_29 (constant S_ .f32 0x00000000#32),
    binary main_v113 main_cst_29 main_v114 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v115 ((extractStridedSlice S8x128x128 ![57, 0, 0] · slices_S65x128x128_S8x128x128_57_0_0) : (⟨S65x128x128, .f32⟩ : BufTy).Contents (Elt F) → (⟨S8x128x128, .f32⟩ : BufTy).Contents (Elt F)),
    unary main_arg2 main_v116 ((extractStridedSlice S8x128 ![57, 0] · slices_S65x128_S8x128_57_0) : (⟨S65x128, .f32⟩ : BufTy).Contents (Elt F) → (⟨S8x128, .f32⟩ : BufTy).Contents (Elt F)),
    binary main_v114 main_v115 main_v117 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v116 main_v118 (broadcastInDim S8x1x128 ![0, 2] bcast_S8x128_S8x1x128_0_2 : (⟨S8x128, .f32⟩ : BufTy).Contents (Elt F) → (⟨S8x1x128, .f32⟩ : BufTy).Contents (Elt F)),
    unary main_v118 main_v119 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v117 main_v119 main_v120 (addf : (⟨S8x4096x128, .f32⟩ : BufTy).Contents (Elt F) → (⟨S8x4096x128, .f32⟩ : BufTy).Contents (Elt F) → (⟨S8x4096x128, .f32⟩ : BufTy).Contents (Elt F)),
    TRef.nullary main_call8.cst (constant S_ .f32 0x00000000#32),
    TRef.unary main_call8.cst main_call8.v0 (broadcastInDim S8x4096x128 ![] bcast_S_S8x4096x128),
    TRef.binary (.of main_v120) main_call8.v0 main_call8.v1 maximumf,
    binary main_v108 main_v121 main_v122 ((fun a b => concatenate S65x4096x128 0 [⟨S57x4096x128, a⟩, ⟨S8x4096x128, b⟩] concatenates_S57x4096x128_S8x4096x128_S65x4096x128_d0) : (⟨S57x4096x128, .f32⟩ : BufTy).Contents (Elt F) → (⟨S8x4096x128, .f32⟩ : BufTy).Contents (Elt F) → (⟨S65x4096x128, .f32⟩ : BufTy).Contents (Elt F)) ]

/-- Operations of part 9 (6 of them). -/
abbrev seg9 : List (HloOp τ sig (Elt F)) :=
  [ unary main_v122 main_v123 ((extractStridedSlice S8x4096x128 ![57, 0, 0] · slices_S65x4096x128_S8x4096x128_57_0_0) : (⟨S65x4096x128, .f32⟩ : BufTy).Contents (Elt F) → (⟨S8x4096x128, .f32⟩ : BufTy).Contents (Elt F)),
    nullary main_cst_30 (constant S_ .f32 0x00000000#32),
    binary main_v123 main_cst_30 main_v124 ((fun x v => Host.reduceAdd x v reducesTo_S8x4096x128_S4096x128_d0 h_S_) : (⟨S8x4096x128, .f32⟩ : BufTy).Contents (Elt F) → (⟨S_, .f32⟩ : BufTy).Contents (Elt F) → (⟨S4096x128, .f32⟩ : BufTy).Contents (Elt F)),
    nullary main_cst_31 (constant S_ .f32 0x41000000#32),
    unary main_cst_31 main_v125 (broadcastInDim S4096x128 ![] bcast_S_S4096x128 : (⟨S_, .f32⟩ : BufTy).Contents (Elt F) → (⟨S4096x128, .f32⟩ : BufTy).Contents (Elt F)),
    binary main_v124 main_v125 main_v126 (Host.divf : (⟨S4096x128, .f32⟩ : BufTy).Contents (Elt F) → (⟨S4096x128, .f32⟩ : BufTy).Contents (Elt F) → (⟨S4096x128, .f32⟩ : BufTy).Contents (Elt F)) ]

/-- @main's 179 operations, in order. -/
abbrev ops : List (HloOp τ sig (Elt F)) :=
  [ nullary main_c (constantI S8x4 32 0#32),
    nullary main_c_0 (constantI S8x4 1 0#1),
    nullary main_c_1 (fun i => lit0 (S8x4.rowMajor i)),
    nullary main_c_2 (constantI S8x4 1 0#1),
    nullary main_c_3 (fun i => lit1 (S8x4.rowMajor i)),
    nullary main_c_4 (constantI S8x4 1 0#1),
    nullary main_c_5 (fun i => lit2 (S8x4.rowMajor i)),
    nullary main_c_6 (constantI S8x4 1 0#1),
    nullary main_c_7 (fun i => lit3 (S8x4.rowMajor i)),
    nullary main_c_8 (constantI S8x4 1 0#1),
    nullary main_c_9 (fun i => lit4 (S8x4.rowMajor i)),
    nullary main_c_10 (constantI S8x4 1 0#1),
    nullary main_c_11 (fun i => lit5 (S8x4.rowMajor i)),
    nullary main_c_12 (constantI S8x4 1 0#1),
    nullary main_c_13 (fun i => lit6 (S8x4.rowMajor i)),
    nullary main_c_14 (constantI S8x4 1 0#1),
    unary main_arg1 main_v0 ((extractStridedSlice S1x128x128 ![0, 0, 0] · slices_S65x128x128_S1x128x128_0_0_0) : (⟨S65x128x128, .f32⟩ : BufTy).Contents (Elt F) → (⟨S1x128x128, .f32⟩ : BufTy).Contents (Elt F)),
    reshape main_v0 main_v1 rfl shapeCasts_S1x128x128_S128x128,
    unary main_v1 main_v2 ((transpose S128x128 [1, 0] · transposes_S128x128_S128x128_1_0) : (⟨S128x128, .f32⟩ : BufTy).Contents (Elt F) → (⟨S128x128, .f32⟩ : BufTy).Contents (Elt F)),
    binary main_arg0 main_v2 main_v3 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg2 main_v4 ((extractStridedSlice S1x128 ![0, 0] · slices_S65x128_S1x128_0_0) : (⟨S65x128, .f32⟩ : BufTy).Contents (Elt F) → (⟨S1x128, .f32⟩ : BufTy).Contents (Elt F)),
    reshape main_v4 main_v5 rfl shapeCasts_S1x128_S128,
    unary main_v5 main_v6 (broadcastInDim S1x128 ![1] bcast_S128_S1x128_1 : (⟨S128, .f32⟩ : BufTy).Contents (Elt F) → (⟨S1x128, .f32⟩ : BufTy).Contents (Elt F)),
    unary main_v6 main_v7 (broadcastInDim S4096x128 ![0, 1] bcast_S1x128_S4096x128_0_1 : (⟨S1x128, .f32⟩ : BufTy).Contents (Elt F) → (⟨S4096x128, .f32⟩ : BufTy).Contents (Elt F)),
    binary main_v3 main_v7 main_v8 (addf : (⟨S4096x128, .f32⟩ : BufTy).Contents (Elt F) → (⟨S4096x128, .f32⟩ : BufTy).Contents (Elt F) → (⟨S4096x128, .f32⟩ : BufTy).Contents (Elt F)),
    TRef.nullary main_call0.cst (constant S_ .f32 0x00000000#32),
    TRef.unary main_call0.cst main_call0.v0 (broadcastInDim S4096x128 ![] bcast_S_S4096x128),
    TRef.binary (.of main_v8) main_call0.v0 main_call0.v1 maximumf,
    unary main_v9 main_v10 (broadcastInDim S1x4096x128 ![1, 2] bcast_S4096x128_S1x4096x128_1_2 : (⟨S4096x128, .f32⟩ : BufTy).Contents (Elt F) → (⟨S1x4096x128, .f32⟩ : BufTy).Contents (Elt F)),
    nullary main_c_15 (constantI S_ 32 1#32),
    unary main_c_15 main_v11 (broadcastInDim S8x4 ![] bcast_S_S8x4 : (⟨S_, .i32⟩ : BufTy).Contents (Elt F) → (⟨S8x4, .i32⟩ : BufTy).Contents (Elt F)),
    binary main_c main_v11 main_v12 (addi : (⟨S8x4, .i32⟩ : BufTy).Contents (Elt F) → (⟨S8x4, .i32⟩ : BufTy).Contents (Elt F) → (⟨S8x4, .i32⟩ : BufTy).Contents (Elt F)),
    ternary main_c_0 main_v12 main_c main_v13 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v13 main_v14 (broadcastInDim S8x4x1 ![0, 1] bcast_S8x4_S8x4x1_0_1 : (⟨S8x4, .i32⟩ : BufTy).Contents (Elt F) → (⟨S8x4x1, .i32⟩ : BufTy).Contents (Elt F)),
    binary main_v10 main_v14 main_v15 ((fun x i => Host.gather gather_S1x4096x128_S8x4x1_S8x4x4096x128_23_0_n_n_0_2_14096128 x i) : (⟨S1x4096x128, .f32⟩ : BufTy).Contents (Elt F) → (⟨S8x4x1, .i32⟩ : BufTy).Contents (Elt F) → (⟨S8x4x4096x128, .f32⟩ : BufTy).Contents (Elt F)),
    nullary main_cst (constant S_ .f32 0x00000000#32),
    binary main_v15 main_cst main_v16 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v17 ((extractStridedSlice S8x128x128 ![1, 0, 0] · slices_S65x128x128_S8x128x128_1_0_0) : (⟨S65x128x128, .f32⟩ : BufTy).Contents (Elt F) → (⟨S8x128x128, .f32⟩ : BufTy).Contents (Elt F)),
    unary main_arg2 main_v18 ((extractStridedSlice S8x128 ![1, 0] · slices_S65x128_S8x128_1_0) : (⟨S65x128, .f32⟩ : BufTy).Contents (Elt F) → (⟨S8x128, .f32⟩ : BufTy).Contents (Elt F)),
    binary main_v16 main_v17 main_v19 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v18 main_v20 (broadcastInDim S8x1x128 ![0, 2] bcast_S8x128_S8x1x128_0_2 : (⟨S8x128, .f32⟩ : BufTy).Contents (Elt F) → (⟨S8x1x128, .f32⟩ : BufTy).Contents (Elt F)),
    unary main_v20 main_v21 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v19 main_v21 main_v22 (addf : (⟨S8x4096x128, .f32⟩ : BufTy).Contents (Elt F) → (⟨S8x4096x128, .f32⟩ : BufTy).Contents (Elt F) → (⟨S8x4096x128, .f32⟩ : BufTy).Contents (Elt F)),
    TRef.nullary main_call1.cst (constant S_ .f32 0x00000000#32),
    TRef.unary main_call1.cst main_call1.v0 (broadcastInDim S8x4096x128 ![] bcast_S_S8x4096x128),
    TRef.binary (.of main_v22) main_call1.v0 main_call1.v1 maximumf,
    binary main_v10 main_v23 main_v24 ((fun a b => concatenate S9x4096x128 0 [⟨S1x4096x128, a⟩, ⟨S8x4096x128, b⟩] concatenates_S1x4096x128_S8x4096x128_S9x4096x128_d0) : (⟨S1x4096x128, .f32⟩ : BufTy).Contents (Elt F) → (⟨S8x4096x128, .f32⟩ : BufTy).Contents (Elt F) → (⟨S9x4096x128, .f32⟩ : BufTy).Contents (Elt F)),
    nullary main_c_16 (constantI S_ 32 9#32),
    unary main_c_16 main_v25 (broadcastInDim S8x4 ![] bcast_S_S8x4 : (⟨S_, .i32⟩ : BufTy).Contents (Elt F) → (⟨S8x4, .i32⟩ : BufTy).Contents (Elt F)),
    binary main_c_1 main_v25 main_v26 (addi : (⟨S8x4, .i32⟩ : BufTy).Contents (Elt F) → (⟨S8x4, .i32⟩ : BufTy).Contents (Elt F) → (⟨S8x4, .i32⟩ : BufTy).Contents (Elt F)),
    ternary main_c_2 main_v26 main_c_1 main_v27 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v27 main_v28 (broadcastInDim S8x4x1 ![0, 1] bcast_S8x4_S8x4x1_0_1 : (⟨S8x4, .i32⟩ : BufTy).Contents (Elt F) → (⟨S8x4x1, .i32⟩ : BufTy).Contents (Elt F)),
    binary main_v24 main_v28 main_v29 ((fun x i => Host.gather gather_S9x4096x128_S8x4x1_S8x4x4096x128_23_0_n_n_0_2_14096128 x i) : (⟨S9x4096x128, .f32⟩ : BufTy).Contents (Elt F) → (⟨S8x4x1, .i32⟩ : BufTy).Contents (Elt F) → (⟨S8x4x4096x128, .f32⟩ : BufTy).Contents (Elt F)),
    nullary main_cst_17 (constant S_ .f32 0x00000000#32),
    binary main_v29 main_cst_17 main_v30 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v31 ((extractStridedSlice S8x128x128 ![9, 0, 0] · slices_S65x128x128_S8x128x128_9_0_0) : (⟨S65x128x128, .f32⟩ : BufTy).Contents (Elt F) → (⟨S8x128x128, .f32⟩ : BufTy).Contents (Elt F)),
    unary main_arg2 main_v32 ((extractStridedSlice S8x128 ![9, 0] · slices_S65x128_S8x128_9_0) : (⟨S65x128, .f32⟩ : BufTy).Contents (Elt F) → (⟨S8x128, .f32⟩ : BufTy).Contents (Elt F)),
    binary main_v30 main_v31 main_v33 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v32 main_v34 (broadcastInDim S8x1x128 ![0, 2] bcast_S8x128_S8x1x128_0_2 : (⟨S8x128, .f32⟩ : BufTy).Contents (Elt F) → (⟨S8x1x128, .f32⟩ : BufTy).Contents (Elt F)),
    unary main_v34 main_v35 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v33 main_v35 main_v36 (addf : (⟨S8x4096x128, .f32⟩ : BufTy).Contents (Elt F) → (⟨S8x4096x128, .f32⟩ : BufTy).Contents (Elt F) → (⟨S8x4096x128, .f32⟩ : BufTy).Contents (Elt F)),
    TRef.nullary main_call2.cst (constant S_ .f32 0x00000000#32),
    TRef.unary main_call2.cst main_call2.v0 (broadcastInDim S8x4096x128 ![] bcast_S_S8x4096x128),
    TRef.binary (.of main_v36) main_call2.v0 main_call2.v1 maximumf,
    binary main_v24 main_v37 main_v38 ((fun a b => concatenate S17x4096x128 0 [⟨S9x4096x128, a⟩, ⟨S8x4096x128, b⟩] concatenates_S9x4096x128_S8x4096x128_S17x4096x128_d0) : (⟨S9x4096x128, .f32⟩ : BufTy).Contents (Elt F) → (⟨S8x4096x128, .f32⟩ : BufTy).Contents (Elt F) → (⟨S17x4096x128, .f32⟩ : BufTy).Contents (Elt F)),
    nullary main_c_18 (constantI S_ 32 17#32),
    unary main_c_18 main_v39 (broadcastInDim S8x4 ![] bcast_S_S8x4 : (⟨S_, .i32⟩ : BufTy).Contents (Elt F) → (⟨S8x4, .i32⟩ : BufTy).Contents (Elt F)),
    binary main_c_3 main_v39 main_v40 (addi : (⟨S8x4, .i32⟩ : BufTy).Contents (Elt F) → (⟨S8x4, .i32⟩ : BufTy).Contents (Elt F) → (⟨S8x4, .i32⟩ : BufTy).Contents (Elt F)),
    ternary main_c_4 main_v40 main_c_3 main_v41 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v41 main_v42 (broadcastInDim S8x4x1 ![0, 1] bcast_S8x4_S8x4x1_0_1 : (⟨S8x4, .i32⟩ : BufTy).Contents (Elt F) → (⟨S8x4x1, .i32⟩ : BufTy).Contents (Elt F)),
    binary main_v38 main_v42 main_v43 ((fun x i => Host.gather gather_S17x4096x128_S8x4x1_S8x4x4096x128_23_0_n_n_0_2_14096128 x i) : (⟨S17x4096x128, .f32⟩ : BufTy).Contents (Elt F) → (⟨S8x4x1, .i32⟩ : BufTy).Contents (Elt F) → (⟨S8x4x4096x128, .f32⟩ : BufTy).Contents (Elt F)),
    nullary main_cst_19 (constant S_ .f32 0x00000000#32),
    binary main_v43 main_cst_19 main_v44 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v45 ((extractStridedSlice S8x128x128 ![17, 0, 0] · slices_S65x128x128_S8x128x128_17_0_0) : (⟨S65x128x128, .f32⟩ : BufTy).Contents (Elt F) → (⟨S8x128x128, .f32⟩ : BufTy).Contents (Elt F)),
    unary main_arg2 main_v46 ((extractStridedSlice S8x128 ![17, 0] · slices_S65x128_S8x128_17_0) : (⟨S65x128, .f32⟩ : BufTy).Contents (Elt F) → (⟨S8x128, .f32⟩ : BufTy).Contents (Elt F)),
    binary main_v44 main_v45 main_v47 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v46 main_v48 (broadcastInDim S8x1x128 ![0, 2] bcast_S8x128_S8x1x128_0_2 : (⟨S8x128, .f32⟩ : BufTy).Contents (Elt F) → (⟨S8x1x128, .f32⟩ : BufTy).Contents (Elt F)),
    unary main_v48 main_v49 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v47 main_v49 main_v50 (addf : (⟨S8x4096x128, .f32⟩ : BufTy).Contents (Elt F) → (⟨S8x4096x128, .f32⟩ : BufTy).Contents (Elt F) → (⟨S8x4096x128, .f32⟩ : BufTy).Contents (Elt F)),
    TRef.nullary main_call3.cst (constant S_ .f32 0x00000000#32),
    TRef.unary main_call3.cst main_call3.v0 (broadcastInDim S8x4096x128 ![] bcast_S_S8x4096x128),
    TRef.binary (.of main_v50) main_call3.v0 main_call3.v1 maximumf,
    binary main_v38 main_v51 main_v52 ((fun a b => concatenate S25x4096x128 0 [⟨S17x4096x128, a⟩, ⟨S8x4096x128, b⟩] concatenates_S17x4096x128_S8x4096x128_S25x4096x128_d0) : (⟨S17x4096x128, .f32⟩ : BufTy).Contents (Elt F) → (⟨S8x4096x128, .f32⟩ : BufTy).Contents (Elt F) → (⟨S25x4096x128, .f32⟩ : BufTy).Contents (Elt F)),
    nullary main_c_20 (constantI S_ 32 25#32),
    unary main_c_20 main_v53 (broadcastInDim S8x4 ![] bcast_S_S8x4 : (⟨S_, .i32⟩ : BufTy).Contents (Elt F) → (⟨S8x4, .i32⟩ : BufTy).Contents (Elt F)),
    binary main_c_5 main_v53 main_v54 (addi : (⟨S8x4, .i32⟩ : BufTy).Contents (Elt F) → (⟨S8x4, .i32⟩ : BufTy).Contents (Elt F) → (⟨S8x4, .i32⟩ : BufTy).Contents (Elt F)),
    ternary main_c_6 main_v54 main_c_5 main_v55 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v55 main_v56 (broadcastInDim S8x4x1 ![0, 1] bcast_S8x4_S8x4x1_0_1 : (⟨S8x4, .i32⟩ : BufTy).Contents (Elt F) → (⟨S8x4x1, .i32⟩ : BufTy).Contents (Elt F)),
    binary main_v52 main_v56 main_v57 ((fun x i => Host.gather gather_S25x4096x128_S8x4x1_S8x4x4096x128_23_0_n_n_0_2_14096128 x i) : (⟨S25x4096x128, .f32⟩ : BufTy).Contents (Elt F) → (⟨S8x4x1, .i32⟩ : BufTy).Contents (Elt F) → (⟨S8x4x4096x128, .f32⟩ : BufTy).Contents (Elt F)),
    nullary main_cst_21 (constant S_ .f32 0x00000000#32),
    binary main_v57 main_cst_21 main_v58 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v59 ((extractStridedSlice S8x128x128 ![25, 0, 0] · slices_S65x128x128_S8x128x128_25_0_0) : (⟨S65x128x128, .f32⟩ : BufTy).Contents (Elt F) → (⟨S8x128x128, .f32⟩ : BufTy).Contents (Elt F)),
    unary main_arg2 main_v60 ((extractStridedSlice S8x128 ![25, 0] · slices_S65x128_S8x128_25_0) : (⟨S65x128, .f32⟩ : BufTy).Contents (Elt F) → (⟨S8x128, .f32⟩ : BufTy).Contents (Elt F)),
    binary main_v58 main_v59 main_v61 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v60 main_v62 (broadcastInDim S8x1x128 ![0, 2] bcast_S8x128_S8x1x128_0_2 : (⟨S8x128, .f32⟩ : BufTy).Contents (Elt F) → (⟨S8x1x128, .f32⟩ : BufTy).Contents (Elt F)),
    unary main_v62 main_v63 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v61 main_v63 main_v64 (addf : (⟨S8x4096x128, .f32⟩ : BufTy).Contents (Elt F) → (⟨S8x4096x128, .f32⟩ : BufTy).Contents (Elt F) → (⟨S8x4096x128, .f32⟩ : BufTy).Contents (Elt F)),
    TRef.nullary main_call4.cst (constant S_ .f32 0x00000000#32),
    TRef.unary main_call4.cst main_call4.v0 (broadcastInDim S8x4096x128 ![] bcast_S_S8x4096x128),
    TRef.binary (.of main_v64) main_call4.v0 main_call4.v1 maximumf,
    binary main_v52 main_v65 main_v66 ((fun a b => concatenate S33x4096x128 0 [⟨S25x4096x128, a⟩, ⟨S8x4096x128, b⟩] concatenates_S25x4096x128_S8x4096x128_S33x4096x128_d0) : (⟨S25x4096x128, .f32⟩ : BufTy).Contents (Elt F) → (⟨S8x4096x128, .f32⟩ : BufTy).Contents (Elt F) → (⟨S33x4096x128, .f32⟩ : BufTy).Contents (Elt F)),
    nullary main_c_22 (constantI S_ 32 33#32),
    unary main_c_22 main_v67 (broadcastInDim S8x4 ![] bcast_S_S8x4 : (⟨S_, .i32⟩ : BufTy).Contents (Elt F) → (⟨S8x4, .i32⟩ : BufTy).Contents (Elt F)),
    binary main_c_7 main_v67 main_v68 (addi : (⟨S8x4, .i32⟩ : BufTy).Contents (Elt F) → (⟨S8x4, .i32⟩ : BufTy).Contents (Elt F) → (⟨S8x4, .i32⟩ : BufTy).Contents (Elt F)),
    ternary main_c_8 main_v68 main_c_7 main_v69 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v69 main_v70 (broadcastInDim S8x4x1 ![0, 1] bcast_S8x4_S8x4x1_0_1 : (⟨S8x4, .i32⟩ : BufTy).Contents (Elt F) → (⟨S8x4x1, .i32⟩ : BufTy).Contents (Elt F)),
    binary main_v66 main_v70 main_v71 ((fun x i => Host.gather gather_S33x4096x128_S8x4x1_S8x4x4096x128_23_0_n_n_0_2_14096128 x i) : (⟨S33x4096x128, .f32⟩ : BufTy).Contents (Elt F) → (⟨S8x4x1, .i32⟩ : BufTy).Contents (Elt F) → (⟨S8x4x4096x128, .f32⟩ : BufTy).Contents (Elt F)),
    nullary main_cst_23 (constant S_ .f32 0x00000000#32),
    binary main_v71 main_cst_23 main_v72 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v73 ((extractStridedSlice S8x128x128 ![33, 0, 0] · slices_S65x128x128_S8x128x128_33_0_0) : (⟨S65x128x128, .f32⟩ : BufTy).Contents (Elt F) → (⟨S8x128x128, .f32⟩ : BufTy).Contents (Elt F)),
    unary main_arg2 main_v74 ((extractStridedSlice S8x128 ![33, 0] · slices_S65x128_S8x128_33_0) : (⟨S65x128, .f32⟩ : BufTy).Contents (Elt F) → (⟨S8x128, .f32⟩ : BufTy).Contents (Elt F)),
    binary main_v72 main_v73 main_v75 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v74 main_v76 (broadcastInDim S8x1x128 ![0, 2] bcast_S8x128_S8x1x128_0_2 : (⟨S8x128, .f32⟩ : BufTy).Contents (Elt F) → (⟨S8x1x128, .f32⟩ : BufTy).Contents (Elt F)),
    unary main_v76 main_v77 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v75 main_v77 main_v78 (addf : (⟨S8x4096x128, .f32⟩ : BufTy).Contents (Elt F) → (⟨S8x4096x128, .f32⟩ : BufTy).Contents (Elt F) → (⟨S8x4096x128, .f32⟩ : BufTy).Contents (Elt F)),
    TRef.nullary main_call5.cst (constant S_ .f32 0x00000000#32),
    TRef.unary main_call5.cst main_call5.v0 (broadcastInDim S8x4096x128 ![] bcast_S_S8x4096x128),
    TRef.binary (.of main_v78) main_call5.v0 main_call5.v1 maximumf,
    binary main_v66 main_v79 main_v80 ((fun a b => concatenate S41x4096x128 0 [⟨S33x4096x128, a⟩, ⟨S8x4096x128, b⟩] concatenates_S33x4096x128_S8x4096x128_S41x4096x128_d0) : (⟨S33x4096x128, .f32⟩ : BufTy).Contents (Elt F) → (⟨S8x4096x128, .f32⟩ : BufTy).Contents (Elt F) → (⟨S41x4096x128, .f32⟩ : BufTy).Contents (Elt F)),
    nullary main_c_24 (constantI S_ 32 41#32),
    unary main_c_24 main_v81 (broadcastInDim S8x4 ![] bcast_S_S8x4 : (⟨S_, .i32⟩ : BufTy).Contents (Elt F) → (⟨S8x4, .i32⟩ : BufTy).Contents (Elt F)),
    binary main_c_9 main_v81 main_v82 (addi : (⟨S8x4, .i32⟩ : BufTy).Contents (Elt F) → (⟨S8x4, .i32⟩ : BufTy).Contents (Elt F) → (⟨S8x4, .i32⟩ : BufTy).Contents (Elt F)),
    ternary main_c_10 main_v82 main_c_9 main_v83 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v83 main_v84 (broadcastInDim S8x4x1 ![0, 1] bcast_S8x4_S8x4x1_0_1 : (⟨S8x4, .i32⟩ : BufTy).Contents (Elt F) → (⟨S8x4x1, .i32⟩ : BufTy).Contents (Elt F)),
    binary main_v80 main_v84 main_v85 ((fun x i => Host.gather gather_S41x4096x128_S8x4x1_S8x4x4096x128_23_0_n_n_0_2_14096128 x i) : (⟨S41x4096x128, .f32⟩ : BufTy).Contents (Elt F) → (⟨S8x4x1, .i32⟩ : BufTy).Contents (Elt F) → (⟨S8x4x4096x128, .f32⟩ : BufTy).Contents (Elt F)),
    nullary main_cst_25 (constant S_ .f32 0x00000000#32),
    binary main_v85 main_cst_25 main_v86 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v87 ((extractStridedSlice S8x128x128 ![41, 0, 0] · slices_S65x128x128_S8x128x128_41_0_0) : (⟨S65x128x128, .f32⟩ : BufTy).Contents (Elt F) → (⟨S8x128x128, .f32⟩ : BufTy).Contents (Elt F)),
    unary main_arg2 main_v88 ((extractStridedSlice S8x128 ![41, 0] · slices_S65x128_S8x128_41_0) : (⟨S65x128, .f32⟩ : BufTy).Contents (Elt F) → (⟨S8x128, .f32⟩ : BufTy).Contents (Elt F)),
    binary main_v86 main_v87 main_v89 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v88 main_v90 (broadcastInDim S8x1x128 ![0, 2] bcast_S8x128_S8x1x128_0_2 : (⟨S8x128, .f32⟩ : BufTy).Contents (Elt F) → (⟨S8x1x128, .f32⟩ : BufTy).Contents (Elt F)),
    unary main_v90 main_v91 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v89 main_v91 main_v92 (addf : (⟨S8x4096x128, .f32⟩ : BufTy).Contents (Elt F) → (⟨S8x4096x128, .f32⟩ : BufTy).Contents (Elt F) → (⟨S8x4096x128, .f32⟩ : BufTy).Contents (Elt F)),
    TRef.nullary main_call6.cst (constant S_ .f32 0x00000000#32),
    TRef.unary main_call6.cst main_call6.v0 (broadcastInDim S8x4096x128 ![] bcast_S_S8x4096x128),
    TRef.binary (.of main_v92) main_call6.v0 main_call6.v1 maximumf,
    binary main_v80 main_v93 main_v94 ((fun a b => concatenate S49x4096x128 0 [⟨S41x4096x128, a⟩, ⟨S8x4096x128, b⟩] concatenates_S41x4096x128_S8x4096x128_S49x4096x128_d0) : (⟨S41x4096x128, .f32⟩ : BufTy).Contents (Elt F) → (⟨S8x4096x128, .f32⟩ : BufTy).Contents (Elt F) → (⟨S49x4096x128, .f32⟩ : BufTy).Contents (Elt F)),
    nullary main_c_26 (constantI S_ 32 49#32),
    unary main_c_26 main_v95 (broadcastInDim S8x4 ![] bcast_S_S8x4 : (⟨S_, .i32⟩ : BufTy).Contents (Elt F) → (⟨S8x4, .i32⟩ : BufTy).Contents (Elt F)),
    binary main_c_11 main_v95 main_v96 (addi : (⟨S8x4, .i32⟩ : BufTy).Contents (Elt F) → (⟨S8x4, .i32⟩ : BufTy).Contents (Elt F) → (⟨S8x4, .i32⟩ : BufTy).Contents (Elt F)),
    ternary main_c_12 main_v96 main_c_11 main_v97 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v97 main_v98 (broadcastInDim S8x4x1 ![0, 1] bcast_S8x4_S8x4x1_0_1 : (⟨S8x4, .i32⟩ : BufTy).Contents (Elt F) → (⟨S8x4x1, .i32⟩ : BufTy).Contents (Elt F)),
    binary main_v94 main_v98 main_v99 ((fun x i => Host.gather gather_S49x4096x128_S8x4x1_S8x4x4096x128_23_0_n_n_0_2_14096128 x i) : (⟨S49x4096x128, .f32⟩ : BufTy).Contents (Elt F) → (⟨S8x4x1, .i32⟩ : BufTy).Contents (Elt F) → (⟨S8x4x4096x128, .f32⟩ : BufTy).Contents (Elt F)),
    nullary main_cst_27 (constant S_ .f32 0x00000000#32),
    binary main_v99 main_cst_27 main_v100 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v101 ((extractStridedSlice S8x128x128 ![49, 0, 0] · slices_S65x128x128_S8x128x128_49_0_0) : (⟨S65x128x128, .f32⟩ : BufTy).Contents (Elt F) → (⟨S8x128x128, .f32⟩ : BufTy).Contents (Elt F)),
    unary main_arg2 main_v102 ((extractStridedSlice S8x128 ![49, 0] · slices_S65x128_S8x128_49_0) : (⟨S65x128, .f32⟩ : BufTy).Contents (Elt F) → (⟨S8x128, .f32⟩ : BufTy).Contents (Elt F)),
    binary main_v100 main_v101 main_v103 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v102 main_v104 (broadcastInDim S8x1x128 ![0, 2] bcast_S8x128_S8x1x128_0_2 : (⟨S8x128, .f32⟩ : BufTy).Contents (Elt F) → (⟨S8x1x128, .f32⟩ : BufTy).Contents (Elt F)),
    unary main_v104 main_v105 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v103 main_v105 main_v106 (addf : (⟨S8x4096x128, .f32⟩ : BufTy).Contents (Elt F) → (⟨S8x4096x128, .f32⟩ : BufTy).Contents (Elt F) → (⟨S8x4096x128, .f32⟩ : BufTy).Contents (Elt F)),
    TRef.nullary main_call7.cst (constant S_ .f32 0x00000000#32),
    TRef.unary main_call7.cst main_call7.v0 (broadcastInDim S8x4096x128 ![] bcast_S_S8x4096x128),
    TRef.binary (.of main_v106) main_call7.v0 main_call7.v1 maximumf,
    binary main_v94 main_v107 main_v108 ((fun a b => concatenate S57x4096x128 0 [⟨S49x4096x128, a⟩, ⟨S8x4096x128, b⟩] concatenates_S49x4096x128_S8x4096x128_S57x4096x128_d0) : (⟨S49x4096x128, .f32⟩ : BufTy).Contents (Elt F) → (⟨S8x4096x128, .f32⟩ : BufTy).Contents (Elt F) → (⟨S57x4096x128, .f32⟩ : BufTy).Contents (Elt F)),
    nullary main_c_28 (constantI S_ 32 57#32),
    unary main_c_28 main_v109 (broadcastInDim S8x4 ![] bcast_S_S8x4 : (⟨S_, .i32⟩ : BufTy).Contents (Elt F) → (⟨S8x4, .i32⟩ : BufTy).Contents (Elt F)),
    binary main_c_13 main_v109 main_v110 (addi : (⟨S8x4, .i32⟩ : BufTy).Contents (Elt F) → (⟨S8x4, .i32⟩ : BufTy).Contents (Elt F) → (⟨S8x4, .i32⟩ : BufTy).Contents (Elt F)),
    ternary main_c_14 main_v110 main_c_13 main_v111 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v111 main_v112 (broadcastInDim S8x4x1 ![0, 1] bcast_S8x4_S8x4x1_0_1 : (⟨S8x4, .i32⟩ : BufTy).Contents (Elt F) → (⟨S8x4x1, .i32⟩ : BufTy).Contents (Elt F)),
    binary main_v108 main_v112 main_v113 ((fun x i => Host.gather gather_S57x4096x128_S8x4x1_S8x4x4096x128_23_0_n_n_0_2_14096128 x i) : (⟨S57x4096x128, .f32⟩ : BufTy).Contents (Elt F) → (⟨S8x4x1, .i32⟩ : BufTy).Contents (Elt F) → (⟨S8x4x4096x128, .f32⟩ : BufTy).Contents (Elt F)),
    nullary main_cst_29 (constant S_ .f32 0x00000000#32),
    binary main_v113 main_cst_29 main_v114 ((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)),
    unary main_arg1 main_v115 ((extractStridedSlice S8x128x128 ![57, 0, 0] · slices_S65x128x128_S8x128x128_57_0_0) : (⟨S65x128x128, .f32⟩ : BufTy).Contents (Elt F) → (⟨S8x128x128, .f32⟩ : BufTy).Contents (Elt F)),
    unary main_arg2 main_v116 ((extractStridedSlice S8x128 ![57, 0] · slices_S65x128_S8x128_57_0) : (⟨S65x128, .f32⟩ : BufTy).Contents (Elt F) → (⟨S8x128, .f32⟩ : BufTy).Contents (Elt F)),
    binary main_v114 main_v115 main_v117 ((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)),
    unary main_v116 main_v118 (broadcastInDim S8x1x128 ![0, 2] bcast_S8x128_S8x1x128_0_2 : (⟨S8x128, .f32⟩ : BufTy).Contents (Elt F) → (⟨S8x1x128, .f32⟩ : BufTy).Contents (Elt F)),
    unary main_v118 main_v119 (broadcastInDim S8x4096x128 ![0, 1, 2] bcast_S8x1x128_S8x4096x128_0_1_2 : (⟨S8x1x128, .f32⟩ : BufTy).Contents (Elt F) → (⟨S8x4096x128, .f32⟩ : BufTy).Contents (Elt F)),
    binary main_v117 main_v119 main_v120 (addf : (⟨S8x4096x128, .f32⟩ : BufTy).Contents (Elt F) → (⟨S8x4096x128, .f32⟩ : BufTy).Contents (Elt F) → (⟨S8x4096x128, .f32⟩ : BufTy).Contents (Elt F)),
    TRef.nullary main_call8.cst (constant S_ .f32 0x00000000#32),
    TRef.unary main_call8.cst main_call8.v0 (broadcastInDim S8x4096x128 ![] bcast_S_S8x4096x128),
    TRef.binary (.of main_v120) main_call8.v0 main_call8.v1 maximumf,
    binary main_v108 main_v121 main_v122 ((fun a b => concatenate S65x4096x128 0 [⟨S57x4096x128, a⟩, ⟨S8x4096x128, b⟩] concatenates_S57x4096x128_S8x4096x128_S65x4096x128_d0) : (⟨S57x4096x128, .f32⟩ : BufTy).Contents (Elt F) → (⟨S8x4096x128, .f32⟩ : BufTy).Contents (Elt F) → (⟨S65x4096x128, .f32⟩ : BufTy).Contents (Elt F)),
    unary main_v122 main_v123 ((extractStridedSlice S8x4096x128 ![57, 0, 0] · slices_S65x4096x128_S8x4096x128_57_0_0) : (⟨S65x4096x128, .f32⟩ : BufTy).Contents (Elt F) → (⟨S8x4096x128, .f32⟩ : BufTy).Contents (Elt F)),
    nullary main_cst_30 (constant S_ .f32 0x00000000#32),
    binary main_v123 main_cst_30 main_v124 ((fun x v => Host.reduceAdd x v reducesTo_S8x4096x128_S4096x128_d0 h_S_) : (⟨S8x4096x128, .f32⟩ : BufTy).Contents (Elt F) → (⟨S_, .f32⟩ : BufTy).Contents (Elt F) → (⟨S4096x128, .f32⟩ : BufTy).Contents (Elt F)),
    nullary main_cst_31 (constant S_ .f32 0x41000000#32),
    unary main_cst_31 main_v125 (broadcastInDim S4096x128 ![] bcast_S_S4096x128 : (⟨S_, .f32⟩ : BufTy).Contents (Elt F) → (⟨S4096x128, .f32⟩ : BufTy).Contents (Elt F)),
    binary main_v124 main_v125 main_v126 (Host.divf : (⟨S4096x128, .f32⟩ : BufTy).Contents (Elt F) → (⟨S4096x128, .f32⟩ : BufTy).Contents (Elt F) → (⟨S4096x128, .f32⟩ : BufTy).Contents (Elt F)) ]

end Cert.RefOps

end
-- ==== Proof.RefRunMain.lean ====
import proofs.«179685_j33062658245245_2_alg».proof.Proof.Gen.ReferenceIdeal
import proofs.«179685_j33062658245245_2_alg».proof.Proof.RefOps

/-!
# The reference program runs as its list of operations

@main of the reference is a straight line of host operations: its three printed windows, with the
called function's three operations at each call, are the literal list `Cert.RefOps.ops` run in order.
Hence every weakly fair execution terminates, and each buffer ends at the fold of the operations'
results over the launch contents.
-/

noncomputable section

namespace Cert.RefSide

open Cert.ReferenceIdeal Cert.ReferenceIdeal.Gen Cert.RefOps Idealize.ShloMosaic Idealize.ShloMosaic.TcCoe Idealize.SL.Sem
  Idealize.ShloMosaic.StableHlo

variable {F : FTy → Type} [FloatOps F]

-- one hundred and seventy-nine binds re-associated: the rewrite under the chain recurses once per statement
set_option maxRecDepth 65536 in
set_option maxHeartbeats 4000000 in
/-- @main is the straight line of its operations: the three windows and the called functions unfolded,
    both sides are one chain of steps once sequencing is re-associated. -/
theorem main_eq (c : Dev nD) : main (F := F) c = seq ops := by
  simp only [main, main_part0, main_part1, main_part2, fn_relu.body, fn_relu_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    nullary_bufs_sub .., nullary_bufs_sub .., nullary_bufs_sub .., nullary_bufs_sub .., nullary_bufs_sub .., nullary_bufs_sub ..,
    nullary_bufs_sub .., nullary_bufs_sub .., nullary_bufs_sub .., nullary_bufs_sub .., nullary_bufs_sub .., nullary_bufs_sub ..,
    nullary_bufs_sub .., nullary_bufs_sub .., nullary_bufs_sub .., nullary_bufs_sub .., unary_bufs_sub .., reshape_bufs_sub ..,
    unary_bufs_sub .., binary_bufs_sub .., unary_bufs_sub .., reshape_bufs_sub .., unary_bufs_sub .., unary_bufs_sub ..,
    binary_bufs_sub .., nullary_bufs_sub .., unary_bufs_sub .., binary_bufs_sub .., unary_bufs_sub .., nullary_bufs_sub ..,
    unary_bufs_sub .., binary_bufs_sub .., ternary_bufs_sub .., unary_bufs_sub .., binary_bufs_sub .., nullary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., unary_bufs_sub .., binary_bufs_sub .., nullary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., unary_bufs_sub .., binary_bufs_sub .., nullary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., unary_bufs_sub .., binary_bufs_sub .., nullary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., unary_bufs_sub .., binary_bufs_sub .., nullary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., unary_bufs_sub .., binary_bufs_sub .., nullary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., unary_bufs_sub .., binary_bufs_sub .., nullary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., unary_bufs_sub .., binary_bufs_sub .., nullary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., unary_bufs_sub ..,
    nullary_bufs_sub .., binary_bufs_sub .., nullary_bufs_sub .., unary_bufs_sub .., binary_bufs_sub ..⟩

/-- Every operation determines its results. -/
theorem ops_fresh : (ops : List (HloOp τ sig (Elt F))).Forall fun op => op.fresh = ∅ := by
  simp only [List.Forall]; repeat' constructor

/-- On every device, from any memory with zero counters: every weakly fair execution of @main terminates,
    and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.RefSide

end
-- ==== Proof.RefFns.lean ====
import proofs.«179685_j33062658245245_2_alg».proof.ReferenceIdeal

/-!
# The reference program's host operations, grouped

The reference's straight line of host operations read as pure functions of the buffers they
consume: the input node, then one function per layer of eight nodes (it takes the stack of all
earlier activations and returns the stack extended by eight), then the mean of the last eight.
Each is the composition of the printed operations between two stacks, in the printed order and
with the printed dimension records; nothing is simplified.
-/

noncomputable section

namespace Cert.RefFns

open Cert.ReferenceIdeal Idealize.ShloMosaic

variable {F : FTy → Type} [FloatOps F]
variable [Facts]
open Facts₀ Facts

/-- The input node: max (X · W₀ᵀ + b₀) 0, as a stack of one activation. -/
def node0 (X : (⟨S4096x128, .f32⟩ : BufTy).Contents (Elt F)) (W : (⟨S65x128x128, .f32⟩ : BufTy).Contents (Elt F)) (B : (⟨S65x128, .f32⟩ : BufTy).Contents (Elt F)) : (⟨S1x4096x128, .f32⟩ : BufTy).Contents (Elt F) :=
  ((broadcastInDim S1x4096x128 ![1, 2] bcast_S4096x128_S1x4096x128_1_2 : (⟨S4096x128, .f32⟩ : BufTy).Contents (Elt F) → (⟨S1x4096x128, .f32⟩ : BufTy).Contents (Elt F)) (maximumf ((addf : (⟨S4096x128, .f32⟩ : BufTy).Contents (Elt F) → (⟨S4096x128, .f32⟩ : BufTy).Contents (Elt F) → (⟨S4096x128, .f32⟩ : BufTy).Contents (Elt F)) (((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)) X (((transpose S128x128 [1, 0] · transposes_S128x128_S128x128_1_0) : (⟨S128x128, .f32⟩ : BufTy).Contents (Elt F) → (⟨S128x128, .f32⟩ : BufTy).Contents (Elt F)) (shapeCast S128x128 (((extractStridedSlice S1x128x128 ![0, 0, 0] · slices_S65x128x128_S1x128x128_0_0_0) : (⟨S65x128x128, .f32⟩ : BufTy).Contents (Elt F) → (⟨S1x128x128, .f32⟩ : BufTy).Contents (Elt F)) W) shapeCasts_S1x128x128_S128x128))) ((broadcastInDim S4096x128 ![0, 1] bcast_S1x128_S4096x128_0_1 : (⟨S1x128, .f32⟩ : BufTy).Contents (Elt F) → (⟨S4096x128, .f32⟩ : BufTy).Contents (Elt F)) ((broadcastInDim S1x128 ![1] bcast_S128_S1x128_1 : (⟨S128, .f32⟩ : BufTy).Contents (Elt F) → (⟨S1x128, .f32⟩ : BufTy).Contents (Elt F)) (shapeCast S128 (((extractStridedSlice S1x128 ![0, 0] · slices_S65x128_S1x128_0_0) : (⟨S65x128, .f32⟩ : BufTy).Contents (Elt F) → (⟨S1x128, .f32⟩ : BufTy).Contents (Elt F)) B) shapeCasts_S1x128_S128)))) ((broadcastInDim S4096x128 ![] bcast_S_S4096x128) (constant S_ .f32 0x00000000#32))))

/-- Layer 1: the stack O of the first 1 activations extended by nodes 1 … 8: each new node gathers its four
    parents' activations from O, adds them, applies its affine map and max · 0. -/
def layer1 (O : (⟨S1x4096x128, .f32⟩ : BufTy).Contents (Elt F)) (W : (⟨S65x128x128, .f32⟩ : BufTy).Contents (Elt F)) (B : (⟨S65x128, .f32⟩ : BufTy).Contents (Elt F)) : (⟨S9x4096x128, .f32⟩ : BufTy).Contents (Elt F) :=
  (((fun a b => concatenate S9x4096x128 0 [⟨S1x4096x128, a⟩, ⟨S8x4096x128, b⟩] concatenates_S1x4096x128_S8x4096x128_S9x4096x128_d0) : (⟨S1x4096x128, .f32⟩ : BufTy).Contents (Elt F) → (⟨S8x4096x128, .f32⟩ : BufTy).Contents (Elt F) → (⟨S9x4096x128, .f32⟩ : BufTy).Contents (Elt F)) O (maximumf ((addf : (⟨S8x4096x128, .f32⟩ : BufTy).Contents (Elt F) → (⟨S8x4096x128, .f32⟩ : BufTy).Contents (Elt F) → (⟨S8x4096x128, .f32⟩ : BufTy).Contents (Elt F)) (((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)) (((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)) (((fun x i => Host.gather gather_S1x4096x128_S8x4x1_S8x4x4096x128_23_0_n_n_0_2_14096128 x i) : (⟨S1x4096x128, .f32⟩ : BufTy).Contents (Elt F) → (⟨S8x4x1, .i32⟩ : BufTy).Contents (Elt F) → (⟨S8x4x4096x128, .f32⟩ : BufTy).Contents (Elt F)) O ((broadcastInDim S8x4x1 ![0, 1] bcast_S8x4_S8x4x1_0_1 : (⟨S8x4, .i32⟩ : BufTy).Contents (Elt F) → (⟨S8x4x1, .i32⟩ : BufTy).Contents (Elt F)) ((select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)) (constantI S8x4 1 0#1) ((addi : (⟨S8x4, .i32⟩ : BufTy).Contents (Elt F) → (⟨S8x4, .i32⟩ : BufTy).Contents (Elt F) → (⟨S8x4, .i32⟩ : BufTy).Contents (Elt F)) (constantI S8x4 32 0#32) ((broadcastInDim S8x4 ![] bcast_S_S8x4 : (⟨S_, .i32⟩ : BufTy).Contents (Elt F) → (⟨S8x4, .i32⟩ : BufTy).Contents (Elt F)) (constantI S_ 32 1#32))) (constantI S8x4 32 0#32)))) (constant S_ .f32 0x00000000#32)) (((extractStridedSlice S8x128x128 ![1, 0, 0] · slices_S65x128x128_S8x128x128_1_0_0) : (⟨S65x128x128, .f32⟩ : BufTy).Contents (Elt F) → (⟨S8x128x128, .f32⟩ : BufTy).Contents (Elt F)) W)) ((broadcastInDim S8x4096x128 ![0, 1, 2] bcast_S8x1x128_S8x4096x128_0_1_2 : (⟨S8x1x128, .f32⟩ : BufTy).Contents (Elt F) → (⟨S8x4096x128, .f32⟩ : BufTy).Contents (Elt F)) ((broadcastInDim S8x1x128 ![0, 2] bcast_S8x128_S8x1x128_0_2 : (⟨S8x128, .f32⟩ : BufTy).Contents (Elt F) → (⟨S8x1x128, .f32⟩ : BufTy).Contents (Elt F)) (((extractStridedSlice S8x128 ![1, 0] · slices_S65x128_S8x128_1_0) : (⟨S65x128, .f32⟩ : BufTy).Contents (Elt F) → (⟨S8x128, .f32⟩ : BufTy).Contents (Elt F)) B)))) ((broadcastInDim S8x4096x128 ![] bcast_S_S8x4096x128) (constant S_ .f32 0x00000000#32))))

/-- Layer 2: the stack O of the first 9 activations extended by nodes 9 … 16: each new node gathers its four
    parents' activations from O, adds them, applies its affine map and max · 0. -/
def layer2 (O : (⟨S9x4096x128, .f32⟩ : BufTy).Contents (Elt F)) (W : (⟨S65x128x128, .f32⟩ : BufTy).Contents (Elt F)) (B : (⟨S65x128, .f32⟩ : BufTy).Contents (Elt F)) : (⟨S17x4096x128, .f32⟩ : BufTy).Contents (Elt F) :=
  (((fun a b => concatenate S17x4096x128 0 [⟨S9x4096x128, a⟩, ⟨S8x4096x128, b⟩] concatenates_S9x4096x128_S8x4096x128_S17x4096x128_d0) : (⟨S9x4096x128, .f32⟩ : BufTy).Contents (Elt F) → (⟨S8x4096x128, .f32⟩ : BufTy).Contents (Elt F) → (⟨S17x4096x128, .f32⟩ : BufTy).Contents (Elt F)) O (maximumf ((addf : (⟨S8x4096x128, .f32⟩ : BufTy).Contents (Elt F) → (⟨S8x4096x128, .f32⟩ : BufTy).Contents (Elt F) → (⟨S8x4096x128, .f32⟩ : BufTy).Contents (Elt F)) (((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)) (((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)) (((fun x i => Host.gather gather_S9x4096x128_S8x4x1_S8x4x4096x128_23_0_n_n_0_2_14096128 x i) : (⟨S9x4096x128, .f32⟩ : BufTy).Contents (Elt F) → (⟨S8x4x1, .i32⟩ : BufTy).Contents (Elt F) → (⟨S8x4x4096x128, .f32⟩ : BufTy).Contents (Elt F)) O ((broadcastInDim S8x4x1 ![0, 1] bcast_S8x4_S8x4x1_0_1 : (⟨S8x4, .i32⟩ : BufTy).Contents (Elt F) → (⟨S8x4x1, .i32⟩ : BufTy).Contents (Elt F)) ((select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)) (constantI S8x4 1 0#1) ((addi : (⟨S8x4, .i32⟩ : BufTy).Contents (Elt F) → (⟨S8x4, .i32⟩ : BufTy).Contents (Elt F) → (⟨S8x4, .i32⟩ : BufTy).Contents (Elt F)) (fun i => lit0 (S8x4.rowMajor i)) ((broadcastInDim S8x4 ![] bcast_S_S8x4 : (⟨S_, .i32⟩ : BufTy).Contents (Elt F) → (⟨S8x4, .i32⟩ : BufTy).Contents (Elt F)) (constantI S_ 32 9#32))) (fun i => lit0 (S8x4.rowMajor i))))) (constant S_ .f32 0x00000000#32)) (((extractStridedSlice S8x128x128 ![9, 0, 0] · slices_S65x128x128_S8x128x128_9_0_0) : (⟨S65x128x128, .f32⟩ : BufTy).Contents (Elt F) → (⟨S8x128x128, .f32⟩ : BufTy).Contents (Elt F)) W)) ((broadcastInDim S8x4096x128 ![0, 1, 2] bcast_S8x1x128_S8x4096x128_0_1_2 : (⟨S8x1x128, .f32⟩ : BufTy).Contents (Elt F) → (⟨S8x4096x128, .f32⟩ : BufTy).Contents (Elt F)) ((broadcastInDim S8x1x128 ![0, 2] bcast_S8x128_S8x1x128_0_2 : (⟨S8x128, .f32⟩ : BufTy).Contents (Elt F) → (⟨S8x1x128, .f32⟩ : BufTy).Contents (Elt F)) (((extractStridedSlice S8x128 ![9, 0] · slices_S65x128_S8x128_9_0) : (⟨S65x128, .f32⟩ : BufTy).Contents (Elt F) → (⟨S8x128, .f32⟩ : BufTy).Contents (Elt F)) B)))) ((broadcastInDim S8x4096x128 ![] bcast_S_S8x4096x128) (constant S_ .f32 0x00000000#32))))

/-- Layer 3: the stack O of the first 17 activations extended by nodes 17 … 24: each new node gathers its four
    parents' activations from O, adds them, applies its affine map and max · 0. -/
def layer3 (O : (⟨S17x4096x128, .f32⟩ : BufTy).Contents (Elt F)) (W : (⟨S65x128x128, .f32⟩ : BufTy).Contents (Elt F)) (B : (⟨S65x128, .f32⟩ : BufTy).Contents (Elt F)) : (⟨S25x4096x128, .f32⟩ : BufTy).Contents (Elt F) :=
  (((fun a b => concatenate S25x4096x128 0 [⟨S17x4096x128, a⟩, ⟨S8x4096x128, b⟩] concatenates_S17x4096x128_S8x4096x128_S25x4096x128_d0) : (⟨S17x4096x128, .f32⟩ : BufTy).Contents (Elt F) → (⟨S8x4096x128, .f32⟩ : BufTy).Contents (Elt F) → (⟨S25x4096x128, .f32⟩ : BufTy).Contents (Elt F)) O (maximumf ((addf : (⟨S8x4096x128, .f32⟩ : BufTy).Contents (Elt F) → (⟨S8x4096x128, .f32⟩ : BufTy).Contents (Elt F) → (⟨S8x4096x128, .f32⟩ : BufTy).Contents (Elt F)) (((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)) (((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)) (((fun x i => Host.gather gather_S17x4096x128_S8x4x1_S8x4x4096x128_23_0_n_n_0_2_14096128 x i) : (⟨S17x4096x128, .f32⟩ : BufTy).Contents (Elt F) → (⟨S8x4x1, .i32⟩ : BufTy).Contents (Elt F) → (⟨S8x4x4096x128, .f32⟩ : BufTy).Contents (Elt F)) O ((broadcastInDim S8x4x1 ![0, 1] bcast_S8x4_S8x4x1_0_1 : (⟨S8x4, .i32⟩ : BufTy).Contents (Elt F) → (⟨S8x4x1, .i32⟩ : BufTy).Contents (Elt F)) ((select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)) (constantI S8x4 1 0#1) ((addi : (⟨S8x4, .i32⟩ : BufTy).Contents (Elt F) → (⟨S8x4, .i32⟩ : BufTy).Contents (Elt F) → (⟨S8x4, .i32⟩ : BufTy).Contents (Elt F)) (fun i => lit1 (S8x4.rowMajor i)) ((broadcastInDim S8x4 ![] bcast_S_S8x4 : (⟨S_, .i32⟩ : BufTy).Contents (Elt F) → (⟨S8x4, .i32⟩ : BufTy).Contents (Elt F)) (constantI S_ 32 17#32))) (fun i => lit1 (S8x4.rowMajor i))))) (constant S_ .f32 0x00000000#32)) (((extractStridedSlice S8x128x128 ![17, 0, 0] · slices_S65x128x128_S8x128x128_17_0_0) : (⟨S65x128x128, .f32⟩ : BufTy).Contents (Elt F) → (⟨S8x128x128, .f32⟩ : BufTy).Contents (Elt F)) W)) ((broadcastInDim S8x4096x128 ![0, 1, 2] bcast_S8x1x128_S8x4096x128_0_1_2 : (⟨S8x1x128, .f32⟩ : BufTy).Contents (Elt F) → (⟨S8x4096x128, .f32⟩ : BufTy).Contents (Elt F)) ((broadcastInDim S8x1x128 ![0, 2] bcast_S8x128_S8x1x128_0_2 : (⟨S8x128, .f32⟩ : BufTy).Contents (Elt F) → (⟨S8x1x128, .f32⟩ : BufTy).Contents (Elt F)) (((extractStridedSlice S8x128 ![17, 0] · slices_S65x128_S8x128_17_0) : (⟨S65x128, .f32⟩ : BufTy).Contents (Elt F) → (⟨S8x128, .f32⟩ : BufTy).Contents (Elt F)) B)))) ((broadcastInDim S8x4096x128 ![] bcast_S_S8x4096x128) (constant S_ .f32 0x00000000#32))))

/-- Layer 4: the stack O of the first 25 activations extended by nodes 25 … 32: each new node gathers its four
    parents' activations from O, adds them, applies its affine map and max · 0. -/
def layer4 (O : (⟨S25x4096x128, .f32⟩ : BufTy).Contents (Elt F)) (W : (⟨S65x128x128, .f32⟩ : BufTy).Contents (Elt F)) (B : (⟨S65x128, .f32⟩ : BufTy).Contents (Elt F)) : (⟨S33x4096x128, .f32⟩ : BufTy).Contents (Elt F) :=
  (((fun a b => concatenate S33x4096x128 0 [⟨S25x4096x128, a⟩, ⟨S8x4096x128, b⟩] concatenates_S25x4096x128_S8x4096x128_S33x4096x128_d0) : (⟨S25x4096x128, .f32⟩ : BufTy).Contents (Elt F) → (⟨S8x4096x128, .f32⟩ : BufTy).Contents (Elt F) → (⟨S33x4096x128, .f32⟩ : BufTy).Contents (Elt F)) O (maximumf ((addf : (⟨S8x4096x128, .f32⟩ : BufTy).Contents (Elt F) → (⟨S8x4096x128, .f32⟩ : BufTy).Contents (Elt F) → (⟨S8x4096x128, .f32⟩ : BufTy).Contents (Elt F)) (((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)) (((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)) (((fun x i => Host.gather gather_S25x4096x128_S8x4x1_S8x4x4096x128_23_0_n_n_0_2_14096128 x i) : (⟨S25x4096x128, .f32⟩ : BufTy).Contents (Elt F) → (⟨S8x4x1, .i32⟩ : BufTy).Contents (Elt F) → (⟨S8x4x4096x128, .f32⟩ : BufTy).Contents (Elt F)) O ((broadcastInDim S8x4x1 ![0, 1] bcast_S8x4_S8x4x1_0_1 : (⟨S8x4, .i32⟩ : BufTy).Contents (Elt F) → (⟨S8x4x1, .i32⟩ : BufTy).Contents (Elt F)) ((select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)) (constantI S8x4 1 0#1) ((addi : (⟨S8x4, .i32⟩ : BufTy).Contents (Elt F) → (⟨S8x4, .i32⟩ : BufTy).Contents (Elt F) → (⟨S8x4, .i32⟩ : BufTy).Contents (Elt F)) (fun i => lit2 (S8x4.rowMajor i)) ((broadcastInDim S8x4 ![] bcast_S_S8x4 : (⟨S_, .i32⟩ : BufTy).Contents (Elt F) → (⟨S8x4, .i32⟩ : BufTy).Contents (Elt F)) (constantI S_ 32 25#32))) (fun i => lit2 (S8x4.rowMajor i))))) (constant S_ .f32 0x00000000#32)) (((extractStridedSlice S8x128x128 ![25, 0, 0] · slices_S65x128x128_S8x128x128_25_0_0) : (⟨S65x128x128, .f32⟩ : BufTy).Contents (Elt F) → (⟨S8x128x128, .f32⟩ : BufTy).Contents (Elt F)) W)) ((broadcastInDim S8x4096x128 ![0, 1, 2] bcast_S8x1x128_S8x4096x128_0_1_2 : (⟨S8x1x128, .f32⟩ : BufTy).Contents (Elt F) → (⟨S8x4096x128, .f32⟩ : BufTy).Contents (Elt F)) ((broadcastInDim S8x1x128 ![0, 2] bcast_S8x128_S8x1x128_0_2 : (⟨S8x128, .f32⟩ : BufTy).Contents (Elt F) → (⟨S8x1x128, .f32⟩ : BufTy).Contents (Elt F)) (((extractStridedSlice S8x128 ![25, 0] · slices_S65x128_S8x128_25_0) : (⟨S65x128, .f32⟩ : BufTy).Contents (Elt F) → (⟨S8x128, .f32⟩ : BufTy).Contents (Elt F)) B)))) ((broadcastInDim S8x4096x128 ![] bcast_S_S8x4096x128) (constant S_ .f32 0x00000000#32))))

/-- Layer 5: the stack O of the first 33 activations extended by nodes 33 … 40: each new node gathers its four
    parents' activations from O, adds them, applies its affine map and max · 0. -/
def layer5 (O : (⟨S33x4096x128, .f32⟩ : BufTy).Contents (Elt F)) (W : (⟨S65x128x128, .f32⟩ : BufTy).Contents (Elt F)) (B : (⟨S65x128, .f32⟩ : BufTy).Contents (Elt F)) : (⟨S41x4096x128, .f32⟩ : BufTy).Contents (Elt F) :=
  (((fun a b => concatenate S41x4096x128 0 [⟨S33x4096x128, a⟩, ⟨S8x4096x128, b⟩] concatenates_S33x4096x128_S8x4096x128_S41x4096x128_d0) : (⟨S33x4096x128, .f32⟩ : BufTy).Contents (Elt F) → (⟨S8x4096x128, .f32⟩ : BufTy).Contents (Elt F) → (⟨S41x4096x128, .f32⟩ : BufTy).Contents (Elt F)) O (maximumf ((addf : (⟨S8x4096x128, .f32⟩ : BufTy).Contents (Elt F) → (⟨S8x4096x128, .f32⟩ : BufTy).Contents (Elt F) → (⟨S8x4096x128, .f32⟩ : BufTy).Contents (Elt F)) (((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)) (((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)) (((fun x i => Host.gather gather_S33x4096x128_S8x4x1_S8x4x4096x128_23_0_n_n_0_2_14096128 x i) : (⟨S33x4096x128, .f32⟩ : BufTy).Contents (Elt F) → (⟨S8x4x1, .i32⟩ : BufTy).Contents (Elt F) → (⟨S8x4x4096x128, .f32⟩ : BufTy).Contents (Elt F)) O ((broadcastInDim S8x4x1 ![0, 1] bcast_S8x4_S8x4x1_0_1 : (⟨S8x4, .i32⟩ : BufTy).Contents (Elt F) → (⟨S8x4x1, .i32⟩ : BufTy).Contents (Elt F)) ((select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)) (constantI S8x4 1 0#1) ((addi : (⟨S8x4, .i32⟩ : BufTy).Contents (Elt F) → (⟨S8x4, .i32⟩ : BufTy).Contents (Elt F) → (⟨S8x4, .i32⟩ : BufTy).Contents (Elt F)) (fun i => lit3 (S8x4.rowMajor i)) ((broadcastInDim S8x4 ![] bcast_S_S8x4 : (⟨S_, .i32⟩ : BufTy).Contents (Elt F) → (⟨S8x4, .i32⟩ : BufTy).Contents (Elt F)) (constantI S_ 32 33#32))) (fun i => lit3 (S8x4.rowMajor i))))) (constant S_ .f32 0x00000000#32)) (((extractStridedSlice S8x128x128 ![33, 0, 0] · slices_S65x128x128_S8x128x128_33_0_0) : (⟨S65x128x128, .f32⟩ : BufTy).Contents (Elt F) → (⟨S8x128x128, .f32⟩ : BufTy).Contents (Elt F)) W)) ((broadcastInDim S8x4096x128 ![0, 1, 2] bcast_S8x1x128_S8x4096x128_0_1_2 : (⟨S8x1x128, .f32⟩ : BufTy).Contents (Elt F) → (⟨S8x4096x128, .f32⟩ : BufTy).Contents (Elt F)) ((broadcastInDim S8x1x128 ![0, 2] bcast_S8x128_S8x1x128_0_2 : (⟨S8x128, .f32⟩ : BufTy).Contents (Elt F) → (⟨S8x1x128, .f32⟩ : BufTy).Contents (Elt F)) (((extractStridedSlice S8x128 ![33, 0] · slices_S65x128_S8x128_33_0) : (⟨S65x128, .f32⟩ : BufTy).Contents (Elt F) → (⟨S8x128, .f32⟩ : BufTy).Contents (Elt F)) B)))) ((broadcastInDim S8x4096x128 ![] bcast_S_S8x4096x128) (constant S_ .f32 0x00000000#32))))

/-- Layer 6: the stack O of the first 41 activations extended by nodes 41 … 48: each new node gathers its four
    parents' activations from O, adds them, applies its affine map and max · 0. -/
def layer6 (O : (⟨S41x4096x128, .f32⟩ : BufTy).Contents (Elt F)) (W : (⟨S65x128x128, .f32⟩ : BufTy).Contents (Elt F)) (B : (⟨S65x128, .f32⟩ : BufTy).Contents (Elt F)) : (⟨S49x4096x128, .f32⟩ : BufTy).Contents (Elt F) :=
  (((fun a b => concatenate S49x4096x128 0 [⟨S41x4096x128, a⟩, ⟨S8x4096x128, b⟩] concatenates_S41x4096x128_S8x4096x128_S49x4096x128_d0) : (⟨S41x4096x128, .f32⟩ : BufTy).Contents (Elt F) → (⟨S8x4096x128, .f32⟩ : BufTy).Contents (Elt F) → (⟨S49x4096x128, .f32⟩ : BufTy).Contents (Elt F)) O (maximumf ((addf : (⟨S8x4096x128, .f32⟩ : BufTy).Contents (Elt F) → (⟨S8x4096x128, .f32⟩ : BufTy).Contents (Elt F) → (⟨S8x4096x128, .f32⟩ : BufTy).Contents (Elt F)) (((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)) (((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)) (((fun x i => Host.gather gather_S41x4096x128_S8x4x1_S8x4x4096x128_23_0_n_n_0_2_14096128 x i) : (⟨S41x4096x128, .f32⟩ : BufTy).Contents (Elt F) → (⟨S8x4x1, .i32⟩ : BufTy).Contents (Elt F) → (⟨S8x4x4096x128, .f32⟩ : BufTy).Contents (Elt F)) O ((broadcastInDim S8x4x1 ![0, 1] bcast_S8x4_S8x4x1_0_1 : (⟨S8x4, .i32⟩ : BufTy).Contents (Elt F) → (⟨S8x4x1, .i32⟩ : BufTy).Contents (Elt F)) ((select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)) (constantI S8x4 1 0#1) ((addi : (⟨S8x4, .i32⟩ : BufTy).Contents (Elt F) → (⟨S8x4, .i32⟩ : BufTy).Contents (Elt F) → (⟨S8x4, .i32⟩ : BufTy).Contents (Elt F)) (fun i => lit4 (S8x4.rowMajor i)) ((broadcastInDim S8x4 ![] bcast_S_S8x4 : (⟨S_, .i32⟩ : BufTy).Contents (Elt F) → (⟨S8x4, .i32⟩ : BufTy).Contents (Elt F)) (constantI S_ 32 41#32))) (fun i => lit4 (S8x4.rowMajor i))))) (constant S_ .f32 0x00000000#32)) (((extractStridedSlice S8x128x128 ![41, 0, 0] · slices_S65x128x128_S8x128x128_41_0_0) : (⟨S65x128x128, .f32⟩ : BufTy).Contents (Elt F) → (⟨S8x128x128, .f32⟩ : BufTy).Contents (Elt F)) W)) ((broadcastInDim S8x4096x128 ![0, 1, 2] bcast_S8x1x128_S8x4096x128_0_1_2 : (⟨S8x1x128, .f32⟩ : BufTy).Contents (Elt F) → (⟨S8x4096x128, .f32⟩ : BufTy).Contents (Elt F)) ((broadcastInDim S8x1x128 ![0, 2] bcast_S8x128_S8x1x128_0_2 : (⟨S8x128, .f32⟩ : BufTy).Contents (Elt F) → (⟨S8x1x128, .f32⟩ : BufTy).Contents (Elt F)) (((extractStridedSlice S8x128 ![41, 0] · slices_S65x128_S8x128_41_0) : (⟨S65x128, .f32⟩ : BufTy).Contents (Elt F) → (⟨S8x128, .f32⟩ : BufTy).Contents (Elt F)) B)))) ((broadcastInDim S8x4096x128 ![] bcast_S_S8x4096x128) (constant S_ .f32 0x00000000#32))))

/-- Layer 7: the stack O of the first 49 activations extended by nodes 49 … 56: each new node gathers its four
    parents' activations from O, adds them, applies its affine map and max · 0. -/
def layer7 (O : (⟨S49x4096x128, .f32⟩ : BufTy).Contents (Elt F)) (W : (⟨S65x128x128, .f32⟩ : BufTy).Contents (Elt F)) (B : (⟨S65x128, .f32⟩ : BufTy).Contents (Elt F)) : (⟨S57x4096x128, .f32⟩ : BufTy).Contents (Elt F) :=
  (((fun a b => concatenate S57x4096x128 0 [⟨S49x4096x128, a⟩, ⟨S8x4096x128, b⟩] concatenates_S49x4096x128_S8x4096x128_S57x4096x128_d0) : (⟨S49x4096x128, .f32⟩ : BufTy).Contents (Elt F) → (⟨S8x4096x128, .f32⟩ : BufTy).Contents (Elt F) → (⟨S57x4096x128, .f32⟩ : BufTy).Contents (Elt F)) O (maximumf ((addf : (⟨S8x4096x128, .f32⟩ : BufTy).Contents (Elt F) → (⟨S8x4096x128, .f32⟩ : BufTy).Contents (Elt F) → (⟨S8x4096x128, .f32⟩ : BufTy).Contents (Elt F)) (((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)) (((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)) (((fun x i => Host.gather gather_S49x4096x128_S8x4x1_S8x4x4096x128_23_0_n_n_0_2_14096128 x i) : (⟨S49x4096x128, .f32⟩ : BufTy).Contents (Elt F) → (⟨S8x4x1, .i32⟩ : BufTy).Contents (Elt F) → (⟨S8x4x4096x128, .f32⟩ : BufTy).Contents (Elt F)) O ((broadcastInDim S8x4x1 ![0, 1] bcast_S8x4_S8x4x1_0_1 : (⟨S8x4, .i32⟩ : BufTy).Contents (Elt F) → (⟨S8x4x1, .i32⟩ : BufTy).Contents (Elt F)) ((select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)) (constantI S8x4 1 0#1) ((addi : (⟨S8x4, .i32⟩ : BufTy).Contents (Elt F) → (⟨S8x4, .i32⟩ : BufTy).Contents (Elt F) → (⟨S8x4, .i32⟩ : BufTy).Contents (Elt F)) (fun i => lit5 (S8x4.rowMajor i)) ((broadcastInDim S8x4 ![] bcast_S_S8x4 : (⟨S_, .i32⟩ : BufTy).Contents (Elt F) → (⟨S8x4, .i32⟩ : BufTy).Contents (Elt F)) (constantI S_ 32 49#32))) (fun i => lit5 (S8x4.rowMajor i))))) (constant S_ .f32 0x00000000#32)) (((extractStridedSlice S8x128x128 ![49, 0, 0] · slices_S65x128x128_S8x128x128_49_0_0) : (⟨S65x128x128, .f32⟩ : BufTy).Contents (Elt F) → (⟨S8x128x128, .f32⟩ : BufTy).Contents (Elt F)) W)) ((broadcastInDim S8x4096x128 ![0, 1, 2] bcast_S8x1x128_S8x4096x128_0_1_2 : (⟨S8x1x128, .f32⟩ : BufTy).Contents (Elt F) → (⟨S8x4096x128, .f32⟩ : BufTy).Contents (Elt F)) ((broadcastInDim S8x1x128 ![0, 2] bcast_S8x128_S8x1x128_0_2 : (⟨S8x128, .f32⟩ : BufTy).Contents (Elt F) → (⟨S8x1x128, .f32⟩ : BufTy).Contents (Elt F)) (((extractStridedSlice S8x128 ![49, 0] · slices_S65x128_S8x128_49_0) : (⟨S65x128, .f32⟩ : BufTy).Contents (Elt F) → (⟨S8x128, .f32⟩ : BufTy).Contents (Elt F)) B)))) ((broadcastInDim S8x4096x128 ![] bcast_S_S8x4096x128) (constant S_ .f32 0x00000000#32))))

/-- Layer 8: the stack O of the first 57 activations extended by nodes 57 … 64: each new node gathers its four
    parents' activations from O, adds them, applies its affine map and max · 0. -/
def layer8 (O : (⟨S57x4096x128, .f32⟩ : BufTy).Contents (Elt F)) (W : (⟨S65x128x128, .f32⟩ : BufTy).Contents (Elt F)) (B : (⟨S65x128, .f32⟩ : BufTy).Contents (Elt F)) : (⟨S65x4096x128, .f32⟩ : BufTy).Contents (Elt F) :=
  (((fun a b => concatenate S65x4096x128 0 [⟨S57x4096x128, a⟩, ⟨S8x4096x128, b⟩] concatenates_S57x4096x128_S8x4096x128_S65x4096x128_d0) : (⟨S57x4096x128, .f32⟩ : BufTy).Contents (Elt F) → (⟨S8x4096x128, .f32⟩ : BufTy).Contents (Elt F) → (⟨S65x4096x128, .f32⟩ : BufTy).Contents (Elt F)) O (maximumf ((addf : (⟨S8x4096x128, .f32⟩ : BufTy).Contents (Elt F) → (⟨S8x4096x128, .f32⟩ : BufTy).Contents (Elt F) → (⟨S8x4096x128, .f32⟩ : BufTy).Contents (Elt F)) (((fun l r => Host.dotGeneral dot_S8x4096x128_S8x128x128_S8x4096x128_2_2_1_1_0_0 none l r) : (⟨S8x4096x128, .f32⟩ : BufTy).Contents (Elt F) → (⟨S8x128x128, .f32⟩ : BufTy).Contents (Elt F) → (⟨S8x4096x128, .f32⟩ : BufTy).Contents (Elt F)) (((fun x v => Host.reduceAdd x v reducesTo_S8x4x4096x128_S8x4096x128_d1 h_S_) : (⟨S8x4x4096x128, .f32⟩ : BufTy).Contents (Elt F) → (⟨S_, .f32⟩ : BufTy).Contents (Elt F) → (⟨S8x4096x128, .f32⟩ : BufTy).Contents (Elt F)) (((fun x i => Host.gather gather_S57x4096x128_S8x4x1_S8x4x4096x128_23_0_n_n_0_2_14096128 x i) : (⟨S57x4096x128, .f32⟩ : BufTy).Contents (Elt F) → (⟨S8x4x1, .i32⟩ : BufTy).Contents (Elt F) → (⟨S8x4x4096x128, .f32⟩ : BufTy).Contents (Elt F)) O ((broadcastInDim S8x4x1 ![0, 1] bcast_S8x4_S8x4x1_0_1 : (⟨S8x4, .i32⟩ : BufTy).Contents (Elt F) → (⟨S8x4x1, .i32⟩ : BufTy).Contents (Elt F)) ((select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)) (constantI S8x4 1 0#1) ((addi : (⟨S8x4, .i32⟩ : BufTy).Contents (Elt F) → (⟨S8x4, .i32⟩ : BufTy).Contents (Elt F) → (⟨S8x4, .i32⟩ : BufTy).Contents (Elt F)) (fun i => lit6 (S8x4.rowMajor i)) ((broadcastInDim S8x4 ![] bcast_S_S8x4 : (⟨S_, .i32⟩ : BufTy).Contents (Elt F) → (⟨S8x4, .i32⟩ : BufTy).Contents (Elt F)) (constantI S_ 32 57#32))) (fun i => lit6 (S8x4.rowMajor i))))) (constant S_ .f32 0x00000000#32)) (((extractStridedSlice S8x128x128 ![57, 0, 0] · slices_S65x128x128_S8x128x128_57_0_0) : (⟨S65x128x128, .f32⟩ : BufTy).Contents (Elt F) → (⟨S8x128x128, .f32⟩ : BufTy).Contents (Elt F)) W)) ((broadcastInDim S8x4096x128 ![0, 1, 2] bcast_S8x1x128_S8x4096x128_0_1_2 : (⟨S8x1x128, .f32⟩ : BufTy).Contents (Elt F) → (⟨S8x4096x128, .f32⟩ : BufTy).Contents (Elt F)) ((broadcastInDim S8x1x128 ![0, 2] bcast_S8x128_S8x1x128_0_2 : (⟨S8x128, .f32⟩ : BufTy).Contents (Elt F) → (⟨S8x1x128, .f32⟩ : BufTy).Contents (Elt F)) (((extractStridedSlice S8x128 ![57, 0] · slices_S65x128_S8x128_57_0) : (⟨S65x128, .f32⟩ : BufTy).Contents (Elt F) → (⟨S8x128, .f32⟩ : BufTy).Contents (Elt F)) B)))) ((broadcastInDim S8x4096x128 ![] bcast_S_S8x4096x128) (constant S_ .f32 0x00000000#32))))

/-- The mean of the last eight activations of the full stack. -/
def mean8 (O : (⟨S65x4096x128, .f32⟩ : BufTy).Contents (Elt F)) : (⟨S4096x128, .f32⟩ : BufTy).Contents (Elt F) :=
  ((Host.divf : (⟨S4096x128, .f32⟩ : BufTy).Contents (Elt F) → (⟨S4096x128, .f32⟩ : BufTy).Contents (Elt F) → (⟨S4096x128, .f32⟩ : BufTy).Contents (Elt F)) (((fun x v => Host.reduceAdd x v reducesTo_S8x4096x128_S4096x128_d0 h_S_) : (⟨S8x4096x128, .f32⟩ : BufTy).Contents (Elt F) → (⟨S_, .f32⟩ : BufTy).Contents (Elt F) → (⟨S4096x128, .f32⟩ : BufTy).Contents (Elt F)) (((extractStridedSlice S8x4096x128 ![57, 0, 0] · slices_S65x4096x128_S8x4096x128_57_0_0) : (⟨S65x4096x128, .f32⟩ : BufTy).Contents (Elt F) → (⟨S8x4096x128, .f32⟩ : BufTy).Contents (Elt F)) O) (constant S_ .f32 0x00000000#32)) ((broadcastInDim S4096x128 ![] bcast_S_S4096x128 : (⟨S_, .f32⟩ : BufTy).Contents (Elt F) → (⟨S4096x128, .f32⟩ : BufTy).Contents (Elt F)) (constant S_ .f32 0x41000000#32)))

/-- The whole reference as one function of its three argument arrays. -/
def refTerm (X : (⟨S4096x128, .f32⟩ : BufTy).Contents (Elt F)) (W : (⟨S65x128x128, .f32⟩ : BufTy).Contents (Elt F)) (B : (⟨S65x128, .f32⟩ : BufTy).Contents (Elt F)) : (⟨S4096x128, .f32⟩ : BufTy).Contents (Elt F) :=
  mean8 (layer8 (layer7 (layer6 (layer5 (layer4 (layer3 (layer2 (layer1 (node0 X W B) W B) W B) W B) W B) W B) W B) W B) W B)

end Cert.RefFns

end
-- ==== Proof.RefRunSegs.lean ====
import proofs.«179685_j33062658245245_2_alg».proof.Proof.RefOps
import proofs.«179685_j33062658245245_2_alg».proof.Proof.RefFns

/-!
# The fold of the reference's operations, read back part by part

The operations are cut after each stack of activations. Over ANY contents of the buffers, each part's fold
gives the next stack as the corresponding function of `Cert.RefFns` applied to the previous stack and the two
weight arguments, provided the buffers of the index-table constants (written once, in part 0) still hold their
constants; and no part writes an argument or, after part 0, a constant. Chaining the ten parts, the fold of all
179 operations at the result buffer is `Cert.RefFns.refTerm` of the arguments' contents. The whole fold is never
normalised as one term: every stack is read twice by the next part.
-/

noncomputable section

namespace Cert.RefSide

open Cert.ReferenceIdeal Cert.RefOps Cert.RefFns Idealize.ShloMosaic Idealize.ShloMosaic.TcCoe Idealize.ShloMosaic.StableHlo

/-- The fold over a concatenation is the fold over the second list from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

variable {F : FTy → Type} [FloatOps F]

/-- What every part after part 0 reads besides the previous stack: the three arguments (at given contents) and the
    sixteen index-table constants. -/
structure Good (V : Valuation τ sig (Elt F)) (X : (⟨S4096x128, .f32⟩ : BufTy).Contents (Elt F))
    (W : (⟨S65x128x128, .f32⟩ : BufTy).Contents (Elt F)) (B : (⟨S65x128, .f32⟩ : BufTy).Contents (Elt F)) : Prop where
  a0 : V (Proc.devRef .tc main_arg0) = X
  a1 : V (Proc.devRef .tc main_arg1) = W
  a2 : V (Proc.devRef .tc main_arg2) = B
  c : V (Proc.devRef .tc main_c) = ((constantI S8x4 32 0#32) : (⟨S8x4, .i32⟩ : BufTy).Contents (Elt F))
  c_0 : V (Proc.devRef .tc main_c_0) = ((constantI S8x4 1 0#1) : (⟨S8x4, .i1⟩ : BufTy).Contents (Elt F))
  c_1 : V (Proc.devRef .tc main_c_1) = ((fun i => lit0 (S8x4.rowMajor i)) : (⟨S8x4, .i32⟩ : BufTy).Contents (Elt F))
  c_2 : V (Proc.devRef .tc main_c_2) = ((constantI S8x4 1 0#1) : (⟨S8x4, .i1⟩ : BufTy).Contents (Elt F))
  c_3 : V (Proc.devRef .tc main_c_3) = ((fun i => lit1 (S8x4.rowMajor i)) : (⟨S8x4, .i32⟩ : BufTy).Contents (Elt F))
  c_4 : V (Proc.devRef .tc main_c_4) = ((constantI S8x4 1 0#1) : (⟨S8x4, .i1⟩ : BufTy).Contents (Elt F))
  c_5 : V (Proc.devRef .tc main_c_5) = ((fun i => lit2 (S8x4.rowMajor i)) : (⟨S8x4, .i32⟩ : BufTy).Contents (Elt F))
  c_6 : V (Proc.devRef .tc main_c_6) = ((constantI S8x4 1 0#1) : (⟨S8x4, .i1⟩ : BufTy).Contents (Elt F))
  c_7 : V (Proc.devRef .tc main_c_7) = ((fun i => lit3 (S8x4.rowMajor i)) : (⟨S8x4, .i32⟩ : BufTy).Contents (Elt F))
  c_8 : V (Proc.devRef .tc main_c_8) = ((constantI S8x4 1 0#1) : (⟨S8x4, .i1⟩ : BufTy).Contents (Elt F))
  c_9 : V (Proc.devRef .tc main_c_9) = ((fun i => lit4 (S8x4.rowMajor i)) : (⟨S8x4, .i32⟩ : BufTy).Contents (Elt F))
  c_10 : V (Proc.devRef .tc main_c_10) = ((constantI S8x4 1 0#1) : (⟨S8x4, .i1⟩ : BufTy).Contents (Elt F))
  c_11 : V (Proc.devRef .tc main_c_11) = ((fun i => lit5 (S8x4.rowMajor i)) : (⟨S8x4, .i32⟩ : BufTy).Contents (Elt F))
  c_12 : V (Proc.devRef .tc main_c_12) = ((constantI S8x4 1 0#1) : (⟨S8x4, .i1⟩ : BufTy).Contents (Elt F))
  c_13 : V (Proc.devRef .tc main_c_13) = ((fun i => lit6 (S8x4.rowMajor i)) : (⟨S8x4, .i32⟩ : BufTy).Contents (Elt F))
  c_14 : V (Proc.devRef .tc main_c_14) = ((constantI S8x4 1 0#1) : (⟨S8x4, .i1⟩ : BufTy).Contents (Elt F))

variable [Facts]
open Facts₀ Facts

/-! ## What each part writes -/

/-- The references part 0's operations write. -/
abbrev seg0_W : List (Ref sig .tc) :=
  [main_c, main_c_0, main_c_1, main_c_2, main_c_3, main_c_4, main_c_5, main_c_6, main_c_7, main_c_8, main_c_9, main_c_10, main_c_11, main_c_12, main_c_13, main_c_14, main_v0, main_v1, main_v2, main_v3, main_v4, main_v5, main_v6, main_v7, main_v8, main_call0_cst, main_call0_v0, main_v9, main_v10]
theorem seg0_writes : (seg0 : List (HloOp τ sig (Elt F))).Forall fun op => op.writes ⊆ (seg0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
/-- A reference part 0 does not write keeps its contents. -/
theorem seg0_keep (V : Valuation τ sig (Elt F)) {r : Ref sig .tc} (h : r ∉ seg0_W) :
    after seg0 V (Proc.devRef .tc r) = V (Proc.devRef .tc r) :=
  after_of_writes_sub seg0 V seg0_writes h

/-- The references part 1's operations write. -/
abbrev seg1_W : List (Ref sig .tc) :=
  [main_c_15, main_v11, main_v12, main_v13, main_v14, main_v15, main_cst, main_v16, main_v17, main_v18, main_v19, main_v20, main_v21, main_v22, main_call1_cst, main_call1_v0, main_v23, main_v24]
theorem seg1_writes : (seg1 : List (HloOp τ sig (Elt F))).Forall fun op => op.writes ⊆ (seg1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_⟩ <;> exact List.mem_map_of_mem (by decide)
/-- A reference part 1 does not write keeps its contents. -/
theorem seg1_keep (V : Valuation τ sig (Elt F)) {r : Ref sig .tc} (h : r ∉ seg1_W) :
    after seg1 V (Proc.devRef .tc r) = V (Proc.devRef .tc r) :=
  after_of_writes_sub seg1 V seg1_writes h

/-- The references part 2's operations write. -/
abbrev seg2_W : List (Ref sig .tc) :=
  [main_c_16, main_v25, main_v26, main_v27, main_v28, main_v29, main_cst_17, main_v30, main_v31, main_v32, main_v33, main_v34, main_v35, main_v36, main_call2_cst, main_call2_v0, main_v37, main_v38]
theorem seg2_writes : (seg2 : List (HloOp τ sig (Elt F))).Forall fun op => op.writes ⊆ (seg2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_⟩ <;> exact List.mem_map_of_mem (by decide)
/-- A reference part 2 does not write keeps its contents. -/
theorem seg2_keep (V : Valuation τ sig (Elt F)) {r : Ref sig .tc} (h : r ∉ seg2_W) :
    after seg2 V (Proc.devRef .tc r) = V (Proc.devRef .tc r) :=
  after_of_writes_sub seg2 V seg2_writes h

/-- The references part 3's operations write. -/
abbrev seg3_W : List (Ref sig .tc) :=
  [main_c_18, main_v39, main_v40, main_v41, main_v42, main_v43, main_cst_19, main_v44, main_v45, main_v46, main_v47, main_v48, main_v49, main_v50, main_call3_cst, main_call3_v0, main_v51, main_v52]
theorem seg3_writes : (seg3 : List (HloOp τ sig (Elt F))).Forall fun op => op.writes ⊆ (seg3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_⟩ <;> exact List.mem_map_of_mem (by decide)
/-- A reference part 3 does not write keeps its contents. -/
theorem seg3_keep (V : Valuation τ sig (Elt F)) {r : Ref sig .tc} (h : r ∉ seg3_W) :
    after seg3 V (Proc.devRef .tc r) = V (Proc.devRef .tc r) :=
  after_of_writes_sub seg3 V seg3_writes h

/-- The references part 4's operations write. -/
abbrev seg4_W : List (Ref sig .tc) :=
  [main_c_20, main_v53, main_v54, main_v55, main_v56, main_v57, main_cst_21, main_v58, main_v59, main_v60, main_v61, main_v62, main_v63, main_v64, main_call4_cst, main_call4_v0, main_v65, main_v66]
theorem seg4_writes : (seg4 : List (HloOp τ sig (Elt F))).Forall fun op => op.writes ⊆ (seg4_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_⟩ <;> exact List.mem_map_of_mem (by decide)
/-- A reference part 4 does not write keeps its contents. -/
theorem seg4_keep (V : Valuation τ sig (Elt F)) {r : Ref sig .tc} (h : r ∉ seg4_W) :
    after seg4 V (Proc.devRef .tc r) = V (Proc.devRef .tc r) :=
  after_of_writes_sub seg4 V seg4_writes h

/-- The references part 5's operations write. -/
abbrev seg5_W : List (Ref sig .tc) :=
  [main_c_22, main_v67, main_v68, main_v69, main_v70, main_v71, main_cst_23, main_v72, main_v73, main_v74, main_v75, main_v76, main_v77, main_v78, main_call5_cst, main_call5_v0, main_v79, main_v80]
theorem seg5_writes : (seg5 : List (HloOp τ sig (Elt F))).Forall fun op => op.writes ⊆ (seg5_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_⟩ <;> exact List.mem_map_of_mem (by decide)
/-- A reference part 5 does not write keeps its contents. -/
theorem seg5_keep (V : Valuation τ sig (Elt F)) {r : Ref sig .tc} (h : r ∉ seg5_W) :
    after seg5 V (Proc.devRef .tc r) = V (Proc.devRef .tc r) :=
  after_of_writes_sub seg5 V seg5_writes h

/-- The references part 6's operations write. -/
abbrev seg6_W : List (Ref sig .tc) :=
  [main_c_24, main_v81, main_v82, main_v83, main_v84, main_v85, main_cst_25, main_v86, main_v87, main_v88, main_v89, main_v90, main_v91, main_v92, main_call6_cst, main_call6_v0, main_v93, main_v94]
theorem seg6_writes : (seg6 : List (HloOp τ sig (Elt F))).Forall fun op => op.writes ⊆ (seg6_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_⟩ <;> exact List.mem_map_of_mem (by decide)
/-- A reference part 6 does not write keeps its contents. -/
theorem seg6_keep (V : Valuation τ sig (Elt F)) {r : Ref sig .tc} (h : r ∉ seg6_W) :
    after seg6 V (Proc.devRef .tc r) = V (Proc.devRef .tc r) :=
  after_of_writes_sub seg6 V seg6_writes h

/-- The references part 7's operations write. -/
abbrev seg7_W : List (Ref sig .tc) :=
  [main_c_26, main_v95, main_v96, main_v97, main_v98, main_v99, main_cst_27, main_v100, main_v101, main_v102, main_v103, main_v104, main_v105, main_v106, main_call7_cst, main_call7_v0, main_v107, main_v108]
theorem seg7_writes : (seg7 : List (HloOp τ sig (Elt F))).Forall fun op => op.writes ⊆ (seg7_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_⟩ <;> exact List.mem_map_of_mem (by decide)
/-- A reference part 7 does not write keeps its contents. -/
theorem seg7_keep (V : Valuation τ sig (Elt F)) {r : Ref sig .tc} (h : r ∉ seg7_W) :
    after seg7 V (Proc.devRef .tc r) = V (Proc.devRef .tc r) :=
  after_of_writes_sub seg7 V seg7_writes h

/-- The references part 8's operations write. -/
abbrev seg8_W : List (Ref sig .tc) :=
  [main_c_28, main_v109, main_v110, main_v111, main_v112, main_v113, main_cst_29, main_v114, main_v115, main_v116, main_v117, main_v118, main_v119, main_v120, main_call8_cst, main_call8_v0, main_v121, main_v122]
theorem seg8_writes : (seg8 : List (HloOp τ sig (Elt F))).Forall fun op => op.writes ⊆ (seg8_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_⟩ <;> exact List.mem_map_of_mem (by decide)
/-- A reference part 8 does not write keeps its contents. -/
theorem seg8_keep (V : Valuation τ sig (Elt F)) {r : Ref sig .tc} (h : r ∉ seg8_W) :
    after seg8 V (Proc.devRef .tc r) = V (Proc.devRef .tc r) :=
  after_of_writes_sub seg8 V seg8_writes h

/-- The references part 9's operations write. -/
abbrev seg9_W : List (Ref sig .tc) :=
  [main_v123, main_cst_30, main_v124, main_cst_31, main_v125, main_v126]
theorem seg9_writes : (seg9 : List (HloOp τ sig (Elt F))).Forall fun op => op.writes ⊆ (seg9_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)
/-- A reference part 9 does not write keeps its contents. -/
theorem seg9_keep (V : Valuation τ sig (Elt F)) {r : Ref sig .tc} (h : r ∉ seg9_W) :
    after seg9 V (Proc.devRef .tc r) = V (Proc.devRef .tc r) :=
  after_of_writes_sub seg9 V seg9_writes h

/-! ## The arguments and the constants through the parts -/

set_option maxRecDepth 16384 in
set_option maxHeartbeats 1000000 in
/-- After part 0 the constants' buffers hold their constants (each written once there, by unfolding the fold), and the
    arguments are untouched. -/
theorem seg0_good (V : Valuation τ sig (Elt F)) :
    Good (after seg0 V) (V (Proc.devRef .tc main_arg0)) (V (Proc.devRef .tc main_arg1)) (V (Proc.devRef .tc main_arg2)) where
  a0 := seg0_keep V (by decide)
  a1 := seg0_keep V (by decide)
  a2 := seg0_keep V (by decide)
  c := by simp only [after_cons, after_nil]; rfl
  c_0 := by simp only [after_cons, after_nil]; rfl
  c_1 := by simp only [after_cons, after_nil]; rfl
  c_2 := by simp only [after_cons, after_nil]; rfl
  c_3 := by simp only [after_cons, after_nil]; rfl
  c_4 := by simp only [after_cons, after_nil]; rfl
  c_5 := by simp only [after_cons, after_nil]; rfl
  c_6 := by simp only [after_cons, after_nil]; rfl
  c_7 := by simp only [after_cons, after_nil]; rfl
  c_8 := by simp only [after_cons, after_nil]; rfl
  c_9 := by simp only [after_cons, after_nil]; rfl
  c_10 := by simp only [after_cons, after_nil]; rfl
  c_11 := by simp only [after_cons, after_nil]; rfl
  c_12 := by simp only [after_cons, after_nil]; rfl
  c_13 := by simp only [after_cons, after_nil]; rfl
  c_14 := by simp only [after_cons, after_nil]; rfl

/-- Part 1 writes none of the arguments and none of the index-table constants. -/
theorem seg1_good {V : Valuation τ sig (Elt F)} {X : (⟨S4096x128, .f32⟩ : BufTy).Contents (Elt F)} {W : (⟨S65x128x128, .f32⟩ : BufTy).Contents (Elt F)}
    {B : (⟨S65x128, .f32⟩ : BufTy).Contents (Elt F)} (h : Good V X W B) : Good (after seg1 V) X W B where
  a0 := (seg1_keep V (by decide)).trans h.a0
  a1 := (seg1_keep V (by decide)).trans h.a1
  a2 := (seg1_keep V (by decide)).trans h.a2
  c := (seg1_keep V (by decide)).trans h.c
  c_0 := (seg1_keep V (by decide)).trans h.c_0
  c_1 := (seg1_keep V (by decide)).trans h.c_1
  c_2 := (seg1_keep V (by decide)).trans h.c_2
  c_3 := (seg1_keep V (by decide)).trans h.c_3
  c_4 := (seg1_keep V (by decide)).trans h.c_4
  c_5 := (seg1_keep V (by decide)).trans h.c_5
  c_6 := (seg1_keep V (by decide)).trans h.c_6
  c_7 := (seg1_keep V (by decide)).trans h.c_7
  c_8 := (seg1_keep V (by decide)).trans h.c_8
  c_9 := (seg1_keep V (by decide)).trans h.c_9
  c_10 := (seg1_keep V (by decide)).trans h.c_10
  c_11 := (seg1_keep V (by decide)).trans h.c_11
  c_12 := (seg1_keep V (by decide)).trans h.c_12
  c_13 := (seg1_keep V (by decide)).trans h.c_13
  c_14 := (seg1_keep V (by decide)).trans h.c_14

/-- Part 2 writes none of the arguments and none of the index-table constants. -/
theorem seg2_good {V : Valuation τ sig (Elt F)} {X : (⟨S4096x128, .f32⟩ : BufTy).Contents (Elt F)} {W : (⟨S65x128x128, .f32⟩ : BufTy).Contents (Elt F)}
    {B : (⟨S65x128, .f32⟩ : BufTy).Contents (Elt F)} (h : Good V X W B) : Good (after seg2 V) X W B where
  a0 := (seg2_keep V (by decide)).trans h.a0
  a1 := (seg2_keep V (by decide)).trans h.a1
  a2 := (seg2_keep V (by decide)).trans h.a2
  c := (seg2_keep V (by decide)).trans h.c
  c_0 := (seg2_keep V (by decide)).trans h.c_0
  c_1 := (seg2_keep V (by decide)).trans h.c_1
  c_2 := (seg2_keep V (by decide)).trans h.c_2
  c_3 := (seg2_keep V (by decide)).trans h.c_3
  c_4 := (seg2_keep V (by decide)).trans h.c_4
  c_5 := (seg2_keep V (by decide)).trans h.c_5
  c_6 := (seg2_keep V (by decide)).trans h.c_6
  c_7 := (seg2_keep V (by decide)).trans h.c_7
  c_8 := (seg2_keep V (by decide)).trans h.c_8
  c_9 := (seg2_keep V (by decide)).trans h.c_9
  c_10 := (seg2_keep V (by decide)).trans h.c_10
  c_11 := (seg2_keep V (by decide)).trans h.c_11
  c_12 := (seg2_keep V (by decide)).trans h.c_12
  c_13 := (seg2_keep V (by decide)).trans h.c_13
  c_14 := (seg2_keep V (by decide)).trans h.c_14

/-- Part 3 writes none of the arguments and none of the index-table constants. -/
theorem seg3_good {V : Valuation τ sig (Elt F)} {X : (⟨S4096x128, .f32⟩ : BufTy).Contents (Elt F)} {W : (⟨S65x128x128, .f32⟩ : BufTy).Contents (Elt F)}
    {B : (⟨S65x128, .f32⟩ : BufTy).Contents (Elt F)} (h : Good V X W B) : Good (after seg3 V) X W B where
  a0 := (seg3_keep V (by decide)).trans h.a0
  a1 := (seg3_keep V (by decide)).trans h.a1
  a2 := (seg3_keep V (by decide)).trans h.a2
  c := (seg3_keep V (by decide)).trans h.c
  c_0 := (seg3_keep V (by decide)).trans h.c_0
  c_1 := (seg3_keep V (by decide)).trans h.c_1
  c_2 := (seg3_keep V (by decide)).trans h.c_2
  c_3 := (seg3_keep V (by decide)).trans h.c_3
  c_4 := (seg3_keep V (by decide)).trans h.c_4
  c_5 := (seg3_keep V (by decide)).trans h.c_5
  c_6 := (seg3_keep V (by decide)).trans h.c_6
  c_7 := (seg3_keep V (by decide)).trans h.c_7
  c_8 := (seg3_keep V (by decide)).trans h.c_8
  c_9 := (seg3_keep V (by decide)).trans h.c_9
  c_10 := (seg3_keep V (by decide)).trans h.c_10
  c_11 := (seg3_keep V (by decide)).trans h.c_11
  c_12 := (seg3_keep V (by decide)).trans h.c_12
  c_13 := (seg3_keep V (by decide)).trans h.c_13
  c_14 := (seg3_keep V (by decide)).trans h.c_14

/-- Part 4 writes none of the arguments and none of the index-table constants. -/
theorem seg4_good {V : Valuation τ sig (Elt F)} {X : (⟨S4096x128, .f32⟩ : BufTy).Contents (Elt F)} {W : (⟨S65x128x128, .f32⟩ : BufTy).Contents (Elt F)}
    {B : (⟨S65x128, .f32⟩ : BufTy).Contents (Elt F)} (h : Good V X W B) : Good (after seg4 V) X W B where
  a0 := (seg4_keep V (by decide)).trans h.a0
  a1 := (seg4_keep V (by decide)).trans h.a1
  a2 := (seg4_keep V (by decide)).trans h.a2
  c := (seg4_keep V (by decide)).trans h.c
  c_0 := (seg4_keep V (by decide)).trans h.c_0
  c_1 := (seg4_keep V (by decide)).trans h.c_1
  c_2 := (seg4_keep V (by decide)).trans h.c_2
  c_3 := (seg4_keep V (by decide)).trans h.c_3
  c_4 := (seg4_keep V (by decide)).trans h.c_4
  c_5 := (seg4_keep V (by decide)).trans h.c_5
  c_6 := (seg4_keep V (by decide)).trans h.c_6
  c_7 := (seg4_keep V (by decide)).trans h.c_7
  c_8 := (seg4_keep V (by decide)).trans h.c_8
  c_9 := (seg4_keep V (by decide)).trans h.c_9
  c_10 := (seg4_keep V (by decide)).trans h.c_10
  c_11 := (seg4_keep V (by decide)).trans h.c_11
  c_12 := (seg4_keep V (by decide)).trans h.c_12
  c_13 := (seg4_keep V (by decide)).trans h.c_13
  c_14 := (seg4_keep V (by decide)).trans h.c_14

/-- Part 5 writes none of the arguments and none of the index-table constants. -/
theorem seg5_good {V : Valuation τ sig (Elt F)} {X : (⟨S4096x128, .f32⟩ : BufTy).Contents (Elt F)} {W : (⟨S65x128x128, .f32⟩ : BufTy).Contents (Elt F)}
    {B : (⟨S65x128, .f32⟩ : BufTy).Contents (Elt F)} (h : Good V X W B) : Good (after seg5 V) X W B where
  a0 := (seg5_keep V (by decide)).trans h.a0
  a1 := (seg5_keep V (by decide)).trans h.a1
  a2 := (seg5_keep V (by decide)).trans h.a2
  c := (seg5_keep V (by decide)).trans h.c
  c_0 := (seg5_keep V (by decide)).trans h.c_0
  c_1 := (seg5_keep V (by decide)).trans h.c_1
  c_2 := (seg5_keep V (by decide)).trans h.c_2
  c_3 := (seg5_keep V (by decide)).trans h.c_3
  c_4 := (seg5_keep V (by decide)).trans h.c_4
  c_5 := (seg5_keep V (by decide)).trans h.c_5
  c_6 := (seg5_keep V (by decide)).trans h.c_6
  c_7 := (seg5_keep V (by decide)).trans h.c_7
  c_8 := (seg5_keep V (by decide)).trans h.c_8
  c_9 := (seg5_keep V (by decide)).trans h.c_9
  c_10 := (seg5_keep V (by decide)).trans h.c_10
  c_11 := (seg5_keep V (by decide)).trans h.c_11
  c_12 := (seg5_keep V (by decide)).trans h.c_12
  c_13 := (seg5_keep V (by decide)).trans h.c_13
  c_14 := (seg5_keep V (by decide)).trans h.c_14

/-- Part 6 writes none of the arguments and none of the index-table constants. -/
theorem seg6_good {V : Valuation τ sig (Elt F)} {X : (⟨S4096x128, .f32⟩ : BufTy).Contents (Elt F)} {W : (⟨S65x128x128, .f32⟩ : BufTy).Contents (Elt F)}
    {B : (⟨S65x128, .f32⟩ : BufTy).Contents (Elt F)} (h : Good V X W B) : Good (after seg6 V) X W B where
  a0 := (seg6_keep V (by decide)).trans h.a0
  a1 := (seg6_keep V (by decide)).trans h.a1
  a2 := (seg6_keep V (by decide)).trans h.a2
  c := (seg6_keep V (by decide)).trans h.c
  c_0 := (seg6_keep V (by decide)).trans h.c_0
  c_1 := (seg6_keep V (by decide)).trans h.c_1
  c_2 := (seg6_keep V (by decide)).trans h.c_2
  c_3 := (seg6_keep V (by decide)).trans h.c_3
  c_4 := (seg6_keep V (by decide)).trans h.c_4
  c_5 := (seg6_keep V (by decide)).trans h.c_5
  c_6 := (seg6_keep V (by decide)).trans h.c_6
  c_7 := (seg6_keep V (by decide)).trans h.c_7
  c_8 := (seg6_keep V (by decide)).trans h.c_8
  c_9 := (seg6_keep V (by decide)).trans h.c_9
  c_10 := (seg6_keep V (by decide)).trans h.c_10
  c_11 := (seg6_keep V (by decide)).trans h.c_11
  c_12 := (seg6_keep V (by decide)).trans h.c_12
  c_13 := (seg6_keep V (by decide)).trans h.c_13
  c_14 := (seg6_keep V (by decide)).trans h.c_14

/-- Part 7 writes none of the arguments and none of the index-table constants. -/
theorem seg7_good {V : Valuation τ sig (Elt F)} {X : (⟨S4096x128, .f32⟩ : BufTy).Contents (Elt F)} {W : (⟨S65x128x128, .f32⟩ : BufTy).Contents (Elt F)}
    {B : (⟨S65x128, .f32⟩ : BufTy).Contents (Elt F)} (h : Good V X W B) : Good (after seg7 V) X W B where
  a0 := (seg7_keep V (by decide)).trans h.a0
  a1 := (seg7_keep V (by decide)).trans h.a1
  a2 := (seg7_keep V (by decide)).trans h.a2
  c := (seg7_keep V (by decide)).trans h.c
  c_0 := (seg7_keep V (by decide)).trans h.c_0
  c_1 := (seg7_keep V (by decide)).trans h.c_1
  c_2 := (seg7_keep V (by decide)).trans h.c_2
  c_3 := (seg7_keep V (by decide)).trans h.c_3
  c_4 := (seg7_keep V (by decide)).trans h.c_4
  c_5 := (seg7_keep V (by decide)).trans h.c_5
  c_6 := (seg7_keep V (by decide)).trans h.c_6
  c_7 := (seg7_keep V (by decide)).trans h.c_7
  c_8 := (seg7_keep V (by decide)).trans h.c_8
  c_9 := (seg7_keep V (by decide)).trans h.c_9
  c_10 := (seg7_keep V (by decide)).trans h.c_10
  c_11 := (seg7_keep V (by decide)).trans h.c_11
  c_12 := (seg7_keep V (by decide)).trans h.c_12
  c_13 := (seg7_keep V (by decide)).trans h.c_13
  c_14 := (seg7_keep V (by decide)).trans h.c_14

/-- Part 8 writes none of the arguments and none of the index-table constants. -/
theorem seg8_good {V : Valuation τ sig (Elt F)} {X : (⟨S4096x128, .f32⟩ : BufTy).Contents (Elt F)} {W : (⟨S65x128x128, .f32⟩ : BufTy).Contents (Elt F)}
    {B : (⟨S65x128, .f32⟩ : BufTy).Contents (Elt F)} (h : Good V X W B) : Good (after seg8 V) X W B where
  a0 := (seg8_keep V (by decide)).trans h.a0
  a1 := (seg8_keep V (by decide)).trans h.a1
  a2 := (seg8_keep V (by decide)).trans h.a2
  c := (seg8_keep V (by decide)).trans h.c
  c_0 := (seg8_keep V (by decide)).trans h.c_0
  c_1 := (seg8_keep V (by decide)).trans h.c_1
  c_2 := (seg8_keep V (by decide)).trans h.c_2
  c_3 := (seg8_keep V (by decide)).trans h.c_3
  c_4 := (seg8_keep V (by decide)).trans h.c_4
  c_5 := (seg8_keep V (by decide)).trans h.c_5
  c_6 := (seg8_keep V (by decide)).trans h.c_6
  c_7 := (seg8_keep V (by decide)).trans h.c_7
  c_8 := (seg8_keep V (by decide)).trans h.c_8
  c_9 := (seg8_keep V (by decide)).trans h.c_9
  c_10 := (seg8_keep V (by decide)).trans h.c_10
  c_11 := (seg8_keep V (by decide)).trans h.c_11
  c_12 := (seg8_keep V (by decide)).trans h.c_12
  c_13 := (seg8_keep V (by decide)).trans h.c_13
  c_14 := (seg8_keep V (by decide)).trans h.c_14

/-- Part 9 writes none of the arguments and none of the index-table constants. -/
theorem seg9_good {V : Valuation τ sig (Elt F)} {X : (⟨S4096x128, .f32⟩ : BufTy).Contents (Elt F)} {W : (⟨S65x128x128, .f32⟩ : BufTy).Contents (Elt F)}
    {B : (⟨S65x128, .f32⟩ : BufTy).Contents (Elt F)} (h : Good V X W B) : Good (after seg9 V) X W B where
  a0 := (seg9_keep V (by decide)).trans h.a0
  a1 := (seg9_keep V (by decide)).trans h.a1
  a2 := (seg9_keep V (by decide)).trans h.a2
  c := (seg9_keep V (by decide)).trans h.c
  c_0 := (seg9_keep V (by decide)).trans h.c_0
  c_1 := (seg9_keep V (by decide)).trans h.c_1
  c_2 := (seg9_keep V (by decide)).trans h.c_2
  c_3 := (seg9_keep V (by decide)).trans h.c_3
  c_4 := (seg9_keep V (by decide)).trans h.c_4
  c_5 := (seg9_keep V (by decide)).trans h.c_5
  c_6 := (seg9_keep V (by decide)).trans h.c_6
  c_7 := (seg9_keep V (by decide)).trans h.c_7
  c_8 := (seg9_keep V (by decide)).trans h.c_8
  c_9 := (seg9_keep V (by decide)).trans h.c_9
  c_10 := (seg9_keep V (by decide)).trans h.c_10
  c_11 := (seg9_keep V (by decide)).trans h.c_11
  c_12 := (seg9_keep V (by decide)).trans h.c_12
  c_13 := (seg9_keep V (by decide)).trans h.c_13
  c_14 := (seg9_keep V (by decide)).trans h.c_14

/-! ## The stacks -/

set_option maxRecDepth 16384 in
set_option maxHeartbeats 1000000 in
/-- Part 0 over any contents: the first stack is the input node of the three arguments. -/
theorem seg0_stack (V : Valuation τ sig (Elt F)) :
    after seg0 V (Proc.devRef .tc main_v10)
      = node0 (V (Proc.devRef .tc main_arg0)) (V (Proc.devRef .tc main_arg1)) (V (Proc.devRef .tc main_arg2)) := by
  unfold node0
  simp only [after_cons, after_nil]
  rfl

attribute [local irreducible] Host.reduceAdd Host.gather in
set_option maxRecDepth 16384 in
set_option maxHeartbeats 1000000 in
/-- Part 1 over any contents holding its index table and mask: the next stack is layer 1 of the previous one. The
    two constants of the layer are read back as the buffers' contents; then both sides are the same composition of the
    part's operations, by unfolding the fold. -/
theorem seg1_stack (V : Valuation τ sig (Elt F))
    (h0 : V (Proc.devRef .tc main_c) = ((constantI S8x4 32 0#32) : (⟨S8x4, .i32⟩ : BufTy).Contents (Elt F)))
    (h1 : V (Proc.devRef .tc main_c_0) = ((constantI S8x4 1 0#1) : (⟨S8x4, .i1⟩ : BufTy).Contents (Elt F))) :
    after seg1 V (Proc.devRef .tc main_v24)
      = layer1 (V (Proc.devRef .tc main_v10)) (V (Proc.devRef .tc main_arg1)) (V (Proc.devRef .tc main_arg2)) := by
  unfold layer1
  rw [← h0, ← h1]
  simp only [after_cons, after_nil]
  rfl

attribute [local irreducible] Host.reduceAdd Host.gather in
set_option maxRecDepth 16384 in
set_option maxHeartbeats 1000000 in
/-- Part 2 over any contents holding its index table and mask: the next stack is layer 2 of the previous one. The
    two constants of the layer are read back as the buffers' contents; then both sides are the same composition of the
    part's operations, by unfolding the fold. -/
theorem seg2_stack (V : Valuation τ sig (Elt F))
    (h0 : V (Proc.devRef .tc main_c_1) = ((fun i => lit0 (S8x4.rowMajor i)) : (⟨S8x4, .i32⟩ : BufTy).Contents (Elt F)))
    (h1 : V (Proc.devRef .tc main_c_2) = ((constantI S8x4 1 0#1) : (⟨S8x4, .i1⟩ : BufTy).Contents (Elt F))) :
    after seg2 V (Proc.devRef .tc main_v38)
      = layer2 (V (Proc.devRef .tc main_v24)) (V (Proc.devRef .tc main_arg1)) (V (Proc.devRef .tc main_arg2)) := by
  unfold layer2
  rw [← h0, ← h1]
  simp only [after_cons, after_nil]
  rfl

attribute [local irreducible] Host.reduceAdd Host.gather in
set_option maxRecDepth 16384 in
set_option maxHeartbeats 1000000 in
/-- Part 3 over any contents holding its index table and mask: the next stack is layer 3 of the previous one. The
    two constants of the layer are read back as the buffers' contents; then both sides are the same composition of the
    part's operations, by unfolding the fold. -/
theorem seg3_stack (V : Valuation τ sig (Elt F))
    (h0 : V (Proc.devRef .tc main_c_3) = ((fun i => lit1 (S8x4.rowMajor i)) : (⟨S8x4, .i32⟩ : BufTy).Contents (Elt F)))
    (h1 : V (Proc.devRef .tc main_c_4) = ((constantI S8x4 1 0#1) : (⟨S8x4, .i1⟩ : BufTy).Contents (Elt F))) :
    after seg3 V (Proc.devRef .tc main_v52)
      = layer3 (V (Proc.devRef .tc main_v38)) (V (Proc.devRef .tc main_arg1)) (V (Proc.devRef .tc main_arg2)) := by
  unfold layer3
  rw [← h0, ← h1]
  simp only [after_cons, after_nil]
  rfl

attribute [local irreducible] Host.reduceAdd Host.gather in
set_option maxRecDepth 16384 in
set_option maxHeartbeats 1000000 in
/-- Part 4 over any contents holding its index table and mask: the next stack is layer 4 of the previous one. The
    two constants of the layer are read back as the buffers' contents; then both sides are the same composition of the
    part's operations, by unfolding the fold. -/
theorem seg4_stack (V : Valuation τ sig (Elt F))
    (h0 : V (Proc.devRef .tc main_c_5) = ((fun i => lit2 (S8x4.rowMajor i)) : (⟨S8x4, .i32⟩ : BufTy).Contents (Elt F)))
    (h1 : V (Proc.devRef .tc main_c_6) = ((constantI S8x4 1 0#1) : (⟨S8x4, .i1⟩ : BufTy).Contents (Elt F))) :
    after seg4 V (Proc.devRef .tc main_v66)
      = layer4 (V (Proc.devRef .tc main_v52)) (V (Proc.devRef .tc main_arg1)) (V (Proc.devRef .tc main_arg2)) := by
  unfold layer4
  rw [← h0, ← h1]
  simp only [after_cons, after_nil]
  rfl

attribute [local irreducible] Host.reduceAdd Host.gather in
set_option maxRecDepth 16384 in
set_option maxHeartbeats 1000000 in
/-- Part 5 over any contents holding its index table and mask: the next stack is layer 5 of the previous one. The
    two constants of the layer are read back as the buffers' contents; then both sides are the same composition of the
    part's operations, by unfolding the fold. -/
theorem seg5_stack (V : Valuation τ sig (Elt F))
    (h0 : V (Proc.devRef .tc main_c_7) = ((fun i => lit3 (S8x4.rowMajor i)) : (⟨S8x4, .i32⟩ : BufTy).Contents (Elt F)))
    (h1 : V (Proc.devRef .tc main_c_8) = ((constantI S8x4 1 0#1) : (⟨S8x4, .i1⟩ : BufTy).Contents (Elt F))) :
    after seg5 V (Proc.devRef .tc main_v80)
      = layer5 (V (Proc.devRef .tc main_v66)) (V (Proc.devRef .tc main_arg1)) (V (Proc.devRef .tc main_arg2)) := by
  unfold layer5
  rw [← h0, ← h1]
  simp only [after_cons, after_nil]
  rfl

attribute [local irreducible] Host.reduceAdd Host.gather in
set_option maxRecDepth 16384 in
set_option maxHeartbeats 1000000 in
/-- Part 6 over any contents holding its index table and mask: the next stack is layer 6 of the previous one. The
    two constants of the layer are read back as the buffers' contents; then both sides are the same composition of the
    part's operations, by unfolding the fold. -/
theorem seg6_stack (V : Valuation τ sig (Elt F))
    (h0 : V (Proc.devRef .tc main_c_9) = ((fun i => lit4 (S8x4.rowMajor i)) : (⟨S8x4, .i32⟩ : BufTy).Contents (Elt F)))
    (h1 : V (Proc.devRef .tc main_c_10) = ((constantI S8x4 1 0#1) : (⟨S8x4, .i1⟩ : BufTy).Contents (Elt F))) :
    after seg6 V (Proc.devRef .tc main_v94)
      = layer6 (V (Proc.devRef .tc main_v80)) (V (Proc.devRef .tc main_arg1)) (V (Proc.devRef .tc main_arg2)) := by
  unfold layer6
  rw [← h0, ← h1]
  simp only [after_cons, after_nil]
  rfl

attribute [local irreducible] Host.reduceAdd Host.gather in
set_option maxRecDepth 16384 in
set_option maxHeartbeats 1000000 in
/-- Part 7 over any contents holding its index table and mask: the next stack is layer 7 of the previous one. The
    two constants of the layer are read back as the buffers' contents; then both sides are the same composition of the
    part's operations, by unfolding the fold. -/
theorem seg7_stack (V : Valuation τ sig (Elt F))
    (h0 : V (Proc.devRef .tc main_c_11) = ((fun i => lit5 (S8x4.rowMajor i)) : (⟨S8x4, .i32⟩ : BufTy).Contents (Elt F)))
    (h1 : V (Proc.devRef .tc main_c_12) = ((constantI S8x4 1 0#1) : (⟨S8x4, .i1⟩ : BufTy).Contents (Elt F))) :
    after seg7 V (Proc.devRef .tc main_v108)
      = layer7 (V (Proc.devRef .tc main_v94)) (V (Proc.devRef .tc main_arg1)) (V (Proc.devRef .tc main_arg2)) := by
  unfold layer7
  rw [← h0, ← h1]
  simp only [after_cons, after_nil]
  rfl

attribute [local irreducible] Host.reduceAdd Host.gather in
set_option maxRecDepth 16384 in
set_option maxHeartbeats 1000000 in
/-- Part 8 over any contents holding its index table and mask: the next stack is layer 8 of the previous one. The
    two constants of the layer are read back as the buffers' contents; then both sides are the same composition of the
    part's operations, by unfolding the fold. -/
theorem seg8_stack (V : Valuation τ sig (Elt F))
    (h0 : V (Proc.devRef .tc main_c_13) = ((fun i => lit6 (S8x4.rowMajor i)) : (⟨S8x4, .i32⟩ : BufTy).Contents (Elt F)))
    (h1 : V (Proc.devRef .tc main_c_14) = ((constantI S8x4 1 0#1) : (⟨S8x4, .i1⟩ : BufTy).Contents (Elt F))) :
    after seg8 V (Proc.devRef .tc main_v122)
      = layer8 (V (Proc.devRef .tc main_v108)) (V (Proc.devRef .tc main_arg1)) (V (Proc.devRef .tc main_arg2)) := by
  unfold layer8
  rw [← h0, ← h1]
  simp only [after_cons, after_nil]
  rfl

attribute [local irreducible] Host.reduceAdd in
set_option maxRecDepth 16384 in
set_option maxHeartbeats 1000000 in
/-- Part 9 over any contents: the result is the mean of the last eight activations of the full stack. -/
theorem seg9_out (V : Valuation τ sig (Elt F)) :
    after seg9 V (Proc.devRef .tc main_v126) = mean8 (V (Proc.devRef .tc main_v122)) := by
  unfold mean8
  simp only [after_cons, after_nil]
  rfl

/-! ## The ten parts chained -/

/-- The operations are the ten parts in order. -/
theorem ops_split : (ops : List (HloOp τ sig (Elt F)))
    = seg0 ++ (seg1 ++ (seg2 ++ (seg3 ++ (seg4 ++ (seg5 ++ (seg6 ++ (seg7 ++ (seg8 ++ seg9)))))))) := rfl

theorem after_ops (V : Valuation τ sig (Elt F)) :
    after ops V = after seg9 (after seg8 (after seg7 (after seg6 (after seg5 (after seg4 (after seg3 (after seg2 (after seg1 (after seg0 V))))))))) := by
  rw [ops_split]; simp only [after_append]

/-- The fold of all the operations over any contents: the arguments and constants as `Good` says, and the result buffer
    at `refTerm` of the arguments' contents. Each part's fold is named before the next part is read, so no term
    ever holds more than one part's operations. -/
theorem ops_term (V : Valuation τ sig (Elt F)) :
    Good (after ops V) (V (Proc.devRef .tc main_arg0)) (V (Proc.devRef .tc main_arg1)) (V (Proc.devRef .tc main_arg2))
      ∧ after ops V (Proc.devRef .tc main_v126)
          = refTerm (V (Proc.devRef .tc main_arg0)) (V (Proc.devRef .tc main_arg1)) (V (Proc.devRef .tc main_arg2)) := by
  rw [after_ops]; unfold refTerm
  have s1 := seg0_stack V
  have g1 := seg0_good V
  generalize after seg0 V = V1 at s1 g1 ⊢
  have s2 := seg1_stack V1 g1.c g1.c_0
  rw [s1, g1.a1, g1.a2] at s2
  have g2 := seg1_good g1
  generalize after seg1 V1 = V2 at s2 g2 ⊢
  have s3 := seg2_stack V2 g2.c_1 g2.c_2
  rw [s2, g2.a1, g2.a2] at s3
  have g3 := seg2_good g2
  generalize after seg2 V2 = V3 at s3 g3 ⊢
  have s4 := seg3_stack V3 g3.c_3 g3.c_4
  rw [s3, g3.a1, g3.a2] at s4
  have g4 := seg3_good g3
  generalize after seg3 V3 = V4 at s4 g4 ⊢
  have s5 := seg4_stack V4 g4.c_5 g4.c_6
  rw [s4, g4.a1, g4.a2] at s5
  have g5 := seg4_good g4
  generalize after seg4 V4 = V5 at s5 g5 ⊢
  have s6 := seg5_stack V5 g5.c_7 g5.c_8
  rw [s5, g5.a1, g5.a2] at s6
  have g6 := seg5_good g5
  generalize after seg5 V5 = V6 at s6 g6 ⊢
  have s7 := seg6_stack V6 g6.c_9 g6.c_10
  rw [s6, g6.a1, g6.a2] at s7
  have g7 := seg6_good g6
  generalize after seg6 V6 = V7 at s7 g7 ⊢
  have s8 := seg7_stack V7 g7.c_11 g7.c_12
  rw [s7, g7.a1, g7.a2] at s8
  have g8 := seg7_good g7
  generalize after seg7 V7 = V8 at s8 g8 ⊢
  have s9 := seg8_stack V8 g8.c_13 g8.c_14
  rw [s8, g8.a1, g8.a2] at s9
  have g9 := seg8_good g8
  generalize after seg8 V8 = V9 at s9 g9 ⊢
  exact ⟨seg9_good g9, (seg9_out V9).trans (by rw [s9])⟩

end Cert.RefSide

end
-- ==== Proof.RefRun.lean ====
import proofs.«179685_j33062658245245_2_alg».proof.Proof.RefRunMain
import proofs.«179685_j33062658245245_2_alg».proof.Proof.RefRunSegs

/-!
# The reference's run

Every weakly fair execution of the reference's @main terminates; in every final state the result buffer holds
`Cert.RefFns.refTerm` of the three arguments' launch contents, and the arguments are unchanged: the run of the
straight line of operations (`run_main`) read back through the fold of the operations (`ops_term`).
-/

noncomputable section

namespace Cert.RefSide

open Cert.ReferenceIdeal Cert.ReferenceIdeal.Gen Cert.RefOps Cert.RefFns Idealize.ShloMosaic Idealize.ShloMosaic.TcCoe Idealize.SL.Sem
  Idealize.ShloMosaic.StableHlo

variable {F : FTy → Type} [FloatOps F]

/-- On every device, for any float values, from any memory with zero counters: every weakly fair execution of
    @main terminates with the result at `refTerm` of the arguments' launch contents and the arguments unchanged. -/
theorem run_term (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v126)
          = refTerm (F := F) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      have t := ops_term (launchContents m c)
      ⟨(h c main_v126).trans t.2, (h c main_arg0).trans t.1.a0, (h c main_arg1).trans t.1.a1,
        (h c main_arg2).trans t.1.a2⟩)
    (run_main m ρ)

end Cert.RefSide

end
-- ==== Proof.RefValueLib.lean ====
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

/-!
# Host operations of a layered gather–sum–affine network, read at one index

Each lemma states what one array operation holds at an index given by coordinates, at the ideal
values: a batched product of a stack of row blocks with a stack of matrices contracted on their last
axes, a gather of whole slabs of a rank-3 array along its first axis, and a sum over the second axis
of a rank-4 array.
-/

noncomputable section

open scoped BigOperators

namespace Cert.RefSide

open Idealize.ShloMosaic Idealize.ShloMosaic.ValueIdx

/-- A stack of `G` products `A g · (B g)ᵀ`: batch axes 0 and 0, contracted axes 2 and 2. -/
theorem dot_batched_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- The sum over the second axis of a rank-4 array, from an initial value. -/
theorem reduce_axis1_apply {n0 n1 n2 n3 : Nat} {u : Shape} {φ : FTy} (x : FVec Ideal ⟨4, ![n0, n1, n2, n3]⟩ φ)
    (init : u.Idx → Ideal φ) (h : (⟨4, ![n0, n1, n2, n3]⟩ : Shape).ReducesTo [1] ⟨3, ![n0, n2, n3]⟩) (hu : 0 < u.numel)
    (a : Fin n0) (c : Fin n2) (e : Fin n3) :
    Host.reduceAdd x init h hu (ix3 a c e) = init (Shape.Idx.first hu) + ∑ j : Fin n1, x (ix4 a j c e) := by
  have h' : (⟨4, ![n0, n1, n2, n3]⟩ : Shape).Reduces [1] ⟨3, ![n0, n2, n3]⟩ := ⟨h.1, Nat.succ_pos 2, h.2⟩
  rw [hostReduceAdd_apply, Ideal.hostReduceAdd_single h h']
  refine congrArg (_ + ·) (Finset.sum_congr rfl fun j _ => ?_)
  refine congrArg x (funext fun ax => Fin.ext ?_)
  match ax with
  | ⟨0, _⟩ => rfl
  | ⟨1, _⟩ => rfl
  | ⟨2, _⟩ => rfl
  | ⟨3, _⟩ => rfl

/-- The sum over the first axis of a rank-3 array, from an initial value. -/
theorem reduce_axis0_apply {n0 n1 n2 : Nat} {u : Shape} {φ : FTy} (x : FVec Ideal ⟨3, ![n0, n1, n2]⟩ φ)
    (init : u.Idx → Ideal φ) (h : (⟨3, ![n0, n1, n2]⟩ : Shape).ReducesTo [0] ⟨2, ![n1, n2]⟩) (hu : 0 < u.numel)
    (c : Fin n1) (e : Fin n2) :
    Host.reduceAdd x init h hu (ix2 c e) = init (Shape.Idx.first hu) + ∑ j : Fin n0, x (ix3 j c e) := by
  have h' : (⟨3, ![n0, n1, n2]⟩ : Shape).Reduces [0] ⟨2, ![n1, n2]⟩ := ⟨h.1, Nat.succ_pos 1, h.2⟩
  rw [hostReduceAdd_apply, Ideal.hostReduceAdd_single h h']
  refine congrArg (_ + ·) (Finset.sum_congr rfl fun j _ => ?_)
  refine congrArg x (funext fun ax => Fin.ext ?_)
  match ax with
  | ⟨0, _⟩ => rfl
  | ⟨1, _⟩ => rfl
  | ⟨2, _⟩ => rfl

/-- Off the start index map a slice starts at zero. -/
theorem start_of_not_mem {s si t : Shape} (d : GatherDims s si t) {w : Nat} (j : t.Idx) (idx : IVec si w) (a : Fin s.rank)
    (h : a ∉ d.startIndexMap) : d.start j idx a = 0 := by
  unfold GatherDims.start; exact dif_neg h

/-- On a kept operand axis the offset coordinate is the result's coordinate on the matching offset axis. -/
theorem offCoord_of_mem {s si t : Shape} (d : GatherDims s si t) (j : t.Idx) (a : Fin s.rank) (h : a ∈ d.sKept) :
    d.offCoord j a
      = (j (d.offsetDims[d.sKept.idxOf a]'(by rw [d.offset_length]; exact List.idxOf_lt_length_iff.2 h))).val := by
  unfold GatherDims.offCoord; exact dif_pos h

/-- A gather of whole `[R, E]` slabs of a rank-3 array along its first axis, one slab per entry of a
    `[K, J, 1]` table of start indices: the slab at the entry, read signed and clamped into `[0, N − 1]`. -/
theorem gather_slab_apply {α : Type} {N R E K J w : Nat} (hN : 0 < N)
    (wf : GatherDims.WF ⟨3, ![N, R, E]⟩ ⟨3, ![K, J, 1]⟩ ⟨4, ![K, J, R, E]⟩ [2, 3] [0] [] [0] [] 2 ![1, R, E])
    (x : (⟨3, ![N, R, E]⟩ : Shape).Idx → α) (idx : IVec ⟨3, ![K, J, 1]⟩ w)
    (k : Fin K) (j : Fin J) (r : Fin R) (e : Fin E) :
    Host.gather (⟨[2, 3], [0], [], [], [0], 2, ![1, R, E], wf⟩ : GatherDims _ _ _) x idx (ix4 k j r e)
      = x (ix3 (⟨min (idx (ix3 k j (0 : Fin 1))).toInt.toNat (N - 1), by omega⟩ : Fin N) r e) := by
  unfold Host.gather
  refine congrArg x (funext fun a => Fin.ext ?_)
  match a with
  | ⟨0, _⟩ =>
    show GatherDims.start _ (ix4 k j r e) idx 0 + GatherDims.batchCoord _ (ix4 k j r e) 0
      + GatherDims.offCoord _ (ix4 k j r e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[2, 3], [0], [], [], [0], 2, ![1, R, E], wf⟩ : GatherDims ⟨3, ![N, R, E]⟩ ⟨3, ![K, J, 1]⟩ ⟨4, ![K, J, R, E]⟩)
        (ix4 k j r e) ⟨List.idxOf (0 : Fin 3) [0], List.idxOf_lt_length_iff.2 (List.mem_singleton.mpr rfl)⟩
        = ix3 k j (0 : Fin 1) := by
      funext b; refine Fin.ext ?_
      match b with
      | ⟨0, _⟩ => rfl
      | ⟨1, _⟩ => rfl
      | ⟨2, _⟩ => rfl
    rw [hsi]
    rfl
  | ⟨1, h1⟩ =>
    show GatherDims.start _ (ix4 k j r e) idx ⟨1, h1⟩ + GatherDims.batchCoord _ (ix4 k j r e) ⟨1, h1⟩
      + GatherDims.offCoord _ (ix4 k j r e) ⟨1, h1⟩ = r.val
    rw [start_of_not_mem _ _ _ _ (by simp), GatherDims.batchCoord_eq_zero _ _ _ List.not_mem_nil,
      offCoord_of_mem _ _ _ ((GatherDims.mem_sKept _ _).2 ⟨by simp, List.not_mem_nil⟩)]
    simp only [Nat.zero_add]
    rfl
  | ⟨2, h2⟩ =>
    show GatherDims.start _ (ix4 k j r e) idx ⟨2, h2⟩ + GatherDims.batchCoord _ (ix4 k j r e) ⟨2, h2⟩
      + GatherDims.offCoord _ (ix4 k j r e) ⟨2, h2⟩ = e.val
    rw [start_of_not_mem _ _ _ _ (by simp), GatherDims.batchCoord_eq_zero _ _ _ List.not_mem_nil,
      offCoord_of_mem _ _ _ ((GatherDims.mem_sKept _ _).2 ⟨by simp, List.not_mem_nil⟩)]
    simp only [Nat.zero_add]
    rfl

end Cert.RefSide

end
-- ==== Proof.RefValueLayer.lean ====
import proofs.«179685_j33062658245245_2_alg».proof.Proof.RefValueLib
import proofs.«179685_j33062658245245_2_alg».proof.Proof.Spec
import proofs.«179685_j33062658245245_2_alg».proof.ReferenceIdeal

/-!
# One layer of eight nodes, for a stack of any height

A stack `O` of `N` activation arrays "is the table" when row `n` holds node `n`'s activation of
the specification. One layer gathers, for each of eight new nodes, four rows of the stack, adds
them, multiplies by the node's weights, adds its bias and takes the maximum with zero; the new rows
are laid behind the stack. If the gathered rows are the new nodes' parents, the longer stack is the
table again.
-/

noncomputable section

open scoped BigOperators

namespace Cert.RefSide

open Cert.ReferenceIdeal Idealize.ShloMosaic Idealize.ShloMosaic.ValueIdx

/-- A stack of `N` activation arrays. -/
abbrev SO (N : Nat) : Shape := ⟨3, ![N, 4096, 128]⟩

/-- The stack holds, in row `n`, node `n`'s activation for every input row. -/
def IsTable (X : S4096x128.Idx → EReal) (W : S65x128x128.Idx → EReal) (B : S65x128.Idx → EReal) {N : Nat}
    (O : (SO N).Idx → EReal) : Prop :=
  ∀ (n : Fin N) (r : Fin 4096) (e : Fin 128),
    O (ix3 n r e) = Cert.Spec.act (Cert.Spec.Wof W) (Cert.Spec.Bof B) (fun d => X (ix2 r d)) n.val e

section Layer

variable {N M : Nat} (hN : 0 < N) (hNM : M = N + 8) (hM : M ≤ 65)
  (gwf : GatherDims.WF (SO N) S8x4x1 S8x4x4096x128 [2, 3] [0] [] [0] [] 2 ![1, 4096, 128])
  (dwf : DotDims.WF S8x4096x128 S8x128x128 S8x4096x128 [2] [2] [1] [1] [0] [0])
  (rwf : S8x4x4096x128.ReducesTo [1] S8x4096x128)
  (hS : 0 < S_.numel)
  (swf : S65x128x128.Slices ![N, 0, 0] S8x128x128)
  (sbwf : S65x128.Slices ![N, 0] S8x128)
  (b2 : S8x128.BroadcastsInDim S8x1x128 (![0, 2] : Fin 2 → Fin S8x1x128.rank))
  (b3 : S8x1x128.BroadcastsInDim S8x4096x128 (![0, 1, 2] : Fin 3 → Fin S8x4096x128.rank))
  (b0 : S_.BroadcastsInDim S8x4096x128 (![] : Fin 0 → Fin S8x4096x128.rank))
  (IDX : IVec S8x4x1 32)
  (W : S65x128x128.Idx → EReal) (B : S65x128.Idx → EReal) (O : (SO N).Idx → EReal)

/-- The eight new rows, as the operations compute them. -/
def block : S8x4096x128.Idx → EReal :=
  maximumf (F := Ideal) (φ := .f32)
    (addf (F := Ideal) (φ := .f32)
      (Host.dotGeneral (F := Ideal) (φ₁ := .f32) (φ₂ := .f32) (⟨[2], [2], [1], [1], [0], [0], dwf⟩ : DotDims S8x4096x128 S8x128x128 S8x4096x128) none
        (Host.reduceAdd (F := Ideal) (φ := .f32)
          (Host.gather (⟨[2, 3], [0], [], [], [0], 2, ![1, 4096, 128], gwf⟩ : GatherDims (SO N) S8x4x1 S8x4x4096x128) O IDX)
          (constant (F := Ideal) S_ .f32 0x00000000#32) rwf hS)
        (extractStridedSlice S8x128x128 ![N, 0, 0] W swf))
      (broadcastInDim S8x4096x128 ![0, 1, 2] b3 (broadcastInDim S8x1x128 ![0, 2] b2 (extractStridedSlice S8x128 ![N, 0] B sbwf))))
    (broadcastInDim S8x4096x128 ![] b0 (constant (F := Ideal) S_ .f32 0x00000000#32))

include hN hNM hM in
/-- One new row at an index: the maximum with zero of the affine map of the sum of the four gathered rows. -/
theorem block_apply (k : Fin 8) (r : Fin 4096) (e : Fin 128) :
    block gwf dwf rwf hS swf sbwf b2 b3 b0 IDX W B O (ix3 k r e)
      = max ((∑ d : Fin 128,
            (∑ j : Fin 4, O (ix3 (⟨min (IDX (ix3 k j (0 : Fin 1))).toInt.toNat (N - 1), by omega⟩ : Fin N) r d))
              * W (ix3 (⟨N + k.val, by omega⟩ : Fin 65) e d))
          + B (ix2 (⟨N + k.val, by omega⟩ : Fin 65) e)) 0 := by
  unfold block
  rw [maximumf_apply, addf_apply, broadcastInDim_scalar_apply, constant_apply, Ideal.ofBits_zero_f32,
    dot_batched_apply]
  congr 1
  congr 1
  · refine Finset.sum_congr rfl fun d _ => ?_
    rw [reduce_axis1_apply, constant_apply, Ideal.ofBits_zero_f32, zero_add]
    congr 1
    · exact Finset.sum_congr rfl fun j _ => gather_slab_apply hN gwf O IDX k j r d
    · exact extractStridedSlice_apply _ W swf (ix3 k e d) (ix3 (⟨N + k.val, by omega⟩ : Fin 65) e d) fun a =>
        match a with
        | ⟨0, _⟩ => rfl
        | ⟨1, _⟩ => (Nat.zero_add _).symm
        | ⟨2, _⟩ => (Nat.zero_add _).symm
  · refine (broadcastInDim_apply _ b3 _ (ix3 k r e) (ix3 k (0 : Fin 1) e) fun a =>
      match a with
      | ⟨0, _⟩ => rfl
      | ⟨1, _⟩ => rfl
      | ⟨2, _⟩ => rfl).trans ?_
    refine (broadcastInDim_apply _ b2 _ (ix3 k (0 : Fin 1) e) (ix2 k e) fun a =>
      match a with
      | ⟨0, _⟩ => rfl
      | ⟨1, _⟩ => rfl).trans ?_
    exact slice2_axis0_apply N B sbwf k e (⟨N + k.val, by omega⟩ : Fin 65) rfl

include hN hNM hM in
/-- If the stack is the table and the gathered rows are the new nodes' parents, a new row is its node's activation. -/
theorem block_eq_act (X : S4096x128.Idx → EReal)
    (hidx : ∀ (k : Fin 8) (j : Fin 4),
      min (IDX (ix3 k j (0 : Fin 1))).toInt.toNat (N - 1) = Cert.Spec.parent (N + k.val) j)
    (hO : IsTable X W B O) (k : Fin 8) (r : Fin 4096) (e : Fin 128) :
    block gwf dwf rwf hS swf sbwf b2 b3 b0 IDX W B O (ix3 k r e)
      = Cert.Spec.act (Cert.Spec.Wof W) (Cert.Spec.Bof B) (fun d => X (ix2 r d)) (N + k.val) e := by
  rw [block_apply hN hNM hM, Cert.Spec.act_node _ _ _ (N + k.val) (by omega) (by omega)]
  unfold Cert.Spec.lin
  congr 1
  congr 1
  · refine Finset.sum_congr rfl fun d _ => ?_
    congr 1
    · refine Finset.sum_congr rfl fun j _ => ?_
      rw [hO]
      exact congrArg (fun n => Cert.Spec.act (Cert.Spec.Wof W) (Cert.Spec.Bof B) (fun d => X (ix2 r d)) n d) (hidx k j)
    · unfold Cert.Spec.Wof
      rw [dif_pos (by omega : N + k.val < 65)]
  · unfold Cert.Spec.Bof
    rw [dif_pos (by omega : N + k.val < 65)]

include hN hNM hM in
/-- The stack with the eight new rows laid behind it is the table again. -/
theorem layer_table (X : S4096x128.Idx → EReal)
    (cwf : Shape.Concatenates [SO N, S8x4096x128] (SO M) 0)
    (hidx : ∀ (k : Fin 8) (j : Fin 4),
      min (IDX (ix3 k j (0 : Fin 1))).toInt.toNat (N - 1) = Cert.Spec.parent (N + k.val) j)
    (hO : IsTable X W B O) :
    IsTable X W B (concatenate (SO M) 0
      [⟨SO N, O⟩, ⟨S8x4096x128, block gwf dwf rwf hS swf sbwf b2 b3 b0 IDX W B O⟩] cwf) := by
  intro n r e
  by_cases hn : n.val < N
  · rw [concatenate_pair_apply_left 0 O _ cwf (ix3 n r e) rfl (ix3 (⟨n.val, hn⟩ : Fin N) r e) fun b =>
      match b with
      | ⟨0, _⟩ => rfl
      | ⟨1, _⟩ => rfl
      | ⟨2, _⟩ => rfl]
    exact hO ⟨n.val, hn⟩ r e
  · have hk : n.val - N < 8 := by have := n.isLt; omega
    rw [concatenate_pair_apply_right 0 O _ cwf (ix3 n r e) rfl rfl (ix3 (⟨n.val - N, hk⟩ : Fin 8) r e)
      (fun b hb =>
        match b, hb with
        | ⟨0, _⟩, hb => absurd rfl hb
        | ⟨1, _⟩, _ => rfl
        | ⟨2, _⟩, _ => rfl)
      (by show n.val - N + N = n.val; omega)]
    rw [block_eq_act hN hNM hM gwf dwf rwf hS swf sbwf b2 b3 b0 IDX W B O X hidx hO]
    exact congrArg (fun m => Cert.Spec.act (Cert.Spec.Wof W) (Cert.Spec.Bof B) (fun d => X (ix2 r d)) m e)
      (by show N + (n.val - N) = n.val; omega)

end Layer

/-- The table of start indices at an entry: the dead choice falls to the literal table. -/
theorem idx_apply (bc : S8x4.BroadcastsInDim S8x4x1 (![0, 1] : Fin 2 → Fin S8x4x1.rank)) (A L : IVec S8x4 32)
    (k : Fin 8) (j : Fin 4) :
    broadcastInDim S8x4x1 ![0, 1] bc (select (constantI S8x4 1 0#1) A L) (ix3 k j (0 : Fin 1)) = L (ix2 k j) := by
  refine (broadcastInDim_apply _ bc _ (ix3 k j (0 : Fin 1)) (ix2 k j) fun a =>
    match a with
    | ⟨0, _⟩ => rfl
    | ⟨1, _⟩ => rfl).trans ?_
  rw [select_apply, constantI_apply, select_zero]

/-- An entry's row-major position in an `8 × 4` table. -/
theorem rowMajor_8x4 (k : Fin 8) (j : Fin 4) :
    S8x4.rowMajor (ix2 k j) = (⟨k.val * 4 + j.val, by omega⟩ : Fin 32) :=
  Fin.ext (by rw [Shape.rowMajor_val_two]; rfl)

end Cert.RefSide

end
-- ==== Proof.RefValueLayers.lean ====
import proofs.«179685_j33062658245245_2_alg».proof.Proof.RefValueLayer
import proofs.«179685_j33062658245245_2_alg».proof.Proof.RefFns

/-!
# The reference's eight layers keep the table

Each layer of the reference is the generic layer at its stack height; its table of start indices,
read at an entry and clamped into the stack, is the specification's parent of the new node.
-/

noncomputable section

namespace Cert.RefSide

open Cert.ReferenceIdeal Idealize.ShloMosaic Idealize.ShloMosaic.ValueIdx
open Cert.ReferenceIdeal.Facts₀ Cert.ReferenceIdeal.Facts

variable [Cert.ReferenceIdeal.Facts]
variable (X : S4096x128.Idx → EReal) (W : S65x128x128.Idx → EReal) (B : S65x128.Idx → EReal)

/-- The all-zero table names node 0, the one parent of nodes 1 … 8. -/
theorem parent_layer1 : ∀ (k : Fin 8) (j : Fin 4),
    min (0#32 : BitVec 32).toInt.toNat (1 - 1) = Cert.Spec.parent (1 + k.val) j := by decide

/-- The literal table of layer 2, clamped into the stack, names the parents of nodes 9 … 16. -/
theorem parent_layer2 : ∀ (k : Fin 8) (j : Fin 4),
    min (lit0 (⟨k.val * 4 + j.val, by omega⟩ : Fin 32)).toInt.toNat (9 - 1) = Cert.Spec.parent (9 + k.val) j := by
  decide

/-- The literal table of layer 3, clamped into the stack, names the parents of nodes 17 … 24. -/
theorem parent_layer3 : ∀ (k : Fin 8) (j : Fin 4),
    min (lit1 (⟨k.val * 4 + j.val, by omega⟩ : Fin 32)).toInt.toNat (17 - 1) = Cert.Spec.parent (17 + k.val) j := by
  decide

/-- The literal table of layer 4, clamped into the stack, names the parents of nodes 25 … 32. -/
theorem parent_layer4 : ∀ (k : Fin 8) (j : Fin 4),
    min (lit2 (⟨k.val * 4 + j.val, by omega⟩ : Fin 32)).toInt.toNat (25 - 1) = Cert.Spec.parent (25 + k.val) j := by
  decide

/-- The literal table of layer 5, clamped into the stack, names the parents of nodes 33 … 40. -/
theorem parent_layer5 : ∀ (k : Fin 8) (j : Fin 4),
    min (lit3 (⟨k.val * 4 + j.val, by omega⟩ : Fin 32)).toInt.toNat (33 - 1) = Cert.Spec.parent (33 + k.val) j := by
  decide

/-- The literal table of layer 6, clamped into the stack, names the parents of nodes 41 … 48. -/
theorem parent_layer6 : ∀ (k : Fin 8) (j : Fin 4),
    min (lit4 (⟨k.val * 4 + j.val, by omega⟩ : Fin 32)).toInt.toNat (41 - 1) = Cert.Spec.parent (41 + k.val) j := by
  decide

/-- The literal table of layer 7, clamped into the stack, names the parents of nodes 49 … 56. -/
theorem parent_layer7 : ∀ (k : Fin 8) (j : Fin 4),
    min (lit5 (⟨k.val * 4 + j.val, by omega⟩ : Fin 32)).toInt.toNat (49 - 1) = Cert.Spec.parent (49 + k.val) j := by
  decide

/-- The literal table of layer 8, clamped into the stack, names the parents of nodes 57 … 64. -/
theorem parent_layer8 : ∀ (k : Fin 8) (j : Fin 4),
    min (lit6 (⟨k.val * 4 + j.val, by omega⟩ : Fin 32)).toInt.toNat (57 - 1) = Cert.Spec.parent (57 + k.val) j := by
  decide

/-- Layer 1: nodes 1 … 8 join the table. -/
theorem layer1_table (O : (SO 1).Idx → EReal) (hO : IsTable X W B O) :
    IsTable X W B (Cert.RefFns.layer1 (F := Ideal) O W B) :=
  layer_table (N := 1) (M := 9) (by decide) rfl (by decide)
    gather_S1x4096x128_S8x4x1_S8x4x4096x128_23_0_n_n_0_2_14096128_wf
    dot_S8x4096x128_S8x128x128_S8x4096x128_2_2_1_1_0_0_wf
    reducesTo_S8x4x4096x128_S8x4096x128_d1 h_S_
    slices_S65x128x128_S8x128x128_1_0_0 slices_S65x128_S8x128_1_0
    bcast_S8x128_S8x1x128_0_2 bcast_S8x1x128_S8x4096x128_0_1_2 bcast_S_S8x4096x128
    _ W B O X concatenates_S1x4096x128_S8x4096x128_S9x4096x128_d0
    (fun k j => by
      rw [idx_apply, constantI_apply]
      exact parent_layer1 k j)
    hO

/-- Layer 2: nodes 9 … 16 join the table. -/
theorem layer2_table (O : (SO 9).Idx → EReal) (hO : IsTable X W B O) :
    IsTable X W B (Cert.RefFns.layer2 (F := Ideal) O W B) :=
  layer_table (N := 9) (M := 17) (by decide) rfl (by decide)
    gather_S9x4096x128_S8x4x1_S8x4x4096x128_23_0_n_n_0_2_14096128_wf
    dot_S8x4096x128_S8x128x128_S8x4096x128_2_2_1_1_0_0_wf
    reducesTo_S8x4x4096x128_S8x4096x128_d1 h_S_
    slices_S65x128x128_S8x128x128_9_0_0 slices_S65x128_S8x128_9_0
    bcast_S8x128_S8x1x128_0_2 bcast_S8x1x128_S8x4096x128_0_1_2 bcast_S_S8x4096x128
    _ W B O X concatenates_S9x4096x128_S8x4096x128_S17x4096x128_d0
    (fun k j => by
      rw [idx_apply]
      show min (lit0 (S8x4.rowMajor (ix2 k j))).toInt.toNat (9 - 1) = _
      rw [rowMajor_8x4]
      exact parent_layer2 k j)
    hO

/-- Layer 3: nodes 17 … 24 join the table. -/
theorem layer3_table (O : (SO 17).Idx → EReal) (hO : IsTable X W B O) :
    IsTable X W B (Cert.RefFns.layer3 (F := Ideal) O W B) :=
  layer_table (N := 17) (M := 25) (by decide) rfl (by decide)
    gather_S17x4096x128_S8x4x1_S8x4x4096x128_23_0_n_n_0_2_14096128_wf
    dot_S8x4096x128_S8x128x128_S8x4096x128_2_2_1_1_0_0_wf
    reducesTo_S8x4x4096x128_S8x4096x128_d1 h_S_
    slices_S65x128x128_S8x128x128_17_0_0 slices_S65x128_S8x128_17_0
    bcast_S8x128_S8x1x128_0_2 bcast_S8x1x128_S8x4096x128_0_1_2 bcast_S_S8x4096x128
    _ W B O X concatenates_S17x4096x128_S8x4096x128_S25x4096x128_d0
    (fun k j => by
      rw [idx_apply]
      show min (lit1 (S8x4.rowMajor (ix2 k j))).toInt.toNat (17 - 1) = _
      rw [rowMajor_8x4]
      exact parent_layer3 k j)
    hO

/-- Layer 4: nodes 25 … 32 join the table. -/
theorem layer4_table (O : (SO 25).Idx → EReal) (hO : IsTable X W B O) :
    IsTable X W B (Cert.RefFns.layer4 (F := Ideal) O W B) :=
  layer_table (N := 25) (M := 33) (by decide) rfl (by decide)
    gather_S25x4096x128_S8x4x1_S8x4x4096x128_23_0_n_n_0_2_14096128_wf
    dot_S8x4096x128_S8x128x128_S8x4096x128_2_2_1_1_0_0_wf
    reducesTo_S8x4x4096x128_S8x4096x128_d1 h_S_
    slices_S65x128x128_S8x128x128_25_0_0 slices_S65x128_S8x128_25_0
    bcast_S8x128_S8x1x128_0_2 bcast_S8x1x128_S8x4096x128_0_1_2 bcast_S_S8x4096x128
    _ W B O X concatenates_S25x4096x128_S8x4096x128_S33x4096x128_d0
    (fun k j => by
      rw [idx_apply]
      show min (lit2 (S8x4.rowMajor (ix2 k j))).toInt.toNat (25 - 1) = _
      rw [rowMajor_8x4]
      exact parent_layer4 k j)
    hO

/-- Layer 5: nodes 33 … 40 join the table. -/
theorem layer5_table (O : (SO 33).Idx → EReal) (hO : IsTable X W B O) :
    IsTable X W B (Cert.RefFns.layer5 (F := Ideal) O W B) :=
  layer_table (N := 33) (M := 41) (by decide) rfl (by decide)
    gather_S33x4096x128_S8x4x1_S8x4x4096x128_23_0_n_n_0_2_14096128_wf
    dot_S8x4096x128_S8x128x128_S8x4096x128_2_2_1_1_0_0_wf
    reducesTo_S8x4x4096x128_S8x4096x128_d1 h_S_
    slices_S65x128x128_S8x128x128_33_0_0 slices_S65x128_S8x128_33_0
    bcast_S8x128_S8x1x128_0_2 bcast_S8x1x128_S8x4096x128_0_1_2 bcast_S_S8x4096x128
    _ W B O X concatenates_S33x4096x128_S8x4096x128_S41x4096x128_d0
    (fun k j => by
      rw [idx_apply]
      show min (lit3 (S8x4.rowMajor (ix2 k j))).toInt.toNat (33 - 1) = _
      rw [rowMajor_8x4]
      exact parent_layer5 k j)
    hO

/-- Layer 6: nodes 41 … 48 join the table. -/
theorem layer6_table (O : (SO 41).Idx → EReal) (hO : IsTable X W B O) :
    IsTable X W B (Cert.RefFns.layer6 (F := Ideal) O W B) :=
  layer_table (N := 41) (M := 49) (by decide) rfl (by decide)
    gather_S41x4096x128_S8x4x1_S8x4x4096x128_23_0_n_n_0_2_14096128_wf
    dot_S8x4096x128_S8x128x128_S8x4096x128_2_2_1_1_0_0_wf
    reducesTo_S8x4x4096x128_S8x4096x128_d1 h_S_
    slices_S65x128x128_S8x128x128_41_0_0 slices_S65x128_S8x128_41_0
    bcast_S8x128_S8x1x128_0_2 bcast_S8x1x128_S8x4096x128_0_1_2 bcast_S_S8x4096x128
    _ W B O X concatenates_S41x4096x128_S8x4096x128_S49x4096x128_d0
    (fun k j => by
      rw [idx_apply]
      show min (lit4 (S8x4.rowMajor (ix2 k j))).toInt.toNat (41 - 1) = _
      rw [rowMajor_8x4]
      exact parent_layer6 k j)
    hO

/-- Layer 7: nodes 49 … 56 join the table. -/
theorem layer7_table (O : (SO 49).Idx → EReal) (hO : IsTable X W B O) :
    IsTable X W B (Cert.RefFns.layer7 (F := Ideal) O W B) :=
  layer_table (N := 49) (M := 57) (by decide) rfl (by decide)
    gather_S49x4096x128_S8x4x1_S8x4x4096x128_23_0_n_n_0_2_14096128_wf
    dot_S8x4096x128_S8x128x128_S8x4096x128_2_2_1_1_0_0_wf
    reducesTo_S8x4x4096x128_S8x4096x128_d1 h_S_
    slices_S65x128x128_S8x128x128_49_0_0 slices_S65x128_S8x128_49_0
    bcast_S8x128_S8x1x128_0_2 bcast_S8x1x128_S8x4096x128_0_1_2 bcast_S_S8x4096x128
    _ W B O X concatenates_S49x4096x128_S8x4096x128_S57x4096x128_d0
    (fun k j => by
      rw [idx_apply]
      show min (lit5 (S8x4.rowMajor (ix2 k j))).toInt.toNat (49 - 1) = _
      rw [rowMajor_8x4]
      exact parent_layer7 k j)
    hO

/-- Layer 8: nodes 57 … 64 join the table. -/
theorem layer8_table (O : (SO 57).Idx → EReal) (hO : IsTable X W B O) :
    IsTable X W B (Cert.RefFns.layer8 (F := Ideal) O W B) :=
  layer_table (N := 57) (M := 65) (by decide) rfl (by decide)
    gather_S57x4096x128_S8x4x1_S8x4x4096x128_23_0_n_n_0_2_14096128_wf
    dot_S8x4096x128_S8x128x128_S8x4096x128_2_2_1_1_0_0_wf
    reducesTo_S8x4x4096x128_S8x4096x128_d1 h_S_
    slices_S65x128x128_S8x128x128_57_0_0 slices_S65x128_S8x128_57_0
    bcast_S8x128_S8x1x128_0_2 bcast_S8x1x128_S8x4096x128_0_1_2 bcast_S_S8x4096x128
    _ W B O X concatenates_S57x4096x128_S8x4096x128_S65x4096x128_d0
    (fun k j => by
      rw [idx_apply]
      show min (lit6 (S8x4.rowMajor (ix2 k j))).toInt.toNat (57 - 1) = _
      rw [rowMajor_8x4]
      exact parent_layer8 k j)
    hO

end Cert.RefSide

end
-- ==== Proof.RefValueNode0.lean ====
import proofs.«179685_j33062658245245_2_alg».proof.Proof.RefValueLayer
import proofs.«179685_j33062658245245_2_alg».proof.Proof.RefFns
import Idealize.ShloMosaic.Lib.StackMember

/-!
# The input node is the table of height one

The reference's first operations compute `max (x · W₀ᵀ + b₀) 0` for every input row `x` and lay it
out as a stack of one activation array: node 0 of the specification.
-/

noncomputable section

open scoped BigOperators

namespace Cert.RefSide

open Cert.ReferenceIdeal Idealize.ShloMosaic Idealize.ShloMosaic.ValueIdx Idealize.ShloMosaic.StackMember
open Cert.ReferenceIdeal.Facts₀ Cert.ReferenceIdeal.Facts

variable [Cert.ReferenceIdeal.Facts]
variable (X : S4096x128.Idx → EReal) (W : S65x128x128.Idx → EReal) (B : S65x128.Idx → EReal)

/-- The weights of node 0 as the product reads them: the first slab of `W`, transposed. -/
theorem w0_apply (c e : Fin 128) :
    transpose S128x128 [1, 0]
        (shapeCast S128x128 (extractStridedSlice S1x128x128 ![0, 0, 0] W slices_S65x128x128_S1x128x128_0_0_0)
          shapeCasts_S1x128x128_S128x128)
        transposes_S128x128_S128x128_1_0 (ix2 c e)
      = W (ix3 (0 : Fin 65) e c) := by
  rw [transpose_ix2_apply, shapeCast_1ab_ab_apply]
  exact extractStridedSlice_apply _ W _ (ix3 (0 : Fin 1) e c) (ix3 (0 : Fin 65) e c) fun a =>
    match a with
    | ⟨0, _⟩ => rfl
    | ⟨1, _⟩ => (Nat.zero_add _).symm
    | ⟨2, _⟩ => (Nat.zero_add _).symm

/-- The bias of node 0 as the sum reads it: the first row of `B`, for every input row. -/
theorem b0_apply (r : Fin 4096) (e : Fin 128) :
    broadcastInDim S4096x128 ![0, 1] bcast_S1x128_S4096x128_0_1
        (broadcastInDim S1x128 ![1] bcast_S128_S1x128_1
          (shapeCast S128 (extractStridedSlice S1x128 ![0, 0] B slices_S65x128_S1x128_0_0) shapeCasts_S1x128_S128))
        (ix2 r e)
      = B (ix2 (0 : Fin 65) e) := by
  refine (broadcastInDim_apply _ bcast_S1x128_S4096x128_0_1 _ (ix2 r e) (ix2 (0 : Fin 1) e) fun a =>
    match a with
    | ⟨0, _⟩ => rfl
    | ⟨1, _⟩ => rfl).trans ?_
  refine (broadcastInDim_apply _ bcast_S128_S1x128_1 _ (ix2 (0 : Fin 1) e) (ix1 e) fun a =>
    match a with
    | ⟨0, _⟩ => rfl).trans ?_
  rw [shapeCast_1a_a_apply]
  exact slice2_axis0_apply 0 B slices_S65x128_S1x128_0_0 (0 : Fin 1) e (0 : Fin 65) rfl

/-- The input node's stack is the table of height one. -/
theorem node0_table : IsTable X W B (Cert.RefFns.node0 (F := Ideal) X W B) := by
  intro n r e
  obtain rfl : n = 0 := Subsingleton.elim _ _
  unfold Cert.RefFns.node0
  refine (broadcastInDim_apply _ bcast_S4096x128_S1x4096x128_1_2 _ (ix3 (0 : Fin 1) r e) (ix2 r e) fun a =>
    match a with
    | ⟨0, _⟩ => rfl
    | ⟨1, _⟩ => rfl).trans ?_
  show _ = Cert.Spec.act (Cert.Spec.Wof W) (Cert.Spec.Bof B) (fun d => X (ix2 r d)) 0 e
  beta_reduce
  rw [maximumf_apply, addf_apply, broadcastInDim_scalar_apply, constant_apply, Ideal.ofBits_zero_f32,
    Cert.Spec.act_zero]
  unfold Cert.Spec.lin
  congr 1
  congr 1
  · refine (dotGeneral_plain_apply (m := 4096) (k := 128) (n := 128) none X _ r e).trans ?_
    refine Finset.sum_congr rfl fun c _ => ?_
    congr 1
    refine (w0_apply W c e).trans ?_
    unfold Cert.Spec.Wof
    rw [dif_pos (by decide : (0 : ℕ) < 65)]
    rfl
  · refine (b0_apply B r e).trans ?_
    unfold Cert.Spec.Bof
    rw [dif_pos (by decide : (0 : ℕ) < 65)]
    rfl

end Cert.RefSide

end
-- ==== Proof.RefValueMean.lean ====
import proofs.«179685_j33062658245245_2_alg».proof.Proof.RefValueLayer
import proofs.«179685_j33062658245245_2_alg».proof.Proof.RefValueConsts
import proofs.«179685_j33062658245245_2_alg».proof.Proof.RefFns

/-!
# The mean of the last eight rows of the full table

The reference's last operations cut rows 57 … 64 out of the full stack, add them and divide by
eight: the specification's result row.
-/

noncomputable section

open scoped BigOperators

namespace Cert.RefSide

open Cert.ReferenceIdeal Idealize.ShloMosaic Idealize.ShloMosaic.ValueIdx
open Cert.ReferenceIdeal.Facts₀ Cert.ReferenceIdeal.Facts

variable [Cert.ReferenceIdeal.Facts]
variable (X : S4096x128.Idx → EReal) (W : S65x128x128.Idx → EReal) (B : S65x128.Idx → EReal)

/-- The mean of the full table's last eight rows is the specification's result. -/
theorem mean8_apply (O : (SO 65).Idx → EReal) (hO : IsTable X W B O) (r : Fin 4096) (e : Fin 128) :
    Cert.RefFns.mean8 (F := Ideal) O (ix2 r e)
      = Cert.Spec.outRow (Cert.Spec.Wof W) (Cert.Spec.Bof B) (fun d => X (ix2 r d)) e := by
  unfold Cert.RefFns.mean8 Cert.Spec.outRow
  beta_reduce
  rw [hostDivf_apply, broadcastInDim_scalar_apply, constant_apply, ofBits_eight,
    Ideal.div_coe (by norm_num : (8 : ℝ) ≠ 0)]
  congr 1
  rw [reduce_axis0_apply, constant_apply, Ideal.ofBits_zero_f32, zero_add]
  refine Finset.sum_congr rfl fun k _ => ?_
  refine (extractStridedSlice_apply _ O slices_S65x4096x128_S8x4096x128_57_0_0 (ix3 k r e)
    (ix3 (⟨57 + k.val, by omega⟩ : Fin 65) r e) fun a =>
      match a with
      | ⟨0, _⟩ => rfl
      | ⟨1, _⟩ => (Nat.zero_add _).symm
      | ⟨2, _⟩ => (Nat.zero_add _).symm).trans ?_
  exact hO _ r e

end Cert.RefSide

end
-- ==== Proof.RefValue.lean ====
import proofs.«179685_j33062658245245_2_alg».proof.Proof.RefValueLayers
import proofs.«179685_j33062658245245_2_alg».proof.Proof.RefValueNode0
import proofs.«179685_j33062658245245_2_alg».proof.Proof.RefValueMean
import proofs.«179685_j33062658245245_2_alg».proof.Proof.Gen.ReferenceIdeal

/-!
# The reference computes the specification

The input node's stack is the table of height one; each of the eight layers keeps the table; the
mean of the full table's last eight rows is the specification's result row.
-/

noncomputable section

namespace Cert.RefSide

open Cert.ReferenceIdeal Idealize.ShloMosaic Idealize.ShloMosaic.ValueIdx

/-- The reference's operations, composed, are the specification as a function of the three argument arrays. -/
theorem refTerm_eq (X : (⟨Cert.ReferenceIdeal.S4096x128, .f32⟩ : BufTy).Contents (Elt Ideal))
    (W : (⟨Cert.ReferenceIdeal.S65x128x128, .f32⟩ : BufTy).Contents (Elt Ideal))
    (B : (⟨Cert.ReferenceIdeal.S65x128, .f32⟩ : BufTy).Contents (Elt Ideal)) :
    Cert.RefFns.refTerm (F := Ideal) X W B = Cert.Spec.out X W B := by
  funext i
  obtain ⟨r, e, rfl⟩ : ∃ (r : Fin 4096) (e : Fin 128), i = ix2 r e := ⟨i 0, i 1, eq_ix2 i⟩
  rw [Cert.Spec.out_apply]
  unfold Cert.RefFns.refTerm
  exact mean8_apply X W B _
    (layer8_table X W B _ (layer7_table X W B _ (layer6_table X W B _ (layer5_table X W B _
      (layer4_table X W B _ (layer3_table X W B _ (layer2_table X W B _ (layer1_table X W B _
        (node0_table X W B))))))))) r e

end Cert.RefSide

end
-- ==== Proof.Assembly.lean ====
import proofs.«179685_j33062658245245_2_alg».proof.Defs
import proofs.«179685_j33062658245245_2_alg».proof.Proof.Gen.Kernel.Frame
import proofs.«179685_j33062658245245_2_alg».proof.Proof.Gen.KernelIdeal.Frame
import proofs.«179685_j33062658245245_2_alg».proof.Proof.Gen.Pre_finite_inputs
import proofs.«179685_j33062658245245_2_alg».proof.Proof.KerArray
import proofs.«179685_j33062658245245_2_alg».proof.Proof.RefRun
import proofs.«179685_j33062658245245_2_alg».proof.Proof.RefValue

/-!
# The claims

Both programs run and leave their arguments as they found them. At the ideal values the kernel's
result array is the specification `Cert.Spec.out` of the three argument arrays, and so is the
reference's: from arguments that agree the two results are equal.
-/

noncomputable section

open Idealize.ShloMosaic Idealize.ShloMosaic.TcCoe Idealize.SL.Sem

namespace Cert.Proof.Claims

/-- The kernel as printed runs and keeps its arguments. -/
theorem frame_k : Cert.frame_Kernel := fun m ρ _ => Cert.Kernel.Gen.frame m ρ

/-- The kernel read at the ideal values runs and keeps its arguments. -/
theorem frame_ki : Cert.frame_KernelIdeal := fun m ρ _ => Cert.KernelIdeal.Gen.frame m ρ

/-- The reference runs and keeps its arguments. -/
theorem frame_ri : Cert.frame_ReferenceIdeal := fun m ρ _ =>
  (θ_run Cert.ReferenceIdeal.defs _ _).mono (fun _ h c => (h c).2) (Cert.RefSide.run_term (F := Ideal) m ρ)

/-- At the ideal values the kernel's result array ends at the specification of its arguments, and the
    reference's at its composed operations of arguments that agree with them, which are the
    specification too. -/
theorem algebraic : Cert.algebraic_KernelIdeal_ReferenceIdeal := by
  intro m ρ m' ρ' _ hagree
  refine ⟨_, Cert.KerSide.run m ρ, ?_⟩
  refine (θ_run Cert.ReferenceIdeal.defs _ _).mono (fun _ h c => ⟨(h c).1.trans ?_, (h c).2⟩)
    (Cert.RefSide.run_term (F := Ideal) m' ρ')
  rw [(hagree c).1, (hagree c).2.1, (hagree c).2.2]
  exact Cert.RefSide.refTerm_eq _ _ _

end Cert.Proof.Claims

end
-- ==== Proof.lean ====
/- A feed-forward graph of 65 nodes over rows of 128 features: every node applies its own affine map and the maximum
   with zero to the input row (node 0) or to the sum of its four parents' activations; the result is the mean of the last eight nodes.
   The kernel's row blocks and the reference's stack of activations are both the specification `Cert.Spec.out` of the three
   argument arrays, so at the ideal values the two programs, run from arguments that agree, end with equal results and unchanged arguments. -/
import proofs.«179685_j33062658245245_2_alg».proof.Defs
import proofs.«179685_j33062658245245_2_alg».proof.Proof.Gen.Kernel
import proofs.«179685_j33062658245245_2_alg».proof.Proof.Gen.Kernel.Skeleton
import proofs.«179685_j33062658245245_2_alg».proof.Proof.Gen.Kernel.Launch
import proofs.«179685_j33062658245245_2_alg».proof.Proof.Gen.Kernel.Points
import proofs.«179685_j33062658245245_2_alg».proof.Proof.Gen.Kernel.Frame
import proofs.«179685_j33062658245245_2_alg».proof.Proof.Gen.KernelIdeal
import proofs.«179685_j33062658245245_2_alg».proof.Proof.Gen.KernelIdeal.Skeleton
import proofs.«179685_j33062658245245_2_alg».proof.Proof.Gen.KernelIdeal.Launch
import proofs.«179685_j33062658245245_2_alg».proof.Proof.Gen.KernelIdeal.Points
import proofs.«179685_j33062658245245_2_alg».proof.Proof.Gen.KernelIdeal.Frame
import proofs.«179685_j33062658245245_2_alg».proof.Proof.Gen.KernelIdeal.Value
import proofs.«179685_j33062658245245_2_alg».proof.Proof.Gen.ReferenceIdeal
import proofs.«179685_j33062658245245_2_alg».proof.Proof.Gen.Pre_finite_inputs
import proofs.«179685_j33062658245245_2_alg».proof.Proof.Assembly
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, trivial, Cert.Proof.Claims.algebraic⟩

end Cert.Proof

end
